-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x128 : Shape := ⟨2, ![8192, 128]⟩
abbrev S4096x4096 : Shape := ⟨2, ![4096, 4096]⟩
abbrev S2048x8192 : Shape := ⟨2, ![2048, 8192]⟩
abbrev S3x128x128 : Shape := ⟨3, ![3, 128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S3x128x128 : S_.BroadcastsInDim S3x128x128 (![] : Fin 0 → Fin S3x128x128.rank)
  reducesTo_S3x128x128_S_d0_1_2 : S3x128x128.ReducesTo [0, 1, 2] S_

variable [Facts]

def fn_part1 {F : FTy → Type} [FloatOps F] (main_arg4 : FVec F S3x128x128 .f32) (main_arg5 : FVec F S3x128x128 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  main_v28

def fn {F : FTy → Type} [FloatOps F] (main_arg0 : FVec F S4096x128 .f32) (main_arg1 : FVec F S8192x128 .f32) (main_arg2 : FVec F S4096x4096 .f32) (main_arg3 : FVec F S2048x8192 .f32) (main_arg4 : FVec F S3x128x128 .f32) (main_arg5 : FVec F S3x128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_v13 main_v16
-- ==== Kernel.lean ====
abbrev S4096x128 : Shape := ⟨2, ![4096, 128]⟩
abbrev S8192x128 : Shape := ⟨2, ![8192, 128]⟩
abbrev S4096x4096 : Shape := ⟨2, ![4096, 4096]⟩
abbrev S2048x8192 : Shape := ⟨2, ![2048, 8192]⟩
abbrev S3x128x128 : Shape := ⟨3, ![3, 128, 128]⟩
abbrev S128x4096 : Shape := ⟨2, ![128, 4096]⟩
abbrev S1x128x128 : Shape := ⟨3, ![1, 128, 128]⟩
abbrev S256x4096 : Shape := ⟨2, ![256, 4096]⟩
abbrev S128x128 : Shape := ⟨2, ![128, 128]⟩
abbrev S4096x256 : Shape := ⟨2, ![4096, 256]⟩
abbrev S128x256 : Shape := ⟨2, ![128, 256]⟩
abbrev S2048x128 : Shape := ⟨2, ![2048, 128]⟩
abbrev S256x8192 : Shape := ⟨2, ![256, 8192]⟩
abbrev S256x128 : Shape := ⟨2, ![256, 128]⟩

abbrev nBuf : Space → Nat
  | .hbm => 11
  | .vmem => 15
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S4096x4096, .f32⟩
  | .hbm, ⟨3, _⟩ => ⟨S2048x8192, .f32⟩
  | .hbm, ⟨4, _⟩ => ⟨S3x128x128, .f32⟩
  | .hbm, ⟨5, _⟩ => ⟨S3x128x128, .f32⟩
  | .hbm, ⟨6, _⟩ => ⟨S128x4096, .f32⟩
  | .hbm, ⟨7, _⟩ => ⟨S4096x128, .f32⟩
  | .hbm, ⟨8, _⟩ => ⟨S1x128x128, .f32⟩
  | .hbm, ⟨9, _⟩ => ⟨S128x128, .f32⟩
  | .hbm, ⟨10, _⟩ => ⟨S2048x128, .f32⟩
  | .local _ .vmem, ⟨0, _⟩ => ⟨S4096x128, .f32⟩
  | .local _ .vmem, ⟨1, _⟩ => ⟨S1x128x128, .f32⟩
  | .local _ .vmem, ⟨2, _⟩ => ⟨S1x128x128, .f32⟩
  | .local _ .vmem, ⟨3, _⟩ => ⟨S256x4096, .f32⟩
  | .local _ .vmem, ⟨4, _⟩ => ⟨S256x4096, .f32⟩
  | .local _ .vmem, ⟨5, _⟩ => ⟨S128x4096, .f32⟩
  | .local _ .vmem, ⟨6, _⟩ => ⟨S4096x4096, .bf16⟩
  | .local _ .vmem, ⟨7, _⟩ => ⟨S128x4096, .bf16⟩
  | .local _ .vmem, ⟨8, _⟩ => ⟨S8192x128, .f32⟩
  | .local _ .vmem, ⟨9, _⟩ => ⟨S128x128, .f32⟩
  | .local _ .vmem, ⟨10, _⟩ => ⟨S256x8192, .f32⟩
  | .local _ .vmem, ⟨11, _⟩ => ⟨S256x8192, .f32⟩
  | .local _ .vmem, ⟨12, _⟩ => ⟨S256x128, .f32⟩
  | .local _ .vmem, ⟨13, _⟩ => ⟨S256x128, .f32⟩
  | .local _ .vmem, ⟨14, _⟩ => ⟨S8192x128, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![3, 16], ![false, false]⟩

def k0_mult1 (i : grid0.Coords) : BitVec 32 :=
  let arg1 : BitVec 32 := BitVec.ofNat 32 (i 1).val
  let c256_i32 : BitVec 32 := 256#32
  let v10 : BitVec 32 := Scalar.muli arg1 c256_i32
  v10
def k0_cond3 (i : grid0.Coords) : BitVec 1 :=
  let arg0 : BitVec 32 := BitVec.ofNat 32 (i 0).val
  let c0_i32_5 : BitVec 32 := 0#32
  let v12 : BitVec 1 := Scalar.cmpi .eq arg0 c0_i32_5
  let v13 : BitVec 32 := Scalar.extui v12
  let c0_i32_6 : BitVec 32 := 0#32
  let v14 : BitVec 1 := Scalar.cmpi .ne v13 c0_i32_6
  v14

def k0_off1 (i : grid0.Coords) : Fin 2 → Nat :=
  let c0_10 : Index := 0#32
  let arg1 : BitVec 32 := BitVec.ofNat 32 (i 1).val
  let c256_i32 : BitVec 32 := 256#32
  let v10 : BitVec 32 := Scalar.muli arg1 c256_i32
  let v11 : BitVec 32 := v10
  let v21 : Index := Scalar.indexCast v11
  ![0, v21.toNat]
def k0_off2 (i : grid0.Coords) : Fin 2 → Nat :=
  let c0_14 : Index := 0#32
  let arg1 : BitVec 32 := BitVec.ofNat 32 (i 1).val
  let c256_i32 : BitVec 32 := 256#32
  let v10 : BitVec 32 := Scalar.muli arg1 c256_i32
  let v11 : BitVec 32 := v10
  let v29 : Index := Scalar.indexCast v11
  ![0, v29.toNat]
def k0_cond4 (i : grid0.Coords) : BitVec 1 :=
  let arg0 : BitVec 32 := BitVec.ofNat 32 (i 0).val
  let c0_i32_7 : BitVec 32 := 0#32
  let v15 : BitVec 1 := Scalar.cmpi .sgt arg0 c0_i32_7
  let v16 : BitVec 32 := Scalar.extui v15
  let c0_i32_8 : BitVec 32 := 0#32
  let v17 : BitVec 1 := Scalar.cmpi .ne v16 c0_i32_8
  v17

def k0_off3 (i : grid0.Coords) : Fin 2 → Nat :=
  let c0_10 : Index := 0#32
  let arg1 : BitVec 32 := BitVec.ofNat 32 (i 1).val
  let c256_i32 : BitVec 32 := 256#32
  let v10 : BitVec 32 := Scalar.muli arg1 c256_i32
  let v11 : BitVec 32 := v10
  let v19 : Index := Scalar.indexCast v11
  ![0, v19.toNat]
def k0_off4 (i : grid0.Coords) : Fin 2 → Nat :=
  let c0_12 : Index := 0#32
  let arg1 : BitVec 32 := BitVec.ofNat 32 (i 1).val
  let c256_i32 : BitVec 32 := 256#32
  let v10 : BitVec 32 := Scalar.muli arg1 c256_i32
  let v11 : BitVec 32 := v10
  let v24 : Index := Scalar.indexCast v11
  ![0, v24.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 1 → Memref sig .tc .vmem S8192x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  packedbf16_S128x4096_S128x4096_0_0 : (Rect.unit (s := S128x4096) ![0, 0] S128x4096.size inb_S128x4096_S128x4096_0_0).PackedRows (EltTy.packing .bf16)
  inb_S256x4096_S256x4096_0_0 : ∀ a, (![0, 0] : Fin 2 → Nat) a + S256x4096.size a ≤ S256x4096.size a
  h_S256x4096 : 0 < S256x4096.numel
  transposes_S256x4096_p1_0_S4096x256 : S256x4096.Transposes [1, 0] S4096x256
  h_S4096x256 : 0 < S4096x256.numel
  shapeCasts_S4096x256_S4096x256 : S4096x256.ShapeCasts S4096x256
  h_S128x256 : 0 < S128x256.numel
  transposes_S128x4096_S4096x128_1_0 : S128x4096.Transposes [1, 0] S4096x128
  slices_S3x128x128_S1x128x128_2_0_0 : S3x128x128.Slices ![2, 0, 0] S1x128x128
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S8192x128_S8192x128 : S8192x128.ShapeCasts S8192x128
  packedbf16_S8192x128_S8192x128_0_0 : (Rect.unit (s := S8192x128) ![0, 0] S8192x128.size inb_S8192x128_S8192x128_0_0).PackedRows (EltTy.packing .bf16)
  inb_S256x8192_S256x8192_0_0 : ∀ a, (![0, 0] : Fin 2 → Nat) a + S256x8192.size a ≤ S256x8192.size a
  h_S256x8192 : 0 < S256x8192.numel
  inb_S256x128_S256x128_0_0 : ∀ a, (![0, 0] : Fin 2 → Nat) a + S256x128.size a ≤ S256x128.size a
  h_S256x128 : 0 < S256x128.numel
  dot_S128x128_S4096x128_S128x4096_0_1_1_0_n_n_wf : DotDims.WF S128x128 S4096x128 S128x4096 [0] [1] [1] [0] [] []
  dot_S128x128_S128x4096_S128x4096_0_0_1_1_n_n_wf : DotDims.WF S128x128 S128x4096 S128x4096 [0] [0] [1] [1] [] []
  dot_S128x4096_S4096x256_S128x256_1_0_0_1_n_n_wf : DotDims.WF S128x4096 S4096x256 S128x256 [1] [0] [0] [1] [] []
  dot_S8192x128_S128x128_S8192x128_1_0_0_1_n_n_wf : DotDims.WF S8192x128 S128x128 S8192x128 [1] [0] [0] [1] [] []
  dot_S256x8192_S8192x128_S256x128_1_0_0_1_n_n_wf : DotDims.WF S256x8192 S8192x128 S256x128 [1] [0] [0] [1] [] []
  hrank0 : 0 < grid0.rank
  k0_mult1_dvd : ∀ i : grid0.Coords, 256 ∣ (k0_mult1 i).toNat
  k0_off1_inb : ∀ i : grid0.Coords, ∀ (k0_h3 : k0_cond3 i = 1#1), ∀ a, (k0_off1 i) a + S4096x256.size a ≤ S4096x4096.size a
  k0_off1_packedbf16 : ∀ i : grid0.Coords, ∀ (k0_h3 : k0_cond3 i = 1#1), (Rect.unit (s := S4096x4096) (k0_off1 i) S4096x256.size (k0_off1_inb i k0_h3)).PackedRows (EltTy.packing .bf16)
  k0_off2_inb : ∀ i : grid0.Coords, ∀ (k0_h3 : k0_cond3 i = 1#1), ∀ a, (k0_off2 i) a + S128x256.size a ≤ S128x4096.size a
  k0_off3_inb : ∀ i : grid0.Coords, ∀ (k0_h4 : k0_cond4 i = 1#1), ∀ a, (k0_off3 i) a + S4096x256.size a ≤ S4096x4096.size a
  k0_off4_inb : ∀ i : grid0.Coords, ∀ (k0_h4 : k0_cond4 i = 1#1), ∀ a, (k0_off4 i) a + S128x256.size a ≤ S128x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S3x128x128.size a
  hwx0_1 : ∀ i : grid0.Coords, EltTy.bits .f32 = 32 ∨ (Rect.block (s := S3x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S128x4096.size a
  hwx0_3 : ∀ i : grid0.Coords, EltTy.bits .f32 = 32 ∨ (Rect.block (s := S128x4096) S128x4096.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x128.size a
  hwx1_0 : ∀ i : grid1.Coords, EltTy.bits .f32 = 32 ∨ (Rect.block (s := S8192x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x8192.size a ≤ S2048x8192.size a
  hwx1_2 : ∀ i : grid1.Coords, EltTy.bits .f32 = 32 ∨ (Rect.block (s := S2048x8192) S256x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S2048x128.size a
  hwx1_3 : ∀ i : grid1.Coords, EltTy.bits .f32 = 32 ∨ (Rect.block (s := S2048x128) S256x128.size (cc1_transform_3 i) (hinb1_3 i)).WholeWords (EltTy.packing .f32)

variable [Facts₀]

def dot_S128x128_S4096x128_S128x4096_0_1_1_0_n_n : DotDims S128x128 S4096x128 S128x4096 where
  lhsContracting := [0]
  rhsContracting := [1]
  lhsNonContracting := [1]
  rhsNonContracting := [0]
  lhsBatch := []
  rhsBatch := []
  wf := dot_S128x128_S4096x128_S128x4096_0_1_1_0_n_n_wf
def dot_S128x128_S128x4096_S128x4096_0_0_1_1_n_n : DotDims S128x128 S128x4096 S128x4096 where
  lhsContracting := [0]
  rhsContracting := [0]
  lhsNonContracting := [1]
  rhsNonContracting := [1]
  lhsBatch := []
  rhsBatch := []
  wf := dot_S128x128_S128x4096_S128x4096_0_0_1_1_n_n_wf
def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) && !(k0_cond4 i == 1#1) | ⟨_ + 4, h⟩ => absurd h (Nat.not_lt.2 (Nat.le_add_left _ _))

abbrev win1_0 : Pipeline.Window sig grid1 :=
  Pipeline.Window.ofSpec (Memref.whole main_arg1) S8192x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x128 : Shape := ⟨2, ![4096, 128]⟩
abbrev S8192x128 : Shape := ⟨2, ![8192, 128]⟩
abbrev S4096x4096 : Shape := ⟨2, ![4096, 4096]⟩
abbrev S2048x8192 : Shape := ⟨2, ![2048, 8192]⟩
abbrev S3x128x128 : Shape := ⟨3, ![3, 128, 128]⟩
abbrev S1x128x128 : Shape := ⟨3, ![1, 128, 128]⟩
abbrev S128x128 : Shape := ⟨2, ![128, 128]⟩
abbrev S_ : Shape := ⟨0, ![]⟩
abbrev S512x4096 : Shape := ⟨2, ![512, 4096]⟩
abbrev S512x128 : Shape := ⟨2, ![512, 128]⟩
abbrev S2048x128 : Shape := ⟨2, ![2048, 128]⟩
abbrev S256x8192 : Shape := ⟨2, ![256, 8192]⟩
abbrev S256x128 : Shape := ⟨2, ![256, 128]⟩

abbrev nBuf : Space → Nat
  | .hbm => 42
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S4096x4096, .f32⟩
  | .hbm, ⟨3, _⟩ => ⟨S2048x8192, .f32⟩
  | .hbm, ⟨4, _⟩ => ⟨S3x128x128, .f32⟩
  | .hbm, ⟨5, _⟩ => ⟨S3x128x128, .f32⟩
  | .hbm, ⟨6, _⟩ => ⟨S1x128x128, .f32⟩
  | .hbm, ⟨7, _⟩ => ⟨S128x128, .f32⟩
  | .hbm, ⟨8, _⟩ => ⟨S1x128x128, .f32⟩
  | .hbm, ⟨9, _⟩ => ⟨S128x128, .f32⟩
  | .hbm, ⟨10, _⟩ => ⟨S1x128x128, .f32⟩
  | .hbm, ⟨11, _⟩ => ⟨S128x128, .f32⟩
  | .hbm, ⟨12, _⟩ => ⟨S1x128x128, .f32⟩
  | .hbm, ⟨13, _⟩ => ⟨S128x128, .f32⟩
  | .hbm, ⟨14, _⟩ => ⟨S1x128x128, .f32⟩
  | .hbm, ⟨15, _⟩ => ⟨S128x128, .f32⟩
  | .hbm, ⟨16, _⟩ => ⟨S1x128x128, .f32⟩
  | .hbm, ⟨17, _⟩ => ⟨S128x128, .f32⟩
  | .hbm, ⟨18, _⟩ => ⟨S1x128x128, .f32⟩
  | .hbm, ⟨19, _⟩ => ⟨S1x128x128, .f32⟩
  | .hbm, ⟨20, _⟩ => ⟨S1x128x128, .f32⟩
  | .hbm, ⟨21, _⟩ => ⟨S3x128x128, .f32⟩
  | .hbm, ⟨22, _⟩ => ⟨S_, .i32⟩
  | .hbm, ⟨23, _⟩ => ⟨S_, .f32⟩
  | .hbm, ⟨24, _⟩ => ⟨S4096x128, .f32⟩
  | .hbm, ⟨25, _⟩ => ⟨S_, .i32⟩
  | .hbm, ⟨26, _⟩ => ⟨S_, .f32⟩
  | .hbm, ⟨27, _⟩ => ⟨S4096x4096, .f32⟩
  | .hbm, ⟨28, _⟩ => ⟨S_, .i32⟩
  | .hbm, ⟨29, _⟩ => ⟨S_, .f32⟩
  | .hbm, ⟨30, _⟩ => ⟨S3x128x128, .f32⟩
  | .hbm, ⟨31, _⟩ => ⟨S_, .i32⟩
  | .hbm, ⟨32, _⟩ => ⟨S_, .f32⟩
  | .hbm, ⟨33, _⟩ => ⟨S8192x128, .f32⟩
  | .hbm, ⟨34, _⟩ => ⟨S_, .i32⟩
  | .hbm, ⟨35, _⟩ => ⟨S_, .f32⟩
  | .hbm, ⟨36, _⟩ => ⟨S128x128, .f32⟩
  | .hbm, ⟨37, _⟩ => ⟨S_, .i32⟩
  | .hbm, ⟨38, _⟩ => ⟨S_, .f32⟩
  | .hbm, ⟨39, _⟩ => ⟨S2048x8192, .f32⟩
  | .hbm, ⟨40, _⟩ => ⟨S4096x128, .f32⟩
  | .hbm, ⟨41, _⟩ => ⟨S2048x128, .f32⟩
  | .local _ .vmem, ⟨0, _⟩ => ⟨S4096x128, .f32⟩
  | .local _ .vmem, ⟨1, _⟩ => ⟨S1x128x128, .f32⟩
  | .local _ .vmem, ⟨2, _⟩ => ⟨S1x128x128, .f32⟩
  | .local _ .vmem, ⟨3, _⟩ => ⟨S512x4096, .f32⟩
  | .local _ .vmem, ⟨4, _⟩ => ⟨S512x4096, .f32⟩
  | .local _ .vmem, ⟨5, _⟩ => ⟨S4096x128, .f32⟩
  | .local _ .vmem, ⟨6, _⟩ => ⟨S4096x128, .f32⟩
  | .local _ .vmem, ⟨7, _⟩ => ⟨S8192x128, .f32⟩
  | .local _ .vmem, ⟨8, _⟩ => ⟨S128x128, .f32⟩
  | .local _ .vmem, ⟨9, _⟩ => ⟨S256x8192, .f32⟩
  | .local _ .vmem, ⟨10, _⟩ => ⟨S256x8192, .f32⟩
  | .local _ .vmem, ⟨11, _⟩ => ⟨S256x128, .f32⟩
  | .local _ .vmem, ⟨12, _⟩ => ⟨S256x128, .f32⟩
  | .local _ .vmem, ⟨13, _⟩ => ⟨S8192x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_c_0 : Ref sig .tc := ⟨.hbm, 25, rfl⟩
abbrev main_call1_v0 : Ref sig .tc := ⟨.hbm, 26, rfl⟩
abbrev main_v17 : Ref sig .tc := ⟨.hbm, 27, rfl⟩
abbrev main_c_1 : Ref sig .tc := ⟨.hbm, 28, rfl⟩
abbrev main_call2_v0 : Ref sig .tc := ⟨.hbm, 29, rfl⟩
abbrev main_v18 : Ref sig .tc := ⟨.hbm, 30, rfl⟩
abbrev main_c_2 : Ref sig .tc := ⟨.hbm, 31, rfl⟩
abbrev main_call3_v0 : Ref sig .tc := ⟨.hbm, 32, rfl⟩
abbrev main_v19 : Ref sig .tc := ⟨.hbm, 33, rfl⟩
abbrev main_c_3 : Ref sig .tc := ⟨.hbm, 34, rfl⟩
abbrev main_call4_v0 : Ref sig .tc := ⟨.hbm, 35, rfl⟩
abbrev main_v20 : Ref sig .tc := ⟨.hbm, 36, rfl⟩
abbrev main_c_4 : Ref sig .tc := ⟨.hbm, 37, rfl⟩
abbrev main_call5_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let arg1 : BitVec 32 := BitVec.ofNat 32 (i 1).val
  let c512_i32 : BitVec 32 := 512#32
  let v14 : BitVec 32 := Scalar.muli arg1 c512_i32
  v14
def k0_off1 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v18 : Index := Scalar.indexCast v15
  let c0_9 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8192x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S128x128_S1x128x128_1_2 : S128x128.BroadcastsInDim S1x128x128 (![1, 2] : Fin 2 → Fin S1x128x128.rank)
  concatenates_S1x128x128_S1x128x128_S1x128x128_S3x128x128_d0 : Shape.Concatenates [S1x128x128, S1x128x128, S1x128x128] S3x128x128 0
  pads_S4096x128_S4096x128_000_000 : S4096x128.Pads (![0, 0] : Fin 2 → Nat) ![0, 0] ![0, 0] S4096x128
  h_S_ : 0 < S_.numel
  pads_S4096x4096_S4096x4096_000_000 : S4096x4096.Pads (![0, 0] : Fin 2 → Nat) ![0, 0] ![0, 0] S4096x4096
  pads_S3x128x128_S3x128x128_000_000_000 : S3x128x128.Pads (![0, 0, 0] : Fin 3 → Nat) ![0, 0, 0] ![0, 0, 0] S3x128x128
  pads_S8192x128_S8192x128_000_000 : S8192x128.Pads (![0, 0] : Fin 2 → Nat) ![0, 0] ![0, 0] S8192x128
  pads_S128x128_S128x128_000_000 : S128x128.Pads (![0, 0] : Fin 2 → Nat) ![0, 0] ![0, 0] S128x128
  pads_S2048x8192_S2048x8192_000_000 : S2048x8192.Pads (![0, 0] : Fin 2 → Nat) ![0, 0] ![0, 0] S2048x8192
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128x128_S1x128x128_0_0_0 : ∀ a, (![0, 0, 0] : Fin 3 → Nat) a + S1x128x128.size a ≤ S1x128x128.size a
  h_S1x128x128 : 0 < S1x128x128.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  h_S512x128 : 0 < S512x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x128_S256x128_0_0 : ∀ a, (![0, 0] : Fin 2 → Nat) a + S256x128.size a ≤ S256x128.size a
  h_S256x128 : 0 < S256x128.numel
  dot_S4096x128_S128x128_S4096x128_1_0_0_1_n_n_wf : DotDims.WF S4096x128 S128x128 S4096x128 [1] [0] [0] [1] [] []
  dot_S512x4096_S4096x128_S512x128_1_0_0_1_n_n_wf : DotDims.WF S512x4096 S4096x128 S512x128 [1] [0] [0] [1] [] []
  dot_S8192x128_S128x128_S8192x128_1_0_0_1_n_n_wf : DotDims.WF S8192x128 S128x128 S8192x128 [1] [0] [0] [1] [] []
  dot_S256x8192_S8192x128_S256x128_1_0_0_1_n_n_wf : DotDims.WF S256x8192 S8192x128 S256x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x128.size a ≤ S4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S3x128x128.size a
  hwx0_1 : ∀ i : grid0.Coords, EltTy.bits .f32 = 32 ∨ (Rect.block (s := S3x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .f32 = 32 ∨ (Rect.block (s := S4096x128) S4096x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x128.size a
  hwx1_0 : ∀ i : grid1.Coords, EltTy.bits .f32 = 32 ∨ (Rect.block (s := S8192x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x8192.size a ≤ S2048x8192.size a
  hwx1_2 : ∀ i : grid1.Coords, EltTy.bits .f32 = 32 ∨ (Rect.block (s := S2048x8192) S256x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S2048x128.size a
  hwx1_3 : ∀ i : grid1.Coords, EltTy.bits .f32 = 32 ∨ (Rect.block (s := S2048x128) S256x128.size (cc1_transform_3 i) (hinb1_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_v16) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S4096x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S8192x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S256x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KNodeBody.lean ====
/- The node kernel's body, case by case. At the very first point it computes the first layer's transposed
   transformed features from the input features; at the first tile of a later layer, from the whole previous
   state (read back from the resident output block). In the first layer every tile also stores its 256 columns
   of the transposed adjacency; in every layer it stores its 256 columns of the new transposed state. -/
import proofs.«179636_g2000605474969623_pallasbulk_585_7_alg».proof.Proof.Gen.KernelIdeal.Launch
import proofs.«179636_g2000605474969623_pallasbulk_585_7_alg».proof.Proof.Gen.KernelIdeal.Skeleton
import proofs.«179636_g2000605474969623_pallasbulk_585_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The node kernel's four branch conditions, from the grid coordinates: the very first point; the first tile of a later
    layer; any tile of the first layer; any tile of a later layer. -/
abbrev nc1 (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
abbrev nc2 (i : grid0.Coords) : Prop := (Scalar.cmpi .ne (Scalar.extui (Scalar.andi (Scalar.cmpi .eq (BitVec.ofNat 32 (i 1).val) 0#32) (Scalar.cmpi .sgt (BitVec.ofNat 32 (i 0).val) 0#32))) 0#32) = 1#1
abbrev nc3 (i : grid0.Coords) : Prop := k0_cond3 i = 1#1
abbrev nc4 (i : grid0.Coords) : Prop := k0_cond4 i = 1#1

/-- One store through a rectangle into a whole buffer reading x leaves x overlaid with the payload there. -/
theorem read_writes_single {κ : Kind} {sp : Space} {s : Shape} {e : EltTy} {Val : EltTy → Type}
    {m : Memref sig κ sp s e} (h : m.IsWhole) (x : s.Idx → Val e) (r : Rect s) (w : r.shape.Idx → Val e) :
    m.view.read Val (m.view.writes Val (h.unread x) [⟨r, w⟩]) = r.overlay x w := by
  funext y
  by_cases hy : y ∈ r.set
  · obtain ⟨j, rfl⟩ : ∃ j, r.emb j = y := r.exists_idx_of_mem hy
    rw [View.read_writes_cons_emb, Rect.overlay_emb]
  · rw [View.read_writes_apply_of_forall_not_mem _ _ y _ (fun p hp => by
        rw [List.mem_singleton] at hp; subst hp; exact hy), h.read_unread, Rect.overlay_of_not_mem _ _ _ hy]

theorem hz2 : (![0, 0] : Fin 2 → Nat) = fun _ => 0 := by funext a; fin_cases a <;> rfl
theorem hz3 : (![0, 0, 0] : Fin 3 → Nat) = fun _ => 0 := by funext a; fin_cases a <;> rfl

/-- The rectangles of the tile accesses: the 256 columns of the point's tile, in the [128, 4096] state and in the
    [4096, 4096] transposed adjacency. -/
abbrev rOut3 (i : grid0.Coords) (h : nc3 i) : Rect S128x4096 := Rect.unit (s := S128x4096) (k0_off2 i) S128x256.size (k0_off2_inb i h)
abbrev rAdj3 (i : grid0.Coords) (h : nc3 i) : Rect S4096x4096 := Rect.unit (s := S4096x4096) (k0_off1 i) S4096x256.size (k0_off1_inb i h)
abbrev rOut4 (i : grid0.Coords) (h : nc4 i) : Rect S128x4096 := Rect.unit (s := S128x4096) (k0_off4 i) S128x256.size (k0_off4_inb i h)
abbrev rAdj4 (i : grid0.Coords) (h : nc4 i) : Rect S4096x4096 := Rect.unit (s := S4096x4096) (k0_off3 i) S4096x256.size (k0_off3_inb i h)

set_option maxHeartbeats 2000000 in
/-- A later tile of a later layer: the tile's columns of the state are recomputed from the kept transposed
    adjacency; nothing else changes. -/
theorem node_run_D (c : Dev nD) (E : Set ℕ) (i : grid0.Coords) (h1 : ¬ nc1 i) (h2 : ¬ nc2 i) (h3 : ¬ nc3 i) (h4 : nc4 i)
    (arg2 : Memref sig .tc .vmem S4096x128 .f32) (harg2 : arg2.IsWhole) (arg3 : Memref sig .tc .vmem S1x128x128 .f32) (harg3 : arg3.IsWhole) (arg4 : Memref sig .tc .vmem S256x4096 .f32) (harg4 : arg4.IsWhole) (arg5 : Memref sig .tc .vmem S128x4096 .f32) (harg5 : arg5.IsWhole) (arg6 : Memref sig .tc .vmem S4096x4096 .bf16) (harg6 : arg6.IsWhole) (arg7 : Memref sig .tc .vmem S128x4096 .bf16) (harg7 : arg7.IsWhole)
    (x2 : Vec F S4096x128 .f32) (x3 : Vec F S1x128x128 .f32) (x4 : Vec F S256x4096 .f32) (x5 : Vec F S128x4096 .f32)
    (x6 : Vec F S4096x4096 .bf16) (x7 : Vec F S128x4096 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4 ∗ owns (c : Thread nD τ) arg5 fullShare ((rOut4 i h4).overlay x5 (k0_pay6 x7 (View.ld x6 (rAdj4 i h4)))) ∗ owns (c : Thread nD τ) arg6 fullShare x6 ∗ owns (c : Thread nD τ) arg7 fullShare x7) -∗ K ⟨⟩))
      ⊢ wp frame (wpE (defs₀ (F := F)) Variants.none c none) E (cc0__node_kernel i arg2 harg2 arg3 harg3 arg4 harg4 arg5 harg5 arg6 harg6 arg7 harg7) K := by
  simp only [cc0__node_kernel_eq_skeleton]; unfold cc0__node_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h1 | exact h2 | exact h3 | exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_single harg5]
    simp only [View.readAt_eq_ld, harg6.read_unread, harg7.read_unread]
    rw [View.ld_unit_zero (S := S128x4096) hz2]
  isplitl [H6]
  · iexists _; isplitr; · ipureintro; exact harg6.read_unread _
    iexact H6
  iexists _; isplitr; · ipureintro; exact harg7.read_unread _
  iexact H7

set_option maxHeartbeats 2000000 in
/-- A later tile of the first layer: the tile's columns of the transposed adjacency are stored, and the tile's
    columns of the state are computed from the adjacency rows. -/
theorem node_run_B (c : Dev nD) (E : Set ℕ) (i : grid0.Coords) (h1 : ¬ nc1 i) (h2 : ¬ nc2 i) (h3 : nc3 i) (h4 : ¬ nc4 i)
    (arg2 : Memref sig .tc .vmem S4096x128 .f32) (harg2 : arg2.IsWhole) (arg3 : Memref sig .tc .vmem S1x128x128 .f32) (harg3 : arg3.IsWhole) (arg4 : Memref sig .tc .vmem S256x4096 .f32) (harg4 : arg4.IsWhole) (arg5 : Memref sig .tc .vmem S128x4096 .f32) (harg5 : arg5.IsWhole) (arg6 : Memref sig .tc .vmem S4096x4096 .bf16) (harg6 : arg6.IsWhole) (arg7 : Memref sig .tc .vmem S128x4096 .bf16) (harg7 : arg7.IsWhole)
    (x2 : Vec F S4096x128 .f32) (x3 : Vec F S1x128x128 .f32) (x4 : Vec F S256x4096 .f32) (x5 : Vec F S128x4096 .f32)
    (x6 : Vec F S4096x4096 .bf16) (x7 : Vec F S128x4096 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4 ∗ owns (c : Thread nD τ) arg5 fullShare ((rOut3 i h3).overlay x5 (k0_pay5 x4 x7)) ∗ owns (c : Thread nD τ) arg6 fullShare ((rAdj3 i h3).overlay x6 (k0_pay4 x4)) ∗ owns (c : Thread nD τ) arg7 fullShare x7) -∗ K ⟨⟩))
      ⊢ wp frame (wpE (defs₀ (F := F)) Variants.none c none) E (cc0__node_kernel i arg2 harg2 arg3 harg3 arg4 harg4 arg5 harg5 arg6 harg6 arg7 harg7) K := by
  simp only [cc0__node_kernel_eq_skeleton]; unfold cc0__node_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h1 | exact h2 | exact h3 | exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_single harg5]
    simp only [View.readAt_eq_ld, harg4.read_unread, harg7.read_unread]
    rw [View.ld_unit_zero (S := S128x4096) hz2, View.ld_unit_zero (S := S256x4096) hz2]
  isplitl [H6]
  · iexists _; isplitr
    swap; · iexact H6
    ipureintro
    rw [read_writes_single harg6]
    simp only [View.readAt_eq_ld, harg4.read_unread]
    rw [View.ld_unit_zero (S := S256x4096) hz2]
  iexists _; isplitr; · ipureintro; exact harg7.read_unread _
  iexact H7

set_option maxHeartbeats 2000000 in
/-- The very first point: the first layer's transposed transformed features are computed from the input features and kept; the first tile's columns of the transposed adjacency and of the state are stored. -/
theorem node_run_A (c : Dev nD) (E : Set ℕ) (i : grid0.Coords) (h1 : nc1 i) (h2 : ¬ nc2 i) (h3 : nc3 i) (h4 : ¬ nc4 i)
    (arg2 : Memref sig .tc .vmem S4096x128 .f32) (harg2 : arg2.IsWhole) (arg3 : Memref sig .tc .vmem S1x128x128 .f32) (harg3 : arg3.IsWhole) (arg4 : Memref sig .tc .vmem S256x4096 .f32) (harg4 : arg4.IsWhole) (arg5 : Memref sig .tc .vmem S128x4096 .f32) (harg5 : arg5.IsWhole) (arg6 : Memref sig .tc .vmem S4096x4096 .bf16) (harg6 : arg6.IsWhole) (arg7 : Memref sig .tc .vmem S128x4096 .bf16) (harg7 : arg7.IsWhole)
    (x2 : Vec F S4096x128 .f32) (x3 : Vec F S1x128x128 .f32) (x4 : Vec F S256x4096 .f32) (x5 : Vec F S128x4096 .f32)
    (x6 : Vec F S4096x4096 .bf16) (x7 : Vec F S128x4096 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4 ∗ owns (c : Thread nD τ) arg5 fullShare ((rOut3 i h3).overlay x5 (k0_pay5 x4 (k0_pay1 x3 x2))) ∗ owns (c : Thread nD τ) arg6 fullShare ((rAdj3 i h3).overlay x6 (k0_pay4 x4)) ∗ owns (c : Thread nD τ) arg7 fullShare (k0_pay1 x3 x2)) -∗ K ⟨⟩))
      ⊢ wp frame (wpE (defs₀ (F := F)) Variants.none c none) E (cc0__node_kernel i arg2 harg2 arg3 harg3 arg4 harg4 arg5 harg5 arg6 harg6 arg7 harg7) K := by
  simp only [cc0__node_kernel_eq_skeleton]; unfold cc0__node_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h1 | exact h2 | exact h3 | exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_single harg5]
    sl_unfold_run_names
    simp only [View.readAt_eq_ld, harg4.read_unread, harg2.read_unread, harg3.read_unread]
    rw [View.readCov_unit_zero _ hz2, View.ld_unit_zero (S := S256x4096) hz2, View.ld_unit_zero (S := S1x128x128) hz3,
      View.ld_unit_zero (S := S4096x128) hz2]
  isplitl [H6]
  · iexists _; isplitr
    swap; · iexact H6
    ipureintro
    rw [read_writes_single harg6]
    simp only [View.readAt_eq_ld, harg4.read_unread]
    rw [View.ld_unit_zero (S := S256x4096) hz2]
  iexists _; isplitr
  swap; · iexact H7
  ipureintro
  sl_unfold_run_names
  rw [View.read_writes_eq_canon _ _ _ (fun y => ⟨_, List.mem_singleton_self _, View.mem_set_unit_zero hz2 inb_S128x4096_S128x4096_0_0 y⟩), View.canon_unit_zero hz2]
  simp only [View.readAt_eq_ld, harg2.read_unread, harg3.read_unread, harg5.read_unread]
  first
    | rw [View.ld_unit_zero (S := S1x128x128) hz3, View.ld_unit_zero (S := S4096x128) hz2]
    | rw [View.ld_unit_zero (S := S1x128x128) hz3, View.ld_unit_zero (S := S128x4096) hz2]

set_option maxHeartbeats 2000000 in
/-- The first tile of a later layer: the layer's transposed transformed features are computed from the whole previous state and kept; the tile's columns of the state are recomputed from the kept transposed adjacency. -/
theorem node_run_C (c : Dev nD) (E : Set ℕ) (i : grid0.Coords) (h1 : ¬ nc1 i) (h2 : nc2 i) (h3 : ¬ nc3 i) (h4 : nc4 i)
    (arg2 : Memref sig .tc .vmem S4096x128 .f32) (harg2 : arg2.IsWhole) (arg3 : Memref sig .tc .vmem S1x128x128 .f32) (harg3 : arg3.IsWhole) (arg4 : Memref sig .tc .vmem S256x4096 .f32) (harg4 : arg4.IsWhole) (arg5 : Memref sig .tc .vmem S128x4096 .f32) (harg5 : arg5.IsWhole) (arg6 : Memref sig .tc .vmem S4096x4096 .bf16) (harg6 : arg6.IsWhole) (arg7 : Memref sig .tc .vmem S128x4096 .bf16) (harg7 : arg7.IsWhole)
    (x2 : Vec F S4096x128 .f32) (x3 : Vec F S1x128x128 .f32) (x4 : Vec F S256x4096 .f32) (x5 : Vec F S128x4096 .f32)
    (x6 : Vec F S4096x4096 .bf16) (x7 : Vec F S128x4096 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4 ∗ owns (c : Thread nD τ) arg5 fullShare ((rOut4 i h4).overlay x5 (k0_pay6 (k0_pay2 x3 x5) (View.ld x6 (rAdj4 i h4)))) ∗ owns (c : Thread nD τ) arg6 fullShare x6 ∗ owns (c : Thread nD τ) arg7 fullShare (k0_pay2 x3 x5)) -∗ K ⟨⟩))
      ⊢ wp frame (wpE (defs₀ (F := F)) Variants.none c none) E (cc0__node_kernel i arg2 harg2 arg3 harg3 arg4 harg4 arg5 harg5 arg6 harg6 arg7 harg7) K := by
  simp only [cc0__node_kernel_eq_skeleton]; unfold cc0__node_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h1 | exact h2 | exact h3 | exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_single harg5]
    sl_unfold_run_names
    simp only [View.readAt_eq_ld, harg6.read_unread, harg5.read_unread, harg3.read_unread]
    rw [View.readCov_unit_zero _ hz2, View.ld_unit_zero (S := S128x4096) hz2, View.ld_unit_zero (S := S1x128x128) hz3]
  isplitl [H6]
  · iexists _; isplitr
    swap; · iexact H6
    ipureintro
    exact harg6.read_unread _
  iexists _; isplitr
  swap; · iexact H7
  ipureintro
  sl_unfold_run_names
  rw [View.read_writes_eq_canon _ _ _ (fun y => ⟨_, List.mem_singleton_self _, View.mem_set_unit_zero hz2 inb_S128x4096_S128x4096_0_0 y⟩), View.canon_unit_zero hz2]
  simp only [View.readAt_eq_ld, harg2.read_unread, harg3.read_unread, harg5.read_unread]
  first
    | rw [View.ld_unit_zero (S := S1x128x128) hz3, View.ld_unit_zero (S := S4096x128) hz2]
    | rw [View.ld_unit_zero (S := S1x128x128) hz3, View.ld_unit_zero (S := S128x4096) hz2]

end Cert.KernelIdeal.Gen

end
-- ==== Proof.KSpec.lean ====
/- The kernel program's results as pure functions of its argument arrays, layer by layer.
   The node state is kept transposed, [128, 4096]: column j of layer l's state is the rectified product of the
   layer's transformed features with row j of the adjacency, computed one tile of 256 columns at a time; the
   transformed features of layer 0 come from the input features, those of a later layer from the previous state.
   The face result is the rectified product of the incidence rows, one tile of 256 rows at a time, with the
   transformed edge features. -/
import proofs.«179636_g2000605474969623_pallasbulk_585_7_alg».proof.Proof.Gen.KernelIdeal.Skeleton
import Idealize.ShloMosaic.Lib.ValueIdx

noncomputable section

namespace Cert.KernelIdeal.KSpec

open Idealize.ShloMosaic Idealize.ShloMosaic.ValueIdx Cert.KernelIdeal Cert.KernelIdeal.Gen

variable {F : FTy → Type} [FloatOps F]

/-- Layer l's weight matrix as the one-layer block of the stack. -/
def wBlk (W : Vec F S3x128x128 .f32) (l : Nat) : Vec F S1x128x128 .f32 :=
  fun j => W (ix3 (⟨l % 3, Nat.mod_lt _ (by decide)⟩ : Fin 3) (j 1 : Fin 128) (j 2 : Fin 128))

/-- The last layer's edge-to-face weight matrix. -/
def w2 (W : Vec F S3x128x128 .f32) : Vec F S128x128 .f32 :=
  fun j => W (ix3 (2 : Fin 3) (j 0 : Fin 128) (j 1 : Fin 128))

/-- Rows 256·i … 256·i+255 of the adjacency. -/
def tileA (A : Vec F S4096x4096 .f32) (i : Nat) : Vec F S256x4096 .f32 :=
  fun j => A (ix2 (⟨(256 * i + (j 0 : Fin 256).val) % 4096, Nat.mod_lt _ (by decide)⟩ : Fin 4096) (j 1 : Fin 4096))

/-- Rows 256·i … 256·i+255 of the incidence. -/
def tileInc (B : Vec F S2048x8192 .f32) (i : Nat) : Vec F S256x8192 .f32 :=
  fun j => B (ix2 (⟨(256 * i + (j 0 : Fin 256).val) % 2048, Nat.mod_lt _ (by decide)⟩ : Fin 2048) (j 1 : Fin 8192))

/-- The transposed adjacency as the kernel keeps it: column j is row j of the adjacency, tile by tile. -/
def aT (A : Vec F S4096x4096 .f32) : Vec F S4096x4096 .bf16 :=
  fun j => k0_pay4 (tileA A ((j 1 : Fin 4096).val / 256))
    (ix2 (j 0 : Fin 4096) (⟨(j 1 : Fin 4096).val % 256, Nat.mod_lt _ (by decide)⟩ : Fin 256))

/-- Columns 256·i … 256·i+255 of a [4096, 4096] array. -/
def colTile (X : Vec F S4096x4096 .bf16) (i : Nat) : Vec F S4096x256 .bf16 :=
  fun j => X (ix2 (j 0 : Fin 4096) (⟨(256 * i + (j 1 : Fin 256).val) % 4096, Nat.mod_lt _ (by decide)⟩ : Fin 4096))

/-- The first layer's transposed state from its transformed features: tile by tile, straight from the adjacency rows. -/
def stateT0 (A : Vec F S4096x4096 .f32) (mT : Vec F S128x4096 .bf16) : Vec F S128x4096 .f32 :=
  fun j => k0_pay5 (tileA A ((j 1 : Fin 4096).val / 256)) mT
    (ix2 (j 0 : Fin 128) (⟨(j 1 : Fin 4096).val % 256, Nat.mod_lt _ (by decide)⟩ : Fin 256))

/-- A later layer's transposed state from its transformed features: tile by tile, from the kept transposed adjacency. -/
def stateT1 (A : Vec F S4096x4096 .f32) (mT : Vec F S128x4096 .bf16) : Vec F S128x4096 .f32 :=
  fun j => k0_pay6 mT (colTile (aT A) ((j 1 : Fin 4096).val / 256))
    (ix2 (j 0 : Fin 128) (⟨(j 1 : Fin 4096).val % 256, Nat.mod_lt _ (by decide)⟩ : Fin 256))

/-- The transposed state after layer l. -/
def stateT (x0 : Vec F S4096x128 .f32) (W : Vec F S3x128x128 .f32) (A : Vec F S4096x4096 .f32) : Nat → Vec F S128x4096 .f32
  | 0 => stateT0 A (k0_pay1 (wBlk W 0) x0)
  | l + 1 => stateT1 A (k0_pay2 (wBlk W (l + 1)) (stateT x0 W A l))

/-- Layer l's transposed transformed features. -/
def m0T (x0 : Vec F S4096x128 .f32) (W : Vec F S3x128x128 .f32) (A : Vec F S4096x4096 .f32) : Nat → Vec F S128x4096 .bf16
  | 0 => k0_pay1 (wBlk W 0) x0
  | l + 1 => k0_pay2 (wBlk W (l + 1)) (stateT x0 W A l)

theorem stateT_zero (x0 : Vec F S4096x128 .f32) (W : Vec F S3x128x128 .f32) (A : Vec F S4096x4096 .f32) :
    stateT x0 W A 0 = stateT0 A (m0T x0 W A 0) := rfl
theorem stateT_succ (x0 : Vec F S4096x128 .f32) (W : Vec F S3x128x128 .f32) (A : Vec F S4096x4096 .f32) (l : Nat) :
    stateT x0 W A (l + 1) = stateT1 A (m0T x0 W A (l + 1)) := rfl

/-- The transformed edge features. -/
def m1 (x1 : Vec F S8192x128 .f32) (W12 : Vec F S3x128x128 .f32) : Vec F S8192x128 .bf16 := k1_pay1 x1 (w2 W12)

/-- The face result. -/
def x2 (x1 : Vec F S8192x128 .f32) (W12 : Vec F S3x128x128 .f32) (B : Vec F S2048x8192 .f32) : Vec F S2048x128 .f32 :=
  fun j => k1_pay2 (tileInc B ((j 0 : Fin 2048).val / 256)) (m1 x1 W12)
    (ix2 (⟨(j 0 : Fin 2048).val % 256, Nat.mod_lt _ (by decide)⟩ : Fin 256) (j 1 : Fin 128))

end Cert.KernelIdeal.KSpec

end
-- ==== Proof.KNodeInv.lean ====
/- Region 0 (the node kernel), the pure side: which branch each grid point takes and which columns its tile
   covers; a tile store read back at an index; and the invariants of the run — after point t (layer t / 16,
   tile t % 16) the resident output block holds the new transposed state on the columns of the tiles done in
   this layer and the previous layer's state on the others, and the kept transposed adjacency holds its final
   contents on the columns stored so far — with their step from one point to the next. -/
import proofs.«179636_g2000605474969623_pallasbulk_585_7_alg».proof.Proof.KNodeBody
import proofs.«179636_g2000605474969623_pallasbulk_585_7_alg».proof.Proof.KSpec

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

/-! ## The branches and the tiles over the grid (point t is layer t / 16, tile t % 16) -/

theorem hnc1 : ∀ t : Fin cfg0.N, nc1 (grid0.coords t) ↔ t.val = 0 :=
  (by decide +kernel : ∀ t : Fin grid0.N, nc1 (grid0.coords t) ↔ t.val = 0)
theorem hnc2 : ∀ t : Fin cfg0.N, nc2 (grid0.coords t) ↔ (t.val % 16 = 0 ∧ 16 ≤ t.val) :=
  (by decide +kernel : ∀ t : Fin grid0.N, nc2 (grid0.coords t) ↔ (t.val % 16 = 0 ∧ 16 ≤ t.val))
theorem hnc3 : ∀ t : Fin cfg0.N, nc3 (grid0.coords t) ↔ t.val < 16 :=
  (by decide +kernel : ∀ t : Fin grid0.N, nc3 (grid0.coords t) ↔ t.val < 16)
theorem hnc4 : ∀ t : Fin cfg0.N, nc4 (grid0.coords t) ↔ 16 ≤ t.val :=
  (by decide +kernel : ∀ t : Fin grid0.N, nc4 (grid0.coords t) ↔ 16 ≤ t.val)

/-- Every tile access starts at row 0 and at column 256 · (t % 16). -/
theorem hoff : ∀ t : Fin cfg0.N,
    k0_off1 (grid0.coords t) 0 = 0 ∧ k0_off1 (grid0.coords t) 1 = 256 * (t.val % 16)
    ∧ k0_off2 (grid0.coords t) 0 = 0 ∧ k0_off2 (grid0.coords t) 1 = 256 * (t.val % 16)
    ∧ k0_off3 (grid0.coords t) 0 = 0 ∧ k0_off3 (grid0.coords t) 1 = 256 * (t.val % 16)
    ∧ k0_off4 (grid0.coords t) 0 = 0 ∧ k0_off4 (grid0.coords t) 1 = 256 * (t.val % 16) :=
  (by decide +kernel : ∀ t : Fin grid0.N, _)

/-! ## A tile store read back at an index -/

section Overlay
variable {α : Type}

/-- Inside a stored column tile of a [128, 4096] block, the store's payload. -/
theorem overlay_out_mem {off : Fin 2 → Nat} {inb} (i : Nat) (h0 : off 0 = 0) (h1 : off 1 = 256 * i)
    (X : S128x4096.Idx → α) (G : S128x256.Idx → α) (cc : Fin 128) (col : Fin 4096) (q : Fin 256) (hq : col.val = 256 * i + q.val) :
    (Rect.unit (s := S128x4096) off S128x256.size inb).overlay X G (ix2 cc col) = G (ix2 cc q) := by
  have e : (ix2 cc col : S128x4096.Idx) = (Rect.unit (s := S128x4096) off S128x256.size inb).emb (ix2 cc q) := by
    funext a; apply Fin.ext
    match a with
    | ⟨0, _⟩ => show cc.val = off 0 + 1 * cc.val; omega
    | ⟨1, _⟩ => show col.val = off 1 + 1 * q.val; omega
  rw [e, Rect.overlay_emb]

/-- Outside it, what the block held. -/
theorem overlay_out_not_mem {off : Fin 2 → Nat} {inb} (i : Nat) (h1 : off 1 = 256 * i)
    (X : S128x4096.Idx → α) (G : S128x256.Idx → α) (cc : Fin 128) (col : Fin 4096) (hc : col.val < 256 * i ∨ 256 * (i + 1) ≤ col.val) :
    (Rect.unit (s := S128x4096) off S128x256.size inb).overlay X G (ix2 cc col) = X (ix2 cc col) :=
  Rect.overlay_of_not_mem _ _ _ (fun hm => by
    have h := (Rect.mem_set_unit.mp hm) (1 : Fin 2)
    have h' : off 1 ≤ col.val ∧ col.val < off 1 + 256 := h
    omega)

/-- The same for a stored column tile of the [4096, 4096] scratch. -/
theorem overlay_adj_mem {off : Fin 2 → Nat} {inb} (i : Nat) (h0 : off 0 = 0) (h1 : off 1 = 256 * i)
    (X : S4096x4096.Idx → α) (G : S4096x256.Idx → α) (n : Fin 4096) (col : Fin 4096) (q : Fin 256) (hq : col.val = 256 * i + q.val) :
    (Rect.unit (s := S4096x4096) off S4096x256.size inb).overlay X G (ix2 n col) = G (ix2 n q) := by
  have e : (ix2 n col : S4096x4096.Idx) = (Rect.unit (s := S4096x4096) off S4096x256.size inb).emb (ix2 n q) := by
    funext a; apply Fin.ext
    match a with
    | ⟨0, _⟩ => show n.val = off 0 + 1 * n.val; omega
    | ⟨1, _⟩ => show col.val = off 1 + 1 * q.val; omega
  rw [e, Rect.overlay_emb]

theorem overlay_adj_not_mem {off : Fin 2 → Nat} {inb} (i : Nat) (h1 : off 1 = 256 * i)
    (X : S4096x4096.Idx → α) (G : S4096x256.Idx → α) (n : Fin 4096) (col : Fin 4096) (hc : col.val < 256 * i ∨ 256 * (i + 1) ≤ col.val) :
    (Rect.unit (s := S4096x4096) off S4096x256.size inb).overlay X G (ix2 n col) = X (ix2 n col) :=
  Rect.overlay_of_not_mem _ _ _ (fun hm => by
    have h := (Rect.mem_set_unit.mp hm) (1 : Fin 2)
    have h' : off 1 ≤ col.val ∧ col.val < off 1 + 256 := h
    omega)

end Overlay

/-! ## The specification at a column of a tile -/

theorem stateT0_at (A : Vec F S4096x4096 .f32) (M : Vec F S128x4096 .bf16) (cc : Fin 128) (col : Fin 4096) (i : ℕ) (q : Fin 256)
    (h : col.val = 256 * i + q.val) : KSpec.stateT0 A M (ix2 cc col) = k0_pay5 (KSpec.tileA A i) M (ix2 cc q) := by
  have e1 : col.val / 256 = i := by have := q.isLt; omega
  have hq : (⟨col.val % 256, Nat.mod_lt _ (by decide)⟩ : Fin 256) = q := Fin.ext (by have := q.isLt; show col.val % 256 = q.val; omega)
  rw [show KSpec.stateT0 A M (ix2 cc col) = k0_pay5 (KSpec.tileA A (col.val / 256)) M (ix2 cc ⟨col.val % 256, Nat.mod_lt _ (by decide)⟩) from rfl, e1, hq]

theorem stateT1_at (A : Vec F S4096x4096 .f32) (M : Vec F S128x4096 .bf16) (cc : Fin 128) (col : Fin 4096) (i : ℕ) (q : Fin 256)
    (h : col.val = 256 * i + q.val) : KSpec.stateT1 A M (ix2 cc col) = k0_pay6 M (KSpec.colTile (KSpec.aT A) i) (ix2 cc q) := by
  have e1 : col.val / 256 = i := by have := q.isLt; omega
  have hq : (⟨col.val % 256, Nat.mod_lt _ (by decide)⟩ : Fin 256) = q := Fin.ext (by have := q.isLt; show col.val % 256 = q.val; omega)
  rw [show KSpec.stateT1 A M (ix2 cc col) = k0_pay6 M (KSpec.colTile (KSpec.aT A) (col.val / 256)) (ix2 cc ⟨col.val % 256, Nat.mod_lt _ (by decide)⟩) from rfl, e1, hq]

theorem aT_at (A : Vec F S4096x4096 .f32) (n : Fin 4096) (col : Fin 4096) (i : ℕ) (q : Fin 256)
    (h : col.val = 256 * i + q.val) : KSpec.aT A (ix2 n col) = k0_pay4 (KSpec.tileA A i) (ix2 n q) := by
  have e1 : col.val / 256 = i := by have := q.isLt; omega
  have hq : (⟨col.val % 256, Nat.mod_lt _ (by decide)⟩ : Fin 256) = q := Fin.ext (by have := q.isLt; show col.val % 256 = q.val; omega)
  rw [show KSpec.aT A (ix2 n col) = k0_pay4 (KSpec.tileA A (col.val / 256)) (ix2 n ⟨col.val % 256, Nat.mod_lt _ (by decide)⟩) from rfl, e1, hq]

/-! ## The invariants -/

section Inv
variable (x0 : Vec F S4096x128 .f32) (W : Vec F S3x128x128 .f32) (A : Vec F S4096x4096 .f32)

/-- After point t the resident output block holds layer t / 16's transposed state on the columns of the tiles
    done, and (in a later layer) the previous layer's on the others. -/
def OutInv (t : ℕ) (X : Vec F S128x4096 .f32) : Prop :=
  ∀ (cc : Fin 128) (col : Fin 4096),
    (col.val < 256 * (t % 16 + 1) → X (ix2 cc col) = KSpec.stateT x0 W A (t / 16) (ix2 cc col))
    ∧ (16 ≤ t → 256 * (t % 16 + 1) ≤ col.val → X (ix2 cc col) = KSpec.stateT x0 W A (t / 16 - 1) (ix2 cc col))

/-- After point t the kept transposed adjacency is final on the columns stored so far (all of them from the end
    of the first layer on). -/
def AdjInv (t : ℕ) (X : Vec F S4096x4096 .bf16) : Prop :=
  ∀ (n : Fin 4096) (col : Fin 4096), (15 ≤ t ∨ col.val < 256 * (t + 1)) → X (ix2 n col) = KSpec.aT A (ix2 n col)

/-- At the end of a layer the block is the layer's whole state. -/
theorem OutInv.whole {t : ℕ} {X : Vec F S128x4096 .f32} (h : OutInv x0 W A t X) (ht : t % 16 = 15) :
    X = KSpec.stateT x0 W A (t / 16) := by
  funext j
  rw [eq_ix2 j]
  exact (h (j 0) (j 1)).1 (by have := (j 1).isLt; have : ((j 1 : Fin 4096) : ℕ) < 4096 := (j 1).isLt; omega)

/-- A load of tile i's columns of the kept transposed adjacency, once they are final, reads the specification's. -/
theorem ld_adj {t : ℕ} {X : Vec F S4096x4096 .bf16} (h : AdjInv A t X) (ht : 15 ≤ t) {off : Fin 2 → Nat} {inb} (i : ℕ) (hi : i < 16)
    (h0 : off 0 = 0) (h1 : off 1 = 256 * i) :
    View.ld X (Rect.unit (s := S4096x4096) off S4096x256.size inb) = KSpec.colTile (KSpec.aT A) i := by
  funext j
  have hj0 : ((j 0 : Fin 4096) : ℕ) < 4096 := (j 0).isLt
  have hj1 : ((j 1 : Fin 256) : ℕ) < 256 := (j 1).isLt
  have e : (Rect.unit (s := S4096x4096) off S4096x256.size inb).idx j
      = ix2 (j 0 : Fin 4096) (⟨(256 * i + (j 1 : Fin 256).val) % 4096, Nat.mod_lt _ (by decide)⟩ : Fin 4096) := by
    funext a; apply Fin.ext
    match a with
    | ⟨0, _⟩ => show off 0 + 1 * (j 0 : Fin 4096).val = (j 0 : Fin 4096).val; omega
    | ⟨1, _⟩ => show off 1 + 1 * (j 1 : Fin 256).val = (256 * i + (j 1 : Fin 256).val) % 4096; omega
  show X ((Rect.unit (s := S4096x4096) off S4096x256.size inb).idx j) = KSpec.aT A (ix2 (j 0 : Fin 4096) ⟨(256 * i + (j 1 : Fin 256).val) % 4096, Nat.mod_lt _ (by decide)⟩)
  rw [e]
  exact h _ _ (Or.inl ht)

/-- THE STEP IN THE FIRST LAYER (t < 16): the tile's columns of the state from the adjacency rows. -/
theorem OutInv.step0 (t : ℕ) (ht : t < 16) (Y : Vec F S128x4096 .f32) (hY : t = 0 ∨ OutInv x0 W A (t - 1) Y)
    {off : Fin 2 → Nat} {inb} (h0 : off 0 = 0) (h1 : off 1 = 256 * (t % 16)) :
    OutInv x0 W A t ((Rect.unit (s := S128x4096) off S128x256.size inb).overlay Y (k0_pay5 (KSpec.tileA A t) (KSpec.m0T x0 W A 0))) := by
  intro cc col
  have htm : t % 16 = t := Nat.mod_eq_of_lt ht
  have htd : t / 16 = 0 := Nat.div_eq_of_lt ht
  rw [htm] at h1
  refine ⟨fun hcol => ?_, fun h16 => by omega⟩
  rw [htd, KSpec.stateT_zero]
  by_cases hin : 256 * t ≤ col.val
  · rw [overlay_out_mem t h0 h1 Y _ cc col ⟨col.val - 256 * t, by omega⟩ (by show col.val = 256 * t + (col.val - 256 * t); omega)]
    exact (stateT0_at A _ cc col t ⟨col.val - 256 * t, by omega⟩ (by show col.val = 256 * t + (col.val - 256 * t); omega)).symm
  · rw [overlay_out_not_mem t h1 Y _ cc col (Or.inl (by omega))]
    rcases hY with rfl | hY
    · omega
    · have := (hY cc col).1 (by have : (t - 1) % 16 = t - 1 := Nat.mod_eq_of_lt (by omega); omega)
      rw [this, show (t - 1) / 16 = 0 from Nat.div_eq_of_lt (by omega), KSpec.stateT_zero]

theorem AdjInv.step0 (t : ℕ) (ht : t < 16) (X : Vec F S4096x4096 .bf16) (hX : t = 0 ∨ AdjInv A (t - 1) X)
    {off : Fin 2 → Nat} {inb} (h0 : off 0 = 0) (h1 : off 1 = 256 * (t % 16)) :
    AdjInv A t ((Rect.unit (s := S4096x4096) off S4096x256.size inb).overlay X (k0_pay4 (KSpec.tileA A t))) := by
  intro n col hcol
  have htm : t % 16 = t := Nat.mod_eq_of_lt ht
  rw [htm] at h1
  have hc : col.val < 256 * (t + 1) := by have := col.isLt; omega
  by_cases hin : 256 * t ≤ col.val
  · rw [overlay_adj_mem t h0 h1 X _ n col ⟨col.val - 256 * t, by omega⟩ (by show col.val = 256 * t + (col.val - 256 * t); omega)]
    exact (aT_at A n col t ⟨col.val - 256 * t, by omega⟩ (by show col.val = 256 * t + (col.val - 256 * t); omega)).symm
  · rw [overlay_adj_not_mem t h1 X _ n col (Or.inl (by omega))]
    rcases hX with rfl | hX
    · omega
    · exact hX n col (Or.inr (by omega))

/-- From the end of the first layer on nothing stores into the kept transposed adjacency. -/
theorem AdjInv.keep (t : ℕ) (ht : 16 ≤ t) (X : Vec F S4096x4096 .bf16) (hX : AdjInv A (t - 1) X) : AdjInv A t X :=
  fun n col _ => hX n col (Or.inl (by omega))

/-- THE STEP IN A LATER LAYER (16 ≤ t): the tile's columns of the state from the kept transposed adjacency and the
    layer's transformed features. -/
theorem OutInv.step1 (t : ℕ) (ht : 16 ≤ t) (Y : Vec F S128x4096 .f32) (hY : OutInv x0 W A (t - 1) Y)
    (Xa : Vec F S4096x4096 .bf16) (hXa : AdjInv A (t - 1) Xa)
    {off off' : Fin 2 → Nat} {inb inb'} (h0 : off 0 = 0) (h1 : off 1 = 256 * (t % 16)) (h0' : off' 0 = 0) (h1' : off' 1 = 256 * (t % 16)) :
    OutInv x0 W A t ((Rect.unit (s := S128x4096) off S128x256.size inb).overlay Y
      (k0_pay6 (KSpec.m0T x0 W A (t / 16)) (View.ld Xa (Rect.unit (s := S4096x4096) off' S4096x256.size inb')))) := by
  intro cc col
  have hlt : t % 16 < 16 := Nat.mod_lt _ (by decide)
  rw [ld_adj A hXa (by omega) (t % 16) hlt h0' h1']
  obtain ⟨l, hl⟩ : ∃ l, t / 16 = l + 1 := ⟨t / 16 - 1, by omega⟩
  refine ⟨fun hcol => ?_, fun _ hcol => ?_⟩
  · by_cases hin : 256 * (t % 16) ≤ col.val
    · rw [overlay_out_mem (t % 16) h0 h1 Y _ cc col ⟨col.val - 256 * (t % 16), by omega⟩ (by show col.val = 256 * (t % 16) + (col.val - 256 * (t % 16)); omega)]
      rw [hl, KSpec.stateT_succ]
      exact (stateT1_at A _ cc col (t % 16) ⟨col.val - 256 * (t % 16), by omega⟩ (by show col.val = 256 * (t % 16) + (col.val - 256 * (t % 16)); omega)).symm
    · rw [overlay_out_not_mem (t % 16) h1 Y _ cc col (Or.inl (by omega))]
      have := (hY cc col).1 (by omega)
      rw [this, show (t - 1) / 16 = t / 16 by omega]
  · rw [overlay_out_not_mem (t % 16) h1 Y _ cc col (Or.inr (by omega))]
    by_cases hz : t % 16 = 0
    · have := (hY cc col).1 (by have := col.isLt; omega)
      rw [this, show (t - 1) / 16 = t / 16 - 1 by omega]
    · have := (hY cc col).2 (by omega) (by omega)
      rw [this, show (t - 1) / 16 - 1 = t / 16 - 1 by omega]

end Inv

end Cert.KernelIdeal.Gen

end
-- ==== Proof.KNodeDat.lean ====
/- Region 0 (the node kernel) as relational proof data: the arrays as the region finds them; what each input window's
   block is; the invariant (the two scratch buffers at what the point before left); and the body obligation at every
   point, by cases on the branch the point takes. The output's staging buffer is only partly overwritten per point
   and holds unknown contents at first, so what the body leaves there is constrained (it satisfies the run's
   invariant), not named. -/
import proofs.«179636_g2000605474969623_pallasbulk_585_7_alg».proof.Proof.KNodeInv

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

section Region0
variable (V : (c : Dev nD) → (b : Ref sig .tc) → Buf (Elt F) ((c : Thread nD τ).loc b))

/-- The arrays the node kernel reads, as the region finds them: the features, the weight stack, the adjacency. -/
abbrev nX0 (c : Dev nD) : Vec F S4096x128 .f32 := V c main_arg0
abbrev nW (c : Dev nD) : Vec F S3x128x128 .f32 := V c main_arg4
abbrev nA (c : Dev nD) : Vec F S4096x4096 .f32 := V c main_arg2

/-- Window w's block at point t, read off its array as the region finds it. -/
def nblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The windows' block indices over the grid: the features and the state are one whole block; the weights' block is
    the layer; the adjacency's block in the first layer is the tile. -/
theorem hidx : ∀ t : Fin cfg0.N,
    win0_0.index t (0 : Fin 2) = 0 ∧ win0_0.index t (1 : Fin 2) = 0
    ∧ win0_1.index t (0 : Fin 3) = t.val / 16 ∧ win0_1.index t (1 : Fin 3) = 0 ∧ win0_1.index t (2 : Fin 3) = 0
    ∧ (t.val < 16 → win0_2.index t (0 : Fin 2) = t.val) ∧ win0_2.index t (1 : Fin 2) = 0 :=
  (by decide +kernel : ∀ t : Fin grid0.N, _)

theorem nblk_0 (c : Dev nD) (t : Fin cfg0.N) : nblk V c 0 t = nX0 V c := by
  obtain ⟨e0, e1, -⟩ := hidx t
  funext j
  show V c main_arg0 (((cfg0.win 0).blk t).view.emb j) = V c main_arg0 j
  refine congrArg _ ?_
  funext a; apply Fin.ext
  match a with
  | ⟨0, _⟩ => show win0_0.index t (0 : Fin 2) * 4096 + 1 * (j 0).val = (j 0).val; omega
  | ⟨1, _⟩ => show win0_0.index t (1 : Fin 2) * 128 + 1 * (j 1).val = (j 1).val; omega

theorem nblk_1 (c : Dev nD) (t : Fin cfg0.N) : nblk V c 1 t = KSpec.wBlk (nW V c) (t.val / 16) := by
  obtain ⟨-, -, e0, e1, e2, -⟩ := hidx t
  have hN : t.val < 48 := lt_of_lt_of_eq t.isLt N_0
  funext j
  show V c main_arg4 (((cfg0.win 1).blk t).view.emb j) = V c main_arg4 (ix3 (⟨(t.val / 16) % 3, Nat.mod_lt _ (by decide)⟩ : Fin 3) (j 1 : Fin 128) (j 2 : Fin 128))
  refine congrArg _ ?_
  funext a; apply Fin.ext
  match a with
  | ⟨0, _⟩ => show win0_1.index t (0 : Fin 3) * 1 + 1 * (j 0).val = (t.val / 16) % 3; have hj : (j 0).val < 1 := (j 0).isLt; omega
  | ⟨1, _⟩ => show win0_1.index t (1 : Fin 3) * 128 + 1 * (j 1).val = (j 1).val; omega
  | ⟨2, _⟩ => show win0_1.index t (2 : Fin 3) * 128 + 1 * (j 2).val = (j 2).val; omega

theorem nblk_2 (c : Dev nD) (t : Fin cfg0.N) (ht : t.val < 16) : nblk V c 2 t = KSpec.tileA (nA V c) t.val := by
  obtain ⟨-, -, -, -, -, e0, e1⟩ := hidx t
  have e0 := e0 ht
  funext j
  show V c main_arg2 (((cfg0.win 2).blk t).view.emb j) = V c main_arg2 (ix2 (⟨(256 * t.val + (j 0 : Fin 256).val) % 4096, Nat.mod_lt _ (by decide)⟩ : Fin 4096) (j 1 : Fin 4096))
  refine congrArg _ ?_
  funext a; apply Fin.ext
  match a with
  | ⟨0, _⟩ => show win0_2.index t (0 : Fin 2) * 256 + 1 * (j 0).val = (256 * t.val + (j 0 : Fin 256).val) % 4096; have hj : (j 0).val < 256 := (j 0).isLt; omega
  | ⟨1, _⟩ => show win0_2.index t (1 : Fin 2) * 4096 + 1 * (j 1).val = (j 1).val; omega

/-! ## The invariant -/

abbrev scN0 : Memref sig .tc .vmem S4096x4096 .bf16 := Memref.whole cc0_scratch0
abbrev scN1 : Memref sig .tc .vmem S128x4096 .bf16 := Memref.whole cc0_scratch1

/-- The scoped buffers the node kernel does not touch (the face kernel's), each at some contents. -/
def nrest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the node kernel's two scratch buffers as memrefs owned at some contents. -/
theorem PhiA0_eq (c : Dev nD) :
    (Pipeline.ΦA spec0 c : sProp 𝕄)
      = iprop(((∃ d, owns (c : Thread nD τ) scN0 fullShare d) ∗ (∃ d, owns (c : Thread nD τ) scN1 fullShare d) ∗ nrest (F := F) c) ∗ (∃ r, prngReg c r)) := by
  unfold Pipeline.ΦA nrest; rw [scopedRest0_eq]; simp only [scN0, scN1, owns_whole]; try rfl

/-- The region invariant before position n: before the first point the class's (both scratch buffers at anything);
    afterwards the kept transposed adjacency final on the columns stored so far, and the transformed features of the
    layer of the point before. -/
def PhiN (c : Dev nD) : ℕ → sProp 𝕄
  | 0 => Pipeline.ΦA spec0 c
  | n + 1 => iprop(((∃ x6, ⌜AdjInv (nA V c) n x6⌝ ∗ owns (c : Thread nD τ) scN0 fullShare x6)
      ∗ owns (c : Thread nD τ) scN1 fullShare (KSpec.m0T (nX0 V c) (nW V c) (nA V c) (n / 16)) ∗ nrest (F := F) c) ∗ (∃ r, prngReg c r))

theorem PhiN_succ (c : Dev nD) (n : ℕ) : PhiN V c (n + 1) = iprop(((∃ x6, ⌜AdjInv (nA V c) n x6⌝ ∗ owns (c : Thread nD τ) scN0 fullShare x6)
      ∗ owns (c : Thread nD τ) scN1 fullShare (KSpec.m0T (nX0 V c) (nW V c) (nA V c) (n / 16)) ∗ nrest (F := F) c) ∗ (∃ r, prngReg c r)) := rfl

theorem PhiN_pos (c : Dev nD) (n : ℕ) (hn : n ≠ 0) : PhiN V c n = iprop(((∃ x6, ⌜AdjInv (nA V c) (n - 1) x6⌝ ∗ owns (c : Thread nD τ) scN0 fullShare x6)
      ∗ owns (c : Thread nD τ) scN1 fullShare (KSpec.m0T (nX0 V c) (nW V c) (nA V c) ((n - 1) / 16)) ∗ nrest (F := F) c) ∗ (∃ r, prngReg c r)) := by
  cases n with
  | zero => exact absurd rfl hn
  | succ n => rfl

/-! ## The proof data -/

/-- Region 0's relational proof data on core c: the arrays as the region finds them; each input's buffer left as
    found; the output's buffer left satisfying the run's invariant at the point; the scratch invariant; nothing owed. -/
def nrd (c : Dev nD) : RDat τ (Elt F) Unit ℕ (UR sig nD τ) ℕ cfg0 c where
  A w := V c (Pipeline.arrRef spec0 w)
  after w t Y X := match w with
    | ⟨0, _⟩ => X = Y
    | ⟨1, _⟩ => X = Y
    | ⟨2, _⟩ => X = Y
    | ⟨3, _⟩ => OutInv (nX0 V c) (nW V c) (nA V c) t.val X
  Φ t := PhiN V c t.val
  q _ := fullShare
  owed _ := 0

theorem nrd_A (c : Dev nD) (w : Fin cfg0.W) : (nrd V c).A w = V c (Pipeline.arrRef spec0 w) := by dsimp only [nrd]

/-- The output window is never fetched. -/
theorem nfetch3 : ∀ t : Fin cfg0.N, (cfg0.win 3).fetch t = false :=
  (by decide +kernel : ∀ t : Fin grid0.N, win0_3.fetch t = false)

/-- Each input's current staging buffer holds its block at every point, fetched there or not. -/
theorem nfinds_0 (c : Dev nD) (t : Fin cfg0.N) (Y) (h : (nrd V c).Finds 0 t Y) : Y = nX0 V c := by
  obtain ⟨d, hd⟩ := (nrd V c).finds_in_eq_fetched 0 rfl (fun _ _ _ => rfl) (fun _ _ _ h => h) t Y h
  refine hd.trans (Eq.trans ?_ (nblk_0 V c t))
  unfold RDat.fetched RDat.blockOf nblk; rw [nrd_A]; try rfl
theorem nfinds_1 (c : Dev nD) (t : Fin cfg0.N) (Y) (h : (nrd V c).Finds 1 t Y) : Y = KSpec.wBlk (nW V c) (t.val / 16) := by
  obtain ⟨d, hd⟩ := (nrd V c).finds_in_eq_fetched 1 rfl (fun _ _ _ => rfl) (fun _ _ _ h => h) t Y h
  refine hd.trans (Eq.trans ?_ (nblk_1 V c t))
  unfold RDat.fetched RDat.blockOf nblk; rw [nrd_A]; try rfl
theorem nfinds_2 (c : Dev nD) (t : Fin cfg0.N) (ht : t.val < 16) (Y) (h : (nrd V c).Finds 2 t Y) : Y = KSpec.tileA (nA V c) t.val := by
  obtain ⟨d, hd⟩ := (nrd V c).finds_in_eq_fetched 2 rfl (fun _ _ _ => rfl) (fun _ _ _ h => h) t Y h
  refine hd.trans (Eq.trans ?_ (nblk_2 V c t ht))
  unfold RDat.fetched RDat.blockOf nblk; rw [nrd_A]; try rfl

/-- After the first point the output's buffer holds what the point before left: it satisfies that point's invariant. -/
theorem nfinds_3 (c : Dev nD) (t : Fin cfg0.N) (ht : t.val ≠ 0) (Y) (h : (nrd V c).Finds 3 t Y) :
    OutInv (nX0 V c) (nW V c) (nA V c) (t.val - 1) Y := by
  rcases ((nrd V c).finds_of_pos (nfetch3 t) ht Y).mp h with hfl | ⟨Y', -, hR⟩
  · exfalso
    have h47 := (flush0_3 _).mp hfl
    have hN : t.val < 48 := lt_of_lt_of_eq t.isLt N_0
    simp only at h47
    omega
  · exact hR

/-! ## The body obligation -/

theorem PhiN_zero (c : Dev nD) (n : ℕ) (hn : n = 0) : PhiN V c n = Pipeline.ΦA spec0 c := by subst hn; rfl

set_option maxHeartbeats 8000000 in
/-- The body at any point, the windows' buffers at contents of plain types: the inputs at their blocks, the output's
    (after the first point) satisfying the point before's invariant. By cases on the branch the point takes. -/
theorem nsound_core (c : Dev nD) (t : Fin cfg0.N)
    (y0 : Vec F S4096x128 .f32) (y1 : Vec F S1x128x128 .f32) (y2 : Vec F S256x4096 .f32) (y3 : Vec F S128x4096 .f32)
    (e0 : y0 = nX0 V c) (e1 : y1 = KSpec.wBlk (nW V c) (t.val / 16)) (e2 : t.val < 16 → y2 = KSpec.tileA (nA V c) t.val)
    (e3 : t.val ≠ 0 → OutInv (nX0 V c) (nW V c) (nA V c) (t.val - 1) y3) :
    iprop(PhiN V c t.val ∗ (nrd V c).owesAt () t.castSucc
        ∗ owns (c : Thread nD τ) (st0_0 t) fullShare y0 ∗ owns (c : Thread nD τ) (st0_1 t) fullShare y1
        ∗ owns (c : Thread nD τ) (st0_2 t) fullShare y2 ∗ owns (c : Thread nD τ) (st0_3 t) fullShare y3)
      ⊢ wp frame (wpE (defs₀ (F := F)) Variants.none c none) Set.univ (bodyAt0 t) (fun _ =>
          iprop(PhiN V c (t.val + 1) ∗ (nrd V c).owesAt () t.castSucc
            ∗ owns (c : Thread nD τ) (st0_0 t) fullShare y0 ∗ owns (c : Thread nD τ) (st0_1 t) fullShare y1
            ∗ owns (c : Thread nD τ) (st0_2 t) fullShare y2
            ∗ (∃ X, ⌜OutInv (nX0 V c) (nW V c) (nA V c) t.val X⌝ ∗ owns (c : Thread nD τ) (st0_3 t) fullShare X))) := by
  subst e0 e1
  have hN : t.val < 48 := lt_of_lt_of_eq t.isLt N_0
  obtain ⟨o10, o11, o20, o21, o30, o31, o40, o41⟩ := hoff t
  rw [PhiN_succ]
  unfold bodyAt0
  by_cases hl : t.val < 16
  · obtain rfl := e2 hl
    have c3 : nc3 (grid0.coords t) := (hnc3 t).mpr hl
    have c4 : ¬ nc4 (grid0.coords t) := fun h => by have := (hnc4 t).mp h; omega
    have c2 : ¬ nc2 (grid0.coords t) := fun h => by have := (hnc2 t).mp h; omega
    have hd : t.val / 16 = 0 := Nat.div_eq_of_lt hl
    by_cases hz : t.val = 0
    · have c1 : nc1 (grid0.coords t) := (hnc1 t).mpr hz
      rw [PhiN_zero V c _ hz, PhiA0_eq]
      rw [show KSpec.m0T (nX0 V c) (nW V c) (nA V c) (t.val / 16) = k0_pay1 (KSpec.wBlk (nW V c) (t.val / 16)) (nX0 V c) from by rw [hd]; rfl]
      iintro ⟨⟨⟨⟨%d6, H6⟩, ⟨%d7, H7⟩, Hrest⟩, Hg⟩, Ho, H0, H1, H2, H3⟩
      iapply (node_run_A c Set.univ (grid0.coords t) c1 c2 c3 c4 _ _ _ _ _ _ _ _ _ _ _ _ (nX0 V c) (KSpec.wBlk (nW V c) (t.val / 16)) (KSpec.tileA (nA V c) t.val) y3 d6 d7 _)
      isplitl [H0]; · iexact H0
      isplitl [H1]; · iexact H1
      isplitl [H2]; · iexact H2
      isplitl [H3]; · iexact H3
      isplitl [H6]; · iexact H6
      isplitl [H7]; · iexact H7
      iintro ⟨H0, H1, H2, H3, H6, H7⟩
      isplitl [H6 H7 Hrest Hg]
      · isplitl [H6 H7 Hrest]
        · isplitl [H6]
          · iexists _; isplitr
            swap; · iexact H6
            ipureintro
            exact AdjInv.step0 (nA V c) t.val hl d6 (Or.inl hz) o10 o11
          isplitl [H7]; · iexact H7
          iexact Hrest
        iexact Hg
      isplitl [Ho]; · iexact Ho
      isplitl [H0]; · iexact H0
      isplitl [H1]; · iexact H1
      isplitl [H2]; · iexact H2
      iexists _; isplitr
      swap; · iexact H3
      ipureintro
      have hm : k0_pay1 (KSpec.wBlk (nW V c) (t.val / 16)) (nX0 V c) = KSpec.m0T (nX0 V c) (nW V c) (nA V c) 0 := by rw [hd]; rfl
      rw [hm]
      exact OutInv.step0 (nX0 V c) (nW V c) (nA V c) t.val hl y3 (Or.inl hz) o20 o21
    · have c1 : ¬ nc1 (grid0.coords t) := fun h => hz ((hnc1 t).mp h)
      rw [PhiN_pos V c _ hz]
      rw [show (t.val - 1) / 16 = 0 from Nat.div_eq_of_lt (by omega), hd]
      iintro ⟨⟨⟨⟨%x6, %hx6, H6⟩, H7, Hrest⟩, Hg⟩, Ho, H0, H1, H2, H3⟩
      iapply (node_run_B c Set.univ (grid0.coords t) c1 c2 c3 c4 _ _ _ _ _ _ _ _ _ _ _ _ (nX0 V c) (KSpec.wBlk (nW V c) 0) (KSpec.tileA (nA V c) t.val) y3 x6 (KSpec.m0T (nX0 V c) (nW V c) (nA V c) 0) _)
      isplitl [H0]; · iexact H0
      isplitl [H1]; · iexact H1
      isplitl [H2]; · iexact H2
      isplitl [H3]; · iexact H3
      isplitl [H6]; · iexact H6
      isplitl [H7]; · iexact H7
      iintro ⟨H0, H1, H2, H3, H6, H7⟩
      isplitl [H6 H7 Hrest Hg]
      · isplitl [H6 H7 Hrest]
        · isplitl [H6]
          · iexists _; isplitr
            swap; · iexact H6
            ipureintro
            exact AdjInv.step0 (nA V c) t.val hl x6 (Or.inr hx6) o10 o11
          isplitl [H7]; · iexact H7
          iexact Hrest
        iexact Hg
      isplitl [Ho]; · iexact Ho
      isplitl [H0]; · iexact H0
      isplitl [H1]; · iexact H1
      isplitl [H2]; · iexact H2
      iexists _; isplitr
      swap; · iexact H3
      ipureintro
      exact OutInv.step0 (nX0 V c) (nW V c) (nA V c) t.val hl y3 (Or.inr (e3 hz)) o20 o21
  · have h16 : 16 ≤ t.val := by omega
    have hz : t.val ≠ 0 := by omega
    have c1 : ¬ nc1 (grid0.coords t) := fun h => hz ((hnc1 t).mp h)
    have c3 : ¬ nc3 (grid0.coords t) := fun h => hl ((hnc3 t).mp h)
    have c4 : nc4 (grid0.coords t) := (hnc4 t).mpr h16
    have hy3 := e3 hz
    rw [PhiN_pos V c _ hz]
    by_cases hm : t.val % 16 = 0
    · have c2 : nc2 (grid0.coords t) := (hnc2 t).mpr ⟨hm, h16⟩
      obtain ⟨l, hl1, hl0⟩ : ∃ l, t.val / 16 = l + 1 ∧ (t.val - 1) / 16 = l := ⟨t.val / 16 - 1, by omega, by omega⟩
      have hw : y3 = KSpec.stateT (nX0 V c) (nW V c) (nA V c) l := by
        have := OutInv.whole (nX0 V c) (nW V c) (nA V c) hy3 (by omega)
        rwa [hl0] at this
      have hmT : k0_pay2 (KSpec.wBlk (nW V c) (t.val / 16)) y3 = KSpec.m0T (nX0 V c) (nW V c) (nA V c) (t.val / 16) := by
        rw [hw, hl1]; rfl
      rw [← hmT]
      iintro ⟨⟨⟨⟨%x6, %hx6, H6⟩, H7, Hrest⟩, Hg⟩, Ho, H0, H1, H2, H3⟩
      iapply (node_run_C c Set.univ (grid0.coords t) c1 c2 c3 c4 _ _ _ _ _ _ _ _ _ _ _ _ (nX0 V c) (KSpec.wBlk (nW V c) (t.val / 16)) y2 y3 x6 (KSpec.m0T (nX0 V c) (nW V c) (nA V c) ((t.val - 1) / 16)) _)
      isplitl [H0]; · iexact H0
      isplitl [H1]; · iexact H1
      isplitl [H2]; · iexact H2
      isplitl [H3]; · iexact H3
      isplitl [H6]; · iexact H6
      isplitl [H7]; · iexact H7
      iintro ⟨H0, H1, H2, H3, H6, H7⟩
      isplitl [H6 H7 Hrest Hg]
      · isplitl [H6 H7 Hrest]
        · isplitl [H6]
          · iexists _; isplitr
            swap; · iexact H6
            ipureintro
            exact AdjInv.keep (nA V c) t.val h16 x6 hx6
          isplitl [H7]; · iexact H7
          iexact Hrest
        iexact Hg
      isplitl [Ho]; · iexact Ho
      isplitl [H0]; · iexact H0
      isplitl [H1]; · iexact H1
      isplitl [H2]; · iexact H2
      iexists _; isplitr
      swap; · iexact H3
      ipureintro
      rw [hmT]
      exact OutInv.step1 (nX0 V c) (nW V c) (nA V c) t.val h16 y3 hy3 x6 hx6 o40 o41 o30 o31
    · have c2 : ¬ nc2 (grid0.coords t) := fun h => hm ((hnc2 t).mp h).1
      rw [show (t.val - 1) / 16 = t.val / 16 from by omega]
      iintro ⟨⟨⟨⟨%x6, %hx6, H6⟩, H7, Hrest⟩, Hg⟩, Ho, H0, H1, H2, H3⟩
      iapply (node_run_D c Set.univ (grid0.coords t) c1 c2 c3 c4 _ _ _ _ _ _ _ _ _ _ _ _ (nX0 V c) (KSpec.wBlk (nW V c) (t.val / 16)) y2 y3 x6 (KSpec.m0T (nX0 V c) (nW V c) (nA V c) (t.val / 16)) _)
      isplitl [H0]; · iexact H0
      isplitl [H1]; · iexact H1
      isplitl [H2]; · iexact H2
      isplitl [H3]; · iexact H3
      isplitl [H6]; · iexact H6
      isplitl [H7]; · iexact H7
      iintro ⟨H0, H1, H2, H3, H6, H7⟩
      isplitl [H6 H7 Hrest Hg]
      · isplitl [H6 H7 Hrest]
        · isplitl [H6]
          · iexists _; isplitr
            swap; · iexact H6
            ipureintro
            exact AdjInv.keep (nA V c) t.val h16 x6 hx6
          isplitl [H7]; · iexact H7
          iexact Hrest
        iexact Hg
      isplitl [Ho]; · iexact Ho
      isplitl [H0]; · iexact H0
      isplitl [H1]; · iexact H1
      isplitl [H2]; · iexact H2
      iexists _; isplitr
      swap; · iexact H3
      ipureintro
      exact OutInv.step1 (nX0 V c) (nW V c) (nA V c) t.val h16 y3 hy3 x6 hx6 o40 o41 o30 o31

/-- The library's body obligation (relational form), at every point: the inputs' buffers hold their blocks, the
    output's what the point before left; each buffer is handed back in its relation to what was found. -/
theorem nbody (c : Dev nD) : (nrd V c).BodyObligation (defs₀ (F := F)) Variants.none () Set.univ := fun t Y hY => by
  rw [bigSep_W0, bigSep_W0]
  have e0 := nfinds_0 V c t _ (hY 0)
  have e1 := nfinds_1 V c t _ (hY 1)
  have e2 : t.val < 16 → Y 2 = KSpec.tileA (nA V c) t.val := fun h => nfinds_2 V c t h _ (hY 2)
  have e3 : t.val ≠ 0 → OutInv (nX0 V c) (nW V c) (nA V c) (t.val - 1) (Y 3) := fun h => nfinds_3 V c t h _ (hY 3)
  refine (nsound_core V c t (Y 0) (Y 1) (Y 2) (Y 3) e0 e1 e2 e3).trans (wp_mono _ _ _ fun _ => ?_)
  rw [show (nrd V c).Φ t.succ = PhiN V c (t.val + 1) from rfl, show (nrd V c).owesAt () t.succ = (nrd V c).owesAt () t.castSucc from rfl]
  iintro ⟨HΦ, Ho, H0, H1, H2, H3⟩
  isplitl [HΦ]; · iexact HΦ
  isplitl [Ho]; · iexact Ho
  isplitl [H0]; · iexists _; isplitr; · ipureintro; exact rfl
                  iexact H0
  isplitl [H1]; · iexists _; isplitr; · ipureintro; exact rfl
                  iexact H1
  isplitl [H2]; · iexists _; isplitr; · ipureintro; exact rfl
                  iexact H2
  iexact H3

/-- What the launch hands the region is the invariant before the first point. -/
theorem nhin (c : Dev nD) : Pipeline.ΦA spec0 c ⊢ (nrd V c).Φ 0 := by
  rw [show (nrd V c).Φ 0 = Pipeline.ΦA spec0 c from rfl]

/-- After the last point the invariant gives the class's back: the scratch buffers' named contents are forgotten. -/
theorem nhout (c : Dev nD) : (nrd V c).Φ (Fin.last cfg0.N) ⊢ Pipeline.ΦA spec0 c := by
  rw [show (nrd V c).Φ (Fin.last cfg0.N) = PhiN V c 48 from rfl, PhiN_pos V c 48 (by decide), PhiA0_eq]
  iintro ⟨⟨⟨%x6, -, H6⟩, H7, Hrest⟩, Hg⟩
  isplitl [H6 H7 Hrest]
  · isplitl [H6]; · iexists _; iexact H6
    isplitl [H7]; · iexists _; iexact H7
    iexact Hrest
  iexact Hg

/-! ## The arrays after the region -/

theorem hidx3 : ∀ t : Fin cfg0.N, win0_3.index t (0 : Fin 2) = 0 ∧ win0_3.index t (1 : Fin 2) = 0 :=
  (by decide +kernel : ∀ t : Fin grid0.N, _)

/-- No write-back before the last point. -/
theorem nArrAt_lt (c : Dev nD) : ∀ n, n ≤ 47 → (nrd V c).ArrAt 3 n = (nrd V c).ArrAt 3 0
  | 0, _ => rfl
  | n + 1, h => by
    have hn : n < cfg0.N := by have := N_0; show n < grid0.N; omega
    rw [show n + 1 = (⟨n, hn⟩ : Fin cfg0.N).val + 1 from rfl, RDat.ArrAt_succ,
      if_neg (by intro hf; have := (flush0_3 ⟨n, hn⟩).mp hf; simp only at this; omega)]
    exact nArrAt_lt c n (by omega)

/-- The state array after the region: the one write-back, at the last point, of a block that is the whole array and
    holds the last layer's whole transposed state. -/
theorem nfinal_3 (c : Dev nD) (G : Buf (Elt F) ((cfg0.win 3).arr.view.loc (c.tc : Thread nD τ))) (h : (nrd V c).ArrAt 3 cfg0.N G) :
    G = (KSpec.stateT (nX0 V c) (nW V c) (nA V c) 2 : Vec F S128x4096 .f32) := by
  have h47 : (47 : ℕ) < cfg0.N := by have := N_0; show 47 < grid0.N; omega
  rw [show cfg0.N = (⟨47, h47⟩ : Fin cfg0.N).val + 1 from N_0, RDat.ArrAt_succ, if_pos ((flush0_3 _).mpr rfl)] at h
  obtain ⟨G₀, X, -, ⟨Y, -, hX⟩, rfl⟩ := h
  have hw : X = KSpec.stateT (nX0 V c) (nW V c) (nA V c) 2 := OutInv.whole (t := 47) (nX0 V c) (nW V c) (nA V c) hX (by decide)
  obtain ⟨i0, i1⟩ := hidx3 ⟨47, h47⟩
  funext i
  have hi : i = ((cfg0.win 3).blk ⟨47, h47⟩).view.emb i := by
    funext a; apply Fin.ext
    match a with
    | ⟨0, _⟩ => show (i 0).val = win0_3.index ⟨47, h47⟩ (0 : Fin 2) * 128 + 1 * (i 0).val; omega
    | ⟨1, _⟩ => show (i 1).val = win0_3.index ⟨47, h47⟩ (1 : Fin 2) * 4096 + 1 * (i 1).val; omega
  refine (congrArg _ hi).trans ?_
  rw [View.write_emb_of_mem _ _ (Finset.mem_univ _), hw]
  rfl

/-- The region's arrays after it: the three inputs as found, the state array at the last layer's transposed state. -/
theorem nfinal_0 (c : Dev nD) (G) (h : (nrd V c).ArrAt 0 cfg0.N G) : G = V c main_arg0 := by
  rw [RDat.ArrAt_in _ 0 rfl] at h; exact h.trans (nrd_A V c 0)
theorem nfinal_1 (c : Dev nD) (G) (h : (nrd V c).ArrAt 1 cfg0.N G) : G = V c main_arg4 := by
  rw [RDat.ArrAt_in _ 1 rfl] at h; exact h.trans (nrd_A V c 1)
theorem nfinal_2 (c : Dev nD) (G) (h : (nrd V c).ArrAt 2 cfg0.N G) : G = V c main_arg2 := by
  rw [RDat.ArrAt_in _ 2 rfl] at h; exact h.trans (nrd_A V c 2)

end Region0

end Cert.KernelIdeal.Gen

end
-- ==== Proof.KFaceBody.lean ====
/- The face kernel's body, case by case: at the first tile of a core's run it fills the scratch with the
   transformed edge features; at every tile it stores the tile's rows of the result. -/
import proofs.«179636_g2000605474969623_pallasbulk_585_7_alg».proof.Proof.Gen.KernelIdeal.Launch
import proofs.«179636_g2000605474969623_pallasbulk_585_7_alg».proof.Proof.Gen.KernelIdeal.Skeleton
import proofs.«179636_g2000605474969623_pallasbulk_585_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

theorem fhz2 : (![0, 0] : Fin 2 → Nat) = fun _ => 0 := by funext a; fin_cases a <;> rfl

/-- The condition under which the face kernel recomputes its scratch: the tile is the first of its core's run. -/
abbrev fcond (i : grid1.Coords) : Prop := (Scalar.cmpi .ne (Scalar.extui (Scalar.cmpi .eq (BitVec.ofNat 32 (i 1).val) 0#32)) 0#32) = 1#1

set_option maxHeartbeats 2000000 in
/-- A later tile: the tile's rows of the result from the kept transformed edge features. -/
theorem face_run_later (c : Dev nD) (E : Set ℕ) (i : grid1.Coords) (hc : ¬ fcond i)
    (arg2 : Memref sig .tc .vmem S8192x128 .f32) (harg2 : arg2.IsWhole) (arg3 : Memref sig .tc .vmem S128x128 .f32) (harg3 : arg3.IsWhole)
    (arg4 : Memref sig .tc .vmem S256x8192 .f32) (harg4 : arg4.IsWhole) (arg5 : Memref sig .tc .vmem S256x128 .f32) (harg5 : arg5.IsWhole)
    (arg6 : Memref sig .tc .vmem S8192x128 .bf16) (harg6 : arg6.IsWhole)
    (x2 : Vec F S8192x128 .f32) (x3 : Vec F S128x128 .f32) (x4 : Vec F S256x8192 .f32) (x5 : Vec F S256x128 .f32) (x6 : Vec F S8192x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4 ∗ owns (c : Thread nD τ) arg5 fullShare (k1_pay2 x4 x6) ∗ owns (c : Thread nD τ) arg6 fullShare x6) -∗ K ⟨⟩))
      ⊢ wp frame (wpE (defs₀ (F := F)) Variants.none c none) E (cc1__face_kernel i arg2 harg2 arg3 harg3 arg4 harg4 arg5 harg5 arg6 harg6) K := by
  simp only [cc1__face_kernel_eq_skeleton]; unfold cc1__face_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero fhz2 inb_S256x128_S256x128_0_0 y⟩), View.canon_unit_zero fhz2]
    simp only [View.readAt_eq_ld, harg4.read_unread, harg6.read_unread]
    rw [View.ld_unit_zero (S := S256x8192) fhz2, View.ld_unit_zero (S := S8192x128) fhz2]
  iexists _; isplitr
  swap; · iexact H6
  ipureintro
  exact harg6.read_unread _

set_option maxHeartbeats 2000000 in
/-- The first tile of a core's run: the transformed edge features are computed and kept, then the tile's rows of the result. -/
theorem face_run_first (c : Dev nD) (E : Set ℕ) (i : grid1.Coords) (hc : fcond i)
    (arg2 : Memref sig .tc .vmem S8192x128 .f32) (harg2 : arg2.IsWhole) (arg3 : Memref sig .tc .vmem S128x128 .f32) (harg3 : arg3.IsWhole)
    (arg4 : Memref sig .tc .vmem S256x8192 .f32) (harg4 : arg4.IsWhole) (arg5 : Memref sig .tc .vmem S256x128 .f32) (harg5 : arg5.IsWhole)
    (arg6 : Memref sig .tc .vmem S8192x128 .bf16) (harg6 : arg6.IsWhole)
    (x2 : Vec F S8192x128 .f32) (x3 : Vec F S128x128 .f32) (x4 : Vec F S256x8192 .f32) (x5 : Vec F S256x128 .f32) (x6 : Vec F S8192x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4 ∗ owns (c : Thread nD τ) arg5 fullShare (k1_pay2 x4 (k1_pay1 x2 x3)) ∗ owns (c : Thread nD τ) arg6 fullShare (k1_pay1 x2 x3)) -∗ K ⟨⟩))
      ⊢ wp frame (wpE (defs₀ (F := F)) Variants.none c none) E (cc1__face_kernel i arg2 harg2 arg3 harg3 arg4 harg4 arg5 harg5 arg6 harg6) K := by
  simp only [cc1__face_kernel_eq_skeleton]; unfold cc1__face_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero fhz2 inb_S256x128_S256x128_0_0 y⟩), View.canon_unit_zero fhz2]
    simp only [View.readAt_eq_ld, harg4.read_unread, harg2.read_unread, harg3.read_unread]
    rw [View.readCov_unit_zero _ fhz2, View.ld_unit_zero (S := S256x8192) fhz2, View.ld_unit_zero (S := S8192x128) fhz2, View.ld_unit_zero (S := S128x128) fhz2]
  iexists _; isplitr
  swap; · iexact H6
  ipureintro
  sl_unfold_run_names
  rw [View.read_writes_eq_canon _ _ _ (fun y => ⟨_, List.mem_singleton_self _, View.mem_set_unit_zero fhz2 inb_S8192x128_S8192x128_0_0 y⟩), View.canon_unit_zero fhz2]
  simp only [View.readAt_eq_ld, harg2.read_unread, harg3.read_unread]
  rw [View.ld_unit_zero (S := S8192x128) fhz2, View.ld_unit_zero (S := S128x128) fhz2]

end Cert.KernelIdeal.Gen

end
-- ==== Proof.KFaceDat.lean ====
/- The face region of the kernel program as proof data for its pipeline: what each window's staging buffer may hold
   after the body at each tile, the scratch (the transformed edge features) carried from tile to tile, the body's
   obligation at every tile, and the result array after the eight tiles, row block by row block. -/
import proofs.«179636_g2000605474969623_pallasbulk_585_7_alg».proof.Proof.KFaceBody
import proofs.«179636_g2000605474969623_pallasbulk_585_7_alg».proof.Proof.KSpec

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data -/

/-- The transformed edge features, as the first tile of a core's run leaves them in the scratch. -/
abbrev fm1 (c : Dev nD) : Vec F S8192x128 .bf16 := k1_pay1 (V c main_arg1) (V c main_v3)

/-- The incidence rows of tile `t`: window 2's block there. -/
abbrev fblk2 (c : Dev nD) (t : Fin cfg1.N) : Vec F S256x8192 .f32 :=
  ((cfg1.win 2).blk t).view.read (Elt F) (V c main_arg3)

/-- A scoped buffer of the core at some contents. -/
abbrev anyAt (c : Dev nD) (b : Ref sig .tc) : sProp 𝕄 :=
  iprop(∃ f : Buf (Elt F) ((c : Thread nD τ).loc b), ((c : Thread nD τ).loc b) ↦{fullShare} f)

/-- The region's invariant after a tile: the face kernel's scratch at the transformed edge features, the core's other
    scoped buffers at anything, the generator register at some state. -/
def fPhiS (c : Dev nD) : sProp 𝕄 :=
  iprop((anyAt (F := F) c cc0_stg0_0 ∗ anyAt (F := F) c cc0_stg1_0 ∗ anyAt (F := F) c cc0_stg1_1 ∗ anyAt (F := F) c cc0_stg2_0
      ∗ anyAt (F := F) c cc0_stg2_1 ∗ anyAt (F := F) c cc0_stg3_0 ∗ anyAt (F := F) c cc0_scratch0 ∗ anyAt (F := F) c cc0_scratch1
      ∗ owns (c : Thread nD τ) (Memref.whole cc1_scratch0) fullShare (fm1 V c)) ∗ ∃ r, prngReg c r)

/-- The region's invariant before tile `n`: before the first, every scratch at anything; afterwards `fPhiS`. -/
def fPhi (c : Dev nD) : ℕ → sProp 𝕄
  | 0 => Pipeline.ΦA spec1 c
  | _ + 1 => fPhiS V c

theorem fPhi_pos (c : Dev nD) (n : ℕ) (h : n ≠ 0) : fPhi V c n = fPhiS V c := by
  cases n with
  | zero => exact absurd rfl h
  | succ n => rfl

/-- The face region's proof data on core `c`: the three inputs' buffers are left as found; the output's buffer is
    left at the tile's rows of the result; the scratch is carried in the invariant; nothing owed; full shares. -/
def frd (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => X = k1_pay2 (fblk2 V c t) (fm1 V c)
  Φ t := fPhi V c t.val
  q _ := fullShare
  owed _ := 0

/-! ## The schedule and the blocks, decided over the grid -/

/-- The scratch is recomputed at the tiles ≡ 0 (mod 4): the first of each core's run. -/
theorem hfcond : ∀ t : Fin cfg1.N, fcond (grid1.coords t) ↔ t.val % 4 = 0 :=
  (by decide +kernel : ∀ t : Fin grid1.N, fcond (grid1.coords t) ↔ t.val % 4 = 0)

/-- The block indices: the two resident inputs stay at block 0; the incidence and the result move one row block per tile. -/
theorem fidx : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Window 0's block is the whole edge-feature array. -/
theorem fblk0_eq (c : Dev nD) (t : Fin cfg1.N) :
    (((cfg1.win 0).blk t).view.read (Elt F) (V c main_arg1) : Vec F S8192x128 .f32) = V c main_arg1 := by
  obtain ⟨e0, e1, -⟩ := fidx t
  funext j
  show V c main_arg1 (((cfg1.win 0).blk t).view.emb j) = V c main_arg1 j
  refine congrArg (V c main_arg1) ?_
  funext a; apply Fin.ext
  match a with
  | ⟨0, _⟩ => show win1_0.index t (0 : Fin 2) * 8192 + 1 * (j 0).val = (j 0).val; omega
  | ⟨1, _⟩ => show win1_0.index t (1 : Fin 2) * 128 + 1 * (j 1).val = (j 1).val; omega

/-- Window 1's block is the whole weight matrix. -/
theorem fblk1_eq (c : Dev nD) (t : Fin cfg1.N) :
    (((cfg1.win 1).blk t).view.read (Elt F) (V c main_v3) : Vec F S128x128 .f32) = V c main_v3 := by
  obtain ⟨-, -, e0, e1, -⟩ := fidx t
  funext j
  show V c main_v3 (((cfg1.win 1).blk t).view.emb j) = V c main_v3 j
  refine congrArg (V c main_v3) ?_
  funext a; apply Fin.ext
  match a with
  | ⟨0, _⟩ => show win1_1.index t (0 : Fin 2) * 128 + 1 * (j 0).val = (j 0).val; omega
  | ⟨1, _⟩ => show win1_1.index t (1 : Fin 2) * 128 + 1 * (j 1).val = (j 1).val; omega

/-- Window 2's block at tile `t` is rows 256·t … 256·t+255 of the incidence. -/
theorem fblk2_eq (c : Dev nD) (t : Fin cfg1.N) : fblk2 V c t = KSpec.tileInc (V c main_arg3) t.val := by
  obtain ⟨-, -, -, -, e0, e1, -⟩ := fidx t
  have hN : t.val < 8 := lt_of_lt_of_eq t.isLt (show cfg1.N = 8 from N_1)
  funext j
  show V c main_arg3 (((cfg1.win 2).blk t).view.emb j)
    = V c main_arg3 (ix2 (⟨(256 * t.val + (j 0 : Fin 256).val) % 2048, _⟩ : Fin 2048) (j 1 : Fin 8192))
  refine congrArg (V c main_arg3) ?_
  funext a; apply Fin.ext
  match a with
  | ⟨0, _⟩ =>
    show win1_2.index t (0 : Fin 2) * 256 + 1 * (j 0).val = (256 * t.val + (j 0).val) % 2048
    have hj : (j 0).val < 256 := (j 0).isLt
    omega
  | ⟨1, _⟩ => show win1_2.index t (1 : Fin 2) * 8192 + 1 * (j 1).val = (j 1).val; omega

/-! ## The class invariant with the scratch as an owned memref -/

theorem PhiA1_eq (c : Dev nD) :
    (Pipeline.ΦA spec1 c : sProp 𝕄)
      = iprop((anyAt (F := F) c cc0_stg0_0 ∗ anyAt (F := F) c cc0_stg1_0 ∗ anyAt (F := F) c cc0_stg1_1 ∗ anyAt (F := F) c cc0_stg2_0
        ∗ anyAt (F := F) c cc0_stg2_1 ∗ anyAt (F := F) c cc0_stg3_0 ∗ anyAt (F := F) c cc0_scratch0 ∗ anyAt (F := F) c cc0_scratch1
        ∗ (∃ d, owns (c : Thread nD τ) (Memref.whole cc1_scratch0 : Memref sig .tc .vmem S8192x128 .bf16) fullShare d)) ∗ ∃ r, prngReg c r) := by
  unfold Pipeline.ΦA; rw [scopedRest1_eq]; simp only [owns_whole]; try rfl

/-! ## The body obligation -/

set_option maxHeartbeats 4000000 in
/-- The body at tile `t`, the inputs' buffers at their blocks: at the first tile of a core's run the scratch is
    (re)computed — from anything at the very first tile, from the same value at the second core's first — and
    afterwards it is read; either way the output's buffer ends at the tile's rows of the result. -/
theorem fsound (c : Dev nD) (t : Fin cfg1.N) (Y3 : Vec F S256x128 .f32) :
    iprop(fPhi V c t.val ∗ (frd V c).owesAt () t.castSucc
        ∗ owns (c : Thread nD τ) (st1_0 t) fullShare (V c main_arg1)
        ∗ owns (c : Thread nD τ) (st1_1 t) fullShare (V c main_v3)
        ∗ owns (c : Thread nD τ) (st1_2 t) fullShare (fblk2 V c t)
        ∗ owns (c : Thread nD τ) (st1_3 t) fullShare Y3)
      ⊢ wp frame (wpE (defs₀ (F := F)) Variants.none c none) Set.univ (bodyAt1 t) (fun _ =>
        iprop(fPhiS V c ∗ (frd V c).owesAt () t.castSucc
          ∗ owns (c : Thread nD τ) (st1_0 t) fullShare (V c main_arg1)
          ∗ owns (c : Thread nD τ) (st1_1 t) fullShare (V c main_v3)
          ∗ owns (c : Thread nD τ) (st1_2 t) fullShare (fblk2 V c t)
          ∗ owns (c : Thread nD τ) (st1_3 t) fullShare (k1_pay2 (fblk2 V c t) (fm1 V c)))) := by
  unfold bodyAt1
  by_cases h4 : t.val % 4 = 0
  · have hc : fcond (grid1.coords t) := (hfcond t).mpr h4
    by_cases hz : t.val = 0
    · rw [hz, show fPhi V c 0 = Pipeline.ΦA spec1 c from rfl, PhiA1_eq]
      iintro ⟨⟨⟨A0, A1, A2, A3, A4, A5, A6, A7, ⟨%d, HS⟩⟩, Hg⟩, Ho, H0, H1, H2, H3⟩
      iapply (face_run_first c Set.univ (grid1.coords t) hc _ _ _ _ _ _ _ _ _ _ (V c main_arg1) (V c main_v3) (fblk2 V c t) Y3 d _)
      isplitl [H0]; · iexact H0
      isplitl [H1]; · iexact H1
      isplitl [H2]; · iexact H2
      isplitl [H3]; · iexact H3
      isplitl [HS]; · iexact HS
      iintro ⟨H0, H1, H2, H3, HS⟩
      isplitl [A0 A1 A2 A3 A4 A5 A6 A7 HS Hg]
      · unfold fPhiS
        isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        · iexact Hg
      isplitl [Ho]; · iexact Ho
      isplitl [H0]; · iexact H0
      isplitl [H1]; · iexact H1
      isplitl [H2]; · iexact H2
      iexact H3
    · rw [fPhi_pos V c _ hz]
      unfold fPhiS
      iintro ⟨⟨⟨A0, A1, A2, A3, A4, A5, A6, A7, HS⟩, Hg⟩, Ho, H0, H1, H2, H3⟩
      iapply (face_run_first c Set.univ (grid1.coords t) hc _ _ _ _ _ _ _ _ _ _ (V c main_arg1) (V c main_v3) (fblk2 V c t) Y3 (fm1 V c) _)
      isplitl [H0]; · iexact H0
      isplitl [H1]; · iexact H1
      isplitl [H2]; · iexact H2
      isplitl [H3]; · iexact H3
      isplitl [HS]; · iexact HS
      iintro ⟨H0, H1, H2, H3, HS⟩
      isplitl [A0 A1 A2 A3 A4 A5 A6 A7 HS Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        · iexact Hg
      isplitl [Ho]; · iexact Ho
      isplitl [H0]; · iexact H0
      isplitl [H1]; · iexact H1
      isplitl [H2]; · iexact H2
      iexact H3
  · have hc : ¬ fcond (grid1.coords t) := fun h => h4 ((hfcond t).mp h)
    have hz : t.val ≠ 0 := fun h => h4 (by rw [h])
    rw [fPhi_pos V c _ hz]
    unfold fPhiS
    iintro ⟨⟨⟨A0, A1, A2, A3, A4, A5, A6, A7, HS⟩, Hg⟩, Ho, H0, H1, H2, H3⟩
    iapply (face_run_later c Set.univ (grid1.coords t) hc _ _ _ _ _ _ _ _ _ _ (V c main_arg1) (V c main_v3) (fblk2 V c t) Y3 (fm1 V c) _)
    isplitl [H0]; · iexact H0
    isplitl [H1]; · iexact H1
    isplitl [H2]; · iexact H2
    isplitl [H3]; · iexact H3
    isplitl [HS]; · iexact HS
    iintro ⟨H0, H1, H2, H3, HS⟩
    isplitl [A0 A1 A2 A3 A4 A5 A6 A7 HS Hg]
    · isplitr [Hg]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        iexact HS
      · iexact Hg
    isplitl [Ho]; · iexact Ho
    isplitl [H0]; · iexact H0
    isplitl [H1]; · iexact H1
    isplitl [H2]; · iexact H2
    iexact H3

/-- The library's body obligation at every tile: the three inputs' buffers hold their blocks wherever the body is
    handed them (they are left as found, and an unfetched input's block index has not moved). -/
theorem fbody (c : Dev nD) : (frd V c).BodyObligation (defs₀ (F := F)) Variants.none () Set.univ := fun t Y hY => by
  rw [bigSep_W1, bigSep_W1]
  obtain ⟨d0, h0⟩ := (frd V c).finds_in_eq_fetched 0 rfl (fun _ _ _ => rfl) (fun _ _ _ h => h) t (Y 0) (hY 0)
  obtain ⟨d1, h1⟩ := (frd V c).finds_in_eq_fetched 1 rfl (fun _ _ _ => rfl) (fun _ _ _ h => h) t (Y 1) (hY 1)
  obtain ⟨d2, h2⟩ := (frd V c).finds_in_eq_fetched 2 rfl (fun _ _ _ => rfl) (fun _ _ _ h => h) t (Y 2) (hY 2)
  have e0 : Y 0 = V c main_arg1 := h0.trans (fblk0_eq V c t)
  have e1 : Y 1 = V c main_v3 := h1.trans (fblk1_eq V c t)
  have e2 : Y 2 = fblk2 V c t := h2
  rw [e0, e1, e2]
  rw [show (frd V c).Φ t.succ = fPhiS V c from rfl, show (frd V c).owesAt () t.succ = (frd V c).owesAt () t.castSucc from rfl]
  refine (fsound V c t (Y 3)).trans (wp_mono _ _ _ fun _ => ?_)
  iintro ⟨HΦ, Ho, H0, H1, H2, H3⟩
  isplitl [HΦ]; · iexact HΦ
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  iexists _; isplitr; · ipureintro; exact rfl
  iexact H3

/-- What the launch hands the region is the invariant before the first tile. -/
theorem fhin (c : Dev nD) : Pipeline.ΦA spec1 c ⊢ (frd V c).Φ 0 :=
  Idealize.SL.BI.Entails.refl _

/-- After the last tile the invariant gives the class invariant back: the scratch's contents are forgotten. -/
theorem fhout (c : Dev nD) : (frd V c).Φ (Fin.last cfg1.N) ⊢ Pipeline.ΦA spec1 c := by
  rw [show (frd V c).Φ (Fin.last cfg1.N) = fPhi V c cfg1.N from rfl,
    fPhi_pos V c _ (by rw [show cfg1.N = 8 from N_1]; decide), PhiA1_eq]
  unfold fPhiS
  iintro ⟨⟨A0, A1, A2, A3, A4, A5, A6, A7, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexists _; iexact HS
  · iexact Hg

/-! ## The result array after the eight tiles -/

/-- The face result as one array: row `f` is row `f mod 256` of what tile `f / 256` stores. -/
abbrev fG (c : Dev nD) : Vec F S2048x128 .f32 := fun j =>
  k1_pay2 (KSpec.tileInc (V c main_arg3) ((j 0 : Fin 2048).val / 256)) (fm1 V c)
    (ix2 (⟨(j 0 : Fin 2048).val % 256, Nat.mod_lt _ (by decide)⟩ : Fin 256) (j 1 : Fin 128))

/-- After the write-backs of the tiles below `n`, the result array holds the face result on its rows below 256·n:
    each write-back overwrites the tile's own 256 rows and no others. -/
theorem farr_below (c : Dev nD) : ∀ (n : ℕ) (hn : n ≤ cfg1.N) (G : Vec F S2048x128 .f32), (frd V c).ArrAt 3 n G →
    ∀ i : S2048x128.Idx, (i 0).val < 256 * n → G i = fG V c i
  | 0, _, _, _ => fun i hi => absurd hi (by omega)
  | n + 1, hn, G, hG => by
    have hn' : n < cfg1.N := hn
    have hN : n < 8 := lt_of_lt_of_eq hn' (show cfg1.N = 8 from N_1)
    have hR := (frd V c).ArrAt_succ 3 ⟨n, hn'⟩
    dsimp only at hR
    rw [hR, if_pos (flush1_3 _)] at hG
    obtain ⟨G₀, X, hG₀, ⟨Y, hY, hXY⟩, rfl⟩ := hG
    have hX : X = k1_pay2 (fblk2 V c ⟨n, hn'⟩) (fm1 V c) := hXY
    obtain ⟨-, -, -, -, -, -, e0, e1⟩ := fidx ⟨n, hn'⟩
    intro i hi
    have hi1 : (i 1).val < 128 := (i 1).isLt
    by_cases hlt : (i 0).val < 256 * n
    · rw [View.write_of_not_mem]
      · exact farr_below c n (Nat.le_of_succ_le hn) G₀ hG₀ i hlt
      · rw [View.setOn_univ]
        show i ∉ ((View.whole main_v4).slice (win1_3.rect ⟨n, hn'⟩)).set
        rw [View.set_slice_whole, Rect.mem_set_unit]
        intro hm
        have h0 : win1_3.index ⟨n, hn'⟩ (0 : Fin 2) * 256 ≤ (i 0).val := (hm 0).1
        rw [e0] at h0
        show False
        have : n * 256 ≤ (i 0).val := h0
        omega
    · have hx0 : (i 0).val - 256 * n < 256 := by omega
      have hemb : ((cfg1.win 3).blk ⟨n, hn'⟩).view.emb (ix2 (⟨(i 0).val - 256 * n, hx0⟩ : Fin 256) (⟨(i 1).val, hi1⟩ : Fin 128)) = i := by
        funext a; apply Fin.ext
        match a with
        | ⟨0, _⟩ =>
          show win1_3.index ⟨n, hn'⟩ (0 : Fin 2) * 256 + 1 * ((i 0).val - 256 * n) = (i 0).val
          rw [e0]; show n * 256 + 1 * ((i 0).val - 256 * n) = (i 0).val; omega
        | ⟨1, _⟩ =>
          show win1_3.index ⟨n, hn'⟩ (1 : Fin 2) * 128 + 1 * (i 1).val = (i 1).val
          rw [e1]; omega
      have hw := View.write_emb_of_mem (v := ((cfg1.win 3).blk ⟨n, hn'⟩).view) G₀
        ((cfg1.win 3).cut (cfg1.grid.coords ⟨n, hn'⟩) X) (M := Finset.univ)
        (x := ix2 (⟨(i 0).val - 256 * n, hx0⟩ : Fin 256) (⟨(i 1).val, hi1⟩ : Fin 128)) (Finset.mem_univ _)
      rw [hemb] at hw
      refine hw.trans ?_
      rw [hX, fblk2_eq]
      have hdiv : (i 0).val / 256 = n := by omega
      show k1_pay2 (KSpec.tileInc (V c main_arg3) n) (fm1 V c) _ = k1_pay2 (KSpec.tileInc (V c main_arg3) ((i 0).val / 256)) (fm1 V c) _
      rw [hdiv]
      refine congrArg (k1_pay2 (KSpec.tileInc (V c main_arg3) n) (fm1 V c)) ?_
      funext a; apply Fin.ext
      match a with
      | ⟨0, _⟩ => show (i 0).val - 256 * n = (i 0).val % 256; omega
      | ⟨1, _⟩ => rfl

/-- THE RESULT ARRAY after the region: whatever the write-backs may have left in it is the face result. -/
theorem ffinal (c : Dev nD) (G : Vec F S2048x128 .f32) (h : (frd V c).ArrAt 3 cfg1.N G) : G = fG V c :=
  funext fun i => farr_below V c cfg1.N (Nat.le_refl _) G h i (by
    have hi : (i 0).val < 2048 := (i 0).isLt
    rw [show cfg1.N = 8 from N_1]; omega)

/-- The input arrays are never written: after the region each holds what the region found. -/
theorem ffinal_in (c : Dev nD) (w : Fin cfg1.W) (hw : (cfg1.win w).isOut = false) (n : ℕ) (G) (h : (frd V c).ArrAt w n G) :
    G = V c (Pipeline.arrRef spec1 w) := by
  rw [(frd V c).ArrAt_in w hw n] at h; exact h

end Cert.KernelIdeal.Gen

end
-- ==== Proof.KHost.lean ====
/- What the host lines between the two kernel regions leave: the node state transposed back, matrix 2 of the
   edge-to-face weight stack as a plain matrix, and every other array as it was. -/
import proofs.«179636_g2000605474969623_pallasbulk_585_7_alg».proof.Proof.Gen.KernelIdeal.Launch
import proofs.«179636_g2000605474969623_pallasbulk_585_7_alg».proof.Proof.KSpec
import Idealize.ShloMosaic.Lib.StableHlo.Run
import Idealize.ShloMosaic.Lib.ValueIdx
import Idealize.ShloMosaic.Lib.Pipeline.Value

noncomputable section

namespace Cert.KernelIdeal.Gen

open Idealize.ShloMosaic Idealize.ShloMosaic.TcCoe Idealize.ShloMosaic.ValueIdx
open Idealize.ShloMosaic.StableHlo

variable {F : FTy → Type} [FloatOps F]

/-- Slice 2 of a stack of three 128×128 matrices, its unit axis dropped, read at `(b, c)`: the stack at `(2, b, c)`. -/
theorem kslice2_drop_apply {α : Type} (X : S3x128x128.Idx → α) (hs : S3x128x128.Slices ![2, 0, 0] S1x128x128)
    (hc : S1x128x128.ShapeCasts S128x128) (b c : Fin 128) :
    shapeCast S128x128 (extractStridedSlice S1x128x128 ![2, 0, 0] X hs) hc (ix2 b c) = X (ix3 (2 : Fin 3) b c) := by
  refine (shapeCast_apply _ hc (ix2 b c) (ix3 (0 : Fin 1) b c) ?_).trans ?_
  · rw [Shape.rowMajor_val_three, Shape.rowMajor_val_two]
    show ((0 : Nat) * 128 + b.val) * 128 + c.val = b.val * 128 + c.val
    omega
  · refine extractStridedSlice_apply ![2, 0, 0] X hs _ (ix3 (2 : Fin 3) b c) (fun a => ?_)
    match a with
    | ⟨0, _⟩ => rfl
    | ⟨1, _⟩ => show b.val = 0 + b.val; omega
    | ⟨2, _⟩ => show c.val = 0 + c.val; omega

section Lines
variable (Wv : Valuation τ sig (Elt F))

/-- The transposed node state is transposed back. -/
theorem khost_v1 : StableHlo.after hostOps1 Wv (Proc.devRef .tc main_v1)
    = transpose S4096x128 [1, 0] (Wv (Proc.devRef .tc main_v0)) transposes_S128x4096_S4096x128_1_0 := by
  dsimp only [hostOps1]
  after_results

/-- The face path's weight is matrix 2 of its stack. -/
theorem khost_v3 : StableHlo.after hostOps1 Wv (Proc.devRef .tc main_v3) = KSpec.w2 (Wv (Proc.devRef .tc main_arg5)) := by
  dsimp only [hostOps1]
  after_results
  funext j
  obtain ⟨b, c, rfl⟩ : ∃ (b c : Fin 128), j = ix2 b c := ⟨j 0, j 1, eq_ix2 j⟩
  exact kslice2_drop_apply (Wv (Proc.devRef .tc main_arg5)) slices_S3x128x128_S1x128x128_2_0_0 shapeCasts_S1x128x128_S128x128 b c

/-- The references the three lines write. -/
theorem khostOps1_writes : (hostOps1 : List (HloOp τ sig (Elt F))).Forall fun op =>
    op.writes ⊆ (([main_v1, main_v2, main_v3] : List (Ref sig .tc)).map (Proc.devRef (τ := τ) .tc)).toFinset := by
  simp only [List.Forall]
  exact ⟨by simp only [StableHlo.unary_writes, StableHlo.reshape_writes, Finset.singleton_subset_iff, List.mem_toFinset]; exact List.mem_map_of_mem (by decide),
    by simp only [StableHlo.unary_writes, StableHlo.reshape_writes, Finset.singleton_subset_iff, List.mem_toFinset]; exact List.mem_map_of_mem (by decide),
    by simp only [StableHlo.unary_writes, StableHlo.reshape_writes, Finset.singleton_subset_iff, List.mem_toFinset]; exact List.mem_map_of_mem (by decide)⟩

/-- Every other array is as it was. -/
theorem khost_keep (b : Ref sig .tc) (hb : b ∉ ([main_v1, main_v2, main_v3] : List (Ref sig .tc))) :
    StableHlo.after hostOps1 Wv (Proc.devRef .tc b) = Wv (Proc.devRef .tc b) :=
  StableHlo.after_of_writes_sub hostOps1 Wv khostOps1_writes hb

end Lines

end Cert.KernelIdeal.Gen

end
-- ==== Proof.KRun.lean ====
/- The kernel program's run: @main as segments — region 0 (the node kernel), the host stretch between the regions
   (the transpose of the state; the slice and reshape of the last layer's edge-to-face weights), region 1 (the face
   kernel) — over the thread state "every unscoped buffer at the boundary's contents", each region's arrays split
   out at its entry and put back at its exit at what the region's run leaves in them. -/
import proofs.«179636_g2000605474969623_pallasbulk_585_7_alg».proof.Proof.KNodeDat
import proofs.«179636_g2000605474969623_pallasbulk_585_7_alg».proof.Proof.KFaceDat
import proofs.«179636_g2000605474969623_pallasbulk_585_7_alg».proof.Proof.KHost
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The buffers' contents at each segment boundary -/

/-- Core c's buffers at launch (region 0's entry). -/
abbrev kW0 : Dev nD → Valuation τ sig (Elt F) := fun c b => m (c, b)
abbrev kV0 : (c : Dev nD) → (b : Ref sig .tc) → Buf (Elt F) ((c : Thread nD τ).loc b) := fun c b => kW0 m c b

/-- What region 0 leaves in its arrays: the inputs as found, the state array at the last layer's transposed state. -/
def nout (c : Dev nD) : (w : Fin cfg0.W) → Buf (Elt F) ((spec0 w).arr.view.loc (c.tc : Thread nD τ))
  | ⟨0, _⟩ => kV0 m c main_arg0
  | ⟨1, _⟩ => kV0 m c main_arg4
  | ⟨2, _⟩ => kV0 m c main_arg2
  | ⟨3, _⟩ => (KSpec.stateT (nX0 (kV0 m) c) (nW (kV0 m) c) (nA (kV0 m) c) 2 : Vec F S128x4096 .f32)

/-- At region 0's exit. -/
def kW1 (c : Dev nD) : Valuation τ sig (Elt F) := Pipeline.withArrays spec0 c (kW0 m c) (nout m c)
theorem kW1_arr (c : Dev nD) (w : Fin cfg0.W) : kW1 m c (Proc.devRef .tc (Pipeline.arrRef spec0 w)) = nout m c w := by
  unfold kW1; exact Pipeline.withArrays_arr spec0 launch0.win.arr_inj c _ _ w
theorem kW1_of_ne (c : Dev nD) (b : Ref sig .tc) (hb : ∀ w, Pipeline.arrRef spec0 w ≠ b) :
    kW1 m c (Proc.devRef .tc b) = kW0 m c (Proc.devRef .tc b) := by
  unfold kW1; exact Pipeline.withArrays_of_ne spec0 c _ _ b hb
abbrev kV1 : (c : Dev nD) → (b : Ref sig .tc) → Buf (Elt F) ((c : Thread nD τ).loc b) := fun c b => kW1 m c b

/-- After the host stretch (region 1's entry). -/
abbrev kW2 : Dev nD → Valuation τ sig (Elt F) := fun c => StableHlo.after hostOps1 (kW1 m c)
abbrev kV2 : (c : Dev nD) → (b : Ref sig .tc) → Buf (Elt F) ((c : Thread nD τ).loc b) := fun c b => kW2 m c b

/-! ## The proof data family and the thread state -/

abbrev kadm : (p : Fin 2) → (pcfgs (F := F) p).Adm := fun p => (cfgs p).toPCfg_adm
/-- Every pipeline's relational proof data, each at its region's entry contents. -/
def krdats : (p : Fin 2) → (c : Dev nD) → RDat τ (Elt F) Unit ℕ (UR sig nD τ) ℕ (Pipeline.pin (pcfgs (F := F)) kadm p) c
  | ⟨0, _⟩ => fun c => nrd (kV0 m) c
  | ⟨1, _⟩ => fun c => frd (kV2 m) c
abbrev k𝒱₀ : Variants := Variants.none
abbrev kL : GSem nD τ sig → Finset Unit := fun _ => ∅
abbrev klv : GSem nD τ sig → Unit → ℕ := fun _ _ => 0
/-- What rides beside the buffers through every segment: the generator register at some state, and nothing owed. -/
abbrev kR (c : Dev nD) : sProp 𝕄 := iprop((∃ r, prngReg c r) ∗ ∃ W, owes (c : Thread nD τ) (0 : CellTallies nD τ sig Unit) W)

theorem hostOps1_fresh' : (hostOps1 : List (HloOp τ sig (Elt F))).Forall fun op => op.fresh = ∅ := by
  simp only [List.Forall]; repeat' constructor

/-- The host stretch between the regions as a segment. -/
abbrev khseg (W : Dev nD → Valuation τ sig (Elt F)) :
    Pipeline.HostSeg (Name := ℕ) (U := UR sig nD τ) (pcfgs (F := F)) defs₀ k𝒱₀ kL klv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh') op h) W kR

/-- A region's arrays, each at contents the write-backs may have left and all such contents being the named ones, back
    among the core's unscoped buffers at a valuation that has the arrays there and agrees with the entry's elsewhere. -/
theorem unscopedBufs_of_arraysAt {p : Fin 2} (hw : Pipeline.WinFacts (Pipeline.pin (pcfgs (F := F)) kadm p).spec)
    (harr : ∀ w, ((Pipeline.pin (pcfgs (F := F)) kadm p).spec w).arr.IsWhole) (c : Dev nD)
    (hshare : ∀ w, (krdats m p c).share w = fullShare)
    (V V' : (b : Ref sig .tc) → Buf (Elt F) ((c.tc : Thread nD τ).loc b))
    (hfin : ∀ w G, (krdats m p c).ArrAt w (Pipeline.pin (pcfgs (F := F)) kadm p).N G → G = V' (Pipeline.arrRef (Pipeline.pin (pcfgs (F := F)) kadm p).spec w))
    (hrest : ∀ b, b ∉ Finset.univ.image (Pipeline.arrRef (Pipeline.pin (pcfgs (F := F)) kadm p).spec) → V' b = V b) :
    iprop((krdats m p c).arraysAt (Pipeline.pin (pcfgs (F := F)) kadm p).N ∗ Pipeline.unscopedRest (Pipeline.pin (pcfgs (F := F)) kadm p).spec c V)
      ⊢ (unscopedBufs c V' : sProp 𝕄) := by
  rw [Pipeline.unscopedBufs_split (Pipeline.pin (pcfgs (F := F)) kadm) p hw.arr_unscoped hw.arr_inj c V']
  refine sep_mono ?_ (Entails.of_eq ?_)
  · have h1 : (krdats m p c).arraysAt (Pipeline.pin (pcfgs (F := F)) kadm p).N
        ⊢ ((krdats m p c).arrays (fun w => V' (Pipeline.arrRef (Pipeline.pin (pcfgs (F := F)) kadm p).spec w)) : sProp 𝕄) := by
      unfold RDat.arraysAt RDat.arrays
      refine bigSep_mono fun w _ => ?_
      show (_ : sProp 𝕄) ⊢ _
      iintro ⟨%G, %hG, H⟩
      rw [hfin w G hG]
      iexact H
    exact h1.trans (Entails.of_eq (Pipeline.RDat.arrays_eq (pcfgs (F := F)) kadm (krdats m) p c harr hshare _))
  · unfold Pipeline.unscopedRest
    exact bigSep_congr fun b hb => by rw [hrest b (Finset.mem_sdiff.mp hb).2]

/-! ## The regions as segments -/

/-- At region 0's exit every buffer but its arrays is as at its entry. -/
theorem kreg0_rest (c : Dev nD) : ∀ b, b ∉ Finset.univ.image (Pipeline.arrRef spec0) → kV1 m c b = kV0 m c b :=
  fun b hb => kW1_of_ne m c b fun w e => hb (Finset.mem_image.mpr ⟨w, Finset.mem_univ _, e⟩)

/-- What region 0's run leaves in each of its arrays is what the exit valuation names. -/
theorem kreg0_fin (c : Dev nD) : ∀ (w : Fin cfg0.W) (G), (krdats m 0 c).ArrAt w cfg0.N G → G = kV1 m c (Pipeline.arrRef spec0 w) := by
  intro w G h
  refine Eq.trans ?_ (kW1_arr m c w).symm
  match w with
  | ⟨0, _⟩ => exact nfinal_0 (kV0 m) c G h
  | ⟨1, _⟩ => exact nfinal_1 (kV0 m) c G h
  | ⟨2, _⟩ => exact nfinal_2 (kV0 m) c G h
  | ⟨3, _⟩ => exact nfinal_3 (kV0 m) c G h

-- `iapply` of a library lemma stated over `pin pcs a p` unifies with the pinned configuration only when unification may
-- unfold plain definitions in a metavariable's type
set_option backward.isDefEq.respectTransparency.types false in
/-- Region 0 over the thread state: its arrays split out of the unscoped buffers at its entry and put back at its
    exit at what its run leaves; the generator register into the invariant and out; nothing owed; no semaphore of its own. -/
def kreg0 : Pipeline.RDat.RegionSeg (pcfgs (F := F)) kadm (krdats m) () defs₀ k𝒱₀ kL klv 0 where
  win := launch0.win.to₀
  block_pos := launch0.block_pos
  stage_whole := launch0.stage_whole
  K := PEmpty
  osem k := k.elim
  ho := Pipeline.OwnSemFacts.none _
  hbody c := nbody (kV0 m) c
  hwaits := Pipeline.RDat.hwaits_of_owed_zero _ _ _ _ kL klv 0 fun _ _ => rfl
  pre c := iprop(StableHlo.held (c : Thread nD τ) (Pipeline.ucRefs τ sig) (kW0 m c) ∗ kR c)
  post c := iprop(StableHlo.held (c : Thread nD τ) (Pipeline.ucRefs τ sig) (kW1 m c) ∗ kR c)
  X c := iprop(∃ r, prngReg c r)
  Y c := iprop(∃ r, prngReg c r)
  Z c := Pipeline.unscopedRest (Ix := Unit) (Name := ℕ) (U := UR sig nD τ) (Lvl := ℕ) spec0 c (kV0 m c)
  hentry c := by
    rw [Pipeline.ownSems0_none]
    have hsplit := Pipeline.RDat.arrays_of_unscopedBufs (p := 0) (pcfgs (F := F)) kadm (krdats m) launch0.win launch0.arr_whole c
      (fun w => by unfold RDat.share; split <;> rfl) (kV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (nhin (kV0 m) c)
    unfold Pipeline.ΦA
    iintro ⟨Hp, -, Hr⟩
    isplitl [Hr]; · iexact Hr
    iexact Hp
  hout c := by
    rw [Pipeline.ownSems0_none]
    refine (nhout (kV0 m) c).trans ?_
    unfold Pipeline.ΦA
    iintro ⟨Hr, Hp⟩
    isplitl [Hp]; · iexact Hp
    isplitr; · iempintro
    iexact Hr
  hexit c := by
    have hjoin := unscopedBufs_of_arraysAt m (p := 0) launch0.win launch0.arr_whole c
      (fun w => by unfold RDat.share; split <;> rfl) (kV0 m c) (kV1 m c)
      (kreg0_fin m c) (kreg0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold RDat.owesAt Pipeline.owesWithin
    icases HO with ⟨%W, -, HO⟩; iexists W; iexact HO

/-- What region 1 leaves in its arrays: the inputs as found, the face result. -/
def fout (c : Dev nD) : (w : Fin cfg1.W) → Buf (Elt F) ((spec1 w).arr.view.loc (c.tc : Thread nD τ))
  | ⟨0, _⟩ => kV2 m c main_arg1
  | ⟨1, _⟩ => kV2 m c main_v3
  | ⟨2, _⟩ => kV2 m c main_arg3
  | ⟨3, _⟩ => fG (kV2 m) c

/-- At region 1's exit. -/
def kW3 (c : Dev nD) : Valuation τ sig (Elt F) := Pipeline.withArrays spec1 c (kW2 m c) (fout m c)
theorem kW3_arr (c : Dev nD) (w : Fin cfg1.W) : kW3 m c (Proc.devRef .tc (Pipeline.arrRef spec1 w)) = fout m c w := by
  unfold kW3; exact Pipeline.withArrays_arr spec1 launch1.win.arr_inj c _ _ w
theorem kW3_of_ne (c : Dev nD) (b : Ref sig .tc) (hb : ∀ w, Pipeline.arrRef spec1 w ≠ b) :
    kW3 m c (Proc.devRef .tc b) = kW2 m c (Proc.devRef .tc b) := by
  unfold kW3; exact Pipeline.withArrays_of_ne spec1 c _ _ b hb
abbrev kV3 : (c : Dev nD) → (b : Ref sig .tc) → Buf (Elt F) ((c : Thread nD τ).loc b) := fun c b => kW3 m c b

theorem kreg1_rest (c : Dev nD) : ∀ b, b ∉ Finset.univ.image (Pipeline.arrRef spec1) → kV3 m c b = kV2 m c b :=
  fun b hb => kW3_of_ne m c b fun w e => hb (Finset.mem_image.mpr ⟨w, Finset.mem_univ _, e⟩)

theorem kreg1_fin (c : Dev nD) : ∀ (w : Fin cfg1.W) (G), (krdats m 1 c).ArrAt w cfg1.N G → G = kV3 m c (Pipeline.arrRef spec1 w) := by
  intro w G h
  refine Eq.trans ?_ (kW3_arr m c w).symm
  match w with
  | ⟨0, _⟩ => exact ffinal_in (kV2 m) c 0 rfl _ G h
  | ⟨1, _⟩ => exact ffinal_in (kV2 m) c 1 rfl _ G h
  | ⟨2, _⟩ => exact ffinal_in (kV2 m) c 2 rfl _ G h
  | ⟨3, _⟩ => exact ffinal (kV2 m) c G h

-- `iapply` of a library lemma stated over `pin pcs a p` unifies with the pinned configuration only when unification may
-- unfold plain definitions in a metavariable's type
set_option backward.isDefEq.respectTransparency.types false in
/-- Region 1 over the thread state: its arrays split out of the unscoped buffers at its entry and put back at its
    exit at what its run leaves; the generator register into the invariant and out; nothing owed; no semaphore of its own. -/
def kreg1 : Pipeline.RDat.RegionSeg (pcfgs (F := F)) kadm (krdats m) () defs₀ k𝒱₀ kL klv 1 where
  win := launch1.win.to₀
  block_pos := launch1.block_pos
  stage_whole := launch1.stage_whole
  K := PEmpty
  osem k := k.elim
  ho := Pipeline.OwnSemFacts.none _
  hbody c := fbody (kV2 m) c
  hwaits := Pipeline.RDat.hwaits_of_owed_zero _ _ _ _ kL klv 1 fun _ _ => rfl
  pre c := iprop(StableHlo.held (c : Thread nD τ) (Pipeline.ucRefs τ sig) (kW2 m c) ∗ kR c)
  post c := iprop(StableHlo.held (c : Thread nD τ) (Pipeline.ucRefs τ sig) (kW3 m c) ∗ kR c)
  X c := iprop(∃ r, prngReg c r)
  Y c := iprop(∃ r, prngReg c r)
  Z c := Pipeline.unscopedRest (Ix := Unit) (Name := ℕ) (U := UR sig nD τ) (Lvl := ℕ) spec1 c (kV2 m c)
  hentry c := by
    rw [Pipeline.ownSems0_none]
    have hsplit := Pipeline.RDat.arrays_of_unscopedBufs (p := 1) (pcfgs (F := F)) kadm (krdats m) launch1.win launch1.arr_whole c
      (fun w => by unfold RDat.share; split <;> rfl) (kV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (fhin (kV2 m) c)
    unfold Pipeline.ΦA
    iintro ⟨Hp, -, Hr⟩
    isplitl [Hr]; · iexact Hr
    iexact Hp
  hout c := by
    rw [Pipeline.ownSems0_none]
    refine (fhout (kV2 m) c).trans ?_
    unfold Pipeline.ΦA
    iintro ⟨Hr, Hp⟩
    isplitl [Hp]; · iexact Hp
    isplitr; · iempintro
    iexact Hr
  hexit c := by
    have hjoin := unscopedBufs_of_arraysAt m (p := 1) launch1.win launch1.arr_whole c
      (fun w => by unfold RDat.share; split <;> rfl) (kV2 m c) (kV3 m c)
      (kreg1_fin m c) (kreg1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold RDat.owesAt Pipeline.owesWithin
    icases HO with ⟨%W, -, HO⟩; iexists W; iexact HO

/-! ## @main as segments, and the launch -/

/-- @main's three segments in order. -/
abbrev ksegs : List (Pipeline.RDat.Seg (pcfgs (F := F)) kadm (krdats m) () defs₀ k𝒱₀ kL klv) :=
  [ .region (kreg0 m), .host (khseg (kW1 m)), .region (kreg1 m) ]

/-- The last thread state without the `owes`: every unscoped buffer at the last boundary's contents, the generator
    register at some state. -/
abbrev kTₙ (c : Dev nD) : sProp 𝕄 := iprop(StableHlo.held (c : Thread nD τ) (Pipeline.ucRefs τ sig) (kW3 m c) ∗ ∃ r, prngReg c r)

-- the library theorem's implicit arguments are found by unifying its conclusion with this one, which takes unfolding plain
-- definitions in a metavariable's type
set_option backward.isDefEq.respectTransparency.types false in
/-- THE RUN: from any memory with zero counters every weakly fair execution of @main terminates, nothing faulting,
    and every final state holds every unscoped buffer at the last boundary's contents. -/
theorem krun : θ_run defs (onTc (τ := τ) (main (F := F))) ⟨m, fun _ => 0, ρ⟩
    (fun r => ∀ c : Dev nD, ∀ b ∈ Pipeline.ucRefs τ sig, r.2.mem (((c : Thread nD τ)).1, b) = kW3 m c b) :=
  Pipeline.RDat.θ_run_regions_kit (pcfgs (F := F)) kadm (krdats m) () cellOf_inj emb₁ defs₀ k𝒱₀ kL klv m ρ main (ksegs m)
    (fun c Q => by
      rewrite [main_chain c, Pipeline.RDat.Seg.run_eq_chain,
        show (ksegs m).map Pipeline.RDat.Seg.prog = [
          Prog.lift (.customCall (Pipeline.entry 0) ()),
          StableHlo.seq hostOps1,
          Prog.lift (.customCall (Pipeline.entry 1) ()) ] from rfl]
      exact .rfl)
    (by simp only [ksegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (kW0 m c) ∗ kR c)) (Tₙ := kTₙ m)
    (hch := ⟨fun _ => .rfl, fun _ => .rfl, fun _ => .rfl, fun c => by
      show (iprop(StableHlo.held (c : Thread nD τ) (Pipeline.ucRefs τ sig) (kW3 m c) ∗ kR c) : sProp 𝕄) ⊢ _
      iintro ⟨Hh, Hp, HO⟩
      isplitl [Hh Hp]
      · isplitl [Hh]; · iexact Hh
        iexact Hp
      iexact HO⟩)
    (hinit := by
      refine Pipeline.initEach kL klv fun c => ?_
      rw [show unscopedBufs c (fun b => m ((c : Thread nD τ).loc b)) = StableHlo.held (c : Thread nD τ) (Pipeline.ucRefs τ sig) (kW0 m c)
        from Pipeline.unscopedBufs_held c (kW0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = kW3 m c b)
    (hfin := fun c s' => by
      iintro ⟨⟨Hh, -⟩, HSI⟩
      unfold StableHlo.held
      imodintro
      iapply (pointsTo_read_all (Pipeline.ucRefs τ sig) (fun b => (((c : Thread nD τ)).1, b)) (kW3 m c) s')
      isplitl [Hh] <;> iassumption)
    (hQ := fun s h c => h c)

/-! ## The last boundary's contents, read: the results and the arguments -/

/-- An unscoped TensorCore reference is among those the thread state holds. -/
theorem kmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 1's inputs as it finds them: the edge features and the incidence as launched, the weights the last
    layer's slice of the stack. -/
theorem kV2_arg1 (c : Dev nD) : kV2 m c main_arg1 = m ((c : Thread nD τ).loc main_arg1) :=
  (khost_keep (kW1 m c) main_arg1 (by decide)).trans (kW1_of_ne m c main_arg1 (by decide))
theorem kV2_arg3 (c : Dev nD) : kV2 m c main_arg3 = m ((c : Thread nD τ).loc main_arg3) :=
  (khost_keep (kW1 m c) main_arg3 (by decide)).trans (kW1_of_ne m c main_arg3 (by decide))
theorem kV2_v3 (c : Dev nD) : kV2 m c main_v3 = KSpec.w2 (m ((c : Thread nD τ).loc main_arg5)) :=
  (khost_v3 (kW1 m c)).trans (by rw [kW1_of_ne m c main_arg5 (by decide)])

/-- The first result: the transpose of the last layer's transposed state. -/
theorem kW3_v1 (c : Dev nD) : kW3 m c (Proc.devRef .tc main_v1)
    = transpose S4096x128 [1, 0] (KSpec.stateT (m ((c : Thread nD τ).loc main_arg0)) (m ((c : Thread nD τ).loc main_arg4)) (m ((c : Thread nD τ).loc main_arg2)) 2 : Vec F S128x4096 .f32) transposes_S128x4096_S4096x128_1_0 :=
  calc kW3 m c (Proc.devRef .tc main_v1)
    _ = kW2 m c (Proc.devRef .tc main_v1) := kW3_of_ne m c main_v1 (by decide)
    _ = transpose S4096x128 [1, 0] (kW1 m c (Proc.devRef .tc main_v0)) transposes_S128x4096_S4096x128_1_0 := khost_v1 (kW1 m c)
    _ = _ := by rw [show kW1 m c (Proc.devRef .tc main_v0) = nout m c 3 from kW1_arr m c 3]; rfl

/-- The third result: the face result of the launch arrays. -/
theorem kW3_v4 (c : Dev nD) : kW3 m c (Proc.devRef .tc main_v4)
    = KSpec.x2 (m ((c : Thread nD τ).loc main_arg1)) (m ((c : Thread nD τ).loc main_arg5)) (m ((c : Thread nD τ).loc main_arg3)) := by
  rw [show kW3 m c (Proc.devRef .tc main_v4) = fout m c 3 from kW3_arr m c 3]
  show fG (kV2 m) c = _
  unfold fG fm1
  rw [kV2_arg1 m c, kV2_v3 m c, kV2_arg3 m c]
  rfl

theorem kW3_arg0 (c : Dev nD) : kW3 m c (Proc.devRef .tc main_arg0) = m ((c : Thread nD τ).loc main_arg0) :=
  (kW3_of_ne m c main_arg0 (by decide)).trans ((khost_keep (kW1 m c) main_arg0 (by decide)).trans (kW1_arr m c 0))
theorem kW3_arg1 (c : Dev nD) : kW3 m c (Proc.devRef .tc main_arg1) = m ((c : Thread nD τ).loc main_arg1) :=
  (kW3_arr m c 0).trans (kV2_arg1 m c)
theorem kW3_arg2 (c : Dev nD) : kW3 m c (Proc.devRef .tc main_arg2) = m ((c : Thread nD τ).loc main_arg2) :=
  (kW3_of_ne m c main_arg2 (by decide)).trans ((khost_keep (kW1 m c) main_arg2 (by decide)).trans (kW1_arr m c 2))
theorem kW3_arg3 (c : Dev nD) : kW3 m c (Proc.devRef .tc main_arg3) = m ((c : Thread nD τ).loc main_arg3) :=
  (kW3_arr m c 2).trans (kV2_arg3 m c)
theorem kW3_arg4 (c : Dev nD) : kW3 m c (Proc.devRef .tc main_arg4) = m ((c : Thread nD τ).loc main_arg4) :=
  (kW3_of_ne m c main_arg4 (by decide)).trans ((khost_keep (kW1 m c) main_arg4 (by decide)).trans (kW1_arr m c 1))
theorem kW3_arg5 (c : Dev nD) : kW3 m c (Proc.devRef .tc main_arg5) = m ((c : Thread nD τ).loc main_arg5) :=
  (kW3_of_ne m c main_arg5 (by decide)).trans ((khost_keep (kW1 m c) main_arg5 (by decide)).trans (kW1_of_ne m c main_arg5 (by decide)))

/-- THE RUN, READ: every weakly fair execution terminates with the first result at the transpose of the last layer's
    transposed state, the third at the face result, and every argument array as launched. -/
theorem kresult : θ_run defs (onTc (τ := τ) (main (F := F))) ⟨m, fun _ => 0, ρ⟩ (fun r => ∀ c : Dev nD,
      r.2.mem ((c.tc : Thread nD τ).loc main_v1) = transpose S4096x128 [1, 0] (KSpec.stateT (m ((c : Thread nD τ).loc main_arg0)) (m ((c : Thread nD τ).loc main_arg4)) (m ((c : Thread nD τ).loc main_arg2)) 2 : Vec F S128x4096 .f32) transposes_S128x4096_S4096x128_1_0
      ∧ r.2.mem ((c.tc : Thread nD τ).loc main_v4) = KSpec.x2 (m ((c : Thread nD τ).loc main_arg1)) (m ((c : Thread nD τ).loc main_arg5)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (kmem_uc main_v1 (by decide))).trans (kW3_v1 m c),
     (h c _ (kmem_uc main_v4 (by decide))).trans (kW3_v4 m c),
     (h c _ (kmem_uc main_arg0 (by decide))).trans (kW3_arg0 m c),
     (h c _ (kmem_uc main_arg1 (by decide))).trans (kW3_arg1 m c),
     (h c _ (kmem_uc main_arg2 (by decide))).trans (kW3_arg2 m c),
     (h c _ (kmem_uc main_arg3 (by decide))).trans (kW3_arg3 m c),
     (h c _ (kmem_uc main_arg4 (by decide))).trans (kW3_arg4 m c),
     (h c _ (kmem_uc main_arg5 (by decide))).trans (kW3_arg5 m c)⟩) (krun m ρ)

end Cert.KernelIdeal.Gen

end
-- ==== Proof.BKNodeBody.lean ====
/- The node kernel's body, case by case. At the very first point it computes the first layer's transposed
   transformed features from the input features; at the first tile of a later layer, from the whole previous
   state (read back from the resident output block). In the first layer every tile also stores its 256 columns
   of the transposed adjacency; in every layer it stores its 256 columns of the new transposed state. -/
import proofs.«179636_g2000605474969623_pallasbulk_585_7_alg».proof.Proof.Gen.Kernel.Launch
import proofs.«179636_g2000605474969623_pallasbulk_585_7_alg».proof.Proof.Gen.Kernel.Skeleton
import proofs.«179636_g2000605474969623_pallasbulk_585_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The node kernel's four branch conditions, from the grid coordinates: the very first point; the first tile of a later
    layer; any tile of the first layer; any tile of a later layer. -/
abbrev nc1 (i : grid0.Coords) : Prop := (Scalar.cmpi .ne (Scalar.extui (Scalar.andi (Scalar.cmpi .eq (BitVec.ofNat 32 (i 1).val) 0#32) (Scalar.cmpi .eq (BitVec.ofNat 32 (i 0).val) 0#32))) 0#32) = 1#1
abbrev nc2 (i : grid0.Coords) : Prop := (Scalar.cmpi .ne (Scalar.extui (Scalar.andi (Scalar.cmpi .eq (BitVec.ofNat 32 (i 1).val) 0#32) (Scalar.cmpi .sgt (BitVec.ofNat 32 (i 0).val) 0#32))) 0#32) = 1#1
abbrev nc3 (i : grid0.Coords) : Prop := k0_cond3 i = 1#1
abbrev nc4 (i : grid0.Coords) : Prop := k0_cond4 i = 1#1

/-- One store through a rectangle into a whole buffer reading x leaves x overlaid with the payload there. -/
theorem read_writes_single {κ : Kind} {sp : Space} {s : Shape} {e : EltTy} {Val : EltTy → Type}
    {m : Memref sig κ sp s e} (h : m.IsWhole) (x : s.Idx → Val e) (r : Rect s) (w : r.shape.Idx → Val e) :
    m.view.read Val (m.view.writes Val (h.unread x) [⟨r, w⟩]) = r.overlay x w := by
  funext y
  by_cases hy : y ∈ r.set
  · obtain ⟨j, rfl⟩ : ∃ j, r.emb j = y := r.exists_idx_of_mem hy
    rw [View.read_writes_cons_emb, Rect.overlay_emb]
  · rw [View.read_writes_apply_of_forall_not_mem _ _ y _ (fun p hp => by
        rw [List.mem_singleton] at hp; subst hp; exact hy), h.read_unread, Rect.overlay_of_not_mem _ _ _ hy]

theorem hz2 : (![0, 0] : Fin 2 → Nat) = fun _ => 0 := by funext a; fin_cases a <;> rfl
theorem hz3 : (![0, 0, 0] : Fin 3 → Nat) = fun _ => 0 := by funext a; fin_cases a <;> rfl

/-- The rectangles of the tile accesses: the 256 columns of the point's tile, in the [128, 4096] state and in the
    [4096, 4096] transposed adjacency. -/
abbrev rOut3 (i : grid0.Coords) (h : nc3 i) : Rect S128x4096 := Rect.unit (s := S128x4096) (k0_off2 i) S128x256.size (k0_off2_inb i h)
abbrev rAdj3 (i : grid0.Coords) (h : nc3 i) : Rect S4096x4096 := Rect.unit (s := S4096x4096) (k0_off1 i) S4096x256.size (k0_off1_inb i h)
abbrev rOut4 (i : grid0.Coords) (h : nc4 i) : Rect S128x4096 := Rect.unit (s := S128x4096) (k0_off4 i) S128x256.size (k0_off4_inb i h)
abbrev rAdj4 (i : grid0.Coords) (h : nc4 i) : Rect S4096x4096 := Rect.unit (s := S4096x4096) (k0_off3 i) S4096x256.size (k0_off3_inb i h)

set_option maxHeartbeats 2000000 in
/-- A later tile of a later layer: the tile's columns of the state are recomputed from the kept transposed
    adjacency; nothing else changes. -/
theorem node_run_D (c : Dev nD) (E : Set ℕ) (i : grid0.Coords) (h1 : ¬ nc1 i) (h2 : ¬ nc2 i) (h3 : ¬ nc3 i) (h4 : nc4 i)
    (arg2 : Memref sig .tc .vmem S4096x128 .f32) (harg2 : arg2.IsWhole) (arg3 : Memref sig .tc .vmem S1x128x128 .f32) (harg3 : arg3.IsWhole) (arg4 : Memref sig .tc .vmem S256x4096 .f32) (harg4 : arg4.IsWhole) (arg5 : Memref sig .tc .vmem S128x4096 .f32) (harg5 : arg5.IsWhole) (arg6 : Memref sig .tc .vmem S4096x4096 .bf16) (harg6 : arg6.IsWhole) (arg7 : Memref sig .tc .vmem S128x4096 .bf16) (harg7 : arg7.IsWhole)
    (x2 : Vec F S4096x128 .f32) (x3 : Vec F S1x128x128 .f32) (x4 : Vec F S256x4096 .f32) (x5 : Vec F S128x4096 .f32)
    (x6 : Vec F S4096x4096 .bf16) (x7 : Vec F S128x4096 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4 ∗ owns (c : Thread nD τ) arg5 fullShare ((rOut4 i h4).overlay x5 (k0_pay6 x7 (View.ld x6 (rAdj4 i h4)))) ∗ owns (c : Thread nD τ) arg6 fullShare x6 ∗ owns (c : Thread nD τ) arg7 fullShare x7) -∗ K ⟨⟩))
      ⊢ wp frame (wpE (defs₀ (F := F)) Variants.none c none) E (cc0__node_kernel i arg2 harg2 arg3 harg3 arg4 harg4 arg5 harg5 arg6 harg6 arg7 harg7) K := by
  simp only [cc0__node_kernel_eq_skeleton]; unfold cc0__node_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h1 | exact h2 | exact h3 | exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_single harg5]
    simp only [View.readAt_eq_ld, harg6.read_unread, harg7.read_unread]
    rw [View.ld_unit_zero (S := S128x4096) hz2]
  isplitl [H6]
  · iexists _; isplitr; · ipureintro; exact harg6.read_unread _
    iexact H6
  iexists _; isplitr; · ipureintro; exact harg7.read_unread _
  iexact H7

set_option maxHeartbeats 2000000 in
/-- A later tile of the first layer: the tile's columns of the transposed adjacency are stored, and the tile's
    columns of the state are computed from the adjacency rows. -/
theorem node_run_B (c : Dev nD) (E : Set ℕ) (i : grid0.Coords) (h1 : ¬ nc1 i) (h2 : ¬ nc2 i) (h3 : nc3 i) (h4 : ¬ nc4 i)
    (arg2 : Memref sig .tc .vmem S4096x128 .f32) (harg2 : arg2.IsWhole) (arg3 : Memref sig .tc .vmem S1x128x128 .f32) (harg3 : arg3.IsWhole) (arg4 : Memref sig .tc .vmem S256x4096 .f32) (harg4 : arg4.IsWhole) (arg5 : Memref sig .tc .vmem S128x4096 .f32) (harg5 : arg5.IsWhole) (arg6 : Memref sig .tc .vmem S4096x4096 .bf16) (harg6 : arg6.IsWhole) (arg7 : Memref sig .tc .vmem S128x4096 .bf16) (harg7 : arg7.IsWhole)
    (x2 : Vec F S4096x128 .f32) (x3 : Vec F S1x128x128 .f32) (x4 : Vec F S256x4096 .f32) (x5 : Vec F S128x4096 .f32)
    (x6 : Vec F S4096x4096 .bf16) (x7 : Vec F S128x4096 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4 ∗ owns (c : Thread nD τ) arg5 fullShare ((rOut3 i h3).overlay x5 (k0_pay5 x4 x7)) ∗ owns (c : Thread nD τ) arg6 fullShare ((rAdj3 i h3).overlay x6 (k0_pay4 x4)) ∗ owns (c : Thread nD τ) arg7 fullShare x7) -∗ K ⟨⟩))
      ⊢ wp frame (wpE (defs₀ (F := F)) Variants.none c none) E (cc0__node_kernel i arg2 harg2 arg3 harg3 arg4 harg4 arg5 harg5 arg6 harg6 arg7 harg7) K := by
  simp only [cc0__node_kernel_eq_skeleton]; unfold cc0__node_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h1 | exact h2 | exact h3 | exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_single harg5]
    simp only [View.readAt_eq_ld, harg4.read_unread, harg7.read_unread]
    rw [View.ld_unit_zero (S := S128x4096) hz2, View.ld_unit_zero (S := S256x4096) hz2]
  isplitl [H6]
  · iexists _; isplitr
    swap; · iexact H6
    ipureintro
    rw [read_writes_single harg6]
    simp only [View.readAt_eq_ld, harg4.read_unread]
    rw [View.ld_unit_zero (S := S256x4096) hz2]
  iexists _; isplitr; · ipureintro; exact harg7.read_unread _
  iexact H7

set_option maxHeartbeats 2000000 in
/-- The very first point: the first layer's transposed transformed features are computed from the input features and kept; the first tile's columns of the transposed adjacency and of the state are stored. -/
theorem node_run_A (c : Dev nD) (E : Set ℕ) (i : grid0.Coords) (h1 : nc1 i) (h2 : ¬ nc2 i) (h3 : nc3 i) (h4 : ¬ nc4 i)
    (arg2 : Memref sig .tc .vmem S4096x128 .f32) (harg2 : arg2.IsWhole) (arg3 : Memref sig .tc .vmem S1x128x128 .f32) (harg3 : arg3.IsWhole) (arg4 : Memref sig .tc .vmem S256x4096 .f32) (harg4 : arg4.IsWhole) (arg5 : Memref sig .tc .vmem S128x4096 .f32) (harg5 : arg5.IsWhole) (arg6 : Memref sig .tc .vmem S4096x4096 .bf16) (harg6 : arg6.IsWhole) (arg7 : Memref sig .tc .vmem S128x4096 .bf16) (harg7 : arg7.IsWhole)
    (x2 : Vec F S4096x128 .f32) (x3 : Vec F S1x128x128 .f32) (x4 : Vec F S256x4096 .f32) (x5 : Vec F S128x4096 .f32)
    (x6 : Vec F S4096x4096 .bf16) (x7 : Vec F S128x4096 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4 ∗ owns (c : Thread nD τ) arg5 fullShare ((rOut3 i h3).overlay x5 (k0_pay5 x4 (k0_pay1 x3 x2))) ∗ owns (c : Thread nD τ) arg6 fullShare ((rAdj3 i h3).overlay x6 (k0_pay4 x4)) ∗ owns (c : Thread nD τ) arg7 fullShare (k0_pay1 x3 x2)) -∗ K ⟨⟩))
      ⊢ wp frame (wpE (defs₀ (F := F)) Variants.none c none) E (cc0__node_kernel i arg2 harg2 arg3 harg3 arg4 harg4 arg5 harg5 arg6 harg6 arg7 harg7) K := by
  simp only [cc0__node_kernel_eq_skeleton]; unfold cc0__node_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h1 | exact h2 | exact h3 | exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_single harg5]
    sl_unfold_run_names
    simp only [View.readAt_eq_ld, harg4.read_unread, harg2.read_unread, harg3.read_unread]
    rw [View.readCov_unit_zero _ hz2, View.ld_unit_zero (S := S256x4096) hz2, View.ld_unit_zero (S := S1x128x128) hz3,
      View.ld_unit_zero (S := S4096x128) hz2]
  isplitl [H6]
  · iexists _; isplitr
    swap; · iexact H6
    ipureintro
    rw [read_writes_single harg6]
    simp only [View.readAt_eq_ld, harg4.read_unread]
    rw [View.ld_unit_zero (S := S256x4096) hz2]
  iexists _; isplitr
  swap; · iexact H7
  ipureintro
  sl_unfold_run_names
  rw [View.read_writes_eq_canon _ _ _ (fun y => ⟨_, List.mem_singleton_self _, View.mem_set_unit_zero hz2 inb_S128x4096_S128x4096_0_0 y⟩), View.canon_unit_zero hz2]
  simp only [View.readAt_eq_ld, harg2.read_unread, harg3.read_unread, harg5.read_unread]
  first
    | rw [View.ld_unit_zero (S := S1x128x128) hz3, View.ld_unit_zero (S := S4096x128) hz2]
    | rw [View.ld_unit_zero (S := S1x128x128) hz3, View.ld_unit_zero (S := S128x4096) hz2]

set_option maxHeartbeats 2000000 in
/-- The first tile of a later layer: the layer's transposed transformed features are computed from the whole previous state and kept; the tile's columns of the state are recomputed from the kept transposed adjacency. -/
theorem node_run_C (c : Dev nD) (E : Set ℕ) (i : grid0.Coords) (h1 : ¬ nc1 i) (h2 : nc2 i) (h3 : ¬ nc3 i) (h4 : nc4 i)
    (arg2 : Memref sig .tc .vmem S4096x128 .f32) (harg2 : arg2.IsWhole) (arg3 : Memref sig .tc .vmem S1x128x128 .f32) (harg3 : arg3.IsWhole) (arg4 : Memref sig .tc .vmem S256x4096 .f32) (harg4 : arg4.IsWhole) (arg5 : Memref sig .tc .vmem S128x4096 .f32) (harg5 : arg5.IsWhole) (arg6 : Memref sig .tc .vmem S4096x4096 .bf16) (harg6 : arg6.IsWhole) (arg7 : Memref sig .tc .vmem S128x4096 .bf16) (harg7 : arg7.IsWhole)
    (x2 : Vec F S4096x128 .f32) (x3 : Vec F S1x128x128 .f32) (x4 : Vec F S256x4096 .f32) (x5 : Vec F S128x4096 .f32)
    (x6 : Vec F S4096x4096 .bf16) (x7 : Vec F S128x4096 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (iprop(owns (c : Thread nD τ) arg2 fullShare x2 ∗ owns (c : Thread nD τ) arg3 fullShare x3 ∗ owns (c : Thread nD τ) arg4 fullShare x4 ∗ owns (c : Thread nD τ) arg5 fullShare ((rOut4 i h4).overlay x5 (k0_pay6 (k0_pay2 x3 x5) (View.ld x6 (rAdj4 i h4)))) ∗ owns (c : Thread nD τ) arg6 fullShare x6 ∗ owns (c : Thread nD τ) arg7 fullShare (k0_pay2 x3 x5)) -∗ K ⟨⟩))
      ⊢ wp frame (wpE (defs₀ (F := F)) Variants.none c none) E (cc0__node_kernel i arg2 harg2 arg3 harg3 arg4 harg4 arg5 harg5 arg6 harg6 arg7 harg7) K := by
  simp only [cc0__node_kernel_eq_skeleton]; unfold cc0__node_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h1 | exact h2 | exact h3 | exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_single harg5]
    sl_unfold_run_names
    simp only [View.readAt_eq_ld, harg6.read_unread, harg5.read_unread, harg3.read_unread]
    rw [View.readCov_unit_zero _ hz2, View.ld_unit_zero (S := S128x4096) hz2, View.ld_unit_zero (S := S1x128x128) hz3]
  isplitl [H6]
  · iexists _; isplitr
    swap; · iexact H6
    ipureintro
    exact harg6.read_unread _
  iexists _; isplitr
  swap; · iexact H7
  ipureintro
  sl_unfold_run_names
  rw [View.read_writes_eq_canon _ _ _ (fun y => ⟨_, List.mem_singleton_self _, View.mem_set_unit_zero hz2 inb_S128x4096_S128x4096_0_0 y⟩), View.canon_unit_zero hz2]
  simp only [View.readAt_eq_ld, harg2.read_unread, harg3.read_unread, harg5.read_unread]
  first
    | rw [View.ld_unit_zero (S := S1x128x128) hz3, View.ld_unit_zero (S := S4096x128) hz2]
    | rw [View.ld_unit_zero (S := S1x128x128) hz3, View.ld_unit_zero (S := S128x4096) hz2]

end Cert.Kernel.Gen

end
-- ==== Proof.BKSpec.lean ====
/- The kernel program's results as pure functions of its argument arrays, layer by layer.
   The node state is kept transposed, [128, 4096]: column j of layer l's state is the rectified product of the
   layer's transformed features with row j of the adjacency, computed one tile of 256 columns at a time; the
   transformed features of layer 0 come from the input features, those of a later layer from the previous state.
   The face result is the rectified product of the incidence rows, one tile of 256 rows at a time, with the
   transformed edge features. -/
import proofs.«179636_g2000605474969623_pallasbulk_585_7_alg».proof.Proof.Gen.Kernel.Skeleton
import Idealize.ShloMosaic.Lib.ValueIdx

noncomputable section

namespace Cert.Kernel.KSpec

open Idealize.ShloMosaic Idealize.ShloMosaic.ValueIdx Cert.Kernel Cert.Kernel.Gen

variable {F : FTy → Type} [FloatOps F]

/-- Layer l's weight matrix as the one-layer block of the stack. -/
def wBlk (W : Vec F S3x128x128 .f32) (l : Nat) : Vec F S1x128x128 .f32 :=
  fun j => W (ix3 (⟨l % 3, Nat.mod_lt _ (by decide)⟩ : Fin 3) (j 1 : Fin 128) (j 2 : Fin 128))

/-- The last layer's edge-to-face weight matrix. -/
def w2 (W : Vec F S3x128x128 .f32) : Vec F S128x128 .f32 :=
  fun j => W (ix3 (2 : Fin 3) (j 0 : Fin 128) (j 1 : Fin 128))

/-- Rows 256·i … 256·i+255 of the adjacency. -/
def tileA (A : Vec F S4096x4096 .f32) (i : Nat) : Vec F S256x4096 .f32 :=
  fun j => A (ix2 (⟨(256 * i + (j 0 : Fin 256).val) % 4096, Nat.mod_lt _ (by decide)⟩ : Fin 4096) (j 1 : Fin 4096))

/-- Rows 256·i … 256·i+255 of the incidence. -/
def tileInc (B : Vec F S2048x8192 .f32) (i : Nat) : Vec F S256x8192 .f32 :=
  fun j => B (ix2 (⟨(256 * i + (j 0 : Fin 256).val) % 2048, Nat.mod_lt _ (by decide)⟩ : Fin 2048) (j 1 : Fin 8192))

/-- The transposed adjacency as the kernel keeps it: column j is row j of the adjacency, tile by tile. -/
def aT (A : Vec F S4096x4096 .f32) : Vec F S4096x4096 .bf16 :=
  fun j => k0_pay4 (tileA A ((j 1 : Fin 4096).val / 256))
    (ix2 (j 0 : Fin 4096) (⟨(j 1 : Fin 4096).val % 256, Nat.mod_lt _ (by decide)⟩ : Fin 256))

/-- Columns 256·i … 256·i+255 of a [4096, 4096] array. -/
def colTile (X : Vec F S4096x4096 .bf16) (i : Nat) : Vec F S4096x256 .bf16 :=
  fun j => X (ix2 (j 0 : Fin 4096) (⟨(256 * i + (j 1 : Fin 256).val) % 4096, Nat.mod_lt _ (by decide)⟩ : Fin 4096))

/-- The first layer's transposed state from its transformed features: tile by tile, straight from the adjacency rows. -/
def stateT0 (A : Vec F S4096x4096 .f32) (mT : Vec F S128x4096 .bf16) : Vec F S128x4096 .f32 :=
  fun j => k0_pay5 (tileA A ((j 1 : Fin 4096).val / 256)) mT
    (ix2 (j 0 : Fin 128) (⟨(j 1 : Fin 4096).val % 256, Nat.mod_lt _ (by decide)⟩ : Fin 256))

/-- A later layer's transposed state from its transformed features: tile by tile, from the kept transposed adjacency. -/
def stateT1 (A : Vec F S4096x4096 .f32) (mT : Vec F S128x4096 .bf16) : Vec F S128x4096 .f32 :=
  fun j => k0_pay6 mT (colTile (aT A) ((j 1 : Fin 4096).val / 256))
    (ix2 (j 0 : Fin 128) (⟨(j 1 : Fin 4096).val % 256, Nat.mod_lt _ (by decide)⟩ : Fin 256))

/-- The transposed state after layer l. -/
def stateT (x0 : Vec F S4096x128 .f32) (W : Vec F S3x128x128 .f32) (A : Vec F S4096x4096 .f32) : Nat → Vec F S128x4096 .f32
  | 0 => stateT0 A (k0_pay1 (wBlk W 0) x0)
  | l + 1 => stateT1 A (k0_pay2 (wBlk W (l + 1)) (stateT x0 W A l))

/-- Layer l's transposed transformed features. -/
def m0T (x0 : Vec F S4096x128 .f32) (W : Vec F S3x128x128 .f32) (A : Vec F S4096x4096 .f32) : Nat → Vec F S128x4096 .bf16
  | 0 => k0_pay1 (wBlk W 0) x0
  | l + 1 => k0_pay2 (wBlk W (l + 1)) (stateT x0 W A l)

theorem stateT_zero (x0 : Vec F S4096x128 .f32) (W : Vec F S3x128x128 .f32) (A : Vec F S4096x4096 .f32) :
    stateT x0 W A 0 = stateT0 A (m0T x0 W A 0) := rfl
theorem stateT_succ (x0 : Vec F S4096x128 .f32) (W : Vec F S3x128x128 .f32) (A : Vec F S4096x4096 .f32) (l : Nat) :
    stateT x0 W A (l + 1) = stateT1 A (m0T x0 W A (l + 1)) := rfl

/-- The transformed edge features. -/
def m1 (x1 : Vec F S8192x128 .f32) (W12 : Vec F S3x128x128 .f32) : Vec F S8192x128 .bf16 := k1_pay1 x1 (w2 W12)

/-- The face result. -/
def x2 (x1 : Vec F S8192x128 .f32) (W12 : Vec F S3x128x128 .f32) (B : Vec F S2048x8192 .f32) : Vec F S2048x128 .f32 :=
  fun j => k1_pay2 (tileInc B ((j 0 : Fin 2048).val / 256)) (m1 x1 W12)
    (ix2 (⟨(j 0 : Fin 2048).val % 256, Nat.mod_lt _ (by decide)⟩ : Fin 256) (j 1 : Fin 128))

end Cert.Kernel.KSpec

end
-- ==== Proof.BKNodeInv.lean ====
/- Region 0 (the node kernel), the pure side: which branch each grid point takes and which columns its tile
   covers; a tile store read back at an index; and the invariants of the run — after point t (layer t / 16,
   tile t % 16) the resident output block holds the new transposed state on the columns of the tiles done in
   this layer and the previous layer's state on the others, and the kept transposed adjacency holds its final
   contents on the columns stored so far — with their step from one point to the next. -/
import proofs.«179636_g2000605474969623_pallasbulk_585_7_alg».proof.Proof.BKNodeBody
import proofs.«179636_g2000605474969623_pallasbulk_585_7_alg».proof.Proof.BKSpec

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

/-! ## The branches and the tiles over the grid (point t is layer t / 16, tile t % 16) -/

theorem hnc1 : ∀ t : Fin cfg0.N, nc1 (grid0.coords t) ↔ t.val = 0 :=
  (by decide +kernel : ∀ t : Fin grid0.N, nc1 (grid0.coords t) ↔ t.val = 0)
theorem hnc2 : ∀ t : Fin cfg0.N, nc2 (grid0.coords t) ↔ (t.val % 16 = 0 ∧ 16 ≤ t.val) :=
  (by decide +kernel : ∀ t : Fin grid0.N, nc2 (grid0.coords t) ↔ (t.val % 16 = 0 ∧ 16 ≤ t.val))
theorem hnc3 : ∀ t : Fin cfg0.N, nc3 (grid0.coords t) ↔ t.val < 16 :=
  (by decide +kernel : ∀ t : Fin grid0.N, nc3 (grid0.coords t) ↔ t.val < 16)
theorem hnc4 : ∀ t : Fin cfg0.N, nc4 (grid0.coords t) ↔ 16 ≤ t.val :=
  (by decide +kernel : ∀ t : Fin grid0.N, nc4 (grid0.coords t) ↔ 16 ≤ t.val)

/-- Every tile access starts at row 0 and at column 256 · (t % 16). -/
theorem hoff : ∀ t : Fin cfg0.N,
    k0_off1 (grid0.coords t) 0 = 0 ∧ k0_off1 (grid0.coords t) 1 = 256 * (t.val % 16)
    ∧ k0_off2 (grid0.coords t) 0 = 0 ∧ k0_off2 (grid0.coords t) 1 = 256 * (t.val % 16)
    ∧ k0_off3 (grid0.coords t) 0 = 0 ∧ k0_off3 (grid0.coords t) 1 = 256 * (t.val % 16)
    ∧ k0_off4 (grid0.coords t) 0 = 0 ∧ k0_off4 (grid0.coords t) 1 = 256 * (t.val % 16) :=
  (by decide +kernel : ∀ t : Fin grid0.N, _)

/-! ## A tile store read back at an index -/

section Overlay
variable {α : Type}

/-- Inside a stored column tile of a [128, 4096] block, the store's payload. -/
theorem overlay_out_mem {off : Fin 2 → Nat} {inb} (i : Nat) (h0 : off 0 = 0) (h1 : off 1 = 256 * i)
    (X : S128x4096.Idx → α) (G : S128x256.Idx → α) (cc : Fin 128) (col : Fin 4096) (q : Fin 256) (hq : col.val = 256 * i + q.val) :
    (Rect.unit (s := S128x4096) off S128x256.size inb).overlay X G (ix2 cc col) = G (ix2 cc q) := by
  have e : (ix2 cc col : S128x4096.Idx) = (Rect.unit (s := S128x4096) off S128x256.size inb).emb (ix2 cc q) := by
    funext a; apply Fin.ext
    match a with
    | ⟨0, _⟩ => show cc.val = off 0 + 1 * cc.val; omega
    | ⟨1, _⟩ => show col.val = off 1 + 1 * q.val; omega
  rw [e, Rect.overlay_emb]

/-- Outside it, what the block held. -/
theorem overlay_out_not_mem {off : Fin 2 → Nat} {inb} (i : Nat) (h1 : off 1 = 256 * i)
    (X : S128x4096.Idx → α) (G : S128x256.Idx → α) (cc : Fin 128) (col : Fin 4096) (hc : col.val < 256 * i ∨ 256 * (i + 1) ≤ col.val) :
    (Rect.unit (s := S128x4096) off S128x256.size inb).overlay X G (ix2 cc col) = X (ix2 cc col) :=
  Rect.overlay_of_not_mem _ _ _ (fun hm => by
    have h := (Rect.mem_set_unit.mp hm) (1 : Fin 2)
    have h' : off 1 ≤ col.val ∧ col.val < off 1 + 256 := h
    omega)

/-- The same for a stored column tile of the [4096, 4096] scratch. -/
theorem overlay_adj_mem {off : Fin 2 → Nat} {inb} (i : Nat) (h0 : off 0 = 0) (h1 : off 1 = 256 * i)
    (X : S4096x4096.Idx → α) (G : S4096x256.Idx → α) (n : Fin 4096) (col : Fin 4096) (q : Fin 256) (hq : col.val = 256 * i + q.val) :
    (Rect.unit (s := S4096x4096) off S4096x256.size inb).overlay X G (ix2 n col) = G (ix2 n q) := by
  have e : (ix2 n col : S4096x4096.Idx) = (Rect.unit (s := S4096x4096) off S4096x256.size inb).emb (ix2 n q) := by
    funext a; apply Fin.ext
    match a with
    | ⟨0, _⟩ => show n.val = off 0 + 1 * n.val; omega
    | ⟨1, _⟩ => show col.val = off 1 + 1 * q.val; omega
  rw [e, Rect.overlay_emb]

theorem overlay_adj_not_mem {off : Fin 2 → Nat} {inb} (i : Nat) (h1 : off 1 = 256 * i)
    (X : S4096x4096.Idx → α) (G : S4096x256.Idx → α) (n : Fin 4096) (col : Fin 4096) (hc : col.val < 256 * i ∨ 256 * (i + 1) ≤ col.val) :
    (Rect.unit (s := S4096x4096) off S4096x256.size inb).overlay X G (ix2 n col) = X (ix2 n col) :=
  Rect.overlay_of_not_mem _ _ _ (fun hm => by
    have h := (Rect.mem_set_unit.mp hm) (1 : Fin 2)
    have h' : off 1 ≤ col.val ∧ col.val < off 1 + 256 := h
    omega)

end Overlay

/-! ## The specification at a column of a tile -/

theorem stateT0_at (A : Vec F S4096x4096 .f32) (M : Vec F S128x4096 .bf16) (cc : Fin 128) (col : Fin 4096) (i : ℕ) (q : Fin 256)
    (h : col.val = 256 * i + q.val) : KSpec.stateT0 A M (ix2 cc col) = k0_pay5 (KSpec.tileA A i) M (ix2 cc q) := by
  have e1 : col.val / 256 = i := by have := q.isLt; omega
  have hq : (⟨col.val % 256, Nat.mod_lt _ (by decide)⟩ : Fin 256) = q := Fin.ext (by have := q.isLt; show col.val % 256 = q.val; omega)
  rw [show KSpec.stateT0 A M (ix2 cc col) = k0_pay5 (KSpec.tileA A (col.val / 256)) M (ix2 cc ⟨col.val % 256, Nat.mod_lt _ (by decide)⟩) from rfl, e1, hq]

theorem stateT1_at (A : Vec F S4096x4096 .f32) (M : Vec F S128x4096 .bf16) (cc : Fin 128) (col : Fin 4096) (i : ℕ) (q : Fin 256)
    (h : col.val = 256 * i + q.val) : KSpec.stateT1 A M (ix2 cc col) = k0_pay6 M (KSpec.colTile (KSpec.aT A) i) (ix2 cc q) := by
  have e1 : col.val / 256 = i := by have := q.isLt; omega
  have hq : (⟨col.val % 256, Nat.mod_lt _ (by decide)⟩ : Fin 256) = q := Fin.ext (by have := q.isLt; show col.val % 256 = q.val; omega)
  rw [show KSpec.stateT1 A M (ix2 cc col) = k0_pay6 M (KSpec.colTile (KSpec.aT A) (col.val / 256)) (ix2 cc ⟨col.val % 256, Nat.mod_lt _ (by decide)⟩) from rfl, e1, hq]

theorem aT_at (A : Vec F S4096x4096 .f32) (n : Fin 4096) (col : Fin 4096) (i : ℕ) (q : Fin 256)
    (h : col.val = 256 * i + q.val) : KSpec.aT A (ix2 n col) = k0_pay4 (KSpec.tileA A i) (ix2 n q) := by
  have e1 : col.val / 256 = i := by have := q.isLt; omega
  have hq : (⟨col.val % 256, Nat.mod_lt _ (by decide)⟩ : Fin 256) = q := Fin.ext (by have := q.isLt; show col.val % 256 = q.val; omega)
  rw [show KSpec.aT A (ix2 n col) = k0_pay4 (KSpec.tileA A (col.val / 256)) (ix2 n ⟨col.val % 256, Nat.mod_lt _ (by decide)⟩) from rfl, e1, hq]

/-! ## The invariants -/

section Inv
variable (x0 : Vec F S4096x128 .f32) (W : Vec F S3x128x128 .f32) (A : Vec F S4096x4096 .f32)

/-- After point t the resident output block holds layer t / 16's transposed state on the columns of the tiles
    done, and (in a later layer) the previous layer's on the others. -/
def OutInv (t : ℕ) (X : Vec F S128x4096 .f32) : Prop :=
  ∀ (cc : Fin 128) (col : Fin 4096),
    (col.val < 256 * (t % 16 + 1) → X (ix2 cc col) = KSpec.stateT x0 W A (t / 16) (ix2 cc col))
    ∧ (16 ≤ t → 256 * (t % 16 + 1) ≤ col.val → X (ix2 cc col) = KSpec.stateT x0 W A (t / 16 - 1) (ix2 cc col))

/-- After point t the kept transposed adjacency is final on the columns stored so far (all of them from the end
    of the first layer on). -/
def AdjInv (t : ℕ) (X : Vec F S4096x4096 .bf16) : Prop :=
  ∀ (n : Fin 4096) (col : Fin 4096), (15 ≤ t ∨ col.val < 256 * (t + 1)) → X (ix2 n col) = KSpec.aT A (ix2 n col)

/-- At the end of a layer the block is the layer's whole state. -/
theorem OutInv.whole {t : ℕ} {X : Vec F S128x4096 .f32} (h : OutInv x0 W A t X) (ht : t % 16 = 15) :
    X = KSpec.stateT x0 W A (t / 16) := by
  funext j
  rw [eq_ix2 j]
  exact (h (j 0) (j 1)).1 (by have := (j 1).isLt; have : ((j 1 : Fin 4096) : ℕ) < 4096 := (j 1).isLt; omega)

/-- A load of tile i's columns of the kept transposed adjacency, once they are final, reads the specification's. -/
theorem ld_adj {t : ℕ} {X : Vec F S4096x4096 .bf16} (h : AdjInv A t X) (ht : 15 ≤ t) {off : Fin 2 → Nat} {inb} (i : ℕ) (hi : i < 16)
    (h0 : off 0 = 0) (h1 : off 1 = 256 * i) :
    View.ld X (Rect.unit (s := S4096x4096) off S4096x256.size inb) = KSpec.colTile (KSpec.aT A) i := by
  funext j
  have hj0 : ((j 0 : Fin 4096) : ℕ) < 4096 := (j 0).isLt
  have hj1 : ((j 1 : Fin 256) : ℕ) < 256 := (j 1).isLt
  have e : (Rect.unit (s := S4096x4096) off S4096x256.size inb).idx j
      = ix2 (j 0 : Fin 4096) (⟨(256 * i + (j 1 : Fin 256).val) % 4096, Nat.mod_lt _ (by decide)⟩ : Fin 4096) := by
    funext a; apply Fin.ext
    match a with
    | ⟨0, _⟩ => show off 0 + 1 * (j 0 : Fin 4096).val = (j 0 : Fin 4096).val; omega
    | ⟨1, _⟩ => show off 1 + 1 * (j 1 : Fin 256).val = (256 * i + (j 1 : Fin 256).val) % 4096; omega
  show X ((Rect.unit (s := S4096x4096) off S4096x256.size inb).idx j) = KSpec.aT A (ix2 (j 0 : Fin 4096) ⟨(256 * i + (j 1 : Fin 256).val) % 4096, Nat.mod_lt _ (by decide)⟩)
  rw [e]
  exact h _ _ (Or.inl ht)

/-- THE STEP IN THE FIRST LAYER (t < 16): the tile's columns of the state from the adjacency rows. -/
theorem OutInv.step0 (t : ℕ) (ht : t < 16) (Y : Vec F S128x4096 .f32) (hY : t = 0 ∨ OutInv x0 W A (t - 1) Y)
    {off : Fin 2 → Nat} {inb} (h0 : off 0 = 0) (h1 : off 1 = 256 * (t % 16)) :
    OutInv x0 W A t ((Rect.unit (s := S128x4096) off S128x256.size inb).overlay Y (k0_pay5 (KSpec.tileA A t) (KSpec.m0T x0 W A 0))) := by
  intro cc col
  have htm : t % 16 = t := Nat.mod_eq_of_lt ht
  have htd : t / 16 = 0 := Nat.div_eq_of_lt ht
  rw [htm] at h1
  refine ⟨fun hcol => ?_, fun h16 => by omega⟩
  rw [htd, KSpec.stateT_zero]
  by_cases hin : 256 * t ≤ col.val
  · rw [overlay_out_mem t h0 h1 Y _ cc col ⟨col.val - 256 * t, by omega⟩ (by show col.val = 256 * t + (col.val - 256 * t); omega)]
    exact (stateT0_at A _ cc col t ⟨col.val - 256 * t, by omega⟩ (by show col.val = 256 * t + (col.val - 256 * t); omega)).symm
  · rw [overlay_out_not_mem t h1 Y _ cc col (Or.inl (by omega))]
    rcases hY with rfl | hY
    · omega
    · have := (hY cc col).1 (by have : (t - 1) % 16 = t - 1 := Nat.mod_eq_of_lt (by omega); omega)
      rw [this, show (t - 1) / 16 = 0 from Nat.div_eq_of_lt (by omega), KSpec.stateT_zero]

theorem AdjInv.step0 (t : ℕ) (ht : t < 16) (X : Vec F S4096x4096 .bf16) (hX : t = 0 ∨ AdjInv A (t - 1) X)
    {off : Fin 2 → Nat} {inb} (h0 : off 0 = 0) (h1 : off 1 = 256 * (t % 16)) :
    AdjInv A t ((Rect.unit (s := S4096x4096) off S4096x256.size inb).overlay X (k0_pay4 (KSpec.tileA A t))) := by
  intro n col hcol
  have htm : t % 16 = t := Nat.mod_eq_of_lt ht
  rw [htm] at h1
  have hc : col.val < 256 * (t + 1) := by have := col.isLt; omega
  by_cases hin : 256 * t ≤ col.val
  · rw [overlay_adj_mem t h0 h1 X _ n col ⟨col.val - 256 * t, by omega⟩ (by show col.val = 256 * t + (col.val - 256 * t); omega)]
    exact (aT_at A n col t ⟨col.val - 256 * t, by omega⟩ (by show col.val = 256 * t + (col.val - 256 * t); omega)).symm
  · rw [overlay_adj_not_mem t h1 X _ n col (Or.inl (by omega))]
    rcases hX with rfl | hX
    · omega
    · exact hX n col (Or.inr (by omega))

/-- From the end of the first layer on nothing stores into the kept transposed adjacency. -/
theorem AdjInv.keep (t : ℕ) (ht : 16 ≤ t) (X : Vec F S4096x4096 .bf16) (hX : AdjInv A (t - 1) X) : AdjInv A t X :=
  fun n col _ => hX n col (Or.inl (by omega))

/-- THE STEP IN A LATER LAYER (16 ≤ t): the tile's columns of the state from the kept transposed adjacency and the
    layer's transformed features. -/
theorem OutInv.step1 (t : ℕ) (ht : 16 ≤ t) (Y : Vec F S128x4096 .f32) (hY : OutInv x0 W A (t - 1) Y)
    (Xa : Vec F S4096x4096 .bf16) (hXa : AdjInv A (t - 1) Xa)
    {off off' : Fin 2 → Nat} {inb inb'} (h0 : off 0 = 0) (h1 : off 1 = 256 * (t % 16)) (h0' : off' 0 = 0) (h1' : off' 1 = 256 * (t % 16)) :
    OutInv x0 W A t ((Rect.unit (s := S128x4096) off S128x256.size inb).overlay Y
      (k0_pay6 (KSpec.m0T x0 W A (t / 16)) (View.ld Xa (Rect.unit (s := S4096x4096) off' S4096x256.size inb')))) := by
  intro cc col
  have hlt : t % 16 < 16 := Nat.mod_lt _ (by decide)
  rw [ld_adj A hXa (by omega) (t % 16) hlt h0' h1']
  obtain ⟨l, hl⟩ : ∃ l, t / 16 = l + 1 := ⟨t / 16 - 1, by omega⟩
  refine ⟨fun hcol => ?_, fun _ hcol => ?_⟩
  · by_cases hin : 256 * (t % 16) ≤ col.val
    · rw [overlay_out_mem (t % 16) h0 h1 Y _ cc col ⟨col.val - 256 * (t % 16), by omega⟩ (by show col.val = 256 * (t % 16) + (col.val - 256 * (t % 16)); omega)]
      rw [hl, KSpec.stateT_succ]
      exact (stateT1_at A _ cc col (t % 16) ⟨col.val - 256 * (t % 16), by omega⟩ (by show col.val = 256 * (t % 16) + (col.val - 256 * (t % 16)); omega)).symm
    · rw [overlay_out_not_mem (t % 16) h1 Y _ cc col (Or.inl (by omega))]
      have := (hY cc col).1 (by omega)
      rw [this, show (t - 1) / 16 = t / 16 by omega]
  · rw [overlay_out_not_mem (t % 16) h1 Y _ cc col (Or.inr (by omega))]
    by_cases hz : t % 16 = 0
    · have := (hY cc col).1 (by have := col.isLt; omega)
      rw [this, show (t - 1) / 16 = t / 16 - 1 by omega]
    · have := (hY cc col).2 (by omega) (by omega)
      rw [this, show (t - 1) / 16 - 1 = t / 16 - 1 by omega]

end Inv

end Cert.Kernel.Gen

end
-- ==== Proof.BKNodeDat.lean ====
/- Region 0 (the node kernel) as relational proof data: the arrays as the region finds them; what each input window's
   block is; the invariant (the two scratch buffers at what the point before left); and the body obligation at every
   point, by cases on the branch the point takes. The output's staging buffer is only partly overwritten per point
   and holds unknown contents at first, so what the body leaves there is constrained (it satisfies the run's
   invariant), not named. -/
import proofs.«179636_g2000605474969623_pallasbulk_585_7_alg».proof.Proof.BKNodeInv

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

section Region0
variable (V : (c : Dev nD) → (b : Ref sig .tc) → Buf (Elt F) ((c : Thread nD τ).loc b))

/-- The arrays the node kernel reads, as the region finds them: the features, the weight stack, the adjacency. -/
abbrev nX0 (c : Dev nD) : Vec F S4096x128 .f32 := V c main_arg0
abbrev nW (c : Dev nD) : Vec F S3x128x128 .f32 := V c main_arg4
abbrev nA (c : Dev nD) : Vec F S4096x4096 .f32 := V c main_arg2

/-- Window w's block at point t, read off its array as the region finds it. -/
def nblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The windows' block indices over the grid: the features and the state are one whole block; the weights' block is
    the layer; the adjacency's block in the first layer is the tile. -/
theorem hidx : ∀ t : Fin cfg0.N,
    win0_0.index t (0 : Fin 2) = 0 ∧ win0_0.index t (1 : Fin 2) = 0
    ∧ win0_1.index t (0 : Fin 3) = t.val / 16 ∧ win0_1.index t (1 : Fin 3) = 0 ∧ win0_1.index t (2 : Fin 3) = 0
    ∧ (t.val < 16 → win0_2.index t (0 : Fin 2) = t.val) ∧ win0_2.index t (1 : Fin 2) = 0 :=
  (by decide +kernel : ∀ t : Fin grid0.N, _)

theorem nblk_0 (c : Dev nD) (t : Fin cfg0.N) : nblk V c 0 t = nX0 V c := by
  obtain ⟨e0, e1, -⟩ := hidx t
  funext j
  show V c main_arg0 (((cfg0.win 0).blk t).view.emb j) = V c main_arg0 j
  refine congrArg _ ?_
  funext a; apply Fin.ext
  match a with
  | ⟨0, _⟩ => show win0_0.index t (0 : Fin 2) * 4096 + 1 * (j 0).val = (j 0).val; omega
  | ⟨1, _⟩ => show win0_0.index t (1 : Fin 2) * 128 + 1 * (j 1).val = (j 1).val; omega

theorem nblk_1 (c : Dev nD) (t : Fin cfg0.N) : nblk V c 1 t = KSpec.wBlk (nW V c) (t.val / 16) := by
  obtain ⟨-, -, e0, e1, e2, -⟩ := hidx t
  have hN : t.val < 48 := lt_of_lt_of_eq t.isLt N_0
  funext j
  show V c main_arg4 (((cfg0.win 1).blk t).view.emb j) = V c main_arg4 (ix3 (⟨(t.val / 16) % 3, Nat.mod_lt _ (by decide)⟩ : Fin 3) (j 1 : Fin 128) (j 2 : Fin 128))
  refine congrArg _ ?_
  funext a; apply Fin.ext
  match a with
  | ⟨0, _⟩ => show win0_1.index t (0 : Fin 3) * 1 + 1 * (j 0).val = (t.val / 16) % 3; have hj : (j 0).val < 1 := (j 0).isLt; omega
  | ⟨1, _⟩ => show win0_1.index t (1 : Fin 3) * 128 + 1 * (j 1).val = (j 1).val; omega
  | ⟨2, _⟩ => show win0_1.index t (2 : Fin 3) * 128 + 1 * (j 2).val = (j 2).val; omega

theorem nblk_2 (c : Dev nD) (t : Fin cfg0.N) (ht : t.val < 16) : nblk V c 2 t = KSpec.tileA (nA V c) t.val := by
  obtain ⟨-, -, -, -, -, e0, e1⟩ := hidx t
  have e0 := e0 ht
  funext j
  show V c main_arg2 (((cfg0.win 2).blk t).view.emb j) = V c main_arg2 (ix2 (⟨(256 * t.val + (j 0 : Fin 256).val) % 4096, Nat.mod_lt _ (by decide)⟩ : Fin 4096) (j 1 : Fin 4096))
  refine congrArg _ ?_
  funext a; apply Fin.ext
  match a with
  | ⟨0, _⟩ => show win0_2.index t (0 : Fin 2) * 256 + 1 * (j 0).val = (256 * t.val + (j 0 : Fin 256).val) % 4096; have hj : (j 0).val < 256 := (j 0).isLt; omega
  | ⟨1, _⟩ => show win0_2.index t (1 : Fin 2) * 4096 + 1 * (j 1).val = (j 1).val; omega

/-! ## The invariant -/

abbrev scN0 : Memref sig .tc .vmem S4096x4096 .bf16 := Memref.whole cc0_scratch0
abbrev scN1 : Memref sig .tc .vmem S128x4096 .bf16 := Memref.whole cc0_scratch1

/-- The scoped buffers the node kernel does not touch (the face kernel's), each at some contents. -/
def nrest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the node kernel's two scratch buffers as memrefs owned at some contents. -/
theorem PhiA0_eq (c : Dev nD) :
    (Pipeline.ΦA spec0 c : sProp 𝕄)
      = iprop(((∃ d, owns (c : Thread nD τ) scN0 fullShare d) ∗ (∃ d, owns (c : Thread nD τ) scN1 fullShare d) ∗ nrest (F := F) c) ∗ (∃ r, prngReg c r)) := by
  unfold Pipeline.ΦA nrest; rw [scopedRest0_eq]; simp only [scN0, scN1, owns_whole]; try rfl

/-- The region invariant before position n: before the first point the class's (both scratch buffers at anything);
    afterwards the kept transposed adjacency final on the columns stored so far, and the transformed features of the
    layer of the point before. -/
def PhiN (c : Dev nD) : ℕ → sProp 𝕄
  | 0 => Pipeline.ΦA spec0 c
  | n + 1 => iprop(((∃ x6, ⌜AdjInv (nA V c) n x6⌝ ∗ owns (c : Thread nD τ) scN0 fullShare x6)
      ∗ owns (c : Thread nD τ) scN1 fullShare (KSpec.m0T (nX0 V c) (nW V c) (nA V c) (n / 16)) ∗ nrest (F := F) c) ∗ (∃ r, prngReg c r))

theorem PhiN_succ (c : Dev nD) (n : ℕ) : PhiN V c (n + 1) = iprop(((∃ x6, ⌜AdjInv (nA V c) n x6⌝ ∗ owns (c : Thread nD τ) scN0 fullShare x6)
      ∗ owns (c : Thread nD τ) scN1 fullShare (KSpec.m0T (nX0 V c) (nW V c) (nA V c) (n / 16)) ∗ nrest (F := F) c) ∗ (∃ r, prngReg c r)) := rfl

theorem PhiN_pos (c : Dev nD) (n : ℕ) (hn : n ≠ 0) : PhiN V c n = iprop(((∃ x6, ⌜AdjInv (nA V c) (n - 1) x6⌝ ∗ owns (c : Thread nD τ) scN0 fullShare x6)
      ∗ owns (c : Thread nD τ) scN1 fullShare (KSpec.m0T (nX0 V c) (nW V c) (nA V c) ((n - 1) / 16)) ∗ nrest (F := F) c) ∗ (∃ r, prngReg c r)) := by
  cases n with
  | zero => exact absurd rfl hn
  | succ n => rfl

/-! ## The proof data -/

/-- Region 0's relational proof data on core c: the arrays as the region finds them; each input's buffer left as
    found; the output's buffer left satisfying the run's invariant at the point; the scratch invariant; nothing owed. -/
def nrd (c : Dev nD) : RDat τ (Elt F) Unit ℕ (UR sig nD τ) ℕ cfg0 c where
  A w := V c (Pipeline.arrRef spec0 w)
  after w t Y X := match w with
    | ⟨0, _⟩ => X = Y
    | ⟨1, _⟩ => X = Y
    | ⟨2, _⟩ => X = Y
    | ⟨3, _⟩ => OutInv (nX0 V c) (nW V c) (nA V c) t.val X
  Φ t := PhiN V c t.val
  q _ := fullShare
  owed _ := 0

theorem nrd_A (c : Dev nD) (w : Fin cfg0.W) : (nrd V c).A w = V c (Pipeline.arrRef spec0 w) := by dsimp only [nrd]

/-- The output window is never fetched. -/
theorem nfetch3 : ∀ t : Fin cfg0.N, (cfg0.win 3).fetch t = false :=
  (by decide +kernel : ∀ t : Fin grid0.N, win0_3.fetch t = false)

/-- Each input's current staging buffer holds its block at every point, fetched there or not. -/
theorem nfinds_0 (c : Dev nD) (t : Fin cfg0.N) (Y) (h : (nrd V c).Finds 0 t Y) : Y = nX0 V c := by
  obtain ⟨d, hd⟩ := (nrd V c).finds_in_eq_fetched 0 rfl (fun _ _ _ => rfl) (fun _ _ _ h => h) t Y h
  refine hd.trans (Eq.trans ?_ (nblk_0 V c t))
  unfold RDat.fetched RDat.blockOf nblk; rw [nrd_A]; try rfl
theorem nfinds_1 (c : Dev nD) (t : Fin cfg0.N) (Y) (h : (nrd V c).Finds 1 t Y) : Y = KSpec.wBlk (nW V c) (t.val / 16) := by
  obtain ⟨d, hd⟩ := (nrd V c).finds_in_eq_fetched 1 rfl (fun _ _ _ => rfl) (fun _ _ _ h => h) t Y h
  refine hd.trans (Eq.trans ?_ (nblk_1 V c t))
  unfold RDat.fetched RDat.blockOf nblk; rw [nrd_A]; try rfl
theorem nfinds_2 (c : Dev nD) (t : Fin cfg0.N) (ht : t.val < 16) (Y) (h : (nrd V c).Finds 2 t Y) : Y = KSpec.tileA (nA V c) t.val := by
  obtain ⟨d, hd⟩ := (nrd V c).finds_in_eq_fetched 2 rfl (fun _ _ _ => rfl) (fun _ _ _ h => h) t Y h
  refine hd.trans (Eq.trans ?_ (nblk_2 V c t ht))
  unfold RDat.fetched RDat.blockOf nblk; rw [nrd_A]; try rfl

/-- After the first point the output's buffer holds what the point before left: it satisfies that point's invariant. -/
theorem nfinds_3 (c : Dev nD) (t : Fin cfg0.N) (ht : t.val ≠ 0) (Y) (h : (nrd V c).Finds 3 t Y) :
    OutInv (nX0 V c) (nW V c) (nA V c) (t.val - 1) Y := by
  rcases ((nrd V c).finds_of_pos (nfetch3 t) ht Y).mp h with hfl | ⟨Y', -, hR⟩
  · exfalso
    have h47 := (flush0_3 _).mp hfl
    have hN : t.val < 48 := lt_of_lt_of_eq t.isLt N_0
    simp only at h47
    omega
  · exact hR

/-! ## The body obligation -/

theorem PhiN_zero (c : Dev nD) (n : ℕ) (hn : n = 0) : PhiN V c n = Pipeline.ΦA spec0 c := by subst hn; rfl

set_option maxHeartbeats 8000000 in
/-- The body at any point, the windows' buffers at contents of plain types: the inputs at their blocks, the output's
    (after the first point) satisfying the point before's invariant. By cases on the branch the point takes. -/
theorem nsound_core (c : Dev nD) (t : Fin cfg0.N)
    (y0 : Vec F S4096x128 .f32) (y1 : Vec F S1x128x128 .f32) (y2 : Vec F S256x4096 .f32) (y3 : Vec F S128x4096 .f32)
    (e0 : y0 = nX0 V c) (e1 : y1 = KSpec.wBlk (nW V c) (t.val / 16)) (e2 : t.val < 16 → y2 = KSpec.tileA (nA V c) t.val)
    (e3 : t.val ≠ 0 → OutInv (nX0 V c) (nW V c) (nA V c) (t.val - 1) y3) :
    iprop(PhiN V c t.val ∗ (nrd V c).owesAt () t.castSucc
        ∗ owns (c : Thread nD τ) (st0_0 t) fullShare y0 ∗ owns (c : Thread nD τ) (st0_1 t) fullShare y1
        ∗ owns (c : Thread nD τ) (st0_2 t) fullShare y2 ∗ owns (c : Thread nD τ) (st0_3 t) fullShare y3)
      ⊢ wp frame (wpE (defs₀ (F := F)) Variants.none c none) Set.univ (bodyAt0 t) (fun _ =>
          iprop(PhiN V c (t.val + 1) ∗ (nrd V c).owesAt () t.castSucc
            ∗ owns (c : Thread nD τ) (st0_0 t) fullShare y0 ∗ owns (c : Thread nD τ) (st0_1 t) fullShare y1
            ∗ owns (c : Thread nD τ) (st0_2 t) fullShare y2
            ∗ (∃ X, ⌜OutInv (nX0 V c) (nW V c) (nA V c) t.val X⌝ ∗ owns (c : Thread nD τ) (st0_3 t) fullShare X))) := by
  subst e0 e1
  have hN : t.val < 48 := lt_of_lt_of_eq t.isLt N_0
  obtain ⟨o10, o11, o20, o21, o30, o31, o40, o41⟩ := hoff t
  rw [PhiN_succ]
  unfold bodyAt0
  by_cases hl : t.val < 16
  · obtain rfl := e2 hl
    have c3 : nc3 (grid0.coords t) := (hnc3 t).mpr hl
    have c4 : ¬ nc4 (grid0.coords t) := fun h => by have := (hnc4 t).mp h; omega
    have c2 : ¬ nc2 (grid0.coords t) := fun h => by have := (hnc2 t).mp h; omega
    have hd : t.val / 16 = 0 := Nat.div_eq_of_lt hl
    by_cases hz : t.val = 0
    · have c1 : nc1 (grid0.coords t) := (hnc1 t).mpr hz
      rw [PhiN_zero V c _ hz, PhiA0_eq]
      rw [show KSpec.m0T (nX0 V c) (nW V c) (nA V c) (t.val / 16) = k0_pay1 (KSpec.wBlk (nW V c) (t.val / 16)) (nX0 V c) from by rw [hd]; rfl]
      iintro ⟨⟨⟨⟨%d6, H6⟩, ⟨%d7, H7⟩, Hrest⟩, Hg⟩, Ho, H0, H1, H2, H3⟩
      iapply (node_run_A c Set.univ (grid0.coords t) c1 c2 c3 c4 _ _ _ _ _ _ _ _ _ _ _ _ (nX0 V c) (KSpec.wBlk (nW V c) (t.val / 16)) (KSpec.tileA (nA V c) t.val) y3 d6 d7 _)
      isplitl [H0]; · iexact H0
      isplitl [H1]; · iexact H1
      isplitl [H2]; · iexact H2
      isplitl [H3]; · iexact H3
      isplitl [H6]; · iexact H6
      isplitl [H7]; · iexact H7
      iintro ⟨H0, H1, H2, H3, H6, H7⟩
      isplitl [H6 H7 Hrest Hg]
      · isplitl [H6 H7 Hrest]
        · isplitl [H6]
          · iexists _; isplitr
            swap; · iexact H6
            ipureintro
            exact AdjInv.step0 (nA V c) t.val hl d6 (Or.inl hz) o10 o11
          isplitl [H7]; · iexact H7
          iexact Hrest
        iexact Hg
      isplitl [Ho]; · iexact Ho
      isplitl [H0]; · iexact H0
      isplitl [H1]; · iexact H1
      isplitl [H2]; · iexact H2
      iexists _; isplitr
      swap; · iexact H3
      ipureintro
      have hm : k0_pay1 (KSpec.wBlk (nW V c) (t.val / 16)) (nX0 V c) = KSpec.m0T (nX0 V c) (nW V c) (nA V c) 0 := by rw [hd]; rfl
      rw [hm]
      exact OutInv.step0 (nX0 V c) (nW V c) (nA V c) t.val hl y3 (Or.inl hz) o20 o21
    · have c1 : ¬ nc1 (grid0.coords t) := fun h => hz ((hnc1 t).mp h)
      rw [PhiN_pos V c _ hz]
      rw [show (t.val - 1) / 16 = 0 from Nat.div_eq_of_lt (by omega), hd]
      iintro ⟨⟨⟨⟨%x6, %hx6, H6⟩, H7, Hrest⟩, Hg⟩, Ho, H0, H1, H2, H3⟩
      iapply (node_run_B c Set.univ (grid0.coords t) c1 c2 c3 c4 _ _ _ _ _ _ _ _ _ _ _ _ (nX0 V c) (KSpec.wBlk (nW V c) 0) (KSpec.tileA (nA V c) t.val) y3 x6 (KSpec.m0T (nX0 V c) (nW V c) (nA V c) 0) _)
      isplitl [H0]; · iexact H0
      isplitl [H1]; · iexact H1
      isplitl [H2]; · iexact H2
      isplitl [H3]; · iexact H3
      isplitl [H6]; · iexact H6
      isplitl [H7]; · iexact H7
      iintro ⟨H0, H1, H2, H3, H6, H7⟩
      isplitl [H6 H7 Hrest Hg]
      · isplitl [H6 H7 Hrest]
        · isplitl [H6]
          · iexists _; isplitr
            swap; · iexact H6
            ipureintro
            exact AdjInv.step0 (nA V c) t.val hl x6 (Or.inr hx6) o10 o11
          isplitl [H7]; · iexact H7
          iexact Hrest
        iexact Hg
      isplitl [Ho]; · iexact Ho
      isplitl [H0]; · iexact H0
      isplitl [H1]; · iexact H1
      isplitl [H2]; · iexact H2
      iexists _; isplitr
      swap; · iexact H3
      ipureintro
      exact OutInv.step0 (nX0 V c) (nW V c) (nA V c) t.val hl y3 (Or.inr (e3 hz)) o20 o21
  · have h16 : 16 ≤ t.val := by omega
    have hz : t.val ≠ 0 := by omega
    have c1 : ¬ nc1 (grid0.coords t) := fun h => hz ((hnc1 t).mp h)
    have c3 : ¬ nc3 (grid0.coords t) := fun h => hl ((hnc3 t).mp h)
    have c4 : nc4 (grid0.coords t) := (hnc4 t).mpr h16
    have hy3 := e3 hz
    rw [PhiN_pos V c _ hz]
    by_cases hm : t.val % 16 = 0
    · have c2 : nc2 (grid0.coords t) := (hnc2 t).mpr ⟨hm, h16⟩
      obtain ⟨l, hl1, hl0⟩ : ∃ l, t.val / 16 = l + 1 ∧ (t.val - 1) / 16 = l := ⟨t.val / 16 - 1, by omega, by omega⟩
      have hw : y3 = KSpec.stateT (nX0 V c) (nW V c) (nA V c) l := by
        have := OutInv.whole (nX0 V c) (nW V c) (nA V c) hy3 (by omega)
        rwa [hl0] at this
      have hmT : k0_pay2 (KSpec.wBlk (nW V c) (t.val / 16)) y3 = KSpec.m0T (nX0 V c) (nW V c) (nA V c) (t.val / 16) := by
        rw [hw, hl1]; rfl
      rw [← hmT]
      iintro ⟨⟨⟨⟨%x6, %hx6, H6⟩, H7, Hrest⟩, Hg⟩, Ho, H0, H1, H2, H3⟩
      iapply (node_run_C c Set.univ (grid0.coords t) c1 c2 c3 c4 _ _ _ _ _ _ _ _ _ _ _ _ (nX0 V c) (KSpec.wBlk (nW V c) (t.val / 16)) y2 y3 x6 (KSpec.m0T (nX0 V c) (nW V c) (nA V c) ((t.val - 1) / 16)) _)
      isplitl [H0]; · iexact H0
      isplitl [H1]; · iexact H1
      isplitl [H2]; · iexact H2
      isplitl [H3]; · iexact H3
      isplitl [H6]; · iexact H6
      isplitl [H7]; · iexact H7
      iintro ⟨H0, H1, H2, H3, H6, H7⟩
      isplitl [H6 H7 Hrest Hg]
      · isplitl [H6 H7 Hrest]
        · isplitl [H6]
          · iexists _; isplitr
            swap; · iexact H6
            ipureintro
            exact AdjInv.keep (nA V c) t.val h16 x6 hx6
          isplitl [H7]; · iexact H7
          iexact Hrest
        iexact Hg
      isplitl [Ho]; · iexact Ho
      isplitl [H0]; · iexact H0
      isplitl [H1]; · iexact H1
      isplitl [H2]; · iexact H2
      iexists _; isplitr
      swap; · iexact H3
      ipureintro
      rw [hmT]
      exact OutInv.step1 (nX0 V c) (nW V c) (nA V c) t.val h16 y3 hy3 x6 hx6 o40 o41 o30 o31
    · have c2 : ¬ nc2 (grid0.coords t) := fun h => hm ((hnc2 t).mp h).1
      rw [show (t.val - 1) / 16 = t.val / 16 from by omega]
      iintro ⟨⟨⟨⟨%x6, %hx6, H6⟩, H7, Hrest⟩, Hg⟩, Ho, H0, H1, H2, H3⟩
      iapply (node_run_D c Set.univ (grid0.coords t) c1 c2 c3 c4 _ _ _ _ _ _ _ _ _ _ _ _ (nX0 V c) (KSpec.wBlk (nW V c) (t.val / 16)) y2 y3 x6 (KSpec.m0T (nX0 V c) (nW V c) (nA V c) (t.val / 16)) _)
      isplitl [H0]; · iexact H0
      isplitl [H1]; · iexact H1
      isplitl [H2]; · iexact H2
      isplitl [H3]; · iexact H3
      isplitl [H6]; · iexact H6
      isplitl [H7]; · iexact H7
      iintro ⟨H0, H1, H2, H3, H6, H7⟩
      isplitl [H6 H7 Hrest Hg]
      · isplitl [H6 H7 Hrest]
        · isplitl [H6]
          · iexists _; isplitr
            swap; · iexact H6
            ipureintro
            exact AdjInv.keep (nA V c) t.val h16 x6 hx6
          isplitl [H7]; · iexact H7
          iexact Hrest
        iexact Hg
      isplitl [Ho]; · iexact Ho
      isplitl [H0]; · iexact H0
      isplitl [H1]; · iexact H1
      isplitl [H2]; · iexact H2
      iexists _; isplitr
      swap; · iexact H3
      ipureintro
      exact OutInv.step1 (nX0 V c) (nW V c) (nA V c) t.val h16 y3 hy3 x6 hx6 o40 o41 o30 o31

/-- The library's body obligation (relational form), at every point: the inputs' buffers hold their blocks, the
    output's what the point before left; each buffer is handed back in its relation to what was found. -/
theorem nbody (c : Dev nD) : (nrd V c).BodyObligation (defs₀ (F := F)) Variants.none () Set.univ := fun t Y hY => by
  rw [bigSep_W0, bigSep_W0]
  have e0 := nfinds_0 V c t _ (hY 0)
  have e1 := nfinds_1 V c t _ (hY 1)
  have e2 : t.val < 16 → Y 2 = KSpec.tileA (nA V c) t.val := fun h => nfinds_2 V c t h _ (hY 2)
  have e3 : t.val ≠ 0 → OutInv (nX0 V c) (nW V c) (nA V c) (t.val - 1) (Y 3) := fun h => nfinds_3 V c t h _ (hY 3)
  refine (nsound_core V c t (Y 0) (Y 1) (Y 2) (Y 3) e0 e1 e2 e3).trans (wp_mono _ _ _ fun _ => ?_)
  rw [show (nrd V c).Φ t.succ = PhiN V c (t.val + 1) from rfl, show (nrd V c).owesAt () t.succ = (nrd V c).owesAt () t.castSucc from rfl]
  iintro ⟨HΦ, Ho, H0, H1, H2, H3⟩
  isplitl [HΦ]; · iexact HΦ
  isplitl [Ho]; · iexact Ho
  isplitl [H0]; · iexists _; isplitr; · ipureintro; exact rfl
                  iexact H0
  isplitl [H1]; · iexists _; isplitr; · ipureintro; exact rfl
                  iexact H1
  isplitl [H2]; · iexists _; isplitr; · ipureintro; exact rfl
                  iexact H2
  iexact H3

/-- What the launch hands the region is the invariant before the first point. -/
theorem nhin (c : Dev nD) : Pipeline.ΦA spec0 c ⊢ (nrd V c).Φ 0 := by
  rw [show (nrd V c).Φ 0 = Pipeline.ΦA spec0 c from rfl]

/-- After the last point the invariant gives the class's back: the scratch buffers' named contents are forgotten. -/
theorem nhout (c : Dev nD) : (nrd V c).Φ (Fin.last cfg0.N) ⊢ Pipeline.ΦA spec0 c := by
  rw [show (nrd V c).Φ (Fin.last cfg0.N) = PhiN V c 48 from rfl, PhiN_pos V c 48 (by decide), PhiA0_eq]
  iintro ⟨⟨⟨%x6, -, H6⟩, H7, Hrest⟩, Hg⟩
  isplitl [H6 H7 Hrest]
  · isplitl [H6]; · iexists _; iexact H6
    isplitl [H7]; · iexists _; iexact H7
    iexact Hrest
  iexact Hg

/-! ## The arrays after the region -/

theorem hidx3 : ∀ t : Fin cfg0.N, win0_3.index t (0 : Fin 2) = 0 ∧ win0_3.index t (1 : Fin 2) = 0 :=
  (by decide +kernel : ∀ t : Fin grid0.N, _)

/-- No write-back before the last point. -/
theorem nArrAt_lt (c : Dev nD) : ∀ n, n ≤ 47 → (nrd V c).ArrAt 3 n = (nrd V c).ArrAt 3 0
  | 0, _ => rfl
  | n + 1, h => by
    have hn : n < cfg0.N := by have := N_0; show n < grid0.N; omega
    rw [show n + 1 = (⟨n, hn⟩ : Fin cfg0.N).val + 1 from rfl, RDat.ArrAt_succ,
      if_neg (by intro hf; have := (flush0_3 ⟨n, hn⟩).mp hf; simp only at this; omega)]
    exact nArrAt_lt c n (by omega)

/-- The state array after the region: the one write-back, at the last point, of a block that is the whole array and
    holds the last layer's whole transposed state. -/
theorem nfinal_3 (c : Dev nD) (G : Buf (Elt F) ((cfg0.win 3).arr.view.loc (c.tc : Thread nD τ))) (h : (nrd V c).ArrAt 3 cfg0.N G) :
    G = (KSpec.stateT (nX0 V c) (nW V c) (nA V c) 2 : Vec F S128x4096 .f32) := by
  have h47 : (47 : ℕ) < cfg0.N := by have := N_0; show 47 < grid0.N; omega
  rw [show cfg0.N = (⟨47, h47⟩ : Fin cfg0.N).val + 1 from N_0, RDat.ArrAt_succ, if_pos ((flush0_3 _).mpr rfl)] at h
  obtain ⟨G₀, X, -, ⟨Y, -, hX⟩, rfl⟩ := h
  have hw : X = KSpec.stateT (nX0 V c) (nW V c) (nA V c) 2 := OutInv.whole (t := 47) (nX0 V c) (nW V c) (nA V c) hX (by decide)
  obtain ⟨i0, i1⟩ := hidx3 ⟨47, h47⟩
  funext i
  have hi : i = ((cfg0.win 3).blk ⟨47, h47⟩).view.emb i := by
    funext a; apply Fin.ext
    match a with
    | ⟨0, _⟩ => show (i 0).val = win0_3.index ⟨47, h47⟩ (0 : Fin 2) * 128 + 1 * (i 0).val; omega
    | ⟨1, _⟩ => show (i 1).val = win0_3.index ⟨47, h47⟩ (1 : Fin 2) * 4096 + 1 * (i 1).val; omega
  refine (congrArg _ hi).trans ?_
  rw [View.write_emb_of_mem _ _ (Finset.mem_univ _), hw]
  rfl

/-- The region's arrays after it: the three inputs as found, the state array at the last layer's transposed state. -/
theorem nfinal_0 (c : Dev nD) (G) (h : (nrd V c).ArrAt 0 cfg0.N G) : G = V c main_arg0 := by
  rw [RDat.ArrAt_in _ 0 rfl] at h; exact h.trans (nrd_A V c 0)
theorem nfinal_1 (c : Dev nD) (G) (h : (nrd V c).ArrAt 1 cfg0.N G) : G = V c main_arg4 := by
  rw [RDat.ArrAt_in _ 1 rfl] at h; exact h.trans (nrd_A V c 1)
theorem nfinal_2 (c : Dev nD) (G) (h : (nrd V c).ArrAt 2 cfg0.N G) : G = V c main_arg2 := by
  rw [RDat.ArrAt_in _ 2 rfl] at h; exact h.trans (nrd_A V c 2)

end Region0

end Cert.Kernel.Gen

end
-- ==== Proof.BKFaceBody.lean ====
/- The face kernel's body, case by case: at the first tile of a core's run it fills the scratch with the
   transformed edge features; at every tile it stores the tile's rows of the result. -/
import proofs.«179636_g2000605474969623_pallasbulk_585_7_alg».proof.Proof.Gen.Kernel.Launch
import proofs.«179636_g2000605474969623_pallasbulk_585_7_alg».proof.Proof.Gen.Kernel.Skeleton
import proofs.«179636_g2000605474969623_pallasbulk_585_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

theorem fhz2 : (![0, 0] : Fin 2 → Nat) = fun _ => 0 := by funext a; fin_cases a <;> rfl

/-- The condition under which the face kernel recomputes its scratch: the tile is the first of its core's run. -/
abbrev fcond (i : grid1.Coords) : Prop := (Scalar.cmpi .ne (Scalar.extui (Scalar.cmpi .eq (BitVec.ofNat 32 (i 1).val) 0#32)) 0#32) = 1#1

set_option maxHeartbeats 2000000 in
/-- A later tile: the tile's rows of the result from the kept transformed edge features. -/
theorem face_run_later (c : Dev nD) (E : Set ℕ) (i : grid1.Coords) (hc : ¬ fcond i)
    (arg2 : Memref sig .tc .vmem S8192x128 .f32) (harg2 : arg2.IsWhole) (arg3 : Memref sig .tc .vmem S128x128 .f32) (harg3 : arg3.IsWhole)
    (arg4 : Memref sig .tc .vmem S256x8192 .f32) (harg4 : arg4.IsWhole) (arg5 : Memref sig .tc .vmem S256x128 .f32) (harg5 : arg5.IsWhole)
    (arg6 : Memref sig .tc .vmem S8192x128 .bf16) (harg6 : arg6.IsWhole)
    (x2 : Vec F S8192x128 .f32) (x3 : Vec F S128x128 .f32) (x4 : Vec F S256x8192 .f32) (x5 : Vec F S256x128 .f32) (x6 : Vec F S8192x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4 ∗ owns (c : Thread nD τ) arg5 fullShare (k1_pay2 x4 x6) ∗ owns (c : Thread nD τ) arg6 fullShare x6) -∗ K ⟨⟩))
      ⊢ wp frame (wpE (defs₀ (F := F)) Variants.none c none) E (cc1__face_kernel i arg2 harg2 arg3 harg3 arg4 harg4 arg5 harg5 arg6 harg6) K := by
  simp only [cc1__face_kernel_eq_skeleton]; unfold cc1__face_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero fhz2 inb_S256x128_S256x128_0_0 y⟩), View.canon_unit_zero fhz2]
    simp only [View.readAt_eq_ld, harg4.read_unread, harg6.read_unread]
    rw [View.ld_unit_zero (S := S256x8192) fhz2, View.ld_unit_zero (S := S8192x128) fhz2]
  iexists _; isplitr
  swap; · iexact H6
  ipureintro
  exact harg6.read_unread _

set_option maxHeartbeats 2000000 in
/-- The first tile of a core's run: the transformed edge features are computed and kept, then the tile's rows of the result. -/
theorem face_run_first (c : Dev nD) (E : Set ℕ) (i : grid1.Coords) (hc : fcond i)
    (arg2 : Memref sig .tc .vmem S8192x128 .f32) (harg2 : arg2.IsWhole) (arg3 : Memref sig .tc .vmem S128x128 .f32) (harg3 : arg3.IsWhole)
    (arg4 : Memref sig .tc .vmem S256x8192 .f32) (harg4 : arg4.IsWhole) (arg5 : Memref sig .tc .vmem S256x128 .f32) (harg5 : arg5.IsWhole)
    (arg6 : Memref sig .tc .vmem S8192x128 .bf16) (harg6 : arg6.IsWhole)
    (x2 : Vec F S8192x128 .f32) (x3 : Vec F S128x128 .f32) (x4 : Vec F S256x8192 .f32) (x5 : Vec F S256x128 .f32) (x6 : Vec F S8192x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4 ∗ owns (c : Thread nD τ) arg5 fullShare (k1_pay2 x4 (k1_pay1 x2 x3)) ∗ owns (c : Thread nD τ) arg6 fullShare (k1_pay1 x2 x3)) -∗ K ⟨⟩))
      ⊢ wp frame (wpE (defs₀ (F := F)) Variants.none c none) E (cc1__face_kernel i arg2 harg2 arg3 harg3 arg4 harg4 arg5 harg5 arg6 harg6) K := by
  simp only [cc1__face_kernel_eq_skeleton]; unfold cc1__face_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero fhz2 inb_S256x128_S256x128_0_0 y⟩), View.canon_unit_zero fhz2]
    simp only [View.readAt_eq_ld, harg4.read_unread, harg2.read_unread, harg3.read_unread]
    rw [View.readCov_unit_zero _ fhz2, View.ld_unit_zero (S := S256x8192) fhz2, View.ld_unit_zero (S := S8192x128) fhz2, View.ld_unit_zero (S := S128x128) fhz2]
  iexists _; isplitr
  swap; · iexact H6
  ipureintro
  sl_unfold_run_names
  rw [View.read_writes_eq_canon _ _ _ (fun y => ⟨_, List.mem_singleton_self _, View.mem_set_unit_zero fhz2 inb_S8192x128_S8192x128_0_0 y⟩), View.canon_unit_zero fhz2]
  simp only [View.readAt_eq_ld, harg2.read_unread, harg3.read_unread]
  rw [View.ld_unit_zero (S := S8192x128) fhz2, View.ld_unit_zero (S := S128x128) fhz2]

end Cert.Kernel.Gen

end
-- ==== Proof.BKFaceDat.lean ====
/- The face region of the kernel program as proof data for its pipeline: what each window's staging buffer may hold
   after the body at each tile, the scratch (the transformed edge features) carried from tile to tile, the body's
   obligation at every tile, and the result array after the eight tiles, row block by row block. -/
import proofs.«179636_g2000605474969623_pallasbulk_585_7_alg».proof.Proof.BKFaceBody
import proofs.«179636_g2000605474969623_pallasbulk_585_7_alg».proof.Proof.BKSpec

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data -/

/-- The transformed edge features, as the first tile of a core's run leaves them in the scratch. -/
abbrev fm1 (c : Dev nD) : Vec F S8192x128 .bf16 := k1_pay1 (V c main_arg1) (V c main_v3)

/-- The incidence rows of tile `t`: window 2's block there. -/
abbrev fblk2 (c : Dev nD) (t : Fin cfg1.N) : Vec F S256x8192 .f32 :=
  ((cfg1.win 2).blk t).view.read (Elt F) (V c main_arg3)

/-- A scoped buffer of the core at some contents. -/
abbrev anyAt (c : Dev nD) (b : Ref sig .tc) : sProp 𝕄 :=
  iprop(∃ f : Buf (Elt F) ((c : Thread nD τ).loc b), ((c : Thread nD τ).loc b) ↦{fullShare} f)

/-- The region's invariant after a tile: the face kernel's scratch at the transformed edge features, the core's other
    scoped buffers at anything, the generator register at some state. -/
def fPhiS (c : Dev nD) : sProp 𝕄 :=
  iprop((anyAt (F := F) c cc0_stg0_0 ∗ anyAt (F := F) c cc0_stg1_0 ∗ anyAt (F := F) c cc0_stg1_1 ∗ anyAt (F := F) c cc0_stg2_0
      ∗ anyAt (F := F) c cc0_stg2_1 ∗ anyAt (F := F) c cc0_stg3_0 ∗ anyAt (F := F) c cc0_scratch0 ∗ anyAt (F := F) c cc0_scratch1
      ∗ owns (c : Thread nD τ) (Memref.whole cc1_scratch0) fullShare (fm1 V c)) ∗ ∃ r, prngReg c r)

/-- The region's invariant before tile `n`: before the first, every scratch at anything; afterwards `fPhiS`. -/
def fPhi (c : Dev nD) : ℕ → sProp 𝕄
  | 0 => Pipeline.ΦA spec1 c
  | _ + 1 => fPhiS V c

theorem fPhi_pos (c : Dev nD) (n : ℕ) (h : n ≠ 0) : fPhi V c n = fPhiS V c := by
  cases n with
  | zero => exact absurd rfl h
  | succ n => rfl

/-- The face region's proof data on core `c`: the three inputs' buffers are left as found; the output's buffer is
    left at the tile's rows of the result; the scratch is carried in the invariant; nothing owed; full shares. -/
def frd (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => X = k1_pay2 (fblk2 V c t) (fm1 V c)
  Φ t := fPhi V c t.val
  q _ := fullShare
  owed _ := 0

/-! ## The schedule and the blocks, decided over the grid -/

/-- The scratch is recomputed at the tiles ≡ 0 (mod 4): the first of each core's run. -/
theorem hfcond : ∀ t : Fin cfg1.N, fcond (grid1.coords t) ↔ t.val % 4 = 0 :=
  (by decide +kernel : ∀ t : Fin grid1.N, fcond (grid1.coords t) ↔ t.val % 4 = 0)

/-- The block indices: the two resident inputs stay at block 0; the incidence and the result move one row block per tile. -/
theorem fidx : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Window 0's block is the whole edge-feature array. -/
theorem fblk0_eq (c : Dev nD) (t : Fin cfg1.N) :
    (((cfg1.win 0).blk t).view.read (Elt F) (V c main_arg1) : Vec F S8192x128 .f32) = V c main_arg1 := by
  obtain ⟨e0, e1, -⟩ := fidx t
  funext j
  show V c main_arg1 (((cfg1.win 0).blk t).view.emb j) = V c main_arg1 j
  refine congrArg (V c main_arg1) ?_
  funext a; apply Fin.ext
  match a with
  | ⟨0, _⟩ => show win1_0.index t (0 : Fin 2) * 8192 + 1 * (j 0).val = (j 0).val; omega
  | ⟨1, _⟩ => show win1_0.index t (1 : Fin 2) * 128 + 1 * (j 1).val = (j 1).val; omega

/-- Window 1's block is the whole weight matrix. -/
theorem fblk1_eq (c : Dev nD) (t : Fin cfg1.N) :
    (((cfg1.win 1).blk t).view.read (Elt F) (V c main_v3) : Vec F S128x128 .f32) = V c main_v3 := by
  obtain ⟨-, -, e0, e1, -⟩ := fidx t
  funext j
  show V c main_v3 (((cfg1.win 1).blk t).view.emb j) = V c main_v3 j
  refine congrArg (V c main_v3) ?_
  funext a; apply Fin.ext
  match a with
  | ⟨0, _⟩ => show win1_1.index t (0 : Fin 2) * 128 + 1 * (j 0).val = (j 0).val; omega
  | ⟨1, _⟩ => show win1_1.index t (1 : Fin 2) * 128 + 1 * (j 1).val = (j 1).val; omega

/-- Window 2's block at tile `t` is rows 256·t … 256·t+255 of the incidence. -/
theorem fblk2_eq (c : Dev nD) (t : Fin cfg1.N) : fblk2 V c t = KSpec.tileInc (V c main_arg3) t.val := by
  obtain ⟨-, -, -, -, e0, e1, -⟩ := fidx t
  have hN : t.val < 8 := lt_of_lt_of_eq t.isLt (show cfg1.N = 8 from N_1)
  funext j
  show V c main_arg3 (((cfg1.win 2).blk t).view.emb j)
    = V c main_arg3 (ix2 (⟨(256 * t.val + (j 0 : Fin 256).val) % 2048, _⟩ : Fin 2048) (j 1 : Fin 8192))
  refine congrArg (V c main_arg3) ?_
  funext a; apply Fin.ext
  match a with
  | ⟨0, _⟩ =>
    show win1_2.index t (0 : Fin 2) * 256 + 1 * (j 0).val = (256 * t.val + (j 0).val) % 2048
    have hj : (j 0).val < 256 := (j 0).isLt
    omega
  | ⟨1, _⟩ => show win1_2.index t (1 : Fin 2) * 8192 + 1 * (j 1).val = (j 1).val; omega

/-! ## The class invariant with the scratch as an owned memref -/

theorem PhiA1_eq (c : Dev nD) :
    (Pipeline.ΦA spec1 c : sProp 𝕄)
      = iprop((anyAt (F := F) c cc0_stg0_0 ∗ anyAt (F := F) c cc0_stg1_0 ∗ anyAt (F := F) c cc0_stg1_1 ∗ anyAt (F := F) c cc0_stg2_0
        ∗ anyAt (F := F) c cc0_stg2_1 ∗ anyAt (F := F) c cc0_stg3_0 ∗ anyAt (F := F) c cc0_scratch0 ∗ anyAt (F := F) c cc0_scratch1
        ∗ (∃ d, owns (c : Thread nD τ) (Memref.whole cc1_scratch0 : Memref sig .tc .vmem S8192x128 .bf16) fullShare d)) ∗ ∃ r, prngReg c r) := by
  unfold Pipeline.ΦA; rw [scopedRest1_eq]; simp only [owns_whole]; try rfl

/-! ## The body obligation -/

set_option maxHeartbeats 4000000 in
/-- The body at tile `t`, the inputs' buffers at their blocks: at the first tile of a core's run the scratch is
    (re)computed — from anything at the very first tile, from the same value at the second core's first — and
    afterwards it is read; either way the output's buffer ends at the tile's rows of the result. -/
theorem fsound (c : Dev nD) (t : Fin cfg1.N) (Y3 : Vec F S256x128 .f32) :
    iprop(fPhi V c t.val ∗ (frd V c).owesAt () t.castSucc
        ∗ owns (c : Thread nD τ) (st1_0 t) fullShare (V c main_arg1)
        ∗ owns (c : Thread nD τ) (st1_1 t) fullShare (V c main_v3)
        ∗ owns (c : Thread nD τ) (st1_2 t) fullShare (fblk2 V c t)
        ∗ owns (c : Thread nD τ) (st1_3 t) fullShare Y3)
      ⊢ wp frame (wpE (defs₀ (F := F)) Variants.none c none) Set.univ (bodyAt1 t) (fun _ =>
        iprop(fPhiS V c ∗ (frd V c).owesAt () t.castSucc
          ∗ owns (c : Thread nD τ) (st1_0 t) fullShare (V c main_arg1)
          ∗ owns (c : Thread nD τ) (st1_1 t) fullShare (V c main_v3)
          ∗ owns (c : Thread nD τ) (st1_2 t) fullShare (fblk2 V c t)
          ∗ owns (c : Thread nD τ) (st1_3 t) fullShare (k1_pay2 (fblk2 V c t) (fm1 V c)))) := by
  unfold bodyAt1
  by_cases h4 : t.val % 4 = 0
  · have hc : fcond (grid1.coords t) := (hfcond t).mpr h4
    by_cases hz : t.val = 0
    · rw [hz, show fPhi V c 0 = Pipeline.ΦA spec1 c from rfl, PhiA1_eq]
      iintro ⟨⟨⟨A0, A1, A2, A3, A4, A5, A6, A7, ⟨%d, HS⟩⟩, Hg⟩, Ho, H0, H1, H2, H3⟩
      iapply (face_run_first c Set.univ (grid1.coords t) hc _ _ _ _ _ _ _ _ _ _ (V c main_arg1) (V c main_v3) (fblk2 V c t) Y3 d _)
      isplitl [H0]; · iexact H0
      isplitl [H1]; · iexact H1
      isplitl [H2]; · iexact H2
      isplitl [H3]; · iexact H3
      isplitl [HS]; · iexact HS
      iintro ⟨H0, H1, H2, H3, HS⟩
      isplitl [A0 A1 A2 A3 A4 A5 A6 A7 HS Hg]
      · unfold fPhiS
        isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        · iexact Hg
      isplitl [Ho]; · iexact Ho
      isplitl [H0]; · iexact H0
      isplitl [H1]; · iexact H1
      isplitl [H2]; · iexact H2
      iexact H3
    · rw [fPhi_pos V c _ hz]
      unfold fPhiS
      iintro ⟨⟨⟨A0, A1, A2, A3, A4, A5, A6, A7, HS⟩, Hg⟩, Ho, H0, H1, H2, H3⟩
      iapply (face_run_first c Set.univ (grid1.coords t) hc _ _ _ _ _ _ _ _ _ _ (V c main_arg1) (V c main_v3) (fblk2 V c t) Y3 (fm1 V c) _)
      isplitl [H0]; · iexact H0
      isplitl [H1]; · iexact H1
      isplitl [H2]; · iexact H2
      isplitl [H3]; · iexact H3
      isplitl [HS]; · iexact HS
      iintro ⟨H0, H1, H2, H3, HS⟩
      isplitl [A0 A1 A2 A3 A4 A5 A6 A7 HS Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        · iexact Hg
      isplitl [Ho]; · iexact Ho
      isplitl [H0]; · iexact H0
      isplitl [H1]; · iexact H1
      isplitl [H2]; · iexact H2
      iexact H3
  · have hc : ¬ fcond (grid1.coords t) := fun h => h4 ((hfcond t).mp h)
    have hz : t.val ≠ 0 := fun h => h4 (by rw [h])
    rw [fPhi_pos V c _ hz]
    unfold fPhiS
    iintro ⟨⟨⟨A0, A1, A2, A3, A4, A5, A6, A7, HS⟩, Hg⟩, Ho, H0, H1, H2, H3⟩
    iapply (face_run_later c Set.univ (grid1.coords t) hc _ _ _ _ _ _ _ _ _ _ (V c main_arg1) (V c main_v3) (fblk2 V c t) Y3 (fm1 V c) _)
    isplitl [H0]; · iexact H0
    isplitl [H1]; · iexact H1
    isplitl [H2]; · iexact H2
    isplitl [H3]; · iexact H3
    isplitl [HS]; · iexact HS
    iintro ⟨H0, H1, H2, H3, HS⟩
    isplitl [A0 A1 A2 A3 A4 A5 A6 A7 HS Hg]
    · isplitr [Hg]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        iexact HS
      · iexact Hg
    isplitl [Ho]; · iexact Ho
    isplitl [H0]; · iexact H0
    isplitl [H1]; · iexact H1
    isplitl [H2]; · iexact H2
    iexact H3

/-- The library's body obligation at every tile: the three inputs' buffers hold their blocks wherever the body is
    handed them (they are left as found, and an unfetched input's block index has not moved). -/
theorem fbody (c : Dev nD) : (frd V c).BodyObligation (defs₀ (F := F)) Variants.none () Set.univ := fun t Y hY => by
  rw [bigSep_W1, bigSep_W1]
  obtain ⟨d0, h0⟩ := (frd V c).finds_in_eq_fetched 0 rfl (fun _ _ _ => rfl) (fun _ _ _ h => h) t (Y 0) (hY 0)
  obtain ⟨d1, h1⟩ := (frd V c).finds_in_eq_fetched 1 rfl (fun _ _ _ => rfl) (fun _ _ _ h => h) t (Y 1) (hY 1)
  obtain ⟨d2, h2⟩ := (frd V c).finds_in_eq_fetched 2 rfl (fun _ _ _ => rfl) (fun _ _ _ h => h) t (Y 2) (hY 2)
  have e0 : Y 0 = V c main_arg1 := h0.trans (fblk0_eq V c t)
  have e1 : Y 1 = V c main_v3 := h1.trans (fblk1_eq V c t)
  have e2 : Y 2 = fblk2 V c t := h2
  rw [e0, e1, e2]
  rw [show (frd V c).Φ t.succ = fPhiS V c from rfl, show (frd V c).owesAt () t.succ = (frd V c).owesAt () t.castSucc from rfl]
  refine (fsound V c t (Y 3)).trans (wp_mono _ _ _ fun _ => ?_)
  iintro ⟨HΦ, Ho, H0, H1, H2, H3⟩
  isplitl [HΦ]; · iexact HΦ
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  iexists _; isplitr; · ipureintro; exact rfl
  iexact H3

/-- What the launch hands the region is the invariant before the first tile. -/
theorem fhin (c : Dev nD) : Pipeline.ΦA spec1 c ⊢ (frd V c).Φ 0 :=
  Idealize.SL.BI.Entails.refl _

/-- After the last tile the invariant gives the class invariant back: the scratch's contents are forgotten. -/
theorem fhout (c : Dev nD) : (frd V c).Φ (Fin.last cfg1.N) ⊢ Pipeline.ΦA spec1 c := by
  rw [show (frd V c).Φ (Fin.last cfg1.N) = fPhi V c cfg1.N from rfl,
    fPhi_pos V c _ (by rw [show cfg1.N = 8 from N_1]; decide), PhiA1_eq]
  unfold fPhiS
  iintro ⟨⟨A0, A1, A2, A3, A4, A5, A6, A7, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexists _; iexact HS
  · iexact Hg

/-! ## The result array after the eight tiles -/

/-- The face result as one array: row `f` is row `f mod 256` of what tile `f / 256` stores. -/
abbrev fG (c : Dev nD) : Vec F S2048x128 .f32 := fun j =>
  k1_pay2 (KSpec.tileInc (V c main_arg3) ((j 0 : Fin 2048).val / 256)) (fm1 V c)
    (ix2 (⟨(j 0 : Fin 2048).val % 256, Nat.mod_lt _ (by decide)⟩ : Fin 256) (j 1 : Fin 128))

/-- After the write-backs of the tiles below `n`, the result array holds the face result on its rows below 256·n:
    each write-back overwrites the tile's own 256 rows and no others. -/
theorem farr_below (c : Dev nD) : ∀ (n : ℕ) (hn : n ≤ cfg1.N) (G : Vec F S2048x128 .f32), (frd V c).ArrAt 3 n G →
    ∀ i : S2048x128.Idx, (i 0).val < 256 * n → G i = fG V c i
  | 0, _, _, _ => fun i hi => absurd hi (by omega)
  | n + 1, hn, G, hG => by
    have hn' : n < cfg1.N := hn
    have hN : n < 8 := lt_of_lt_of_eq hn' (show cfg1.N = 8 from N_1)
    have hR := (frd V c).ArrAt_succ 3 ⟨n, hn'⟩
    dsimp only at hR
    rw [hR, if_pos (flush1_3 _)] at hG
    obtain ⟨G₀, X, hG₀, ⟨Y, hY, hXY⟩, rfl⟩ := hG
    have hX : X = k1_pay2 (fblk2 V c ⟨n, hn'⟩) (fm1 V c) := hXY
    obtain ⟨-, -, -, -, -, -, e0, e1⟩ := fidx ⟨n, hn'⟩
    intro i hi
    have hi1 : (i 1).val < 128 := (i 1).isLt
    by_cases hlt : (i 0).val < 256 * n
    · rw [View.write_of_not_mem]
      · exact farr_below c n (Nat.le_of_succ_le hn) G₀ hG₀ i hlt
      · rw [View.setOn_univ]
        show i ∉ ((View.whole main_v4).slice (win1_3.rect ⟨n, hn'⟩)).set
        rw [View.set_slice_whole, Rect.mem_set_unit]
        intro hm
        have h0 : win1_3.index ⟨n, hn'⟩ (0 : Fin 2) * 256 ≤ (i 0).val := (hm 0).1
        rw [e0] at h0
        show False
        have : n * 256 ≤ (i 0).val := h0
        omega
    · have hx0 : (i 0).val - 256 * n < 256 := by omega
      have hemb : ((cfg1.win 3).blk ⟨n, hn'⟩).view.emb (ix2 (⟨(i 0).val - 256 * n, hx0⟩ : Fin 256) (⟨(i 1).val, hi1⟩ : Fin 128)) = i := by
        funext a; apply Fin.ext
        match a with
        | ⟨0, _⟩ =>
          show win1_3.index ⟨n, hn'⟩ (0 : Fin 2) * 256 + 1 * ((i 0).val - 256 * n) = (i 0).val
          rw [e0]; show n * 256 + 1 * ((i 0).val - 256 * n) = (i 0).val; omega
        | ⟨1, _⟩ =>
          show win1_3.index ⟨n, hn'⟩ (1 : Fin 2) * 128 + 1 * (i 1).val = (i 1).val
          rw [e1]; omega
      have hw := View.write_emb_of_mem (v := ((cfg1.win 3).blk ⟨n, hn'⟩).view) G₀
        ((cfg1.win 3).cut (cfg1.grid.coords ⟨n, hn'⟩) X) (M := Finset.univ)
        (x := ix2 (⟨(i 0).val - 256 * n, hx0⟩ : Fin 256) (⟨(i 1).val, hi1⟩ : Fin 128)) (Finset.mem_univ _)
      rw [hemb] at hw
      refine hw.trans ?_
      rw [hX, fblk2_eq]
      have hdiv : (i 0).val / 256 = n := by omega
      show k1_pay2 (KSpec.tileInc (V c main_arg3) n) (fm1 V c) _ = k1_pay2 (KSpec.tileInc (V c main_arg3) ((i 0).val / 256)) (fm1 V c) _
      rw [hdiv]
      refine congrArg (k1_pay2 (KSpec.tileInc (V c main_arg3) n) (fm1 V c)) ?_
      funext a; apply Fin.ext
      match a with
      | ⟨0, _⟩ => show (i 0).val - 256 * n = (i 0).val % 256; omega
      | ⟨1, _⟩ => rfl

/-- THE RESULT ARRAY after the region: whatever the write-backs may have left in it is the face result. -/
theorem ffinal (c : Dev nD) (G : Vec F S2048x128 .f32) (h : (frd V c).ArrAt 3 cfg1.N G) : G = fG V c :=
  funext fun i => farr_below V c cfg1.N (Nat.le_refl _) G h i (by
    have hi : (i 0).val < 2048 := (i 0).isLt
    rw [show cfg1.N = 8 from N_1]; omega)

/-- The input arrays are never written: after the region each holds what the region found. -/
theorem ffinal_in (c : Dev nD) (w : Fin cfg1.W) (hw : (cfg1.win w).isOut = false) (n : ℕ) (G) (h : (frd V c).ArrAt w n G) :
    G = V c (Pipeline.arrRef spec1 w) := by
  rw [(frd V c).ArrAt_in w hw n] at h; exact h

end Cert.Kernel.Gen

end
-- ==== Proof.BKHost.lean ====
/- What the host lines between the two kernel regions leave: the node state transposed back, matrix 2 of the
   edge-to-face weight stack as a plain matrix, and every other array as it was. -/
import proofs.«179636_g2000605474969623_pallasbulk_585_7_alg».proof.Proof.Gen.Kernel.Launch
import proofs.«179636_g2000605474969623_pallasbulk_585_7_alg».proof.Proof.BKSpec
import Idealize.ShloMosaic.Lib.StableHlo.Run
import Idealize.ShloMosaic.Lib.ValueIdx
import Idealize.ShloMosaic.Lib.Pipeline.Value

noncomputable section

namespace Cert.Kernel.Gen

open Idealize.ShloMosaic Idealize.ShloMosaic.TcCoe Idealize.ShloMosaic.ValueIdx
open Idealize.ShloMosaic.StableHlo

variable {F : FTy → Type} [FloatOps F]

/-- Slice 2 of a stack of three 128×128 matrices, its unit axis dropped, read at `(b, c)`: the stack at `(2, b, c)`. -/
theorem kslice2_drop_apply {α : Type} (X : S3x128x128.Idx → α) (hs : S3x128x128.Slices ![2, 0, 0] S1x128x128)
    (hc : S1x128x128.ShapeCasts S128x128) (b c : Fin 128) :
    shapeCast S128x128 (extractStridedSlice S1x128x128 ![2, 0, 0] X hs) hc (ix2 b c) = X (ix3 (2 : Fin 3) b c) := by
  refine (shapeCast_apply _ hc (ix2 b c) (ix3 (0 : Fin 1) b c) ?_).trans ?_
  · rw [Shape.rowMajor_val_three, Shape.rowMajor_val_two]
    show ((0 : Nat) * 128 + b.val) * 128 + c.val = b.val * 128 + c.val
    omega
  · refine extractStridedSlice_apply ![2, 0, 0] X hs _ (ix3 (2 : Fin 3) b c) (fun a => ?_)
    match a with
    | ⟨0, _⟩ => rfl
    | ⟨1, _⟩ => show b.val = 0 + b.val; omega
    | ⟨2, _⟩ => show c.val = 0 + c.val; omega

section Lines
variable (Wv : Valuation τ sig (Elt F))

/-- The transposed node state is transposed back. -/
theorem khost_v1 : StableHlo.after hostOps1 Wv (Proc.devRef .tc main_v1)
    = transpose S4096x128 [1, 0] (Wv (Proc.devRef .tc main_v0)) transposes_S128x4096_S4096x128_1_0 := by
  dsimp only [hostOps1]
  after_results

/-- The face path's weight is matrix 2 of its stack. -/
theorem khost_v3 : StableHlo.after hostOps1 Wv (Proc.devRef .tc main_v3) = KSpec.w2 (Wv (Proc.devRef .tc main_arg5)) := by
  dsimp only [hostOps1]
  after_results
  funext j
  obtain ⟨b, c, rfl⟩ : ∃ (b c : Fin 128), j = ix2 b c := ⟨j 0, j 1, eq_ix2 j⟩
  exact kslice2_drop_apply (Wv (Proc.devRef .tc main_arg5)) slices_S3x128x128_S1x128x128_2_0_0 shapeCasts_S1x128x128_S128x128 b c

/-- The references the three lines write. -/
theorem khostOps1_writes : (hostOps1 : List (HloOp τ sig (Elt F))).Forall fun op =>
    op.writes ⊆ (([main_v1, main_v2, main_v3] : List (Ref sig .tc)).map (Proc.devRef (τ := τ) .tc)).toFinset := by
  simp only [List.Forall]
  exact ⟨by simp only [StableHlo.unary_writes, StableHlo.reshape_writes, Finset.singleton_subset_iff, List.mem_toFinset]; exact List.mem_map_of_mem (by decide),
    by simp only [StableHlo.unary_writes, StableHlo.reshape_writes, Finset.singleton_subset_iff, List.mem_toFinset]; exact List.mem_map_of_mem (by decide),
    by simp only [StableHlo.unary_writes, StableHlo.reshape_writes, Finset.singleton_subset_iff, List.mem_toFinset]; exact List.mem_map_of_mem (by decide)⟩

/-- Every other array is as it was. -/
theorem khost_keep (b : Ref sig .tc) (hb : b ∉ ([main_v1, main_v2, main_v3] : List (Ref sig .tc))) :
    StableHlo.after hostOps1 Wv (Proc.devRef .tc b) = Wv (Proc.devRef .tc b) :=
  StableHlo.after_of_writes_sub hostOps1 Wv khostOps1_writes hb

end Lines

end Cert.Kernel.Gen

end
-- ==== Proof.BKRun.lean ====
/- The kernel program's run: @main as segments — region 0 (the node kernel), the host stretch between the regions
   (the transpose of the state; the slice and reshape of the last layer's edge-to-face weights), region 1 (the face
   kernel) — over the thread state "every unscoped buffer at the boundary's contents", each region's arrays split
   out at its entry and put back at its exit at what the region's run leaves in them. -/
import proofs.«179636_g2000605474969623_pallasbulk_585_7_alg».proof.Proof.BKNodeDat
import proofs.«179636_g2000605474969623_pallasbulk_585_7_alg».proof.Proof.BKFaceDat
import proofs.«179636_g2000605474969623_pallasbulk_585_7_alg».proof.Proof.BKHost
import Idealize.ShloMosaic.Lib.StableHlo.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The buffers' contents at each segment boundary -/

/-- Core c's buffers at launch (region 0's entry). -/
abbrev kW0 : Dev nD → Valuation τ sig (Elt F) := fun c b => m (c, b)
abbrev kV0 : (c : Dev nD) → (b : Ref sig .tc) → Buf (Elt F) ((c : Thread nD τ).loc b) := fun c b => kW0 m c b

/-- What region 0 leaves in its arrays: the inputs as found, the state array at the last layer's transposed state. -/
def nout (c : Dev nD) : (w : Fin cfg0.W) → Buf (Elt F) ((spec0 w).arr.view.loc (c.tc : Thread nD τ))
  | ⟨0, _⟩ => kV0 m c main_arg0
  | ⟨1, _⟩ => kV0 m c main_arg4
  | ⟨2, _⟩ => kV0 m c main_arg2
  | ⟨3, _⟩ => (KSpec.stateT (nX0 (kV0 m) c) (nW (kV0 m) c) (nA (kV0 m) c) 2 : Vec F S128x4096 .f32)

/-- At region 0's exit. -/
def kW1 (c : Dev nD) : Valuation τ sig (Elt F) := Pipeline.withArrays spec0 c (kW0 m c) (nout m c)
theorem kW1_arr (c : Dev nD) (w : Fin cfg0.W) : kW1 m c (Proc.devRef .tc (Pipeline.arrRef spec0 w)) = nout m c w := by
  unfold kW1; exact Pipeline.withArrays_arr spec0 launch0.win.arr_inj c _ _ w
theorem kW1_of_ne (c : Dev nD) (b : Ref sig .tc) (hb : ∀ w, Pipeline.arrRef spec0 w ≠ b) :
    kW1 m c (Proc.devRef .tc b) = kW0 m c (Proc.devRef .tc b) := by
  unfold kW1; exact Pipeline.withArrays_of_ne spec0 c _ _ b hb
abbrev kV1 : (c : Dev nD) → (b : Ref sig .tc) → Buf (Elt F) ((c : Thread nD τ).loc b) := fun c b => kW1 m c b

/-- After the host stretch (region 1's entry). -/
abbrev kW2 : Dev nD → Valuation τ sig (Elt F) := fun c => StableHlo.after hostOps1 (kW1 m c)
abbrev kV2 : (c : Dev nD) → (b : Ref sig .tc) → Buf (Elt F) ((c : Thread nD τ).loc b) := fun c b => kW2 m c b

/-! ## The proof data family and the thread state -/

abbrev kadm : (p : Fin 2) → (pcfgs (F := F) p).Adm := fun p => (cfgs p).toPCfg_adm
/-- Every pipeline's relational proof data, each at its region's entry contents. -/
def krdats : (p : Fin 2) → (c : Dev nD) → RDat τ (Elt F) Unit ℕ (UR sig nD τ) ℕ (Pipeline.pin (pcfgs (F := F)) kadm p) c
  | ⟨0, _⟩ => fun c => nrd (kV0 m) c
  | ⟨1, _⟩ => fun c => frd (kV2 m) c
abbrev k𝒱₀ : Variants := Variants.none
abbrev kL : GSem nD τ sig → Finset Unit := fun _ => ∅
abbrev klv : GSem nD τ sig → Unit → ℕ := fun _ _ => 0
/-- What rides beside the buffers through every segment: the generator register at some state, and nothing owed. -/
abbrev kR (c : Dev nD) : sProp 𝕄 := iprop((∃ r, prngReg c r) ∗ ∃ W, owes (c : Thread nD τ) (0 : CellTallies nD τ sig Unit) W)

theorem hostOps1_fresh' : (hostOps1 : List (HloOp τ sig (Elt F))).Forall fun op => op.fresh = ∅ := by
  simp only [List.Forall]; repeat' constructor

/-- The host stretch between the regions as a segment. -/
abbrev khseg (W : Dev nD → Valuation τ sig (Elt F)) :
    Pipeline.HostSeg (Name := ℕ) (U := UR sig nD τ) (pcfgs (F := F)) defs₀ k𝒱₀ kL klv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh') op h) W kR

/-- A region's arrays, each at contents the write-backs may have left and all such contents being the named ones, back
    among the core's unscoped buffers at a valuation that has the arrays there and agrees with the entry's elsewhere. -/
theorem unscopedBufs_of_arraysAt {p : Fin 2} (hw : Pipeline.WinFacts (Pipeline.pin (pcfgs (F := F)) kadm p).spec)
    (harr : ∀ w, ((Pipeline.pin (pcfgs (F := F)) kadm p).spec w).arr.IsWhole) (c : Dev nD)
    (hshare : ∀ w, (krdats m p c).share w = fullShare)
    (V V' : (b : Ref sig .tc) → Buf (Elt F) ((c.tc : Thread nD τ).loc b))
    (hfin : ∀ w G, (krdats m p c).ArrAt w (Pipeline.pin (pcfgs (F := F)) kadm p).N G → G = V' (Pipeline.arrRef (Pipeline.pin (pcfgs (F := F)) kadm p).spec w))
    (hrest : ∀ b, b ∉ Finset.univ.image (Pipeline.arrRef (Pipeline.pin (pcfgs (F := F)) kadm p).spec) → V' b = V b) :
    iprop((krdats m p c).arraysAt (Pipeline.pin (pcfgs (F := F)) kadm p).N ∗ Pipeline.unscopedRest (Pipeline.pin (pcfgs (F := F)) kadm p).spec c V)
      ⊢ (unscopedBufs c V' : sProp 𝕄) := by
  rw [Pipeline.unscopedBufs_split (Pipeline.pin (pcfgs (F := F)) kadm) p hw.arr_unscoped hw.arr_inj c V']
  refine sep_mono ?_ (Entails.of_eq ?_)
  · have h1 : (krdats m p c).arraysAt (Pipeline.pin (pcfgs (F := F)) kadm p).N
        ⊢ ((krdats m p c).arrays (fun w => V' (Pipeline.arrRef (Pipeline.pin (pcfgs (F := F)) kadm p).spec w)) : sProp 𝕄) := by
      unfold RDat.arraysAt RDat.arrays
      refine bigSep_mono fun w _ => ?_
      show (_ : sProp 𝕄) ⊢ _
      iintro ⟨%G, %hG, H⟩
      rw [hfin w G hG]
      iexact H
    exact h1.trans (Entails.of_eq (Pipeline.RDat.arrays_eq (pcfgs (F := F)) kadm (krdats m) p c harr hshare _))
  · unfold Pipeline.unscopedRest
    exact bigSep_congr fun b hb => by rw [hrest b (Finset.mem_sdiff.mp hb).2]

/-! ## The regions as segments -/

/-- At region 0's exit every buffer but its arrays is as at its entry. -/
theorem kreg0_rest (c : Dev nD) : ∀ b, b ∉ Finset.univ.image (Pipeline.arrRef spec0) → kV1 m c b = kV0 m c b :=
  fun b hb => kW1_of_ne m c b fun w e => hb (Finset.mem_image.mpr ⟨w, Finset.mem_univ _, e⟩)

/-- What region 0's run leaves in each of its arrays is what the exit valuation names. -/
theorem kreg0_fin (c : Dev nD) : ∀ (w : Fin cfg0.W) (G), (krdats m 0 c).ArrAt w cfg0.N G → G = kV1 m c (Pipeline.arrRef spec0 w) := by
  intro w G h
  refine Eq.trans ?_ (kW1_arr m c w).symm
  match w with
  | ⟨0, _⟩ => exact nfinal_0 (kV0 m) c G h
  | ⟨1, _⟩ => exact nfinal_1 (kV0 m) c G h
  | ⟨2, _⟩ => exact nfinal_2 (kV0 m) c G h
  | ⟨3, _⟩ => exact nfinal_3 (kV0 m) c G h

-- `iapply` of a library lemma stated over `pin pcs a p` unifies with the pinned configuration only when unification may
-- unfold plain definitions in a metavariable's type
set_option backward.isDefEq.respectTransparency.types false in
/-- Region 0 over the thread state: its arrays split out of the unscoped buffers at its entry and put back at its
    exit at what its run leaves; the generator register into the invariant and out; nothing owed; no semaphore of its own. -/
def kreg0 : Pipeline.RDat.RegionSeg (pcfgs (F := F)) kadm (krdats m) () defs₀ k𝒱₀ kL klv 0 where
  win := launch0.win.to₀
  block_pos := launch0.block_pos
  stage_whole := launch0.stage_whole
  K := PEmpty
  osem k := k.elim
  ho := Pipeline.OwnSemFacts.none _
  hbody c := nbody (kV0 m) c
  hwaits := Pipeline.RDat.hwaits_of_owed_zero _ _ _ _ kL klv 0 fun _ _ => rfl
  pre c := iprop(StableHlo.held (c : Thread nD τ) (Pipeline.ucRefs τ sig) (kW0 m c) ∗ kR c)
  post c := iprop(StableHlo.held (c : Thread nD τ) (Pipeline.ucRefs τ sig) (kW1 m c) ∗ kR c)
  X c := iprop(∃ r, prngReg c r)
  Y c := iprop(∃ r, prngReg c r)
  Z c := Pipeline.unscopedRest (Ix := Unit) (Name := ℕ) (U := UR sig nD τ) (Lvl := ℕ) spec0 c (kV0 m c)
  hentry c := by
    rw [Pipeline.ownSems0_none]
    have hsplit := Pipeline.RDat.arrays_of_unscopedBufs (p := 0) (pcfgs (F := F)) kadm (krdats m) launch0.win launch0.arr_whole c
      (fun w => by unfold RDat.share; split <;> rfl) (kV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (nhin (kV0 m) c)
    unfold Pipeline.ΦA
    iintro ⟨Hp, -, Hr⟩
    isplitl [Hr]; · iexact Hr
    iexact Hp
  hout c := by
    rw [Pipeline.ownSems0_none]
    refine (nhout (kV0 m) c).trans ?_
    unfold Pipeline.ΦA
    iintro ⟨Hr, Hp⟩
    isplitl [Hp]; · iexact Hp
    isplitr; · iempintro
    iexact Hr
  hexit c := by
    have hjoin := unscopedBufs_of_arraysAt m (p := 0) launch0.win launch0.arr_whole c
      (fun w => by unfold RDat.share; split <;> rfl) (kV0 m c) (kV1 m c)
      (kreg0_fin m c) (kreg0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold RDat.owesAt Pipeline.owesWithin
    icases HO with ⟨%W, -, HO⟩; iexists W; iexact HO

/-- What region 1 leaves in its arrays: the inputs as found, the face result. -/
def fout (c : Dev nD) : (w : Fin cfg1.W) → Buf (Elt F) ((spec1 w).arr.view.loc (c.tc : Thread nD τ))
  | ⟨0, _⟩ => kV2 m c main_arg1
  | ⟨1, _⟩ => kV2 m c main_v3
  | ⟨2, _⟩ => kV2 m c main_arg3
  | ⟨3, _⟩ => fG (kV2 m) c

/-- At region 1's exit. -/
def kW3 (c : Dev nD) : Valuation τ sig (Elt F) := Pipeline.withArrays spec1 c (kW2 m c) (fout m c)
theorem kW3_arr (c : Dev nD) (w : Fin cfg1.W) : kW3 m c (Proc.devRef .tc (Pipeline.arrRef spec1 w)) = fout m c w := by
  unfold kW3; exact Pipeline.withArrays_arr spec1 launch1.win.arr_inj c _ _ w
theorem kW3_of_ne (c : Dev nD) (b : Ref sig .tc) (hb : ∀ w, Pipeline.arrRef spec1 w ≠ b) :
    kW3 m c (Proc.devRef .tc b) = kW2 m c (Proc.devRef .tc b) := by
  unfold kW3; exact Pipeline.withArrays_of_ne spec1 c _ _ b hb
abbrev kV3 : (c : Dev nD) → (b : Ref sig .tc) → Buf (Elt F) ((c : Thread nD τ).loc b) := fun c b => kW3 m c b

theorem kreg1_rest (c : Dev nD) : ∀ b, b ∉ Finset.univ.image (Pipeline.arrRef spec1) → kV3 m c b = kV2 m c b :=
  fun b hb => kW3_of_ne m c b fun w e => hb (Finset.mem_image.mpr ⟨w, Finset.mem_univ _, e⟩)

theorem kreg1_fin (c : Dev nD) : ∀ (w : Fin cfg1.W) (G), (krdats m 1 c).ArrAt w cfg1.N G → G = kV3 m c (Pipeline.arrRef spec1 w) := by
  intro w G h
  refine Eq.trans ?_ (kW3_arr m c w).symm
  match w with
  | ⟨0, _⟩ => exact ffinal_in (kV2 m) c 0 rfl _ G h
  | ⟨1, _⟩ => exact ffinal_in (kV2 m) c 1 rfl _ G h
  | ⟨2, _⟩ => exact ffinal_in (kV2 m) c 2 rfl _ G h
  | ⟨3, _⟩ => exact ffinal (kV2 m) c G h

-- `iapply` of a library lemma stated over `pin pcs a p` unifies with the pinned configuration only when unification may
-- unfold plain definitions in a metavariable's type
set_option backward.isDefEq.respectTransparency.types false in
/-- Region 1 over the thread state: its arrays split out of the unscoped buffers at its entry and put back at its
    exit at what its run leaves; the generator register into the invariant and out; nothing owed; no semaphore of its own. -/
def kreg1 : Pipeline.RDat.RegionSeg (pcfgs (F := F)) kadm (krdats m) () defs₀ k𝒱₀ kL klv 1 where
  win := launch1.win.to₀
  block_pos := launch1.block_pos
  stage_whole := launch1.stage_whole
  K := PEmpty
  osem k := k.elim
  ho := Pipeline.OwnSemFacts.none _
  hbody c := fbody (kV2 m) c
  hwaits := Pipeline.RDat.hwaits_of_owed_zero _ _ _ _ kL klv 1 fun _ _ => rfl
  pre c := iprop(StableHlo.held (c : Thread nD τ) (Pipeline.ucRefs τ sig) (kW2 m c) ∗ kR c)
  post c := iprop(StableHlo.held (c : Thread nD τ) (Pipeline.ucRefs τ sig) (kW3 m c) ∗ kR c)
  X c := iprop(∃ r, prngReg c r)
  Y c := iprop(∃ r, prngReg c r)
  Z c := Pipeline.unscopedRest (Ix := Unit) (Name := ℕ) (U := UR sig nD τ) (Lvl := ℕ) spec1 c (kV2 m c)
  hentry c := by
    rw [Pipeline.ownSems0_none]
    have hsplit := Pipeline.RDat.arrays_of_unscopedBufs (p := 1) (pcfgs (F := F)) kadm (krdats m) launch1.win launch1.arr_whole c
      (fun w => by unfold RDat.share; split <;> rfl) (kV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (fhin (kV2 m) c)
    unfold Pipeline.ΦA
    iintro ⟨Hp, -, Hr⟩
    isplitl [Hr]; · iexact Hr
    iexact Hp
  hout c := by
    rw [Pipeline.ownSems0_none]
    refine (fhout (kV2 m) c).trans ?_
    unfold Pipeline.ΦA
    iintro ⟨Hr, Hp⟩
    isplitl [Hp]; · iexact Hp
    isplitr; · iempintro
    iexact Hr
  hexit c := by
    have hjoin := unscopedBufs_of_arraysAt m (p := 1) launch1.win launch1.arr_whole c
      (fun w => by unfold RDat.share; split <;> rfl) (kV2 m c) (kV3 m c)
      (kreg1_fin m c) (kreg1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold RDat.owesAt Pipeline.owesWithin
    icases HO with ⟨%W, -, HO⟩; iexists W; iexact HO

/-! ## @main as segments, and the launch -/

/-- @main's three segments in order. -/
abbrev ksegs : List (Pipeline.RDat.Seg (pcfgs (F := F)) kadm (krdats m) () defs₀ k𝒱₀ kL klv) :=
  [ .region (kreg0 m), .host (khseg (kW1 m)), .region (kreg1 m) ]

/-- The last thread state without the `owes`: every unscoped buffer at the last boundary's contents, the generator
    register at some state. -/
abbrev kTₙ (c : Dev nD) : sProp 𝕄 := iprop(StableHlo.held (c : Thread nD τ) (Pipeline.ucRefs τ sig) (kW3 m c) ∗ ∃ r, prngReg c r)

-- the library theorem's implicit arguments are found by unifying its conclusion with this one, which takes unfolding plain
-- definitions in a metavariable's type
set_option backward.isDefEq.respectTransparency.types false in
/-- THE RUN: from any memory with zero counters every weakly fair execution of @main terminates, nothing faulting,
    and every final state holds every unscoped buffer at the last boundary's contents. -/
theorem krun : θ_run defs (onTc (τ := τ) (main (F := F))) ⟨m, fun _ => 0, ρ⟩
    (fun r => ∀ c : Dev nD, ∀ b ∈ Pipeline.ucRefs τ sig, r.2.mem (((c : Thread nD τ)).1, b) = kW3 m c b) :=
  Pipeline.RDat.θ_run_regions_kit (pcfgs (F := F)) kadm (krdats m) () cellOf_inj emb₁ defs₀ k𝒱₀ kL klv m ρ main (ksegs m)
    (fun c Q => by
      rewrite [main_chain c, Pipeline.RDat.Seg.run_eq_chain,
        show (ksegs m).map Pipeline.RDat.Seg.prog = [
          Prog.lift (.customCall (Pipeline.entry 0) ()),
          StableHlo.seq hostOps1,
          Prog.lift (.customCall (Pipeline.entry 1) ()) ] from rfl]
      exact .rfl)
    (by simp only [ksegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (kW0 m c) ∗ kR c)) (Tₙ := kTₙ m)
    (hch := ⟨fun _ => .rfl, fun _ => .rfl, fun _ => .rfl, fun c => by
      show (iprop(StableHlo.held (c : Thread nD τ) (Pipeline.ucRefs τ sig) (kW3 m c) ∗ kR c) : sProp 𝕄) ⊢ _
      iintro ⟨Hh, Hp, HO⟩
      isplitl [Hh Hp]
      · isplitl [Hh]; · iexact Hh
        iexact Hp
      iexact HO⟩)
    (hinit := by
      refine Pipeline.initEach kL klv fun c => ?_
      rw [show unscopedBufs c (fun b => m ((c : Thread nD τ).loc b)) = StableHlo.held (c : Thread nD τ) (Pipeline.ucRefs τ sig) (kW0 m c)
        from Pipeline.unscopedBufs_held c (kW0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = kW3 m c b)
    (hfin := fun c s' => by
      iintro ⟨⟨Hh, -⟩, HSI⟩
      unfold StableHlo.held
      imodintro
      iapply (pointsTo_read_all (Pipeline.ucRefs τ sig) (fun b => (((c : Thread nD τ)).1, b)) (kW3 m c) s')
      isplitl [Hh] <;> iassumption)
    (hQ := fun s h c => h c)

/-! ## The last boundary's contents, read: the results and the arguments -/

/-- An unscoped TensorCore reference is among those the thread state holds. -/
theorem kmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 1's inputs as it finds them: the edge features and the incidence as launched, the weights the last
    layer's slice of the stack. -/
theorem kV2_arg1 (c : Dev nD) : kV2 m c main_arg1 = m ((c : Thread nD τ).loc main_arg1) :=
  (khost_keep (kW1 m c) main_arg1 (by decide)).trans (kW1_of_ne m c main_arg1 (by decide))
theorem kV2_arg3 (c : Dev nD) : kV2 m c main_arg3 = m ((c : Thread nD τ).loc main_arg3) :=
  (khost_keep (kW1 m c) main_arg3 (by decide)).trans (kW1_of_ne m c main_arg3 (by decide))
theorem kV2_v3 (c : Dev nD) : kV2 m c main_v3 = KSpec.w2 (m ((c : Thread nD τ).loc main_arg5)) :=
  (khost_v3 (kW1 m c)).trans (by rw [kW1_of_ne m c main_arg5 (by decide)])

/-- The first result: the transpose of the last layer's transposed state. -/
theorem kW3_v1 (c : Dev nD) : kW3 m c (Proc.devRef .tc main_v1)
    = transpose S4096x128 [1, 0] (KSpec.stateT (m ((c : Thread nD τ).loc main_arg0)) (m ((c : Thread nD τ).loc main_arg4)) (m ((c : Thread nD τ).loc main_arg2)) 2 : Vec F S128x4096 .f32) transposes_S128x4096_S4096x128_1_0 :=
  calc kW3 m c (Proc.devRef .tc main_v1)
    _ = kW2 m c (Proc.devRef .tc main_v1) := kW3_of_ne m c main_v1 (by decide)
    _ = transpose S4096x128 [1, 0] (kW1 m c (Proc.devRef .tc main_v0)) transposes_S128x4096_S4096x128_1_0 := khost_v1 (kW1 m c)
    _ = _ := by rw [show kW1 m c (Proc.devRef .tc main_v0) = nout m c 3 from kW1_arr m c 3]; rfl

/-- The third result: the face result of the launch arrays. -/
theorem kW3_v4 (c : Dev nD) : kW3 m c (Proc.devRef .tc main_v4)
    = KSpec.x2 (m ((c : Thread nD τ).loc main_arg1)) (m ((c : Thread nD τ).loc main_arg5)) (m ((c : Thread nD τ).loc main_arg3)) := by
  rw [show kW3 m c (Proc.devRef .tc main_v4) = fout m c 3 from kW3_arr m c 3]
  show fG (kV2 m) c = _
  unfold fG fm1
  rw [kV2_arg1 m c, kV2_v3 m c, kV2_arg3 m c]
  rfl

theorem kW3_arg0 (c : Dev nD) : kW3 m c (Proc.devRef .tc main_arg0) = m ((c : Thread nD τ).loc main_arg0) :=
  (kW3_of_ne m c main_arg0 (by decide)).trans ((khost_keep (kW1 m c) main_arg0 (by decide)).trans (kW1_arr m c 0))
theorem kW3_arg1 (c : Dev nD) : kW3 m c (Proc.devRef .tc main_arg1) = m ((c : Thread nD τ).loc main_arg1) :=
  (kW3_arr m c 0).trans (kV2_arg1 m c)
theorem kW3_arg2 (c : Dev nD) : kW3 m c (Proc.devRef .tc main_arg2) = m ((c : Thread nD τ).loc main_arg2) :=
  (kW3_of_ne m c main_arg2 (by decide)).trans ((khost_keep (kW1 m c) main_arg2 (by decide)).trans (kW1_arr m c 2))
theorem kW3_arg3 (c : Dev nD) : kW3 m c (Proc.devRef .tc main_arg3) = m ((c : Thread nD τ).loc main_arg3) :=
  (kW3_arr m c 2).trans (kV2_arg3 m c)
theorem kW3_arg4 (c : Dev nD) : kW3 m c (Proc.devRef .tc main_arg4) = m ((c : Thread nD τ).loc main_arg4) :=
  (kW3_of_ne m c main_arg4 (by decide)).trans ((khost_keep (kW1 m c) main_arg4 (by decide)).trans (kW1_arr m c 1))
theorem kW3_arg5 (c : Dev nD) : kW3 m c (Proc.devRef .tc main_arg5) = m ((c : Thread nD τ).loc main_arg5) :=
  (kW3_of_ne m c main_arg5 (by decide)).trans ((khost_keep (kW1 m c) main_arg5 (by decide)).trans (kW1_of_ne m c main_arg5 (by decide)))

/-- THE RUN, READ: every weakly fair execution terminates with the first result at the transpose of the last layer's
    transposed state, the third at the face result, and every argument array as launched. -/
theorem kresult : θ_run defs (onTc (τ := τ) (main (F := F))) ⟨m, fun _ => 0, ρ⟩ (fun r => ∀ c : Dev nD,
      r.2.mem ((c.tc : Thread nD τ).loc main_v1) = transpose S4096x128 [1, 0] (KSpec.stateT (m ((c : Thread nD τ).loc main_arg0)) (m ((c : Thread nD τ).loc main_arg4)) (m ((c : Thread nD τ).loc main_arg2)) 2 : Vec F S128x4096 .f32) transposes_S128x4096_S4096x128_1_0
      ∧ r.2.mem ((c.tc : Thread nD τ).loc main_v4) = KSpec.x2 (m ((c : Thread nD τ).loc main_arg1)) (m ((c : Thread nD τ).loc main_arg5)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (kmem_uc main_v1 (by decide))).trans (kW3_v1 m c),
     (h c _ (kmem_uc main_v4 (by decide))).trans (kW3_v4 m c),
     (h c _ (kmem_uc main_arg0 (by decide))).trans (kW3_arg0 m c),
     (h c _ (kmem_uc main_arg1 (by decide))).trans (kW3_arg1 m c),
     (h c _ (kmem_uc main_arg2 (by decide))).trans (kW3_arg2 m c),
     (h c _ (kmem_uc main_arg3 (by decide))).trans (kW3_arg3 m c),
     (h c _ (kmem_uc main_arg4 (by decide))).trans (kW3_arg4 m c),
     (h c _ (kmem_uc main_arg5 (by decide))).trans (kW3_arg5 m c)⟩) (krun m ρ)

end Cert.Kernel.Gen

end
-- ==== Proof.RBody.lean ====
/-
  The two kernel bodies run on whole staging buffers at stated contents, one theorem per control case: a load changes
  nothing, a whole-buffer store leaves its payload, the row-tile store of the node kernel leaves the old contents
  written over by that one tile. Then the tile store read row by row.
-/
import proofs.«179636_g2000605474969623_pallasbulk_585_7_alg».proof.Proof.Gen.ReferenceIdeal.Launch
import proofs.«179636_g2000605474969623_pallasbulk_585_7_alg».proof.Proof.Gen.ReferenceIdeal.Skeleton
import proofs.«179636_g2000605474969623_pallasbulk_585_7_alg».proof.Proof.Gen.ReferenceIdeal.Points
import Idealize.ShloMosaic.Lib.Pipeline.FrameBody
import Idealize.ShloMosaic.Lib.Pipeline.FrameSuffix
import Idealize.ShloMosaic.Lib.Pipeline.Value
import Idealize.ShloMosaic.Lib.WritesUnit
import Idealize.ShloMosaic.Lib.WholeRead
import Idealize.ShloMosaic.Lib.Tactic

set_option maxRecDepth 16384

noncomputable section

namespace Cert.ReferenceIdeal.RBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal Cert.ReferenceIdeal.Gen

variable {F : FTy → Type} [FloatOps F]

local notation "𝕄" => MT nD τ sig Unit (Elt F) ℕ (UR sig nD τ) ℕ

/-- The first branch of the node kernel's body is taken: first row tile of the first layer. -/
abbrev cond0_1 (i : grid0.Coords) : Prop :=
  Scalar.cmpi .ne (Scalar.extui (Scalar.andi (Scalar.cmpi .eq (BitVec.ofNat 32 (i 1).val) 0#32) (Scalar.cmpi .eq (BitVec.ofNat 32 (i 0).val) 0#32))) 0#32 = 1#1
/-- The second branch is taken: first row tile of a later layer. -/
abbrev cond0_2 (i : grid0.Coords) : Prop :=
  Scalar.cmpi .ne (Scalar.extui (Scalar.andi (Scalar.cmpi .eq (BitVec.ofNat 32 (i 1).val) 0#32) (Scalar.cmpi .sgt (BitVec.ofNat 32 (i 0).val) 0#32))) 0#32 = 1#1

/-- The zero offsets of a rank-2 access, spelt as a function. -/
theorem off00 : (![0, 0] : Fin 2 → Nat) = fun _ => 0 := by funext a; fin_cases a <;> rfl
/-- The zero offsets of a rank-3 access, spelt as a function. -/
theorem off000 : (![0, 0, 0] : Fin 3 → Nat) = fun _ => 0 := by funext a; fin_cases a <;> rfl

/-- A load of the whole of a whole buffer held at the contents that read `X` reads `X`. -/
theorem readAt_whole0 {κ : Kind} {sp : Space} {s : Shape} {e : EltTy} {Val : EltTy → Type} {m : Memref sig κ sp s e} (h : m.IsWhole) (X : s.Idx → Val e)
    {off : Fin s.rank → Nat} (hz : off = fun _ => 0) (inb : ∀ a, off a + s.size a ≤ s.size a) :
    View.readAt Val m.view (Rect.unit off s.size inb).toLoadRect (h.unread X) = X := by
  rw [View.readAt_eq_ld, h.read_unread]; exact View.ld_unit_zero hz inb X

/-- One store of the whole of a buffer leaves its payload. -/
theorem read_writes_unit0 {κ : Kind} {sp : Space} {s : Shape} {e : EltTy} {Val : EltTy → Type} (v : View sig κ sp s e) (f : v.ty.Contents Val)
    {off : Fin s.rank → Nat} (hz : off = fun _ => 0) (inb : ∀ a, off a + s.size a ≤ s.size a) (p : s.Idx → Val e) :
    v.read Val (v.writes Val f [⟨Rect.unit off s.size inb, p⟩]) = p := by
  subst hz; exact View.read_writes_whole v f p

/-- The face kernel's branch is taken: the first row tile. -/
abbrev cond1_1 (i : grid1.Coords) : Prop :=
  Scalar.cmpi .ne (Scalar.extui (Scalar.cmpi .eq (BitVec.ofNat 32 (i 0).val) 0#32)) 0#32 = 1#1

/-! ## The node kernel -/

set_option maxHeartbeats 1000000 in
theorem body0_C (c : Dev nD) (i : grid0.Coords)
    (arg2 : Memref sig .tc .vmem S4096x128 .f32) (harg2 : arg2.IsWhole) (arg3 : Memref sig .tc .vmem S1x128x128 .f32) (harg3 : arg3.IsWhole)
    (arg4 : Memref sig .tc .vmem S512x4096 .f32) (harg4 : arg4.IsWhole) (arg5 : Memref sig .tc .vmem S4096x128 .f32) (harg5 : arg5.IsWhole)
    (arg6 : Memref sig .tc .vmem S4096x128 .f32) (harg6 : arg6.IsWhole) (hc1 : ¬cond0_1 i) (hc2 : ¬cond0_2 i)
    (x0 : Vec F S4096x128 .f32) (w : Vec F S1x128x128 .f32) (a : Vec F S512x4096 .f32) (o s : Vec F S4096x128 .f32)
    (E : Set ℕ) (K : PUnit → sProp 𝕄) :
    iprop(owns (c : Thread nD τ) arg2 fullShare x0 ∗ owns (c : Thread nD τ) arg3 fullShare w ∗ owns (c : Thread nD τ) arg4 fullShare a
        ∗ owns (c : Thread nD τ) arg5 fullShare o ∗ owns (c : Thread nD τ) arg6 fullShare s
        ∗ (iprop(owns (c : Thread nD τ) arg2 fullShare x0 ∗ owns (c : Thread nD τ) arg3 fullShare w ∗ owns (c : Thread nD τ) arg4 fullShare a
            ∗ owns (c : Thread nD τ) arg5 fullShare (arg5.view.read (Elt F) (arg5.view.writes (Elt F) (harg5.unread o)
                [⟨Rect.unit (s := S4096x128) (k0_off1 i) S512x128.size (k0_off1_inb i), k0_pay3 a (s)⟩]))
            ∗ owns (c : Thread nD τ) arg6 fullShare (s)) -∗ K ⟨⟩))
      ⊢ wp frame (wpE (defs₀ (F := F)) Variants.none c none) E (cc0__ccxn_x0_kernel i arg2 harg2 arg3 harg3 arg4 harg4 arg5 harg5 arg6 harg6) K := by
  simp only [cc0__ccxn_x0_kernel_eq_skeleton]; unfold cc0__ccxn_x0_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc1 | exact hc2)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap
    · iexact H5
    ipureintro
    sl_unfold_run_names
    rw [readAt_whole0 harg4 a off00, readAt_whole0 harg6 s off00]
  iexists _; isplitr
  · ipureintro; exact hf6
  · iexact H6

set_option maxHeartbeats 1000000 in
theorem body0_A (c : Dev nD) (i : grid0.Coords)
    (arg2 : Memref sig .tc .vmem S4096x128 .f32) (harg2 : arg2.IsWhole) (arg3 : Memref sig .tc .vmem S1x128x128 .f32) (harg3 : arg3.IsWhole)
    (arg4 : Memref sig .tc .vmem S512x4096 .f32) (harg4 : arg4.IsWhole) (arg5 : Memref sig .tc .vmem S4096x128 .f32) (harg5 : arg5.IsWhole)
    (arg6 : Memref sig .tc .vmem S4096x128 .f32) (harg6 : arg6.IsWhole) (hc1 : cond0_1 i) (hc2 : ¬cond0_2 i)
    (x0 : Vec F S4096x128 .f32) (w : Vec F S1x128x128 .f32) (a : Vec F S512x4096 .f32) (o s : Vec F S4096x128 .f32)
    (E : Set ℕ) (K : PUnit → sProp 𝕄) :
    iprop(owns (c : Thread nD τ) arg2 fullShare x0 ∗ owns (c : Thread nD τ) arg3 fullShare w ∗ owns (c : Thread nD τ) arg4 fullShare a
        ∗ owns (c : Thread nD τ) arg5 fullShare o ∗ owns (c : Thread nD τ) arg6 fullShare s
        ∗ (iprop(owns (c : Thread nD τ) arg2 fullShare x0 ∗ owns (c : Thread nD τ) arg3 fullShare w ∗ owns (c : Thread nD τ) arg4 fullShare a
            ∗ owns (c : Thread nD τ) arg5 fullShare (arg5.view.read (Elt F) (arg5.view.writes (Elt F) (harg5.unread o)
                [⟨Rect.unit (s := S4096x128) (k0_off1 i) S512x128.size (k0_off1_inb i), k0_pay3 a (k0_pay1 x0 w)⟩]))
            ∗ owns (c : Thread nD τ) arg6 fullShare (k0_pay1 x0 w)) -∗ K ⟨⟩))
      ⊢ wp frame (wpE (defs₀ (F := F)) Variants.none c none) E (cc0__ccxn_x0_kernel i arg2 harg2 arg3 harg3 arg4 harg4 arg5 harg5 arg6 harg6) K := by
  simp only [cc0__ccxn_x0_kernel_eq_skeleton]; unfold cc0__ccxn_x0_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc1 | exact hc2)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap
    · iexact H5
    ipureintro
    sl_unfold_run_names
    rw [readAt_whole0 harg4 a off00, readAt_whole0 harg2 x0 off00, readAt_whole0 harg3 w off000, View.readCov_unit_zero _ off00]
  iexists _; isplitr
  swap
  · iexact H6
  ipureintro
  sl_unfold_run_names
  rw [readAt_whole0 harg2 x0 off00, readAt_whole0 harg3 w off000]
  exact read_writes_unit0 _ _ off00 _ _

set_option maxHeartbeats 1000000 in
theorem body0_B (c : Dev nD) (i : grid0.Coords)
    (arg2 : Memref sig .tc .vmem S4096x128 .f32) (harg2 : arg2.IsWhole) (arg3 : Memref sig .tc .vmem S1x128x128 .f32) (harg3 : arg3.IsWhole)
    (arg4 : Memref sig .tc .vmem S512x4096 .f32) (harg4 : arg4.IsWhole) (arg5 : Memref sig .tc .vmem S4096x128 .f32) (harg5 : arg5.IsWhole)
    (arg6 : Memref sig .tc .vmem S4096x128 .f32) (harg6 : arg6.IsWhole) (hc1 : ¬cond0_1 i) (hc2 : cond0_2 i)
    (x0 : Vec F S4096x128 .f32) (w : Vec F S1x128x128 .f32) (a : Vec F S512x4096 .f32) (o s : Vec F S4096x128 .f32)
    (E : Set ℕ) (K : PUnit → sProp 𝕄) :
    iprop(owns (c : Thread nD τ) arg2 fullShare x0 ∗ owns (c : Thread nD τ) arg3 fullShare w ∗ owns (c : Thread nD τ) arg4 fullShare a
        ∗ owns (c : Thread nD τ) arg5 fullShare o ∗ owns (c : Thread nD τ) arg6 fullShare s
        ∗ (iprop(owns (c : Thread nD τ) arg2 fullShare x0 ∗ owns (c : Thread nD τ) arg3 fullShare w ∗ owns (c : Thread nD τ) arg4 fullShare a
            ∗ owns (c : Thread nD τ) arg5 fullShare (arg5.view.read (Elt F) (arg5.view.writes (Elt F) (harg5.unread o)
                [⟨Rect.unit (s := S4096x128) (k0_off1 i) S512x128.size (k0_off1_inb i), k0_pay3 a (k0_pay2 o w)⟩]))
            ∗ owns (c : Thread nD τ) arg6 fullShare (k0_pay2 o w)) -∗ K ⟨⟩))
      ⊢ wp frame (wpE (defs₀ (F := F)) Variants.none c none) E (cc0__ccxn_x0_kernel i arg2 harg2 arg3 harg3 arg4 harg4 arg5 harg5 arg6 harg6) K := by
  simp only [cc0__ccxn_x0_kernel_eq_skeleton]; unfold cc0__ccxn_x0_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc1 | exact hc2)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap
    · iexact H5
    ipureintro
    sl_unfold_run_names
    rw [readAt_whole0 harg4 a off00, readAt_whole0 harg5 o off00, readAt_whole0 harg3 w off000, View.readCov_unit_zero _ off00]
  iexists _; isplitr
  swap
  · iexact H6
  ipureintro
  sl_unfold_run_names
  rw [readAt_whole0 harg5 o off00, readAt_whole0 harg3 w off000]
  exact read_writes_unit0 _ _ off00 _ _

/-! ## The face kernel -/

set_option maxHeartbeats 1000000 in
theorem body1_B (c : Dev nD) (i : grid1.Coords)
    (arg1 : Memref sig .tc .vmem S8192x128 .f32) (harg1 : arg1.IsWhole) (arg2 : Memref sig .tc .vmem S128x128 .f32) (harg2 : arg2.IsWhole)
    (arg3 : Memref sig .tc .vmem S256x8192 .f32) (harg3 : arg3.IsWhole) (arg4 : Memref sig .tc .vmem S256x128 .f32) (harg4 : arg4.IsWhole)
    (arg5 : Memref sig .tc .vmem S8192x128 .f32) (harg5 : arg5.IsWhole) (hc1 : ¬cond1_1 i)
    (x1 : Vec F S8192x128 .f32) (w : Vec F S128x128 .f32) (a : Vec F S256x8192 .f32) (o : Vec F S256x128 .f32) (s : Vec F S8192x128 .f32)
    (E : Set ℕ) (K : PUnit → sProp 𝕄) :
    iprop(owns (c : Thread nD τ) arg1 fullShare x1 ∗ owns (c : Thread nD τ) arg2 fullShare w ∗ owns (c : Thread nD τ) arg3 fullShare a
        ∗ owns (c : Thread nD τ) arg4 fullShare o ∗ owns (c : Thread nD τ) arg5 fullShare s
        ∗ (iprop(owns (c : Thread nD τ) arg1 fullShare x1 ∗ owns (c : Thread nD τ) arg2 fullShare w ∗ owns (c : Thread nD τ) arg3 fullShare a
            ∗ owns (c : Thread nD τ) arg4 fullShare (k1_pay2 a (s))
            ∗ owns (c : Thread nD τ) arg5 fullShare (s)) -∗ K ⟨⟩))
      ⊢ wp frame (wpE (defs₀ (F := F)) Variants.none c none) E (cc1__ccxn_x2_kernel i arg1 harg1 arg2 harg2 arg3 harg3 arg4 harg4 arg5 harg5) K := by
  simp only [cc1__ccxn_x2_kernel_eq_skeleton]; unfold cc1__ccxn_x2_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc1)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    swap
    · iexact H4
    ipureintro
    sl_unfold_run_names
    rw [readAt_whole0 harg3 a off00, readAt_whole0 harg5 s off00]
    exact read_writes_unit0 _ _ off00 _ _
  iexists _; isplitr
  · ipureintro; exact hf5
  · iexact H5

set_option maxHeartbeats 1000000 in
theorem body1_A (c : Dev nD) (i : grid1.Coords)
    (arg1 : Memref sig .tc .vmem S8192x128 .f32) (harg1 : arg1.IsWhole) (arg2 : Memref sig .tc .vmem S128x128 .f32) (harg2 : arg2.IsWhole)
    (arg3 : Memref sig .tc .vmem S256x8192 .f32) (harg3 : arg3.IsWhole) (arg4 : Memref sig .tc .vmem S256x128 .f32) (harg4 : arg4.IsWhole)
    (arg5 : Memref sig .tc .vmem S8192x128 .f32) (harg5 : arg5.IsWhole) (hc1 : cond1_1 i)
    (x1 : Vec F S8192x128 .f32) (w : Vec F S128x128 .f32) (a : Vec F S256x8192 .f32) (o : Vec F S256x128 .f32) (s : Vec F S8192x128 .f32)
    (E : Set ℕ) (K : PUnit → sProp 𝕄) :
    iprop(owns (c : Thread nD τ) arg1 fullShare x1 ∗ owns (c : Thread nD τ) arg2 fullShare w ∗ owns (c : Thread nD τ) arg3 fullShare a
        ∗ owns (c : Thread nD τ) arg4 fullShare o ∗ owns (c : Thread nD τ) arg5 fullShare s
        ∗ (iprop(owns (c : Thread nD τ) arg1 fullShare x1 ∗ owns (c : Thread nD τ) arg2 fullShare w ∗ owns (c : Thread nD τ) arg3 fullShare a
            ∗ owns (c : Thread nD τ) arg4 fullShare (k1_pay2 a (k1_pay1 x1 w))
            ∗ owns (c : Thread nD τ) arg5 fullShare (k1_pay1 x1 w)) -∗ K ⟨⟩))
      ⊢ wp frame (wpE (defs₀ (F := F)) Variants.none c none) E (cc1__ccxn_x2_kernel i arg1 harg1 arg2 harg2 arg3 harg3 arg4 harg4 arg5 harg5) K := by
  simp only [cc1__ccxn_x2_kernel_eq_skeleton]; unfold cc1__ccxn_x2_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc1)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    swap
    · iexact H4
    ipureintro
    sl_unfold_run_names
    rw [readAt_whole0 harg3 a off00, readAt_whole0 harg1 x1 off00, readAt_whole0 harg2 w off00, View.readCov_unit_zero _ off00]
    exact read_writes_unit0 _ _ off00 _ _
  iexists _; isplitr
  swap
  · iexact H5
  ipureintro
  sl_unfold_run_names
  rw [readAt_whole0 harg1 x1 off00, readAt_whole0 harg2 w off00]
  exact read_writes_unit0 _ _ off00 _ _

/-! ## The row-tile store, read row by row -/

/-- A row inside the stored tile reads the tile's payload at the row's place in the tile. -/
theorem rows_hit {κ : Kind} {sp : Space} (M : Memref sig κ sp S4096x128 .f32) (hM : M.IsWhole) (o : Vec F S4096x128 .f32)
    (i : grid0.Coords) (p : Vec F S512x128 .f32) (y : S4096x128.Idx) (x : S512x128.Idx)
    (hx0 : (y (0 : Fin 2)).val = 512 * (i 1).val + (x (0 : Fin 2)).val) (hx1 : (y (1 : Fin 2)).val = (x (1 : Fin 2)).val) :
    M.view.read (Elt F) (M.view.writes (Elt F) (hM.unread o)
      [⟨Rect.unit (s := S4096x128) (k0_off1 i) S512x128.size (k0_off1_inb i), p⟩]) y = p x :=
  View.read_writes_cons_rows_of_mem M.view (hM.unread o) (k0_off1_inb i) p [] y x (k0_off1_eq i) hx0 hx1

/-- A row outside the stored tile reads what the buffer held. -/
theorem rows_miss {κ : Kind} {sp : Space} (M : Memref sig κ sp S4096x128 .f32) (hM : M.IsWhole) (o : Vec F S4096x128 .f32)
    (i : grid0.Coords) (p : Vec F S512x128 .f32) (y : S4096x128.Idx)
    (h : (y (0 : Fin 2)).val < 512 * (i 1).val ∨ 512 * (i 1).val + 512 ≤ (y (0 : Fin 2)).val) :
    M.view.read (Elt F) (M.view.writes (Elt F) (hM.unread o)
      [⟨Rect.unit (s := S4096x128) (k0_off1 i) S512x128.size (k0_off1_inb i), p⟩]) y = o y :=
  (View.read_writes_cons_rows_of_not_mem M.view (hM.unread o) (k0_off1_inb i) p [] y (k0_off1_eq i) rfl h).trans
    (congrFun (hM.read_unread o) y)

end Cert.ReferenceIdeal.RBody
end
-- ==== Proof.RSpec.lean ====
/-
  The reference program's results as pure functions of its six inputs, for any float instance: the
  per-layer feature transform m0, the node state after each layer, the face-path transform m1 and
  the face result x2, each written through the kernel bodies' payloads so that a grid point's store
  is one of these functions' rows by definition.
-/
import proofs.«179636_g2000605474969623_pallasbulk_585_7_alg».proof.Proof.Gen.ReferenceIdeal.Skeleton
import Idealize.ShloMosaic.Lib.ValueIdx

noncomputable section

namespace Cert.ReferenceIdeal.RSpec

open Idealize.ShloMosaic Idealize.ShloMosaic.ValueIdx
open Cert.ReferenceIdeal Cert.ReferenceIdeal.Gen

variable {F : FTy → Type} [FloatOps F]

/-- Layer `l` (taken mod 3) of a stack of three 128×128 matrices, as a 1×128×128 block. -/
def wBlk (W : Vec F S3x128x128 .f32) (l : Nat) : Vec F S1x128x128 .f32 :=
  fun j => W (ix3 (⟨l % 3, Nat.mod_lt _ (by decide)⟩ : Fin 3) (j 1 : Fin 128) (j 2 : Fin 128))

/-- Matrix 2 of a stack of three 128×128 matrices. -/
def w2 (W : Vec F S3x128x128 .f32) : Vec F S128x128 .f32 :=
  fun j => W (ix3 (2 : Fin 3) (j 0 : Fin 128) (j 1 : Fin 128))

/-- Rows `512 * i` … `512 * i + 511` of the adjacency matrix. -/
def tileA (A : Vec F S4096x4096 .f32) (i : Nat) : Vec F S512x4096 .f32 :=
  fun j => A (ix2 (⟨(512 * i + (j 0 : Fin 512).val) % 4096, Nat.mod_lt _ (by decide)⟩ : Fin 4096) (j 1 : Fin 4096))

/-- Rows `256 * i` … `256 * i + 255` of the incidence matrix. -/
def tileInc (B : Vec F S2048x8192 .f32) (i : Nat) : Vec F S256x8192 .f32 :=
  fun j => B (ix2 (⟨(256 * i + (j 0 : Fin 256).val) % 2048, Nat.mod_lt _ (by decide)⟩ : Fin 2048) (j 1 : Fin 8192))

/-- One aggregation step: row `r` of the new state is row `r % 512` of what the grid point of row tile `r / 512`
    stores, `max (A[tile] · m) 0`. -/
def stateOf (A : Vec F S4096x4096 .f32) (m : Vec F S4096x128 .f32) : Vec F S4096x128 .f32 :=
  fun j => k0_pay3 (tileA A ((j 0 : Fin 4096).val / 512)) m
    (ix2 (⟨(j 0 : Fin 4096).val % 512, Nat.mod_lt _ (by decide)⟩ : Fin 512) (j 1 : Fin 128))

/-- The feature transform of layer `l`: `x0 · W[0]` at layer 0, `state (l-1) · W[l]` afterwards. -/
def m0 (x0 : Vec F S4096x128 .f32) (W : Vec F S3x128x128 .f32) (A : Vec F S4096x4096 .f32) : Nat → Vec F S4096x128 .f32
  | 0 => k0_pay1 x0 (wBlk W 0)
  | l + 1 => k0_pay2 (stateOf A (m0 x0 W A l)) (wBlk W (l + 1))

/-- The node state after layer `l`. -/
def state (x0 : Vec F S4096x128 .f32) (W : Vec F S3x128x128 .f32) (A : Vec F S4096x4096 .f32) (l : Nat) : Vec F S4096x128 .f32 :=
  stateOf A (m0 x0 W A l)

/-- The face path's feature transform `x1 · W12[2]`. -/
def m1 (x1 : Vec F S8192x128 .f32) (W12 : Vec F S3x128x128 .f32) : Vec F S8192x128 .f32 :=
  k1_pay1 x1 (w2 W12)

/-- The face result: row `f` is row `f % 256` of what the grid point of row tile `f / 256` stores. -/
def x2 (x1 : Vec F S8192x128 .f32) (W12 : Vec F S3x128x128 .f32) (B : Vec F S2048x8192 .f32) : Vec F S2048x128 .f32 :=
  fun j => k1_pay2 (tileInc B ((j 0 : Fin 2048).val / 256)) (m1 x1 W12)
    (ix2 (⟨(j 0 : Fin 2048).val % 256, Nat.mod_lt _ (by decide)⟩ : Fin 256) (j 1 : Fin 128))

theorem m0_zero (x0 : Vec F S4096x128 .f32) (W : Vec F S3x128x128 .f32) (A : Vec F S4096x4096 .f32) :
    m0 x0 W A 0 = k0_pay1 x0 (wBlk W 0) := rfl
theorem m0_succ (x0 : Vec F S4096x128 .f32) (W : Vec F S3x128x128 .f32) (A : Vec F S4096x4096 .f32) (l : Nat) :
    m0 x0 W A (l + 1) = k0_pay2 (state x0 W A l) (wBlk W (l + 1)) := rfl

end Cert.ReferenceIdeal.RSpec

end
-- ==== Proof.RInv.lean ====
/-
  The node path's resident state buffer, point by point. Point `t` of the 3 × 8 grid stores row tile `t % 8` of
  layer `t / 8`; whatever the buffer held at first, before point `t` the tiles already stored in this layer hold the
  layer's state and, after the first layer, the others still hold the previous layer's: so at the first tile of a
  later layer the whole buffer is the previous layer's state, and after the last point it is the last layer's.
-/
import proofs.«179636_g2000605474969623_pallasbulk_585_7_alg».proof.Proof.RSpec

noncomputable section

namespace Cert.ReferenceIdeal.RInv

open Idealize.ShloMosaic Idealize.ShloMosaic.ValueIdx
open Cert.ReferenceIdeal Cert.ReferenceIdeal.Gen Cert.ReferenceIdeal.RSpec

variable {F : FTy → Type} [FloatOps F]

/-- `o` with its row tile `r` (rows `512 r` … `512 r + 511`) replaced by `p`. -/
def rowsW (o : Vec F S4096x128 .f32) (r : Nat) (p : Vec F S512x128 .f32) : Vec F S4096x128 .f32 :=
  fun y => if h : 512 * r ≤ (y 0 : Fin 4096).val ∧ (y 0 : Fin 4096).val < 512 * r + 512 then
    p (ix2 (⟨(y 0 : Fin 4096).val - 512 * r, by omega⟩ : Fin 512) (y 1 : Fin 128)) else o y

variable (x0 : Vec F S4096x128 .f32) (W : Vec F S3x128x128 .f32) (A : Vec F S4096x4096 .f32)

/-- What point `t` stores: row tile `t % 8` of layer `t / 8`. -/
def pay (t : Nat) : Vec F S512x128 .f32 := k0_pay3 (tileA A (t % 8)) (m0 x0 W A (t / 8))

/-- The state buffer after point `t`, from what it held before. -/
def step (t : Nat) (Y : Vec F S4096x128 .f32) : Vec F S4096x128 .f32 := rowsW Y (t % 8) (pay x0 W A t)

/-- What is known of the state buffer before point `t`. -/
def Inv (t : Nat) (Y : Vec F S4096x128 .f32) : Prop :=
  ∀ y : S4096x128.Idx, ((y 0 : Fin 4096).val / 512 < t % 8 → Y y = state x0 W A (t / 8) y)
    ∧ (0 < t / 8 → t % 8 ≤ (y 0 : Fin 4096).val / 512 → Y y = state x0 W A (t / 8 - 1) y)

theorem state_apply (l : Nat) (y : S4096x128.Idx) :
    state x0 W A l y = k0_pay3 (tileA A ((y 0 : Fin 4096).val / 512)) (m0 x0 W A l)
      (ix2 (⟨(y 0 : Fin 4096).val % 512, Nat.mod_lt _ (by decide)⟩ : Fin 512) (y 1 : Fin 128)) := rfl

/-- A row of the tile the point stores holds the layer's state afterwards. -/
theorem step_hit (t : Nat) (Y : Vec F S4096x128 .f32) (y : S4096x128.Idx) (h : (y 0 : Fin 4096).val / 512 = t % 8) :
    step x0 W A t Y y = state x0 W A (t / 8) y := by
  have h1 : 512 * (t % 8) ≤ (y 0 : Fin 4096).val ∧ (y 0 : Fin 4096).val < 512 * (t % 8) + 512 := by omega
  unfold step rowsW
  rw [dif_pos h1, state_apply]
  unfold pay
  have key : ∀ (r : Nat) (hr : r = (y 0 : Fin 4096).val / 512) (hlt : (y 0 : Fin 4096).val - 512 * r < 512),
      k0_pay3 (tileA A r) (m0 x0 W A (t / 8)) (ix2 (⟨(y 0 : Fin 4096).val - 512 * r, hlt⟩ : Fin 512) (y 1 : Fin 128))
        = k0_pay3 (tileA A ((y 0 : Fin 4096).val / 512)) (m0 x0 W A (t / 8))
          (ix2 (⟨(y 0 : Fin 4096).val % 512, Nat.mod_lt _ (by decide)⟩ : Fin 512) (y 1 : Fin 128)) := by
    intro r hr hlt
    subst hr
    have e : (⟨(y 0 : Fin 4096).val - 512 * ((y 0 : Fin 4096).val / 512), hlt⟩ : Fin 512)
        = ⟨(y 0 : Fin 4096).val % 512, Nat.mod_lt _ (by decide)⟩ := Fin.ext (by simp only []; omega)
    rw [e]
  exact key (t % 8) h.symm _

/-- A row of another tile holds what it held. -/
theorem step_miss (t : Nat) (Y : Vec F S4096x128 .f32) (y : S4096x128.Idx) (h : (y 0 : Fin 4096).val / 512 ≠ t % 8) :
    step x0 W A t Y y = Y y := by
  have h1 : ¬(512 * (t % 8) ≤ (y 0 : Fin 4096).val ∧ (y 0 : Fin 4096).val < 512 * (t % 8) + 512) := by omega
  unfold step rowsW
  rw [dif_neg h1]

theorem Inv_zero (Y : Vec F S4096x128 .f32) : Inv x0 W A 0 Y := fun y => ⟨fun h => absurd h (by omega), fun h => absurd h (by omega)⟩

theorem Inv_step (t : Nat) (Y : Vec F S4096x128 .f32) (h : Inv x0 W A t Y) : Inv x0 W A (t + 1) (step x0 W A t Y) := by
  intro y
  have hy : (y 0 : Fin 4096).val < 4096 := (y 0 : Fin 4096).isLt
  obtain ⟨h1, h2⟩ := h y
  by_cases h7 : t % 8 = 7
  · have e1 : (t + 1) % 8 = 0 := by omega
    have e2 : (t + 1) / 8 = t / 8 + 1 := by omega
    rw [e1, e2]
    refine ⟨fun hlt => absurd hlt (by omega), fun _ _ => ?_⟩
    rw [Nat.add_sub_cancel]
    by_cases hr : (y 0 : Fin 4096).val / 512 = t % 8
    · exact step_hit x0 W A t Y y hr
    · rw [step_miss x0 W A t Y y hr]; exact h1 (by omega)
  · have e1 : (t + 1) % 8 = t % 8 + 1 := by omega
    have e2 : (t + 1) / 8 = t / 8 := by omega
    rw [e1, e2]
    refine ⟨fun hlt => ?_, fun hl hge => ?_⟩
    · by_cases hr : (y 0 : Fin 4096).val / 512 = t % 8
      · exact step_hit x0 W A t Y y hr
      · rw [step_miss x0 W A t Y y hr]; exact h1 (by omega)
    · rw [step_miss x0 W A t Y y (by omega)]; exact h2 hl (by omega)

/-- Before the first tile of a later layer the buffer is the previous layer's state. -/
theorem Inv_layer (l : Nat) (hl : 0 < l) (Y : Vec F S4096x128 .f32) (h : Inv x0 W A (8 * l) Y) : Y = state x0 W A (l - 1) := by
  funext y
  have e1 : 8 * l % 8 = 0 := by omega
  have e2 : 8 * l / 8 = l := by omega
  have := (h y).2
  rw [e1, e2] at this
  exact this hl (Nat.zero_le _)

/-- After the last point the buffer is the last layer's state. -/
theorem Inv_end (Y : Vec F S4096x128 .f32) (h : Inv x0 W A 24 Y) : Y = state x0 W A 2 :=
  Inv_layer x0 W A 3 (by decide) Y h

end Cert.ReferenceIdeal.RInv

end
-- ==== Proof.RNodeDat.lean ====
/-
  The node region of the reference program as proof data for its pipeline: the three inputs' staging buffers are left
  as found; the resident output buffer is left with the point's row tile written over what it held; the scratch (the
  layer's transformed features) is carried from point to point. The body's obligation at every point, and the result
  array after the 24 points: the last layer's state.
-/
import proofs.«179636_g2000605474969623_pallasbulk_585_7_alg».proof.Proof.RBody
import proofs.«179636_g2000605474969623_pallasbulk_585_7_alg».proof.Proof.RSpec
import proofs.«179636_g2000605474969623_pallasbulk_585_7_alg».proof.Proof.RInv
import Idealize.ShloMosaic.Lib.Pipeline.Value

set_option maxRecDepth 16384

noncomputable section

namespace Cert.ReferenceIdeal.RNode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.ReferenceIdeal Cert.ReferenceIdeal.Gen Cert.ReferenceIdeal.RBody

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data -/

/-- The region's three inputs as it finds them: the node features, the weight stack, the adjacency. -/
abbrev nx0 (c : Dev nD) : Vec F S4096x128 .f32 := V c main_v16
abbrev nW (c : Dev nD) : Vec F S3x128x128 .f32 := V c main_v18
abbrev nA (c : Dev nD) : Vec F S4096x4096 .f32 := V c main_v17

/-- Layer `l`'s transformed features. -/
abbrev nm0 (c : Dev nD) (l : ℕ) : Vec F S4096x128 .f32 := RSpec.m0 (nx0 V c) (nW V c) (nA V c) l

/-- A scoped buffer of the core at some contents. -/
abbrev anyAt (c : Dev nD) (b : Ref sig .tc) : sProp 𝕄 :=
  iprop(∃ f : Buf (Elt F) ((c : Thread nD τ).loc b), ((c : Thread nD τ).loc b) ↦{fullShare} f)

/-- The region's invariant after a point of layer `l`: the node kernel's scratch at the layer's transformed features,
    the core's other scoped buffers at anything, the generator register at some state. -/
def nPhiS (c : Dev nD) (l : ℕ) : sProp 𝕄 :=
  iprop((owns (c : Thread nD τ) (Memref.whole cc0_scratch0) fullShare (nm0 V c l) ∗ anyAt (F := F) c cc1_stg0_0 ∗ anyAt (F := F) c cc1_stg1_0 ∗ anyAt (F := F) c cc1_stg2_0 ∗ anyAt (F := F) c cc1_stg2_1 ∗ anyAt (F := F) c cc1_stg3_0 ∗ anyAt (F := F) c cc1_stg3_1 ∗ anyAt (F := F) c cc1_scratch0) ∗ ∃ r, prngReg c r)

/-- The region's invariant before point `n`: before the first, every scratch at anything; afterwards `nPhiS` at the
    layer of the point before. -/
def nPhi (c : Dev nD) : ℕ → sProp 𝕄
  | 0 => Pipeline.ΦA spec0 c
  | n + 1 => nPhiS V c (n / 8)

theorem nPhi_pos (c : Dev nD) (n : ℕ) (h : n ≠ 0) : nPhi V c n = nPhiS V c ((n - 1) / 8) := by
  cases n with
  | zero => exact absurd rfl h
  | succ n => rfl

/-- The node region's proof data on core `c`. -/
def nrd (c : Dev nD) : RDat τ (Elt F) Unit ℕ (UR sig nD τ) ℕ cfg0 c where
  A w := V c (Pipeline.arrRef spec0 w)
  after w t Y X := match w with
    | ⟨0, _⟩ => X = Y
    | ⟨1, _⟩ => X = Y
    | ⟨2, _⟩ => X = Y
    | ⟨3, _⟩ => X = RInv.step (nx0 V c) (nW V c) (nA V c) t.val Y
  Φ t := nPhi V c t.val
  q _ := fullShare
  owed _ := 0

/-! ## The schedule and the blocks, decided over the grid (point `t` is layer `t / 8`, row tile `t % 8`) -/

theorem hnc1 : ∀ t : Fin cfg0.N, cond0_1 (grid0.coords t) ↔ t.val = 0 :=
  (by decide +kernel : ∀ t : Fin grid0.N, cond0_1 (grid0.coords t) ↔ t.val = 0)
theorem hnc2 : ∀ t : Fin cfg0.N, cond0_2 (grid0.coords t) ↔ (t.val % 8 = 0 ∧ 8 ≤ t.val) :=
  (by decide +kernel : ∀ t : Fin grid0.N, cond0_2 (grid0.coords t) ↔ (t.val % 8 = 0 ∧ 8 ≤ t.val))
theorem hcoord : ∀ t : Fin cfg0.N, ((grid0.coords t) 1).val = t.val % 8 ∧ ((grid0.coords t) 0).val = t.val / 8 :=
  (by decide +kernel : ∀ t : Fin grid0.N, ((grid0.coords t) 1).val = t.val % 8 ∧ ((grid0.coords t) 0).val = t.val / 8)
theorem nidx : ∀ t : Fin cfg0.N, win0_0.index t (0 : Fin 2) = 0 ∧ win0_0.index t (1 : Fin 2) = 0
    ∧ win0_1.index t (0 : Fin 3) = t.val / 8 ∧ win0_1.index t (1 : Fin 3) = 0 ∧ win0_1.index t (2 : Fin 3) = 0
    ∧ win0_2.index t (0 : Fin 2) = t.val % 8 ∧ win0_2.index t (1 : Fin 2) = 0
    ∧ win0_3.index t (0 : Fin 2) = 0 ∧ win0_3.index t (1 : Fin 2) = 0 :=
  (by decide +kernel : ∀ t : Fin grid0.N, _)
/-- The output window is never fetched. -/
theorem nfetch3 : ∀ t : Fin cfg0.N, (cfg0.win 3).fetch t = false :=
  (by decide +kernel : ∀ t : Fin grid0.N, win0_3.fetch t = false)

/-- Window 0's block is the whole node-feature array. -/
theorem nblk0_eq (c : Dev nD) (t : Fin cfg0.N) :
    (((cfg0.win 0).blk t).view.read (Elt F) (V c main_v16) : Vec F S4096x128 .f32) = V c main_v16 := by
  obtain ⟨e0, e1, -⟩ := nidx t
  funext j
  show V c main_v16 (((cfg0.win 0).blk t).view.emb j) = V c main_v16 j
  refine congrArg (V c main_v16) ?_
  funext a; apply Fin.ext
  match a with
  | ⟨0, _⟩ => show win0_0.index t (0 : Fin 2) * 4096 + 1 * (j 0).val = (j 0).val; omega
  | ⟨1, _⟩ => show win0_0.index t (1 : Fin 2) * 128 + 1 * (j 1).val = (j 1).val; omega

/-- Window 1's block at point `t` is the layer's weight matrix. -/
theorem nblk1_eq (c : Dev nD) (t : Fin cfg0.N) :
    (((cfg0.win 1).blk t).view.read (Elt F) (V c main_v18) : Vec F S1x128x128 .f32) = RSpec.wBlk (V c main_v18) (t.val / 8) := by
  obtain ⟨-, -, e0, e1, e2, -⟩ := nidx t
  have hN : t.val < 24 := lt_of_lt_of_eq t.isLt (show cfg0.N = 24 from N_0)
  funext j
  show V c main_v18 (((cfg0.win 1).blk t).view.emb j)
    = V c main_v18 (ix3 (⟨t.val / 8 % 3, _⟩ : Fin 3) (j 1 : Fin 128) (j 2 : Fin 128))
  refine congrArg (V c main_v18) ?_
  funext a; apply Fin.ext
  match a with
  | ⟨0, _⟩ =>
    show win0_1.index t (0 : Fin 3) * 1 + 1 * (j 0).val = t.val / 8 % 3
    have hj : (j 0).val < 1 := (j 0).isLt
    omega
  | ⟨1, _⟩ => show win0_1.index t (1 : Fin 3) * 128 + 1 * (j 1).val = (j 1).val; omega
  | ⟨2, _⟩ => show win0_1.index t (2 : Fin 3) * 128 + 1 * (j 2).val = (j 2).val; omega

/-- Window 2's block at point `t` is rows 512·(t % 8) … of the adjacency. -/
theorem nblk2_eq (c : Dev nD) (t : Fin cfg0.N) :
    (((cfg0.win 2).blk t).view.read (Elt F) (V c main_v17) : Vec F S512x4096 .f32) = RSpec.tileA (V c main_v17) (t.val % 8) := by
  obtain ⟨-, -, -, -, -, e0, e1, -⟩ := nidx t
  funext j
  show V c main_v17 (((cfg0.win 2).blk t).view.emb j)
    = V c main_v17 (ix2 (⟨(512 * (t.val % 8) + (j 0 : Fin 512).val) % 4096, _⟩ : Fin 4096) (j 1 : Fin 4096))
  refine congrArg (V c main_v17) ?_
  funext a; apply Fin.ext
  match a with
  | ⟨0, _⟩ =>
    show win0_2.index t (0 : Fin 2) * 512 + 1 * (j 0).val = (512 * (t.val % 8) + (j 0).val) % 4096
    have hj : (j 0).val < 512 := (j 0).isLt
    omega
  | ⟨1, _⟩ => show win0_2.index t (1 : Fin 2) * 4096 + 1 * (j 1).val = (j 1).val; omega

/-! ## The class invariant with the scratch as an owned memref -/

theorem PhiA0_eq (c : Dev nD) :
    (Pipeline.ΦA spec0 c : sProp 𝕄)
      = iprop(((∃ d, owns (c : Thread nD τ) (Memref.whole cc0_scratch0 : Memref sig .tc .vmem S4096x128 .f32) fullShare d)
        ∗ anyAt (F := F) c cc1_stg0_0 ∗ anyAt (F := F) c cc1_stg1_0 ∗ anyAt (F := F) c cc1_stg2_0 ∗ anyAt (F := F) c cc1_stg2_1 ∗ anyAt (F := F) c cc1_stg3_0 ∗ anyAt (F := F) c cc1_stg3_1 ∗ anyAt (F := F) c cc1_scratch0) ∗ ∃ r, prngReg c r) := by
  unfold Pipeline.ΦA; rw [scopedRest0_eq]; simp only [owns_whole]; try rfl

/-! ## The row-tile store as a function of the old contents -/

/-- The node kernel's store at grid coordinates `i` leaves the old contents with row tile `i 1` replaced by the payload. -/
theorem read_rowsW {κ : Kind} {sp : Space} (M : Memref sig κ sp S4096x128 .f32) (hM : M.IsWhole) (o : Vec F S4096x128 .f32)
    (i : grid0.Coords) (r : ℕ) (hr : (i 1).val = r) (p : Vec F S512x128 .f32) :
    M.view.read (Elt F) (M.view.writes (Elt F) (hM.unread o)
      [⟨Rect.unit (s := S4096x128) (k0_off1 i) S512x128.size (k0_off1_inb i), p⟩]) = RInv.rowsW o r p := by
  subst hr
  funext y
  unfold RInv.rowsW
  by_cases h : 512 * (i 1).val ≤ (y 0 : Fin 4096).val ∧ (y 0 : Fin 4096).val < 512 * (i 1).val + 512
  · rw [dif_pos h]
    exact rows_hit M hM o i p y _ (by show (y 0 : Fin 4096).val = 512 * (i 1).val + ((y 0 : Fin 4096).val - 512 * (i 1).val); omega) rfl
  · rw [dif_neg h]
    exact rows_miss M hM o i p y (by omega)

/-! ## The body obligation -/

set_option maxHeartbeats 4000000 in
/-- The body at point `t`, the inputs' buffers at their blocks and the output's at contents the invariant allows: at
    the first point the scratch is computed from the node features, at the first row tile of a later layer from the
    output buffer (then the whole previous layer's state), otherwise it is read; the output's buffer ends with the
    point's row tile written. -/
theorem nsound (c : Dev nD) (t : Fin cfg0.N) (Y3 : Vec F S4096x128 .f32) (hInv : RInv.Inv (nx0 V c) (nW V c) (nA V c) t.val Y3) :
    iprop(nPhi V c t.val ∗ (nrd V c).owesAt () t.castSucc
        ∗ owns (c : Thread nD τ) (st0_0 t) fullShare (V c main_v16)
        ∗ owns (c : Thread nD τ) (st0_1 t) fullShare (RSpec.wBlk (V c main_v18) (t.val / 8))
        ∗ owns (c : Thread nD τ) (st0_2 t) fullShare (RSpec.tileA (V c main_v17) (t.val % 8))
        ∗ owns (c : Thread nD τ) (st0_3 t) fullShare Y3)
      ⊢ wp frame (wpE (defs₀ (F := F)) Variants.none c none) Set.univ (bodyAt0 t) (fun _ =>
        iprop(nPhiS V c (t.val / 8) ∗ (nrd V c).owesAt () t.castSucc
          ∗ owns (c : Thread nD τ) (st0_0 t) fullShare (V c main_v16)
          ∗ owns (c : Thread nD τ) (st0_1 t) fullShare (RSpec.wBlk (V c main_v18) (t.val / 8))
          ∗ owns (c : Thread nD τ) (st0_2 t) fullShare (RSpec.tileA (V c main_v17) (t.val % 8))
          ∗ owns (c : Thread nD τ) (st0_3 t) fullShare (RInv.step (nx0 V c) (nW V c) (nA V c) t.val Y3))) := by
  unfold bodyAt0
  obtain ⟨hi1, hi0⟩ := hcoord t
  have hN : t.val < 24 := lt_of_lt_of_eq t.isLt (show cfg0.N = 24 from N_0)
  have eOut : ∀ (S' : Vec F S4096x128 .f32), S' = nm0 V c (t.val / 8) →
      (win0_3.stage (cfg0.slots t 3)).view.read (Elt F) ((win0_3.stage (cfg0.slots t 3)).view.writes (Elt F)
        ((hstage0_3 ((cfg0.slots t 3).cast nbuf0_3)).unread Y3)
        [⟨Rect.unit (s := S4096x128) (k0_off1 (grid0.coords t)) S512x128.size (k0_off1_inb (grid0.coords t)),
          k0_pay3 (RSpec.tileA (V c main_v17) (t.val % 8)) S'⟩]) = RInv.step (nx0 V c) (nW V c) (nA V c) t.val Y3 := by
    intro S' hS; subst hS
    exact read_rowsW _ _ Y3 _ (t.val % 8) hi1 _
  by_cases hz : t.val = 0
  · have hc1 : cond0_1 (grid0.coords t) := (hnc1 t).mpr hz
    have hc2 : ¬ cond0_2 (grid0.coords t) := fun h => by have := (hnc2 t).mp h; omega
    have eS : k0_pay1 (V c main_v16) (RSpec.wBlk (V c main_v18) (t.val / 8)) = nm0 V c (t.val / 8) := by rw [hz]; rfl
    rw [show nPhi V c t.val = Pipeline.ΦA spec0 c from by rw [hz]; rfl, PhiA0_eq]
    iintro ⟨⟨⟨⟨%d, HS⟩, A0, A1, A2, A3, A4, A5, A6⟩, Hg⟩, Ho, H0, H1, H2, H3⟩
    iapply (body0_A c (grid0.coords t) _ _ _ _ _ _ _ _ _ _ hc1 hc2 (V c main_v16) (RSpec.wBlk (V c main_v18) (t.val / 8)) (RSpec.tileA (V c main_v17) (t.val % 8)) Y3 d Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS A0 A1 A2 A3 A4 A5 A6 Hg]
    · first | unfold nPhiS | skip
      isplitr [Hg]
      · isplitl [HS]
        · rw [← eS]; iexact HS
        isplitl [A0]; · iexact A0
        isplitl [A1]; · iexact A1
        isplitl [A2]; · iexact A2
        isplitl [A3]; · iexact A3
        isplitl [A4]; · iexact A4
        isplitl [A5]; · iexact A5
        iexact A6
      · iexact Hg
    isplitl [Ho]; · iexact Ho
    isplitl [H0]; · iexact H0
    isplitl [H1]; · iexact H1
    isplitl [H2]; · iexact H2
    rw [← eOut _ eS]
    iexact H3
  · have hc1 : ¬ cond0_1 (grid0.coords t) := fun h => hz ((hnc1 t).mp h)
    rw [nPhi_pos V c t.val hz]
    unfold nPhiS
    by_cases h8 : t.val % 8 = 0
    · have hc2 : cond0_2 (grid0.coords t) := (hnc2 t).mpr ⟨h8, by omega⟩
      have hY : Y3 = RSpec.state (nx0 V c) (nW V c) (nA V c) (t.val / 8 - 1) :=
        RInv.Inv_layer _ _ _ (t.val / 8) (by omega) Y3 (by rwa [show 8 * (t.val / 8) = t.val by omega])
      have eS : k0_pay2 Y3 (RSpec.wBlk (V c main_v18) (t.val / 8)) = nm0 V c (t.val / 8) := by
        obtain ⟨l, hl⟩ : ∃ l, t.val / 8 = l + 1 := ⟨t.val / 8 - 1, by omega⟩
        rw [hY, hl, Nat.add_sub_cancel]
        rfl
      iintro ⟨⟨⟨HS, A0, A1, A2, A3, A4, A5, A6⟩, Hg⟩, Ho, H0, H1, H2, H3⟩
      iapply (body0_B c (grid0.coords t) _ _ _ _ _ _ _ _ _ _ hc1 hc2 (V c main_v16) (RSpec.wBlk (V c main_v18) (t.val / 8)) (RSpec.tileA (V c main_v17) (t.val % 8)) Y3 (nm0 V c ((t.val - 1) / 8)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS A0 A1 A2 A3 A4 A5 A6 Hg]
      · first | unfold nPhiS | skip
        isplitr [Hg]
        · isplitl [HS]
          · rw [← eS]; iexact HS
          isplitl [A0]; · iexact A0
          isplitl [A1]; · iexact A1
          isplitl [A2]; · iexact A2
          isplitl [A3]; · iexact A3
          isplitl [A4]; · iexact A4
          isplitl [A5]; · iexact A5
          iexact A6
        · iexact Hg
      isplitl [Ho]; · iexact Ho
      isplitl [H0]; · iexact H0
      isplitl [H1]; · iexact H1
      isplitl [H2]; · iexact H2
      rw [← eOut _ eS]
      iexact H3
    · have hc2 : ¬ cond0_2 (grid0.coords t) := fun h => h8 ((hnc2 t).mp h).1
      have eS : nm0 V c ((t.val - 1) / 8) = nm0 V c (t.val / 8) := by rw [show (t.val - 1) / 8 = t.val / 8 by omega]
      iintro ⟨⟨⟨HS, A0, A1, A2, A3, A4, A5, A6⟩, Hg⟩, Ho, H0, H1, H2, H3⟩
      iapply (body0_C c (grid0.coords t) _ _ _ _ _ _ _ _ _ _ hc1 hc2 (V c main_v16) (RSpec.wBlk (V c main_v18) (t.val / 8)) (RSpec.tileA (V c main_v17) (t.val % 8)) Y3 (nm0 V c ((t.val - 1) / 8)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS A0 A1 A2 A3 A4 A5 A6 Hg]
      · first | unfold nPhiS | skip
        isplitr [Hg]
        · isplitl [HS]
          · rw [← eS]; iexact HS
          isplitl [A0]; · iexact A0
          isplitl [A1]; · iexact A1
          isplitl [A2]; · iexact A2
          isplitl [A3]; · iexact A3
          isplitl [A4]; · iexact A4
          isplitl [A5]; · iexact A5
          iexact A6
        · iexact Hg
      isplitl [Ho]; · iexact Ho
      isplitl [H0]; · iexact H0
      isplitl [H1]; · iexact H1
      isplitl [H2]; · iexact H2
      rw [← eOut _ eS]
      iexact H3

/-- What the output's buffer may hold when the body is handed it at point `t` satisfies the invariant there. -/
theorem nfinds_inv (c : Dev nD) : ∀ (n : ℕ) (t : Fin cfg0.N), t.val = n → ∀ Y, (nrd V c).Finds 3 t Y →
    RInv.Inv (nx0 V c) (nW V c) (nA V c) t.val Y
  | 0, t, ht, Y, _ => by rw [ht]; exact RInv.Inv_zero _ _ _ Y
  | n + 1, t, ht, Y, hY => by
    have hN : t.val < 24 := lt_of_lt_of_eq t.isLt (show cfg0.N = 24 from N_0)
    rcases ((nrd V c).finds_of_pos (nfetch3 t) (by omega) Y).mp hY with hfl | ⟨Y', hY', hR⟩
    · have := (flush0_3 _).mp hfl
      have h' : (t.val - 1) % 24 = 23 := this
      omega
    · have hR' : Y = RInv.step (nx0 V c) (nW V c) (nA V c) (t.val - 1) Y' := hR
      have ih : RInv.Inv (nx0 V c) (nW V c) (nA V c) (t.val - 1) Y' :=
        nfinds_inv c n ⟨t.val - 1, Nat.lt_of_le_of_lt (Nat.sub_le _ _) t.isLt⟩ (by show t.val - 1 = n; omega) Y' hY'
      have hs := RInv.Inv_step _ _ _ (t.val - 1) Y' ih
      rw [show t.val - 1 + 1 = t.val by omega] at hs
      rw [hR']; exact hs

/-- The library's body obligation at every point. -/
theorem nbody (c : Dev nD) : (nrd V c).BodyObligation (defs₀ (F := F)) Variants.none () Set.univ := fun t Y hY => by
  rw [bigSep_W0, bigSep_W0]
  obtain ⟨d0, h0⟩ := (nrd V c).finds_in_eq_fetched 0 rfl (fun _ _ _ => rfl) (fun _ _ _ h => h) t (Y 0) (hY 0)
  obtain ⟨d1, h1⟩ := (nrd V c).finds_in_eq_fetched 1 rfl (fun _ _ _ => rfl) (fun _ _ _ h => h) t (Y 1) (hY 1)
  obtain ⟨d2, h2⟩ := (nrd V c).finds_in_eq_fetched 2 rfl (fun _ _ _ => rfl) (fun _ _ _ h => h) t (Y 2) (hY 2)
  have e0 : Y 0 = V c main_v16 := h0.trans (nblk0_eq V c t)
  have e1 : Y 1 = RSpec.wBlk (V c main_v18) (t.val / 8) := h1.trans (nblk1_eq V c t)
  have e2 : Y 2 = RSpec.tileA (V c main_v17) (t.val % 8) := h2.trans (nblk2_eq V c t)
  have hInv := nfinds_inv V c t.val t rfl (Y 3) (hY 3)
  rw [e0, e1, e2]
  rw [show (nrd V c).Φ t.succ = nPhiS V c (t.val / 8) from rfl, show (nrd V c).owesAt () t.succ = (nrd V c).owesAt () t.castSucc from rfl]
  refine (nsound V c t (Y 3) hInv).trans (wp_mono _ _ _ fun _ => ?_)
  iintro ⟨HΦ, Ho, H0, H1, H2, H3⟩
  isplitl [HΦ]; · iexact HΦ
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  iexists _; isplitr; · ipureintro; exact rfl
  iexact H3

/-- What the launch hands the region is the invariant before the first point. -/
theorem nhin (c : Dev nD) : Pipeline.ΦA spec0 c ⊢ (nrd V c).Φ 0 :=
  Idealize.SL.BI.Entails.refl _

/-- After the last point the invariant gives the class invariant back: the scratch's contents are forgotten. -/
theorem nhout (c : Dev nD) : (nrd V c).Φ (Fin.last cfg0.N) ⊢ Pipeline.ΦA spec0 c := by
  rw [show (nrd V c).Φ (Fin.last cfg0.N) = nPhi V c cfg0.N from rfl,
    nPhi_pos V c _ (by rw [show cfg0.N = 24 from N_0]; decide), PhiA0_eq]
  unfold nPhiS
  iintro ⟨⟨HS, A0, A1, A2, A3, A4, A5, A6⟩, Hg⟩
  isplitr [Hg]
  · isplitl [HS]
    · iexists _; iexact HS
    isplitl [A0]; · iexact A0
    isplitl [A1]; · iexact A1
    isplitl [A2]; · iexact A2
    isplitl [A3]; · iexact A3
    isplitl [A4]; · iexact A4
    isplitl [A5]; · iexact A5
    iexact A6
  · iexact Hg

/-! ## The arrays after the 24 points -/

theorem nrd_A (c : Dev nD) (w : Fin cfg0.W) : (nrd V c).A w = V c (Pipeline.arrRef spec0 w) := by dsimp only [nrd]

/-- Before the last point nothing is written back into the result array. -/
theorem nArrAt_lt (c : Dev nD) : ∀ n, n ≤ 23 → (nrd V c).ArrAt 3 n = (nrd V c).ArrAt 3 0
  | 0, _ => rfl
  | n + 1, h => by
    have hn : n < cfg0.N := by have := N_0; show n < grid0.N; omega
    rw [show n + 1 = (⟨n, hn⟩ : Fin cfg0.N).val + 1 from rfl, RDat.ArrAt_succ,
      if_neg (by intro hf; have := (flush0_3 ⟨n, hn⟩).mp hf; simp only at this; omega)]
    exact nArrAt_lt c n (by omega)

/-- The result array after the region: the one write-back, at the last point, of a block that is the whole array and
    holds the last layer's whole state. -/
theorem nfinal_3 (c : Dev nD) (G : Buf (Elt F) ((cfg0.win 3).arr.view.loc (c.tc : Thread nD τ))) (h : (nrd V c).ArrAt 3 cfg0.N G) :
    G = (RSpec.state (nx0 V c) (nW V c) (nA V c) 2 : Vec F S4096x128 .f32) := by
  have h23 : (23 : ℕ) < cfg0.N := by have := N_0; show 23 < grid0.N; omega
  rw [show cfg0.N = (⟨23, h23⟩ : Fin cfg0.N).val + 1 from N_0, RDat.ArrAt_succ, if_pos ((flush0_3 _).mpr rfl)] at h
  obtain ⟨G₀, X, -, ⟨Y, hY, hX⟩, rfl⟩ := h
  have hX' : X = RInv.step (nx0 V c) (nW V c) (nA V c) 23 Y := hX
  have hI : RInv.Inv (nx0 V c) (nW V c) (nA V c) 23 Y := nfinds_inv V c 23 ⟨23, h23⟩ rfl Y hY
  have hw : X = RSpec.state (nx0 V c) (nW V c) (nA V c) 2 :=
    RInv.Inv_end _ _ _ X (by rw [hX']; exact RInv.Inv_step _ _ _ 23 Y hI)
  obtain ⟨-, -, -, -, -, -, -, i0, i1⟩ := nidx ⟨23, h23⟩
  funext i
  have hi : i = ((cfg0.win 3).blk ⟨23, h23⟩).view.emb i := by
    funext a; apply Fin.ext
    match a with
    | ⟨0, _⟩ => show (i 0).val = win0_3.index ⟨23, h23⟩ (0 : Fin 2) * 4096 + 1 * (i 0).val; omega
    | ⟨1, _⟩ => show (i 1).val = win0_3.index ⟨23, h23⟩ (1 : Fin 2) * 128 + 1 * (i 1).val; omega
  refine (congrArg _ hi).trans ?_
  rw [View.write_emb_of_mem _ _ (Finset.mem_univ _), hw]
  rfl

/-- The region's input arrays after it: as found. -/
theorem nfinal_0 (c : Dev nD) (G) (h : (nrd V c).ArrAt 0 cfg0.N G) : G = V c main_v16 := by
  rw [RDat.ArrAt_in _ 0 rfl] at h; exact h.trans (nrd_A V c 0)
theorem nfinal_1 (c : Dev nD) (G) (h : (nrd V c).ArrAt 1 cfg0.N G) : G = V c main_v18 := by
  rw [RDat.ArrAt_in _ 1 rfl] at h; exact h.trans (nrd_A V c 1)
theorem nfinal_2 (c : Dev nD) (G) (h : (nrd V c).ArrAt 2 cfg0.N G) : G = V c main_v17 := by
  rw [RDat.ArrAt_in _ 2 rfl] at h; exact h.trans (nrd_A V c 2)

end Cert.ReferenceIdeal.RNode

end
-- ==== Proof.RFaceDat.lean ====
/-
  The face region of the reference program as proof data for its pipeline: what each window's staging buffer may hold
  after the body at each row tile, the scratch (the transformed edge features) carried from tile to tile, the body's
  obligation at every tile, and the result array after the eight tiles.
-/
import proofs.«179636_g2000605474969623_pallasbulk_585_7_alg».proof.Proof.RBody
import proofs.«179636_g2000605474969623_pallasbulk_585_7_alg».proof.Proof.RSpec
import Idealize.ShloMosaic.Lib.Pipeline.Value

set_option maxRecDepth 16384

noncomputable section

namespace Cert.ReferenceIdeal.RFace

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.ReferenceIdeal Cert.ReferenceIdeal.Gen Cert.ReferenceIdeal.RBody

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data -/

/-- The transformed edge features, as the first tile leaves them in the scratch. -/
abbrev fm1 (c : Dev nD) : Vec F S8192x128 .f32 := k1_pay1 (V c main_v19) (V c main_v20)

/-- The incidence rows of tile `t`: window 2's block there. -/
abbrev fblk2 (c : Dev nD) (t : Fin cfg1.N) : Vec F S256x8192 .f32 :=
  ((cfg1.win 2).blk t).view.read (Elt F) (V c main_v21)

/-- A scoped buffer of the core at some contents. -/
abbrev anyAt (c : Dev nD) (b : Ref sig .tc) : sProp 𝕄 :=
  iprop(∃ f : Buf (Elt F) ((c : Thread nD τ).loc b), ((c : Thread nD τ).loc b) ↦{fullShare} f)

/-- The region's invariant after a tile: the face kernel's scratch at the transformed edge features, the core's other
    scoped buffers at anything, the generator register at some state. -/
def fPhiS (c : Dev nD) : sProp 𝕄 :=
  iprop((anyAt (F := F) c cc0_stg0_0 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_scratch0
      ∗ owns (c : Thread nD τ) (Memref.whole cc1_scratch0) fullShare (fm1 V c)) ∗ ∃ r, prngReg c r)

/-- The region's invariant before tile `n`: before the first, every scratch at anything; afterwards `fPhiS`. -/
def fPhi (c : Dev nD) : ℕ → sProp 𝕄
  | 0 => Pipeline.ΦA spec1 c
  | _ + 1 => fPhiS V c

theorem fPhi_pos (c : Dev nD) (n : ℕ) (h : n ≠ 0) : fPhi V c n = fPhiS V c := by
  cases n with
  | zero => exact absurd rfl h
  | succ n => rfl

/-- The face region's proof data on core `c`: the three inputs' buffers are left as found; the output's buffer is
    left at the tile's rows of the result; the scratch is carried in the invariant; nothing owed; full shares. -/
def frd (c : Dev nD) : RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => X = k1_pay2 (fblk2 V c t) (fm1 V c)
  Φ t := fPhi V c t.val
  q _ := fullShare
  owed _ := 0

/-! ## The schedule and the blocks, decided over the grid -/

/-- The scratch is computed at the first tile only. -/
theorem hfcond : ∀ t : Fin cfg1.N, cond1_1 (grid1.coords t) ↔ t.val = 0 :=
  (by decide +kernel : ∀ t : Fin grid1.N, cond1_1 (grid1.coords t) ↔ t.val = 0)

/-- The block indices: the two resident inputs stay at block 0; the incidence and the result move one row block per tile. -/
theorem fidx : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Window 0's block is the whole edge-feature array. -/
theorem fblk0_eq (c : Dev nD) (t : Fin cfg1.N) :
    (((cfg1.win 0).blk t).view.read (Elt F) (V c main_v19) : Vec F S8192x128 .f32) = V c main_v19 := by
  obtain ⟨e0, e1, -⟩ := fidx t
  funext j
  show V c main_v19 (((cfg1.win 0).blk t).view.emb j) = V c main_v19 j
  refine congrArg (V c main_v19) ?_
  funext a; apply Fin.ext
  match a with
  | ⟨0, _⟩ => show win1_0.index t (0 : Fin 2) * 8192 + 1 * (j 0).val = (j 0).val; omega
  | ⟨1, _⟩ => show win1_0.index t (1 : Fin 2) * 128 + 1 * (j 1).val = (j 1).val; omega

/-- Window 1's block is the whole weight matrix. -/
theorem fblk1_eq (c : Dev nD) (t : Fin cfg1.N) :
    (((cfg1.win 1).blk t).view.read (Elt F) (V c main_v20) : Vec F S128x128 .f32) = V c main_v20 := by
  obtain ⟨-, -, e0, e1, -⟩ := fidx t
  funext j
  show V c main_v20 (((cfg1.win 1).blk t).view.emb j) = V c main_v20 j
  refine congrArg (V c main_v20) ?_
  funext a; apply Fin.ext
  match a with
  | ⟨0, _⟩ => show win1_1.index t (0 : Fin 2) * 128 + 1 * (j 0).val = (j 0).val; omega
  | ⟨1, _⟩ => show win1_1.index t (1 : Fin 2) * 128 + 1 * (j 1).val = (j 1).val; omega

/-- Window 2's block at tile `t` is rows 256·t … 256·t+255 of the incidence. -/
theorem fblk2_eq (c : Dev nD) (t : Fin cfg1.N) : fblk2 V c t = RSpec.tileInc (V c main_v21) t.val := by
  obtain ⟨-, -, -, -, e0, e1, -⟩ := fidx t
  have hN : t.val < 8 := lt_of_lt_of_eq t.isLt (show cfg1.N = 8 from N_1)
  funext j
  show V c main_v21 (((cfg1.win 2).blk t).view.emb j)
    = V c main_v21 (ix2 (⟨(256 * t.val + (j 0 : Fin 256).val) % 2048, _⟩ : Fin 2048) (j 1 : Fin 8192))
  refine congrArg (V c main_v21) ?_
  funext a; apply Fin.ext
  match a with
  | ⟨0, _⟩ =>
    show win1_2.index t (0 : Fin 2) * 256 + 1 * (j 0).val = (256 * t.val + (j 0).val) % 2048
    have hj : (j 0).val < 256 := (j 0).isLt
    omega
  | ⟨1, _⟩ => show win1_2.index t (1 : Fin 2) * 8192 + 1 * (j 1).val = (j 1).val; omega

/-! ## The class invariant with the scratch as an owned memref -/

theorem PhiA1_eq (c : Dev nD) :
    (Pipeline.ΦA spec1 c : sProp 𝕄)
      = iprop((anyAt (F := F) c cc0_stg0_0 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_scratch0
        ∗ (∃ d, owns (c : Thread nD τ) (Memref.whole cc1_scratch0 : Memref sig .tc .vmem S8192x128 .f32) fullShare d)) ∗ ∃ r, prngReg c r) := by
  unfold Pipeline.ΦA; rw [scopedRest1_eq]; simp only [owns_whole]; try rfl

/-! ## The body obligation -/

set_option maxHeartbeats 4000000 in
/-- The body at tile `t`, the inputs' buffers at their blocks: at the first tile the scratch is computed from anything,
    afterwards it is read; either way the output's buffer ends at the tile's rows of the result. -/
theorem fsound (c : Dev nD) (t : Fin cfg1.N) (Y3 : Vec F S256x128 .f32) :
    iprop(fPhi V c t.val ∗ (frd V c).owesAt () t.castSucc
        ∗ owns (c : Thread nD τ) (st1_0 t) fullShare (V c main_v19)
        ∗ owns (c : Thread nD τ) (st1_1 t) fullShare (V c main_v20)
        ∗ owns (c : Thread nD τ) (st1_2 t) fullShare (fblk2 V c t)
        ∗ owns (c : Thread nD τ) (st1_3 t) fullShare Y3)
      ⊢ wp frame (wpE (defs₀ (F := F)) Variants.none c none) Set.univ (bodyAt1 t) (fun _ =>
        iprop(fPhiS V c ∗ (frd V c).owesAt () t.castSucc
          ∗ owns (c : Thread nD τ) (st1_0 t) fullShare (V c main_v19)
          ∗ owns (c : Thread nD τ) (st1_1 t) fullShare (V c main_v20)
          ∗ owns (c : Thread nD τ) (st1_2 t) fullShare (fblk2 V c t)
          ∗ owns (c : Thread nD τ) (st1_3 t) fullShare (k1_pay2 (fblk2 V c t) (fm1 V c)))) := by
  unfold bodyAt1
  by_cases hz : t.val = 0
  · have hc : cond1_1 (grid1.coords t) := (hfcond t).mpr hz
    · rw [hz, show fPhi V c 0 = Pipeline.ΦA spec1 c from rfl, PhiA1_eq]
      iintro ⟨⟨⟨A0, A1, A2, A3, A4, A5, A6, ⟨%d, HS⟩⟩, Hg⟩, Ho, H0, H1, H2, H3⟩
      iapply (body1_A c (grid1.coords t) _ _ _ _ _ _ _ _ _ _ hc (V c main_v19) (V c main_v20) (fblk2 V c t) Y3 d Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [A0 A1 A2 A3 A4 A5 A6 HS Hg]
      · unfold fPhiS
        isplitr [Hg]
        ·
          isplitl [A0]; · iexact A0
          isplitl [A1]; · iexact A1
          isplitl [A2]; · iexact A2
          isplitl [A3]; · iexact A3
          isplitl [A4]; · iexact A4
          isplitl [A5]; · iexact A5
          isplitl [A6]; · iexact A6
          iexact HS
        · iexact Hg
      isplitl [Ho]; · iexact Ho
      isplitl [H0]; · iexact H0
      isplitl [H1]; · iexact H1
      isplitl [H2]; · iexact H2
      iexact H3

  · have hc : ¬ cond1_1 (grid1.coords t) := fun h => hz ((hfcond t).mp h)
    · rw [fPhi_pos V c _ hz]
      unfold fPhiS
      iintro ⟨⟨⟨A0, A1, A2, A3, A4, A5, A6, HS⟩, Hg⟩, Ho, H0, H1, H2, H3⟩
      iapply (body1_B c (grid1.coords t) _ _ _ _ _ _ _ _ _ _ hc (V c main_v19) (V c main_v20) (fblk2 V c t) Y3 (fm1 V c) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [A0 A1 A2 A3 A4 A5 A6 HS Hg]
      · isplitr [Hg]
        ·
          isplitl [A0]; · iexact A0
          isplitl [A1]; · iexact A1
          isplitl [A2]; · iexact A2
          isplitl [A3]; · iexact A3
          isplitl [A4]; · iexact A4
          isplitl [A5]; · iexact A5
          isplitl [A6]; · iexact A6
          iexact HS
        · iexact Hg
      isplitl [Ho]; · iexact Ho
      isplitl [H0]; · iexact H0
      isplitl [H1]; · iexact H1
      isplitl [H2]; · iexact H2
      iexact H3

/-- The library's body obligation at every tile: the three inputs' buffers hold their blocks wherever the body is
    handed them (they are left as found, and an unfetched input's block index has not moved). -/
theorem fbody (c : Dev nD) : (frd V c).BodyObligation (defs₀ (F := F)) Variants.none () Set.univ := fun t Y hY => by
  rw [bigSep_W1, bigSep_W1]
  obtain ⟨d0, h0⟩ := (frd V c).finds_in_eq_fetched 0 rfl (fun _ _ _ => rfl) (fun _ _ _ h => h) t (Y 0) (hY 0)
  obtain ⟨d1, h1⟩ := (frd V c).finds_in_eq_fetched 1 rfl (fun _ _ _ => rfl) (fun _ _ _ h => h) t (Y 1) (hY 1)
  obtain ⟨d2, h2⟩ := (frd V c).finds_in_eq_fetched 2 rfl (fun _ _ _ => rfl) (fun _ _ _ h => h) t (Y 2) (hY 2)
  have e0 : Y 0 = V c main_v19 := h0.trans (fblk0_eq V c t)
  have e1 : Y 1 = V c main_v20 := h1.trans (fblk1_eq V c t)
  have e2 : Y 2 = fblk2 V c t := h2
  rw [e0, e1, e2]
  rw [show (frd V c).Φ t.succ = fPhiS V c from rfl, show (frd V c).owesAt () t.succ = (frd V c).owesAt () t.castSucc from rfl]
  refine (fsound V c t (Y 3)).trans (wp_mono _ _ _ fun _ => ?_)
  iintro ⟨HΦ, Ho, H0, H1, H2, H3⟩
  isplitl [HΦ]; · iexact HΦ
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  iexists _; isplitr; · ipureintro; exact rfl
  iexact H3

/-- What the launch hands the region is the invariant before the first tile. -/
theorem fhin (c : Dev nD) : Pipeline.ΦA spec1 c ⊢ (frd V c).Φ 0 :=
  Idealize.SL.BI.Entails.refl _

/-- After the last tile the invariant gives the class invariant back: the scratch's contents are forgotten. -/
theorem fhout (c : Dev nD) : (frd V c).Φ (Fin.last cfg1.N) ⊢ Pipeline.ΦA spec1 c := by
  rw [show (frd V c).Φ (Fin.last cfg1.N) = fPhi V c cfg1.N from rfl,
    fPhi_pos V c _ (by rw [show cfg1.N = 8 from N_1]; decide), PhiA1_eq]
  unfold fPhiS
  iintro ⟨⟨A0, A1, A2, A3, A4, A5, A6, HS⟩, Hg⟩
  isplitr [Hg]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    iexists _; iexact HS
  · iexact Hg

/-! ## The result array after the eight tiles -/

/-- The face result from the transformed edge features' inputs, the weight given as its matrix. -/
def x2of (x1 : Vec F S8192x128 .f32) (w : Vec F S128x128 .f32) (B : Vec F S2048x8192 .f32) : Vec F S2048x128 .f32 :=
  fun j => k1_pay2 (RSpec.tileInc B ((j 0 : Fin 2048).val / 256)) (k1_pay1 x1 w)
    (ix2 (⟨(j 0 : Fin 2048).val % 256, Nat.mod_lt _ (by decide)⟩ : Fin 256) (j 1 : Fin 128))

/-- The specification's face result is that, at matrix 2 of the weight stack. -/
theorem x2_eq (x1 : Vec F S8192x128 .f32) (W12 : Vec F S3x128x128 .f32) (B : Vec F S2048x8192 .f32) :
    RSpec.x2 x1 W12 B = x2of x1 (RSpec.w2 W12) B := rfl

/-- Row `256 t + q` of the face result is row `q` of what tile `t` stores. -/
theorem x2of_at (x1 : Vec F S8192x128 .f32) (w : Vec F S128x128 .f32) (B : Vec F S2048x8192 .f32) (f : Fin 2048) (col : Fin 128)
    (t : ℕ) (q : Fin 256) (h : f.val = 256 * t + q.val) :
    x2of x1 w B (ix2 f col) = k1_pay2 (RSpec.tileInc B t) (k1_pay1 x1 w) (ix2 q col) := by
  have e1 : f.val / 256 = t := by have := q.isLt; omega
  have hq : (⟨f.val % 256, Nat.mod_lt _ (by decide)⟩ : Fin 256) = q := Fin.ext (by have := q.isLt; show f.val % 256 = q.val; omega)
  rw [show x2of x1 w B (ix2 f col) = k1_pay2 (RSpec.tileInc B (f.val / 256)) (k1_pay1 x1 w) (ix2 ⟨f.val % 256, Nat.mod_lt _ (by decide)⟩ col) from rfl, e1, hq]

/-- Exact data naming what each tile writes back, through which the write-backs are folded: the output's buffer after
    tile `t` as the relational data constrain it, the inputs' buffers at their blocks. -/
def fd (c : Dev nD) : Dat τ (Elt F) Unit ℕ (UR sig nD τ) ℕ cfg1 c where
  A w := V c (Pipeline.arrRef spec1 w)
  after w t := match w with
    | ⟨0, _⟩ => ((cfg1.win 0).blk t).view.read (Elt F) (V c main_v19)
    | ⟨1, _⟩ => ((cfg1.win 1).blk t).view.read (Elt F) (V c main_v20)
    | ⟨2, _⟩ => fblk2 V c t
    | ⟨3, _⟩ => k1_pay2 (fblk2 V c t) (fm1 V c)
  Φ _ := Pipeline.ΦA spec1 c
  q _ := fullShare
  owed _ := 0

theorem fd_after3 (c : Dev nD) (t : Fin cfg1.N) : (fd V c).after 3 t = k1_pay2 (fblk2 V c t) (fm1 V c) := by dsimp only [fd]

/-- What the result array may hold after the write-backs below `n` is what the exact data name. -/
theorem frd_arrAt (c : Dev nD) : ∀ (n : ℕ) (F' : Buf (Elt F) (((cfg1.win 3).arr.view.loc (c.tc : Thread nD τ)))),
    (frd V c).ArrAt 3 n F' → F' = (fd V c).arrAt 3 n
  | 0, _, h => h
  | n + 1, F', h => by
    by_cases hn : n < cfg1.N
    · have hR := (frd V c).ArrAt_succ 3 ⟨n, hn⟩
      have hD := (fd V c).arrAt_succ 3 ⟨n, hn⟩
      dsimp only at hR hD
      rw [hR] at h; rw [hD]
      rw [if_pos (flush1_3 ⟨n, hn⟩)] at h ⊢
      obtain ⟨F₀, X, hF₀, ⟨Y, _, hX⟩, rfl⟩ := h
      rw [frd_arrAt c n F₀ hF₀]
      have hX' : X = k1_pay2 (fblk2 V c ⟨n, hn⟩) (fm1 V c) := hX
      rw [hX']
      show _ = ((cfg1.win 3).blk ⟨n, hn⟩).view.write (Elt F) ((fd V c).arrAt 3 n) ((cfg1.win 3).cut (grid1.coords ⟨n, hn⟩) ((fd V c).after 3 ⟨n, hn⟩)) Finset.univ
      rw [fd_after3]
    · have hN : cfg1.N ≤ n := Nat.not_lt.mp hn
      rw [(frd V c).ArrAt_stable 3 (n + 1) (by omega), ← (frd V c).ArrAt_stable 3 n hN] at h
      rw [(fd V c).arrAt_stable 3 (n + 1) (by omega), ← (fd V c).arrAt_stable 3 n hN]
      exact frd_arrAt c n F' h

/-- A row is in tile `t`'s block of the result array exactly when it is one of the tile's 256 rows. -/
theorem mem_blk3 (t : Fin cfg1.N) (i : S2048x128.Idx) :
    i ∈ ((cfg1.win 3).blk t).view.set ↔ ∀ a : Fin 2, win1_3.index t a * S256x128.size a ≤ (i a).val ∧ (i a).val < win1_3.index t a * S256x128.size a + S256x128.size a := by
  show i ∈ ((View.whole main_v23).slice (win1_3.rect t)).set ↔ _
  rw [View.set_slice_whole, Rect.mem_set_unit]
  exact Iff.rfl

/-- What tile `t` writes back is its block of the face result. -/
theorem fflushed_eq (c : Dev nD) (t : Fin cfg1.N) :
    (fd V c).flushed 3 t = ((cfg1.win 3).blk t).view.read (Elt F) (x2of (V c main_v19) (V c main_v20) (V c main_v21)) := by
  show (cfg1.win 3).cut (grid1.coords t) ((fd V c).after 3 t) = _
  rw [fd_after3, fblk2_eq]
  obtain ⟨-, -, -, -, -, -, e0, e1⟩ := fidx t
  have hN : t.val < 8 := lt_of_lt_of_eq t.isLt (show cfg1.N = 8 from N_1)
  funext j
  obtain ⟨q, col, rfl⟩ : ∃ (q : Fin 256) (col : Fin 128), j = ix2 q col := ⟨j 0, j 1, eq_ix2 j⟩
  show k1_pay2 (RSpec.tileInc (V c main_v21) t.val) (fm1 V c) (ix2 q col)
    = x2of (V c main_v19) (V c main_v20) (V c main_v21) (((cfg1.win 3).blk t).view.emb (ix2 q col))
  have e : ((cfg1.win 3).blk t).view.emb (ix2 q col) = ix2 (⟨256 * t.val + q.val, by have := q.isLt; omega⟩ : Fin 2048) col := by
    funext a; apply Fin.ext
    match a with
    | ⟨0, _⟩ => show win1_3.index t (0 : Fin 2) * 256 + 1 * q.val = 256 * t.val + q.val; omega
    | ⟨1, _⟩ => show win1_3.index t (1 : Fin 2) * 128 + 1 * col.val = col.val; omega
  rw [e, x2of_at _ _ _ _ col t.val q rfl]

/-- THE RESULT ARRAY after the region: the face result of the region's inputs. -/
theorem ffinal (c : Dev nD) (F' : Buf (Elt F) (((cfg1.win 3).arr.view.loc (c.tc : Thread nD τ))))
    (h : (frd V c).ArrAt 3 cfg1.N F') : F' = x2of (V c main_v19) (V c main_v20) (V c main_v21) :=
  (frd_arrAt V c cfg1.N F' h).trans
    ((fd V c).arrAt_eq_of_cover 3 _ (fun t _ => fflushed_eq V c t) (fun i => by
      have h0 : (i 0).val < 2048 := (i 0).isLt
      have h1 : (i 1).val < 128 := (i 1).isLt
      refine ⟨⟨(i 0).val / 256, by rw [show cfg1.N = 8 from N_1]; omega⟩, flush1_3 _, ?_⟩
      rw [mem_blk3]
      obtain ⟨-, -, -, -, -, -, e0, e1⟩ := fidx ⟨(i 0).val / 256, by rw [show cfg1.N = 8 from N_1]; omega⟩
      intro a
      match a with
      | ⟨0, _⟩ => show win1_3.index _ (0 : Fin 2) * 256 ≤ (i 0).val ∧ (i 0).val < win1_3.index _ (0 : Fin 2) * 256 + 256; rw [e0]; show (i 0).val / 256 * 256 ≤ (i 0).val ∧ (i 0).val < (i 0).val / 256 * 256 + 256; omega
      | ⟨1, _⟩ => show win1_3.index _ (1 : Fin 2) * 128 ≤ (i 1).val ∧ (i 1).val < win1_3.index _ (1 : Fin 2) * 128 + 128; rw [e1]; omega))

theorem frd_A (c : Dev nD) (w : Fin cfg1.W) : (frd V c).A w = V c (Pipeline.arrRef spec1 w) := by dsimp only [frd]

/-- The region's input arrays after it: as found. -/
theorem ffinal_0 (c : Dev nD) (G) (h : (frd V c).ArrAt 0 cfg1.N G) : G = V c main_v19 := by
  rw [RDat.ArrAt_in _ 0 rfl] at h; exact h.trans (frd_A V c 0)
theorem ffinal_1 (c : Dev nD) (G) (h : (frd V c).ArrAt 1 cfg1.N G) : G = V c main_v20 := by
  rw [RDat.ArrAt_in _ 1 rfl] at h; exact h.trans (frd_A V c 1)
theorem ffinal_2 (c : Dev nD) (G) (h : (frd V c).ArrAt 2 cfg1.N G) : G = V c main_v21 := by
  rw [RDat.ArrAt_in _ 2 rfl] at h; exact h.trans (frd_A V c 2)

end Cert.ReferenceIdeal.RFace

end
-- ==== Proof.LibNary.lean ====
/-
  The result of a many-operand host operation over a LITERAL family of references, with each operand's contents at
  its own reference: the form under which a line's contents keep being computed operand by operand. The library
  states it for four operands; here for three and for six, with the computation of a line's contents that uses them.
-/
import Idealize.ShloMosaic.Lib.StableHlo.Run

noncomputable section

namespace Idealize.ShloMosaic.StableHlo

variable {τ : Topo} {sig : RefSig} {Val : EltTy → Type}
variable {x0 x1 x2 x3 x4 x5 y : Ref sig .tc}

/-- A three-operand operation's result at its own buffer is its function of the three operands' contents, each
    read at its own reference (rather than at the family applied to a bound position). -/
theorem nary3_result
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2)) (fun i => i.elim0)))) := by
  rw [nary_result]; congr 1; funext k; fin_cases k <;> rfl

/-- The same for six operands. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [nary_result]; congr 1; funext k; fin_cases k <;> rfl

/-- What one buffer holds after a literal line of host operations, computed operation by operation: each operation's
    result at its own buffer is its function's value, at any other reference what was there (the references told
    apart by evaluation); a three- or six-operand operation's operands are read each at its own reference, so the
    computation goes on through them. -/
macro "after_results_n" : tactic =>
  `(tactic| (simp only [after_cons, after_nil]
             repeat (first
               | rw [nullary_result] | rw [unary_result] | rw [binary_result] | rw [ternary_result] | rw [quaternary_result]
               | rw [reshape_result] | rw [nary3_result] | rw [nary6_result] | rw [nary4_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-- The two results above restated for one simplification pass (the result reference un-indexed, as the library
    does for its own). -/
theorem nary3_result'
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (Fin.cons (F (Proc.devRef .tc x0)) (Fin.cons (F (Proc.devRef .tc x1)) (Fin.cons (F (Proc.devRef .tc x2)) (fun i => i.elim0)))) :=
  nary3_result f hxs hy F
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) :=
  nary6_result f hxs hy F

/-- The same computation as one simplification pass: each shared subterm is visited once. -/
macro "after_results_simp_n" : tactic =>
  `(tactic| (simp (disch := decide) only [after_cons, after_nil,
      nullary_result', unary_result', binary_result', ternary_result', quaternary_result', reshape_result',
      nary3_result', nary6_result', nary4_result',
      nullary_result_ne', unary_result_ne', binary_result_ne', ternary_result_ne', quaternary_result_ne', reshape_result_ne',
      nary_result_ne']))

end Idealize.ShloMosaic.StableHlo

end
-- ==== Proof.LibTypedRef.lean ====
/-
  A typed reference's two transports cancel.

  A host function's buffers are typed references: contents pass into the buffer's own type and back out of it along the
  equation between the two types. Out after in, for one and the same reference, is the identity — whatever the
  reference, so nothing about its buffer's type has to be computed.
-/
import Idealize.ShloMosaic.Lib.StableHlo.Run

namespace Idealize.ShloMosaic.StableHlo.TRef

variable {sig : RefSig} {Val : EltTy → Type} {T : BufTy}

/-- Contents put into a typed reference's buffer type and taken back out are the contents. -/
theorem ofBuf_toBuf (x : TRef sig T) (v : T.Contents Val) : x.ofBuf (x.toBuf v) = v := by
  obtain ⟨r, h, h2, h3⟩ := x
  subst h
  rfl

/-- Contents taken out of a typed reference's buffer type and put back are the contents. -/
theorem toBuf_ofBuf (x : TRef sig T) (v : x.ref.ty.Contents Val) : x.toBuf (x.ofBuf v) = v := by
  obtain ⟨r, h, h2, h3⟩ := x
  subst h
  rfl

end Idealize.ShloMosaic.StableHlo.TRef
-- ==== Proof.RefHost.lean ====
/-
  What the two kernel regions find in their input arrays: the host prefix (three slices of the weight stack,
  reshaped, broadcast back to a leading unit axis and concatenated; pads of width zero) gives back the launch
  arguments themselves, and the face path's weight is matrix 2 of its stack.
-/
import proofs.«179636_g2000605474969623_pallasbulk_585_7_alg».proof.Proof.Gen.ReferenceIdeal.Regions
import proofs.«179636_g2000605474969623_pallasbulk_585_7_alg».proof.Proof.RSpec
import proofs.«179636_g2000605474969623_pallasbulk_585_7_alg».proof.Proof.LibNary
import proofs.«179636_g2000605474969623_pallasbulk_585_7_alg».proof.Proof.LibTypedRef
import Idealize.ShloMosaic.Lib.ValueIdx
import Idealize.ShloMosaic.Lib.Pipeline.Value
import Idealize.ShloMosaic.Lib.KernelVsHost

noncomputable section

namespace Cert.ReferenceIdeal.RefHost

open Idealize.ShloMosaic Idealize.ShloMosaic.TcCoe Idealize.ShloMosaic.ValueIdx
open Idealize.ShloMosaic.StableHlo
open Cert.ReferenceIdeal Cert.ReferenceIdeal.Gen

variable {F : FTy → Type} [FloatOps F]

/-! ## Pads of width zero -/

/-- A pad of width zero on both axes of a matrix is the matrix. -/
theorem pad_zero2 {α : Type} {n0 n1 : Nat} (x : (⟨2, ![n0, n1]⟩ : Shape).Idx → α) {u : Shape} (v : u.Idx → α)
    (h : (⟨2, ![n0, n1]⟩ : Shape).Pads ![0, 0] ![0, 0] ![0, 0] ⟨2, ![n0, n1]⟩) (hu : 0 < u.numel) :
    pad ⟨2, ![n0, n1]⟩ ![0, 0] ![0, 0] ![0, 0] x v h hu = x := by
  funext j
  refine pad_apply_of_inside _ _ _ x v h hu j j (fun a => ?_)
  match a with
  | ⟨0, _⟩ => show (j 0).val = 0 + (j 0).val * (0 + 1); omega
  | ⟨1, _⟩ => show (j 1).val = 0 + (j 1).val * (0 + 1); omega

/-- A pad of width zero on the three axes of a stack is the stack. -/
theorem pad_zero3 {α : Type} {n0 n1 n2 : Nat} (x : (⟨3, ![n0, n1, n2]⟩ : Shape).Idx → α) {u : Shape} (v : u.Idx → α)
    (h : (⟨3, ![n0, n1, n2]⟩ : Shape).Pads ![0, 0, 0] ![0, 0, 0] ![0, 0, 0] ⟨3, ![n0, n1, n2]⟩) (hu : 0 < u.numel) :
    pad ⟨3, ![n0, n1, n2]⟩ ![0, 0, 0] ![0, 0, 0] ![0, 0, 0] x v h hu = x := by
  funext j
  refine pad_apply_of_inside _ _ _ x v h hu j j (fun a => ?_)
  match a with
  | ⟨0, _⟩ => show (j 0).val = 0 + (j 0).val * (0 + 1); omega
  | ⟨1, _⟩ => show (j 1).val = 0 + (j 1).val * (0 + 1); omega
  | ⟨2, _⟩ => show (j 2).val = 0 + (j 2).val * (0 + 1); omega

/-! ## The weight stack taken apart and put together again -/

section Slab
variable {α : Type}

/-- Slice `k` of a stack of three 128×128 matrices, with its unit axis dropped, read at `(b, c)`. -/
theorem slice_drop_apply (X : S3x128x128.Idx → α) (off : Fin 3 → Nat) (k : Fin 3) (h0 : off 0 = k.val) (h1 : off 1 = 0) (h2 : off 2 = 0)
    (hs : S3x128x128.Slices off S1x128x128) (hc : S1x128x128.ShapeCasts S128x128) (b c : Fin 128) :
    shapeCast S128x128 (extractStridedSlice S1x128x128 off X hs) hc (ix2 b c) = X (ix3 k b c) := by
  refine (shapeCast_apply _ hc (ix2 b c) (ix3 (0 : Fin 1) b c) ?_).trans ?_
  · rw [Shape.rowMajor_val_three, Shape.rowMajor_val_two]
    show ((0 : Nat) * 128 + b.val) * 128 + c.val = b.val * 128 + c.val
    omega
  · refine extractStridedSlice_apply off X hs _ (ix3 k b c) (fun a => ?_)
    match a with
    | ⟨0, _⟩ => show k.val = off 0 + 0; omega
    | ⟨1, _⟩ => show b.val = off 1 + b.val; omega
    | ⟨2, _⟩ => show c.val = off 2 + c.val; omega

/-- The same slice given its unit axis back, read at `(0, b, c)`. -/
theorem slab_apply (X : S3x128x128.Idx → α) (off : Fin 3 → Nat) (k : Fin 3) (h0 : off 0 = k.val) (h1 : off 1 = 0) (h2 : off 2 = 0)
    (hs : S3x128x128.Slices off S1x128x128) (hc : S1x128x128.ShapeCasts S128x128)
    (hb : S128x128.BroadcastsInDim S1x128x128 ![1, 2]) (b c : Fin 128) :
    broadcastInDim S1x128x128 ![1, 2] hb (shapeCast S128x128 (extractStridedSlice S1x128x128 off X hs) hc) (ix3 (0 : Fin 1) b c) = X (ix3 k b c) := by
  refine (broadcastInDim_apply _ hb _ (ix3 (0 : Fin 1) b c) (ix2 b c) (fun a => ?_)).trans (slice_drop_apply X off k h0 h1 h2 hs hc b c)
  match a with
  | ⟨0, _⟩ => rfl
  | ⟨1, _⟩ => rfl

/-- The three slices of a stack, each reshaped to a matrix and given its unit axis back, concatenated along the
    leading axis, are the stack. -/
theorem concat_slabs (X : S3x128x128.Idx → α)
    (hs0 : S3x128x128.Slices ![0, 0, 0] S1x128x128) (hs1 : S3x128x128.Slices ![1, 0, 0] S1x128x128)
    (hs2 : S3x128x128.Slices ![2, 0, 0] S1x128x128) (hc : S1x128x128.ShapeCasts S128x128)
    (hb : S128x128.BroadcastsInDim S1x128x128 ![1, 2])
    (hcat : Shape.Concatenates ([(⟨S1x128x128, broadcastInDim S1x128x128 ![1, 2] hb (shapeCast S128x128 (extractStridedSlice S1x128x128 ![0, 0, 0] X hs0) hc)⟩ : (s : Shape) × (s.Idx → α)),
        ⟨S1x128x128, broadcastInDim S1x128x128 ![1, 2] hb (shapeCast S128x128 (extractStridedSlice S1x128x128 ![1, 0, 0] X hs1) hc)⟩,
        ⟨S1x128x128, broadcastInDim S1x128x128 ![1, 2] hb (shapeCast S128x128 (extractStridedSlice S1x128x128 ![2, 0, 0] X hs2) hc)⟩].map (·.1)) S3x128x128 0) :
    concatenate S3x128x128 0
      [⟨S1x128x128, broadcastInDim S1x128x128 ![1, 2] hb (shapeCast S128x128 (extractStridedSlice S1x128x128 ![0, 0, 0] X hs0) hc)⟩,
        ⟨S1x128x128, broadcastInDim S1x128x128 ![1, 2] hb (shapeCast S128x128 (extractStridedSlice S1x128x128 ![1, 0, 0] X hs1) hc)⟩,
        ⟨S1x128x128, broadcastInDim S1x128x128 ![1, 2] hb (shapeCast S128x128 (extractStridedSlice S1x128x128 ![2, 0, 0] X hs2) hc)⟩] hcat = X := by
  funext j
  obtain ⟨a, b, c, rfl⟩ : ∃ (a : Fin 3) (b c : Fin 128), j = ix3 a b c := ⟨j 0, j 1, j 2, eq_ix3 j⟩
  have hi : ∀ (a : Fin 3) (b' : Fin S1x128x128.rank), b'.cast (rfl : S1x128x128.rank = S3x128x128.rank) ≠ 0 →
      ((ix3 (0 : Fin 1) b c : S1x128x128.Idx) b').val = ((ix3 a b c : S3x128x128.Idx) (b'.cast rfl)).val := fun a b' hb' => by
    match b' with
    | ⟨0, _⟩ => exact absurd rfl hb'
    | ⟨1, _⟩ => rfl
    | ⟨2, _⟩ => rfl
  match a with
  | ⟨0, _⟩ =>
    exact (concatenate_apply_piece 0 _ hcat _ 0 (by simp) S1x128x128 _ rfl rfl 0 rfl (ix3 (0 : Fin 1) b c) (hi _) rfl).trans
      (slab_apply X ![0, 0, 0] (0 : Fin 3) rfl rfl rfl hs0 hc hb b c)
  | ⟨1, _⟩ =>
    exact (concatenate_apply_piece 0 _ hcat _ 1 (by simp) S1x128x128 _ rfl rfl 1 rfl (ix3 (0 : Fin 1) b c) (hi _) rfl).trans
      (slab_apply X ![1, 0, 0] (1 : Fin 3) rfl rfl rfl hs1 hc hb b c)
  | ⟨2, _⟩ =>
    exact (concatenate_apply_piece 0 _ hcat _ 2 (by simp) S1x128x128 _ rfl rfl 2 rfl (ix3 (0 : Fin 1) b c) (hi _) rfl).trans
      (slab_apply X ![2, 0, 0] (2 : Fin 3) rfl rfl rfl hs2 hc hb b c)

end Slab

/-! ## Each padding function's result, from any contents -/

section Lines
variable (W : Valuation τ sig (Elt F))

theorem line1 : StableHlo.after hostOps0_1 W (Proc.devRef .tc main_v16) = W (Proc.devRef .tc main_arg0) := by
  dsimp only [hostOps0_1]
  after_results_n
  show pad S4096x128 ![0, 0] ![0, 0] ![0, 0] (W (Proc.devRef .tc main_arg0)) (sitofp FTy.f32 (W (Proc.devRef .tc main_c))) pads_S4096x128_S4096x128_000_000 h_S_ = _
  exact pad_zero2 _ _ _ _

theorem line3 : StableHlo.after hostOps0_3 W (Proc.devRef .tc main_v17) = W (Proc.devRef .tc main_arg2) := by
  dsimp only [hostOps0_3]
  after_results_n
  show pad S4096x4096 ![0, 0] ![0, 0] ![0, 0] (W (Proc.devRef .tc main_arg2)) (sitofp FTy.f32 (W (Proc.devRef .tc main_c_0))) pads_S4096x4096_S4096x4096_000_000 h_S_ = _
  exact pad_zero2 _ _ _ _

theorem line5 : StableHlo.after hostOps0_5 W (Proc.devRef .tc main_v18) = W (Proc.devRef .tc main_v15) := by
  dsimp only [hostOps0_5]
  after_results_n
  show pad S3x128x128 ![0, 0, 0] ![0, 0, 0] ![0, 0, 0] (W (Proc.devRef .tc main_v15)) (sitofp FTy.f32 (W (Proc.devRef .tc main_c_1))) pads_S3x128x128_S3x128x128_000_000_000 h_S_ = _
  exact pad_zero3 _ _ _ _

theorem line7 : StableHlo.after hostOps0_7 W (Proc.devRef .tc main_v19) = W (Proc.devRef .tc main_arg1) := by
  dsimp only [hostOps0_7]
  after_results_n
  show pad S8192x128 ![0, 0] ![0, 0] ![0, 0] (W (Proc.devRef .tc main_arg1)) (sitofp FTy.f32 (W (Proc.devRef .tc main_c_2))) pads_S8192x128_S8192x128_000_000 h_S_ = _
  exact pad_zero2 _ _ _ _

theorem line9 : StableHlo.after hostOps0_9 W (Proc.devRef .tc main_v20) = W (Proc.devRef .tc main_v11) := by
  dsimp only [hostOps0_9]
  after_results_n
  show pad S128x128 ![0, 0] ![0, 0] ![0, 0] (W (Proc.devRef .tc main_v11)) (sitofp FTy.f32 (W (Proc.devRef .tc main_c_3))) pads_S128x128_S128x128_000_000 h_S_ = _
  exact pad_zero2 _ _ _ _

theorem line11 : StableHlo.after hostOps0_11 W (Proc.devRef .tc main_v21) = W (Proc.devRef .tc main_arg3) := by
  dsimp only [hostOps0_11]
  after_results_n
  show pad S2048x8192 ![0, 0] ![0, 0] ![0, 0] (W (Proc.devRef .tc main_arg3)) (sitofp FTy.f32 (W (Proc.devRef .tc main_c_4))) pads_S2048x8192_S2048x8192_000_000 h_S_ = _
  exact pad_zero2 _ _ _ _

/-- The first stretch rebuilds the node path's weight stack from its three slices. -/
theorem line0_v15 : StableHlo.after hostOps0 W (Proc.devRef .tc main_v15) = W (Proc.devRef .tc main_arg4) := by
  dsimp only [hostOps0]
  after_results_n
  show concatenate S3x128x128 0
      [⟨S1x128x128, broadcastInDim S1x128x128 ![1, 2] bcast_S128x128_S1x128x128_1_2 (shapeCast S128x128 (extractStridedSlice S1x128x128 ![0, 0, 0] (W (Proc.devRef .tc main_arg4)) slices_S3x128x128_S1x128x128_0_0_0) shapeCasts_S1x128x128_S128x128)⟩,
        ⟨S1x128x128, broadcastInDim S1x128x128 ![1, 2] bcast_S128x128_S1x128x128_1_2 (shapeCast S128x128 (extractStridedSlice S1x128x128 ![1, 0, 0] (W (Proc.devRef .tc main_arg4)) slices_S3x128x128_S1x128x128_1_0_0) shapeCasts_S1x128x128_S128x128)⟩,
        ⟨S1x128x128, broadcastInDim S1x128x128 ![1, 2] bcast_S128x128_S1x128x128_1_2 (shapeCast S128x128 (extractStridedSlice S1x128x128 ![2, 0, 0] (W (Proc.devRef .tc main_arg4)) slices_S3x128x128_S1x128x128_2_0_0) shapeCasts_S1x128x128_S128x128)⟩]
      concatenates_S1x128x128_S1x128x128_S1x128x128_S3x128x128_d0 = _
  exact concat_slabs _ _ _ _ _ _ _

/-- The first stretch leaves matrix 2 of the face path's weight stack in `main_v11`. -/
theorem line0_v11 : StableHlo.after hostOps0 W (Proc.devRef .tc main_v11) = RSpec.w2 (W (Proc.devRef .tc main_arg5)) := by
  dsimp only [hostOps0]
  after_results_n
  show shapeCast S128x128 (extractStridedSlice S1x128x128 ![2, 0, 0] (W (Proc.devRef .tc main_arg5)) slices_S3x128x128_S1x128x128_2_0_0) shapeCasts_S1x128x128_S128x128 = _
  funext j
  obtain ⟨b, c, rfl⟩ : ∃ (b c : Fin 128), j = ix2 b c := ⟨j 0, j 1, eq_ix2 j⟩
  exact slice_drop_apply _ ![2, 0, 0] (2 : Fin 3) rfl rfl rfl _ _ b c

end Lines

/-! ## What the regions find -/

variable (m : (ℓ : Loc nD τ sig) → Buf (Elt F) ℓ)

/-- Region 0's state input holds the first argument (the node features). -/
theorem V12_v16 (c : Dev nD) : V12 m c main_v16 = V0 m c main_arg0 :=
  (V12_of m c main_v16 (by decide)).trans <| (V11_of m c main_v16 (by decide)).trans <| (V10_of m c main_v16 (by decide)).trans <| (V9_of m c main_v16 (by decide)).trans <| (V8_of m c main_v16 (by decide)).trans <| (V7_of m c main_v16 (by decide)).trans <| (V6_of m c main_v16 (by decide)).trans <| (V5_of m c main_v16 (by decide)).trans <| (V4_of m c main_v16 (by decide)).trans <| (V3_of m c main_v16 (by decide)).trans <| (line1 (V1 m c)).trans (V1_of m c main_arg0 (by decide))

/-- Region 0's adjacency input holds the third argument. -/
theorem V12_v17 (c : Dev nD) : V12 m c main_v17 = V0 m c main_arg2 :=
  (V12_of m c main_v17 (by decide)).trans <| (V11_of m c main_v17 (by decide)).trans <| (V10_of m c main_v17 (by decide)).trans <| (V9_of m c main_v17 (by decide)).trans <| (V8_of m c main_v17 (by decide)).trans <| (V7_of m c main_v17 (by decide)).trans <| (V6_of m c main_v17 (by decide)).trans <| (V5_of m c main_v17 (by decide)).trans <| (line3 (V3 m c)).trans <| (V3_of m c main_arg2 (by decide)).trans <| (V2_of m c main_arg2 (by decide)).trans <| (V1_of m c main_arg2 (by decide)).trans <| rfl

/-- Region 0's weight input holds the fifth argument (the node path's weight stack). -/
theorem V12_v18 (c : Dev nD) : V12 m c main_v18 = V0 m c main_arg4 :=
  (V12_of m c main_v18 (by decide)).trans <| (V11_of m c main_v18 (by decide)).trans <| (V10_of m c main_v18 (by decide)).trans <| (V9_of m c main_v18 (by decide)).trans <| (V8_of m c main_v18 (by decide)).trans <| (V7_of m c main_v18 (by decide)).trans <| (line5 (V5 m c)).trans <| (V5_of m c main_v15 (by decide)).trans <| (V4_of m c main_v15 (by decide)).trans <| (V3_of m c main_v15 (by decide)).trans <| (V2_of m c main_v15 (by decide)).trans <| line0_v15 (V0 m c)

/-- Region 1's edge-feature input holds the second argument. -/
theorem V12_v19 (c : Dev nD) : V12 m c main_v19 = V0 m c main_arg1 :=
  (V12_of m c main_v19 (by decide)).trans <| (V11_of m c main_v19 (by decide)).trans <| (V10_of m c main_v19 (by decide)).trans <| (V9_of m c main_v19 (by decide)).trans <| (line7 (V7 m c)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

/-- Region 1's weight input holds matrix 2 of the sixth argument (the face path's weight stack). -/
theorem V12_v20 (c : Dev nD) : V12 m c main_v20 = RSpec.w2 (V0 m c main_arg5) :=
  (V12_of m c main_v20 (by decide)).trans <| (V11_of m c main_v20 (by decide)).trans <| (line9 (V9 m c)).trans <| (V9_of m c main_v11 (by decide)).trans <| (V8_of m c main_v11 (by decide)).trans <| (V7_of m c main_v11 (by decide)).trans <| (V6_of m c main_v11 (by decide)).trans <| (V5_of m c main_v11 (by decide)).trans <| (V4_of m c main_v11 (by decide)).trans <| (V3_of m c main_v11 (by decide)).trans <| (V2_of m c main_v11 (by decide)).trans <| line0_v11 (V0 m c)

/-- Region 1's incidence input holds the fourth argument. -/
theorem V12_v21 (c : Dev nD) : V12 m c main_v21 = V0 m c main_arg3 :=
  (line11 (V11 m c)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl

end Cert.ReferenceIdeal.RefHost

end
-- ==== Proof.RRun.lean ====
/-
  The reference program's run: @main as segments — the twelve host stretches of its prefix, region 0 (the node
  kernel), region 1 (the face kernel) — over the thread state "every unscoped buffer at the boundary's contents",
  each region's arrays split out at its entry and put back at its exit at what the region's run leaves in them.
  Then the last boundary's contents read: the two results as the specification's functions of the launch arrays,
  and the arguments unchanged.
-/
import proofs.«179636_g2000605474969623_pallasbulk_585_7_alg».proof.Proof.RNodeDat
import proofs.«179636_g2000605474969623_pallasbulk_585_7_alg».proof.Proof.RFaceDat
import proofs.«179636_g2000605474969623_pallasbulk_585_7_alg».proof.Proof.RefHost
import proofs.«179636_g2000605474969623_pallasbulk_585_7_alg».proof.Proof.Gen.ReferenceIdeal.Regions
import Idealize.ShloMosaic.Lib.StableHlo.Run

set_option maxRecDepth 16384

noncomputable section

namespace Cert.ReferenceIdeal.RRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.ReferenceIdeal Cert.ReferenceIdeal.Gen Cert.ReferenceIdeal.RBody Cert.ReferenceIdeal.RNode Cert.ReferenceIdeal.RFace

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core c's buffers after the host prefix (region 0's entry). -/
abbrev rW12 : Dev nD → Valuation τ sig (Elt F) := fun c => V12 m c
abbrev rV12 : (c : Dev nD) → (b : Ref sig .tc) → Buf (Elt F) ((c : Thread nD τ).loc b) := fun c b => V12 m c b

/-- What region 0 leaves in its arrays: the inputs as found, the state array at the last layer's state. -/
def nout (c : Dev nD) : (w : Fin cfg0.W) → Buf (Elt F) ((spec0 w).arr.view.loc (c.tc : Thread nD τ))
  | ⟨0, _⟩ => rV12 m c main_v16
  | ⟨1, _⟩ => rV12 m c main_v18
  | ⟨2, _⟩ => rV12 m c main_v17
  | ⟨3, _⟩ => (RSpec.state (nx0 (rV12 m) c) (nW (rV12 m) c) (nA (rV12 m) c) 2 : Vec F S4096x128 .f32)

/-- At region 0's exit (region 1's entry). -/
def rW13 (c : Dev nD) : Valuation τ sig (Elt F) := Pipeline.withArrays spec0 c (rW12 m c) (nout m c)
theorem rW13_arr (c : Dev nD) (w : Fin cfg0.W) : rW13 m c (Proc.devRef .tc (Pipeline.arrRef spec0 w)) = nout m c w := by
  unfold rW13; exact Pipeline.withArrays_arr spec0 launch0.win.arr_inj c _ _ w
theorem rW13_of_ne (c : Dev nD) (b : Ref sig .tc) (hb : ∀ w, Pipeline.arrRef spec0 w ≠ b) :
    rW13 m c (Proc.devRef .tc b) = rW12 m c (Proc.devRef .tc b) := by
  unfold rW13; exact Pipeline.withArrays_of_ne spec0 c _ _ b hb
abbrev rV13 : (c : Dev nD) → (b : Ref sig .tc) → Buf (Elt F) ((c : Thread nD τ).loc b) := fun c b => rW13 m c b

/-- What region 1 leaves in its arrays: the inputs as found, the face result. -/
def fout (c : Dev nD) : (w : Fin cfg1.W) → Buf (Elt F) ((spec1 w).arr.view.loc (c.tc : Thread nD τ))
  | ⟨0, _⟩ => rV13 m c main_v19
  | ⟨1, _⟩ => rV13 m c main_v20
  | ⟨2, _⟩ => rV13 m c main_v21
  | ⟨3, _⟩ => x2of (rV13 m c main_v19) (rV13 m c main_v20) (rV13 m c main_v21)

/-- At region 1's exit. -/
def rW14 (c : Dev nD) : Valuation τ sig (Elt F) := Pipeline.withArrays spec1 c (rW13 m c) (fout m c)
theorem rW14_arr (c : Dev nD) (w : Fin cfg1.W) : rW14 m c (Proc.devRef .tc (Pipeline.arrRef spec1 w)) = fout m c w := by
  unfold rW14; exact Pipeline.withArrays_arr spec1 launch1.win.arr_inj c _ _ w
theorem rW14_of_ne (c : Dev nD) (b : Ref sig .tc) (hb : ∀ w, Pipeline.arrRef spec1 w ≠ b) :
    rW14 m c (Proc.devRef .tc b) = rW13 m c (Proc.devRef .tc b) := by
  unfold rW14; exact Pipeline.withArrays_of_ne spec1 c _ _ b hb
abbrev rV14 : (c : Dev nD) → (b : Ref sig .tc) → Buf (Elt F) ((c : Thread nD τ).loc b) := fun c b => rW14 m c b

/-! ## The proof data family and the thread state -/

abbrev radm : (p : Fin 2) → (pcfgs (F := F) p).Adm := fun p => (cfgs p).toPCfg_adm
/-- Every pipeline's relational proof data, each at its region's entry contents. -/
def rrdats : (p : Fin 2) → (c : Dev nD) → RDat τ (Elt F) Unit ℕ (UR sig nD τ) ℕ (Pipeline.pin (pcfgs (F := F)) radm p) c
  | ⟨0, _⟩ => fun c => nrd (rV12 m) c
  | ⟨1, _⟩ => fun c => frd (rV13 m) c
abbrev r𝒱₀ : Variants := Variants.none
abbrev rL : GSem nD τ sig → Finset Unit := fun _ => ∅
abbrev rlv : GSem nD τ sig → Unit → ℕ := fun _ _ => 0
/-- What rides beside the buffers through every segment: the generator register at some state, and nothing owed. -/
abbrev rR (c : Dev nD) : sProp 𝕄 := iprop((∃ r, prngReg c r) ∗ ∃ W, owes (c : Thread nD τ) (0 : CellTallies nD τ sig Unit) W)
/-- The same, as the rest every host stretch carries along. -/
abbrev rE : Fin 3 → Dev nD → sProp 𝕄 := fun _ c => rR (F := F) c

/-- A region's arrays, each at contents the write-backs may have left and all such contents being the named ones, back
    among the core's unscoped buffers at a valuation that has the arrays there and agrees with the entry's elsewhere. -/
theorem unscopedBufs_of_arraysAt {p : Fin 2} (hw : Pipeline.WinFacts (Pipeline.pin (pcfgs (F := F)) radm p).spec)
    (harr : ∀ w, ((Pipeline.pin (pcfgs (F := F)) radm p).spec w).arr.IsWhole) (c : Dev nD)
    (hshare : ∀ w, (rrdats m p c).share w = fullShare)
    (V V' : (b : Ref sig .tc) → Buf (Elt F) ((c.tc : Thread nD τ).loc b))
    (hfin : ∀ w G, (rrdats m p c).ArrAt w (Pipeline.pin (pcfgs (F := F)) radm p).N G → G = V' (Pipeline.arrRef (Pipeline.pin (pcfgs (F := F)) radm p).spec w))
    (hrest : ∀ b, b ∉ Finset.univ.image (Pipeline.arrRef (Pipeline.pin (pcfgs (F := F)) radm p).spec) → V' b = V b) :
    iprop((rrdats m p c).arraysAt (Pipeline.pin (pcfgs (F := F)) radm p).N ∗ Pipeline.unscopedRest (Pipeline.pin (pcfgs (F := F)) radm p).spec c V)
      ⊢ (unscopedBufs c V' : sProp 𝕄) := by
  rw [Pipeline.unscopedBufs_split (Pipeline.pin (pcfgs (F := F)) radm) p hw.arr_unscoped hw.arr_inj c V']
  refine sep_mono ?_ (Entails.of_eq ?_)
  · have h1 : (rrdats m p c).arraysAt (Pipeline.pin (pcfgs (F := F)) radm p).N
        ⊢ ((rrdats m p c).arrays (fun w => V' (Pipeline.arrRef (Pipeline.pin (pcfgs (F := F)) radm p).spec w)) : sProp 𝕄) := by
      unfold RDat.arraysAt RDat.arrays
      refine bigSep_mono fun w _ => ?_
      show (_ : sProp 𝕄) ⊢ _
      iintro ⟨%G, %hG, H⟩
      rw [hfin w G hG]
      iexact H
    exact h1.trans (Entails.of_eq (Pipeline.RDat.arrays_eq (pcfgs (F := F)) radm (rrdats m) p c harr hshare _))
  · unfold Pipeline.unscopedRest
    exact bigSep_congr fun b hb => by rw [hrest b (Finset.mem_sdiff.mp hb).2]

/-! ## The regions as segments -/

theorem rreg0_rest (c : Dev nD) : ∀ b, b ∉ Finset.univ.image (Pipeline.arrRef spec0) → rV13 m c b = rV12 m c b :=
  fun b hb => rW13_of_ne m c b fun w e => hb (Finset.mem_image.mpr ⟨w, Finset.mem_univ _, e⟩)

theorem rreg0_fin (c : Dev nD) : ∀ (w : Fin cfg0.W) (G), (rrdats m 0 c).ArrAt w cfg0.N G → G = rV13 m c (Pipeline.arrRef spec0 w) := by
  intro w G h
  refine Eq.trans ?_ (rW13_arr m c w).symm
  match w with
  | ⟨0, _⟩ => exact nfinal_0 (rV12 m) c G h
  | ⟨1, _⟩ => exact nfinal_1 (rV12 m) c G h
  | ⟨2, _⟩ => exact nfinal_2 (rV12 m) c G h
  | ⟨3, _⟩ => exact nfinal_3 (rV12 m) c G h

theorem rreg1_rest (c : Dev nD) : ∀ b, b ∉ Finset.univ.image (Pipeline.arrRef spec1) → rV14 m c b = rV13 m c b :=
  fun b hb => rW14_of_ne m c b fun w e => hb (Finset.mem_image.mpr ⟨w, Finset.mem_univ _, e⟩)

theorem rreg1_fin (c : Dev nD) : ∀ (w : Fin cfg1.W) (G), (rrdats m 1 c).ArrAt w cfg1.N G → G = rV14 m c (Pipeline.arrRef spec1 w) := by
  intro w G h
  refine Eq.trans ?_ (rW14_arr m c w).symm
  match w with
  | ⟨0, _⟩ => exact ffinal_0 (rV13 m) c G h
  | ⟨1, _⟩ => exact ffinal_1 (rV13 m) c G h
  | ⟨2, _⟩ => exact ffinal_2 (rV13 m) c G h
  | ⟨3, _⟩ => exact ffinal (rV13 m) c G h

-- (the pinned configuration of a pipeline is recognised only by unfolding plain definitions inside types)
set_option backward.isDefEq.respectTransparency.types false in
/-- Region 0 over the thread state: its arrays split out of the unscoped buffers at its entry and put back at its
    exit at what its run leaves; the generator register into the invariant and out; nothing owed; no semaphore of its own. -/
def rreg0 : Pipeline.RDat.RegionSeg (pcfgs (F := F)) radm (rrdats m) () defs₀ r𝒱₀ rL rlv 0 where
  win := launch0.win.to₀
  block_pos := launch0.block_pos
  stage_whole := launch0.stage_whole
  K := PEmpty
  osem k := k.elim
  ho := Pipeline.OwnSemFacts.none _
  hbody c := nbody (rV12 m) c
  hwaits := Pipeline.RDat.hwaits_of_owed_zero _ _ _ _ rL rlv 0 fun _ _ => rfl
  pre c := iprop(StableHlo.held (c : Thread nD τ) (Pipeline.ucRefs τ sig) (rW12 m c) ∗ rR c)
  post c := iprop(StableHlo.held (c : Thread nD τ) (Pipeline.ucRefs τ sig) (rW13 m c) ∗ rR c)
  X c := iprop(∃ r, prngReg c r)
  Y c := iprop(∃ r, prngReg c r)
  Z c := Pipeline.unscopedRest (Ix := Unit) (Name := ℕ) (U := UR sig nD τ) (Lvl := ℕ) spec0 c (rV12 m c)
  hentry c := by
    rw [Pipeline.ownSems0_none]
    have hsplit := Pipeline.RDat.arrays_of_unscopedBufs (p := 0) (pcfgs (F := F)) radm (rrdats m) launch0.win launch0.arr_whole c
      (fun w => by unfold RDat.share; split <;> rfl) (rV12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (nhin (rV12 m) c)
    unfold Pipeline.ΦA
    iintro ⟨Hp, -, Hr⟩
    isplitl [Hr]; · iexact Hr
    iexact Hp
  hout c := by
    rw [Pipeline.ownSems0_none]
    refine (nhout (rV12 m) c).trans ?_
    unfold Pipeline.ΦA
    iintro ⟨Hr, Hp⟩
    isplitl [Hp]; · iexact Hp
    isplitr; · iempintro
    iexact Hr
  hexit c := by
    have hjoin := unscopedBufs_of_arraysAt m (p := 0) launch0.win launch0.arr_whole c
      (fun w => by unfold RDat.share; split <;> rfl) (rV12 m c) (rV13 m c)
      (rreg0_fin m c) (rreg0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold RDat.owesAt Pipeline.owesWithin
    icases HO with ⟨%W, -, HO⟩; iexists W; iexact HO

-- (the pinned configuration of a pipeline is recognised only by unfolding plain definitions inside types)
set_option backward.isDefEq.respectTransparency.types false in
/-- Region 1 over the thread state, in the same way. -/
def rreg1 : Pipeline.RDat.RegionSeg (pcfgs (F := F)) radm (rrdats m) () defs₀ r𝒱₀ rL rlv 1 where
  win := launch1.win.to₀
  block_pos := launch1.block_pos
  stage_whole := launch1.stage_whole
  K := PEmpty
  osem k := k.elim
  ho := Pipeline.OwnSemFacts.none _
  hbody c := fbody (rV13 m) c
  hwaits := Pipeline.RDat.hwaits_of_owed_zero _ _ _ _ rL rlv 1 fun _ _ => rfl
  pre c := iprop(StableHlo.held (c : Thread nD τ) (Pipeline.ucRefs τ sig) (rW13 m c) ∗ rR c)
  post c := iprop(StableHlo.held (c : Thread nD τ) (Pipeline.ucRefs τ sig) (rW14 m c) ∗ rR c)
  X c := iprop(∃ r, prngReg c r)
  Y c := iprop(∃ r, prngReg c r)
  Z c := Pipeline.unscopedRest (Ix := Unit) (Name := ℕ) (U := UR sig nD τ) (Lvl := ℕ) spec1 c (rV13 m c)
  hentry c := by
    rw [Pipeline.ownSems0_none]
    have hsplit := Pipeline.RDat.arrays_of_unscopedBufs (p := 1) (pcfgs (F := F)) radm (rrdats m) launch1.win launch1.arr_whole c
      (fun w => by unfold RDat.share; split <;> rfl) (rV13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (fhin (rV13 m) c)
    unfold Pipeline.ΦA
    iintro ⟨Hp, -, Hr⟩
    isplitl [Hr]; · iexact Hr
    iexact Hp
  hout c := by
    rw [Pipeline.ownSems0_none]
    refine (fhout (rV13 m) c).trans ?_
    unfold Pipeline.ΦA
    iintro ⟨Hr, Hp⟩
    isplitl [Hp]; · iexact Hp
    isplitr; · iempintro
    iexact Hr
  hexit c := by
    have hjoin := unscopedBufs_of_arraysAt m (p := 1) launch1.win launch1.arr_whole c
      (fun w => by unfold RDat.share; split <;> rfl) (rV13 m c) (rV14 m c)
      (rreg1_fin m c) (rreg1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold RDat.owesAt Pipeline.owesWithin
    icases HO with ⟨%W, -, HO⟩; iexists W; iexact HO

/-! ## @main as segments, and the launch -/

/-- @main's fourteen segments in order: the twelve host stretches, then the two regions. -/
abbrev rsegs : List (Pipeline.RDat.Seg (pcfgs (F := F)) radm (rrdats m) () defs₀ r𝒱₀ rL rlv) :=
  [ .host (seg0 m r𝒱₀ rL rlv (rE (F := F))), .host (seg1 m r𝒱₀ rL rlv (rE (F := F))), .host (seg2 m r𝒱₀ rL rlv (rE (F := F))), .host (seg3 m r𝒱₀ rL rlv (rE (F := F))), .host (seg4 m r𝒱₀ rL rlv (rE (F := F))), .host (seg5 m r𝒱₀ rL rlv (rE (F := F))), .host (seg6 m r𝒱₀ rL rlv (rE (F := F))), .host (seg7 m r𝒱₀ rL rlv (rE (F := F))), .host (seg8 m r𝒱₀ rL rlv (rE (F := F))), .host (seg9 m r𝒱₀ rL rlv (rE (F := F))), .host (seg10 m r𝒱₀ rL rlv (rE (F := F))), .host (seg11 m r𝒱₀ rL rlv (rE (F := F))),
    .region (rreg0 m), .region (rreg1 m) ]

/-- The last thread state without the `owes`: every unscoped buffer at the last boundary's contents, the generator
    register at some state. -/
abbrev rTₙ (c : Dev nD) : sProp 𝕄 := iprop(StableHlo.held (c : Thread nD τ) (Pipeline.ucRefs τ sig) (rW14 m c) ∗ ∃ r, prngReg c r)

-- (the run theorem's implicit arguments are read off this statement, which takes unfolding plain definitions inside types)
set_option backward.isDefEq.respectTransparency.types false in
/-- THE RUN: from any memory with zero counters every weakly fair execution of @main terminates, nothing faulting,
    and every final state holds every unscoped buffer at the last boundary's contents. -/
theorem rrun : θ_run defs (onTc (τ := τ) (main (F := F))) ⟨m, fun _ => 0, ρ⟩
    (fun r => ∀ c : Dev nD, ∀ b ∈ Pipeline.ucRefs τ sig, r.2.mem (((c : Thread nD τ)).1, b) = rW14 m c b) :=
  Pipeline.RDat.θ_run_regions_kit (pcfgs (F := F)) radm (rrdats m) () cellOf_inj emb₁ defs₀ r𝒱₀ rL rlv m ρ main (rsegs m)
    (fun c Q => by
      rewrite [main_chain c, Pipeline.RDat.Seg.run_eq_chain,
        show (rsegs m).map Pipeline.RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          Prog.lift (.customCall (Pipeline.entry 0) ()),
          Prog.lift (.customCall (Pipeline.entry 1) ()) ] from rfl]
      exact .rfl)
    (by simp only [rsegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rR c)) (Tₙ := rTₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (rW14 m c) ∗ rR c) : sProp 𝕄) ⊢ _
      iintro ⟨Hh, Hp, HO⟩
      isplitl [Hh Hp]
      · isplitl [Hh]; · iexact Hh
        iexact Hp
      iexact HO⟩)
    (hinit := by
      refine Pipeline.initEach rL rlv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = rW14 m c b)
    (hfin := fun c s' => by
      iintro ⟨⟨Hh, -⟩, HSI⟩
      unfold StableHlo.held
      imodintro
      iapply (pointsTo_read_all (Pipeline.ucRefs τ sig) (fun b => (((c : Thread nD τ)).1, b)) (rW14 m c) s')
      isplitl [Hh] <;> iassumption)
    (hQ := fun s h c => h c)

/-! ## The last boundary's contents, read: the results and the arguments -/

/-- An unscoped TensorCore reference is among those the thread state holds. -/
theorem rmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No host stretch writes an argument. -/
theorem V12_main_arg0 (c : Dev nD) : V12 m c main_arg0 = m ((c : Thread nD τ).loc main_arg0) :=
  (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem V12_main_arg1 (c : Dev nD) : V12 m c main_arg1 = m ((c : Thread nD τ).loc main_arg1) :=
  (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem V12_main_arg2 (c : Dev nD) : V12 m c main_arg2 = m ((c : Thread nD τ).loc main_arg2) :=
  (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
theorem V12_main_arg3 (c : Dev nD) : V12 m c main_arg3 = m ((c : Thread nD τ).loc main_arg3) :=
  (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl
theorem V12_main_arg4 (c : Dev nD) : V12 m c main_arg4 = m ((c : Thread nD τ).loc main_arg4) :=
  (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
theorem V12_main_arg5 (c : Dev nD) : V12 m c main_arg5 = m ((c : Thread nD τ).loc main_arg5) :=
  (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl

/-- The first result: the last layer's state of the launch arrays. -/
theorem rW14_v22 (c : Dev nD) : rW14 m c (Proc.devRef .tc main_v22)
    = RSpec.state (m ((c : Thread nD τ).loc main_arg0)) (m ((c : Thread nD τ).loc main_arg4)) (m ((c : Thread nD τ).loc main_arg2)) 2 := by
  rw [rW14_of_ne m c main_v22 (by decide), show rW13 m c (Proc.devRef .tc main_v22) = nout m c 3 from rW13_arr m c 3]
  show RSpec.state (V12 m c main_v16) (V12 m c main_v18) (V12 m c main_v17) 2 = _
  rw [RefHost.V12_v16 m c, RefHost.V12_v18 m c, RefHost.V12_v17 m c]

/-- The second result: the face result of the launch arrays. -/
theorem rW14_v23 (c : Dev nD) : rW14 m c (Proc.devRef .tc main_v23)
    = RSpec.x2 (m ((c : Thread nD τ).loc main_arg1)) (m ((c : Thread nD τ).loc main_arg5)) (m ((c : Thread nD τ).loc main_arg3)) := by
  rw [show rW14 m c (Proc.devRef .tc main_v23) = fout m c 3 from rW14_arr m c 3]
  show x2of (rW13 m c (Proc.devRef .tc main_v19)) (rW13 m c (Proc.devRef .tc main_v20)) (rW13 m c (Proc.devRef .tc main_v21)) = _
  rw [rW13_of_ne m c main_v19 (by decide), rW13_of_ne m c main_v20 (by decide), rW13_of_ne m c main_v21 (by decide)]
  show x2of (V12 m c main_v19) (V12 m c main_v20) (V12 m c main_v21) = _
  rw [RefHost.V12_v19 m c, RefHost.V12_v20 m c, RefHost.V12_v21 m c]
  rfl

theorem rW14_arg0 (c : Dev nD) : rW14 m c (Proc.devRef .tc main_arg0) = m ((c : Thread nD τ).loc main_arg0) :=
  (rW14_of_ne m c main_arg0 (by decide)).trans ((rW13_of_ne m c main_arg0 (by decide)).trans (V12_main_arg0 m c))
theorem rW14_arg1 (c : Dev nD) : rW14 m c (Proc.devRef .tc main_arg1) = m ((c : Thread nD τ).loc main_arg1) :=
  (rW14_of_ne m c main_arg1 (by decide)).trans ((rW13_of_ne m c main_arg1 (by decide)).trans (V12_main_arg1 m c))
theorem rW14_arg2 (c : Dev nD) : rW14 m c (Proc.devRef .tc main_arg2) = m ((c : Thread nD τ).loc main_arg2) :=
  (rW14_of_ne m c main_arg2 (by decide)).trans ((rW13_of_ne m c main_arg2 (by decide)).trans (V12_main_arg2 m c))
theorem rW14_arg3 (c : Dev nD) : rW14 m c (Proc.devRef .tc main_arg3) = m ((c : Thread nD τ).loc main_arg3) :=
  (rW14_of_ne m c main_arg3 (by decide)).trans ((rW13_of_ne m c main_arg3 (by decide)).trans (V12_main_arg3 m c))
theorem rW14_arg4 (c : Dev nD) : rW14 m c (Proc.devRef .tc main_arg4) = m ((c : Thread nD τ).loc main_arg4) :=
  (rW14_of_ne m c main_arg4 (by decide)).trans ((rW13_of_ne m c main_arg4 (by decide)).trans (V12_main_arg4 m c))
theorem rW14_arg5 (c : Dev nD) : rW14 m c (Proc.devRef .tc main_arg5) = m ((c : Thread nD τ).loc main_arg5) :=
  (rW14_of_ne m c main_arg5 (by decide)).trans ((rW13_of_ne m c main_arg5 (by decide)).trans (V12_main_arg5 m c))

/-- THE RUN, READ: every weakly fair execution terminates with the first result at the last layer's node state, the
    second at the face result, and every argument array as launched. -/
theorem rresult : θ_run defs (onTc (τ := τ) (main (F := F))) ⟨m, fun _ => 0, ρ⟩ (fun r => ∀ c : Dev nD,
      r.2.mem ((c.tc : Thread nD τ).loc main_v22) = RSpec.state (m ((c : Thread nD τ).loc main_arg0)) (m ((c : Thread nD τ).loc main_arg4)) (m ((c : Thread nD τ).loc main_arg2)) 2
      ∧ r.2.mem ((c.tc : Thread nD τ).loc main_v23) = RSpec.x2 (m ((c : Thread nD τ).loc main_arg1)) (m ((c : Thread nD τ).loc main_arg5)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (rmem_uc main_v22 (by decide))).trans (rW14_v22 m c),
     (h c _ (rmem_uc main_v23 (by decide))).trans (rW14_v23 m c),
     (h c _ (rmem_uc main_arg0 (by decide))).trans (rW14_arg0 m c),
     (h c _ (rmem_uc main_arg1 (by decide))).trans (rW14_arg1 m c),
     (h c _ (rmem_uc main_arg2 (by decide))).trans (rW14_arg2 m c),
     (h c _ (rmem_uc main_arg3 (by decide))).trans (rW14_arg3 m c),
     (h c _ (rmem_uc main_arg4 (by decide))).trans (rW14_arg4 m c),
     (h c _ (rmem_uc main_arg5 (by decide))).trans (rW14_arg5 m c)⟩) (rrun m ρ)

end Cert.ReferenceIdeal.RRun

end
-- ==== Proof.LibMatmulK.lean ====
/-
  Rank-2 matrix products accumulated into the zero matrix, read at an entry over the extended reals: two whose LEFT
  operand is contracted along its row axis, and the plain product,
    [K, a] × [b, K] → [a, b]   entry (i, j) = ∑ k, lhs (k, i) · rhs (j, k)      (transpose of the left times transpose of the right)
    [K, a] × [K, b] → [a, b]   entry (i, j) = ∑ k, lhs (k, i) · rhs (k, j)      (transpose of the left times the right)
    [a, K] × [K, b] → [a, b]   entry (i, j) = ∑ k, lhs (i, k) · rhs (k, j)      (the left times the right)
  The sums run over the contracted extent itself, not over the contraction's own index type.
-/
import Idealize.ShloMosaic.PureOps.Ideal.Laws
import Idealize.ShloMosaic.Lib.ValueIdx

open scoped BigOperators

noncomputable section

namespace Cert.LibMatmulK

open Idealize.ShloMosaic Idealize.ShloMosaic.ValueIdx

/-- A product `[K, a] × [b, K] → [a, b]` into a zero accumulator at entry `(i, j)`: the dimension numbers contract one
    axis of extent `K` (`hr`, `hs`) and pair, at result index `y` and contraction index `q`, the left entry `(q, y₀)`
    (`hl0`, `hl1`) with the right entry `(y₁, q)` (`hr0`, `hr1`); the contraction's index set is matched with `Fin K`. -/
theorem matmul_KA_BK_zero {a K b : Nat} {φ₁ φ₂ : FTy}
    (d : DotDims ⟨2, ![K, a]⟩ ⟨2, ![b, K]⟩ ⟨2, ![a, b]⟩) (prec : Option ContractPrecision)
    (hr : d.contr.rank = 1) (hs : d.contr.size ⟨0, by omega⟩ = K)
    (hl0 : ∀ y q, (d.lhsIdx y q 0).val = (q ⟨0, by omega⟩).val)
    (hl1 : ∀ y q, (d.lhsIdx y q 1).val = (y 0).val)
    (hr0 : ∀ y q, (d.rhsIdx y q 0).val = (y 1).val)
    (hr1 : ∀ y q, (d.rhsIdx y q 1).val = (q ⟨0, by omega⟩).val)
    (lhs : FVec Ideal ⟨2, ![K, a]⟩ φ₁) (rhs : FVec Ideal ⟨2, ![b, K]⟩ φ₂) (i : Fin a) (j : Fin b) :
    FloatOps.matmul d prec lhs rhs (constant ⟨2, ![a, b]⟩ .f32 0x00000000#32) (ix2 i j)
      = ∑ k : Fin K, lhs (ix2 k i) * rhs (ix2 j k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun x => Fin.ext (by
    match x with
    | ⟨0, _⟩ => exact (hl0 _ _).trans hk
    | ⟨1, _⟩ => exact hl1 _ _)
  have er : d.rhsIdx (ix2 i j) ((contrEquiv1 d K hr hs).symm k) = ix2 j k := funext fun x => Fin.ext (by
    match x with
    | ⟨0, _⟩ => exact hr0 _ _
    | ⟨1, _⟩ => exact (hr1 _ _).trans hk)
  rw [el, er]

/-- A product `[K, a] × [K, b] → [a, b]` into a zero accumulator at entry `(i, j)`: the dimension numbers contract the
    row axis of both operands, pairing the left entry `(q, y₀)` with the right entry `(q, y₁)`. -/
theorem matmul_KA_KB_zero {a K b : Nat} {φ₁ φ₂ : FTy}
    (d : DotDims ⟨2, ![K, a]⟩ ⟨2, ![K, b]⟩ ⟨2, ![a, b]⟩) (prec : Option ContractPrecision)
    (hr : d.contr.rank = 1) (hs : d.contr.size ⟨0, by omega⟩ = K)
    (hl0 : ∀ y q, (d.lhsIdx y q 0).val = (q ⟨0, by omega⟩).val)
    (hl1 : ∀ y q, (d.lhsIdx y q 1).val = (y 0).val)
    (hr0 : ∀ y q, (d.rhsIdx y q 0).val = (q ⟨0, by omega⟩).val)
    (hr1 : ∀ y q, (d.rhsIdx y q 1).val = (y 1).val)
    (lhs : FVec Ideal ⟨2, ![K, a]⟩ φ₁) (rhs : FVec Ideal ⟨2, ![K, b]⟩ φ₂) (i : Fin a) (j : Fin b) :
    FloatOps.matmul d prec lhs rhs (constant ⟨2, ![a, b]⟩ .f32 0x00000000#32) (ix2 i j)
      = ∑ k : Fin K, lhs (ix2 k i) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun x => Fin.ext (by
    match x with
    | ⟨0, _⟩ => exact (hl0 _ _).trans hk
    | ⟨1, _⟩ => exact hl1 _ _)
  have er : d.rhsIdx (ix2 i j) ((contrEquiv1 d K hr hs).symm k) = ix2 k j := funext fun x => Fin.ext (by
    match x with
    | ⟨0, _⟩ => exact (hr0 _ _).trans hk
    | ⟨1, _⟩ => exact hr1 _ _)
  rw [el, er]

/-- A product `[a, K] × [K, b] → [a, b]` into a zero accumulator at entry `(i, j)`: the plain product, the left entry
    `(y₀, q)` paired with the right entry `(q, y₁)`. -/
theorem matmul_AK_KB_zero {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ y q, (d.lhsIdx y q 0).val = (y 0).val)
    (hl1 : ∀ y q, (d.lhsIdx y q 1).val = (q ⟨0, by omega⟩).val)
    (hr0 : ∀ y q, (d.rhsIdx y q 0).val = (q ⟨0, by omega⟩).val)
    (hr1 : ∀ y q, (d.rhsIdx y q 1).val = (y 1).val)
    (lhs : FVec Ideal ⟨2, ![a, K]⟩ φ₁) (rhs : FVec Ideal ⟨2, ![K, b]⟩ φ₂) (i : Fin a) (j : Fin b) :
    FloatOps.matmul d prec lhs rhs (constant ⟨2, ![a, b]⟩ .f32 0x00000000#32) (ix2 i j)
      = ∑ k : Fin K, lhs (ix2 i k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun x => Fin.ext (by
    match x with
    | ⟨0, _⟩ => exact hl0 _ _
    | ⟨1, _⟩ => exact (hl1 _ _).trans hk)
  have er : d.rhsIdx (ix2 i j) ((contrEquiv1 d K hr hs).symm k) = ix2 k j := funext fun x => Fin.ext (by
    match x with
    | ⟨0, _⟩ => exact (hr0 _ _).trans hk
    | ⟨1, _⟩ => exact hr1 _ _)
  rw [el, er]

end Cert.LibMatmulK

end
-- ==== Proof.KPayAt.lean ====
/-
  Every pure value the kernel program's two bodies store, read at one index over the extended reals: each is a sum
  of products over the contracted coordinate (rectified where the body rectifies), or a plain re-indexing.
-/
import proofs.«179636_g2000605474969623_pallasbulk_585_7_alg».proof.Proof.Gen.KernelIdeal.Skeleton
import proofs.«179636_g2000605474969623_pallasbulk_585_7_alg».proof.Proof.LibMatmulK
import Idealize.ShloMosaic.Lib.ValueLayout

open scoped BigOperators

noncomputable section

namespace Cert.KernelIdeal.PayAt

open Idealize.ShloMosaic Idealize.ShloMosaic.ValueIdx Cert.KernelIdeal Cert.KernelIdeal.Gen

/-! The dimension numbers `dot_S128x128_S4096x128_S128x4096_0_1_1_0_n_n`: one contracted axis of extent 128; which operand entries they pair. -/
theorem d1_rank : dot_S128x128_S4096x128_S128x4096_0_1_1_0_n_n.contr.rank = 1 := rfl
theorem d1_size : dot_S128x128_S4096x128_S128x4096_0_1_1_0_n_n.contr.size ⟨0, by rw [d1_rank]; omega⟩ = 128 := rfl
theorem d1_l0 (y : S128x4096.Idx) (q : dot_S128x128_S4096x128_S128x4096_0_1_1_0_n_n.contr.Idx) :
    (dot_S128x128_S4096x128_S128x4096_0_1_1_0_n_n.lhsIdx y q 0).val = (q ⟨0, by rw [d1_rank]; omega⟩).val :=
  DotDims.lhsIdx_val_of_single _ rfl y q
theorem d1_l1 (y : S128x4096.Idx) (q : dot_S128x128_S4096x128_S128x4096_0_1_1_0_n_n.contr.Idx) :
    (dot_S128x128_S4096x128_S128x4096_0_1_1_0_n_n.lhsIdx y q 1).val = (y 0).val := by
  simp [DotDims.lhsIdx, dot_S128x128_S4096x128_S128x4096_0_1_1_0_n_n]; rfl
theorem d1_r1 (y : S128x4096.Idx) (q : dot_S128x128_S4096x128_S128x4096_0_1_1_0_n_n.contr.Idx) :
    (dot_S128x128_S4096x128_S128x4096_0_1_1_0_n_n.rhsIdx y q 1).val = (q ⟨0, by rw [d1_rank]; omega⟩).val :=
  DotDims.rhsIdx_val_of_single _ rfl y q
theorem d1_r0 (y : S128x4096.Idx) (q : dot_S128x128_S4096x128_S128x4096_0_1_1_0_n_n.contr.Idx) :
    (dot_S128x128_S4096x128_S128x4096_0_1_1_0_n_n.rhsIdx y q 0).val = (y 1).val := by
  simp [DotDims.rhsIdx, dot_S128x128_S4096x128_S128x4096_0_1_1_0_n_n]; rfl

/-! The dimension numbers `dot_S128x128_S128x4096_S128x4096_0_0_1_1_n_n`: one contracted axis of extent 128; which operand entries they pair. -/
theorem d2_rank : dot_S128x128_S128x4096_S128x4096_0_0_1_1_n_n.contr.rank = 1 := rfl
theorem d2_size : dot_S128x128_S128x4096_S128x4096_0_0_1_1_n_n.contr.size ⟨0, by rw [d2_rank]; omega⟩ = 128 := rfl
theorem d2_l0 (y : S128x4096.Idx) (q : dot_S128x128_S128x4096_S128x4096_0_0_1_1_n_n.contr.Idx) :
    (dot_S128x128_S128x4096_S128x4096_0_0_1_1_n_n.lhsIdx y q 0).val = (q ⟨0, by rw [d2_rank]; omega⟩).val :=
  DotDims.lhsIdx_val_of_single _ rfl y q
theorem d2_l1 (y : S128x4096.Idx) (q : dot_S128x128_S128x4096_S128x4096_0_0_1_1_n_n.contr.Idx) :
    (dot_S128x128_S128x4096_S128x4096_0_0_1_1_n_n.lhsIdx y q 1).val = (y 0).val := by
  simp [DotDims.lhsIdx, dot_S128x128_S128x4096_S128x4096_0_0_1_1_n_n]; rfl
theorem d2_r0 (y : S128x4096.Idx) (q : dot_S128x128_S128x4096_S128x4096_0_0_1_1_n_n.contr.Idx) :
    (dot_S128x128_S128x4096_S128x4096_0_0_1_1_n_n.rhsIdx y q 0).val = (q ⟨0, by rw [d2_rank]; omega⟩).val :=
  DotDims.rhsIdx_val_of_single _ rfl y q
theorem d2_r1 (y : S128x4096.Idx) (q : dot_S128x128_S128x4096_S128x4096_0_0_1_1_n_n.contr.Idx) :
    (dot_S128x128_S128x4096_S128x4096_0_0_1_1_n_n.rhsIdx y q 1).val = (y 1).val := by
  simp [DotDims.rhsIdx, dot_S128x128_S128x4096_S128x4096_0_0_1_1_n_n]; rfl

/-! The dimension numbers `dot_S128x4096_S4096x256_S128x256_1_0_0_1_n_n`: one contracted axis of extent 4096; which operand entries they pair. -/
theorem d3_rank : dot_S128x4096_S4096x256_S128x256_1_0_0_1_n_n.contr.rank = 1 := rfl
theorem d3_size : dot_S128x4096_S4096x256_S128x256_1_0_0_1_n_n.contr.size ⟨0, by rw [d3_rank]; omega⟩ = 4096 := rfl
theorem d3_l1 (y : S128x256.Idx) (q : dot_S128x4096_S4096x256_S128x256_1_0_0_1_n_n.contr.Idx) :
    (dot_S128x4096_S4096x256_S128x256_1_0_0_1_n_n.lhsIdx y q 1).val = (q ⟨0, by rw [d3_rank]; omega⟩).val :=
  DotDims.lhsIdx_val_of_single _ rfl y q
theorem d3_l0 (y : S128x256.Idx) (q : dot_S128x4096_S4096x256_S128x256_1_0_0_1_n_n.contr.Idx) :
    (dot_S128x4096_S4096x256_S128x256_1_0_0_1_n_n.lhsIdx y q 0).val = (y 0).val := by
  simp [DotDims.lhsIdx, dot_S128x4096_S4096x256_S128x256_1_0_0_1_n_n]; rfl
theorem d3_r0 (y : S128x256.Idx) (q : dot_S128x4096_S4096x256_S128x256_1_0_0_1_n_n.contr.Idx) :
    (dot_S128x4096_S4096x256_S128x256_1_0_0_1_n_n.rhsIdx y q 0).val = (q ⟨0, by rw [d3_rank]; omega⟩).val :=
  DotDims.rhsIdx_val_of_single _ rfl y q
theorem d3_r1 (y : S128x256.Idx) (q : dot_S128x4096_S4096x256_S128x256_1_0_0_1_n_n.contr.Idx) :
    (dot_S128x4096_S4096x256_S128x256_1_0_0_1_n_n.rhsIdx y q 1).val = (y 1).val := by
  simp [DotDims.rhsIdx, dot_S128x4096_S4096x256_S128x256_1_0_0_1_n_n]; rfl

/-! The dimension numbers `dot_S8192x128_S128x128_S8192x128_1_0_0_1_n_n`: one contracted axis of extent 128; which operand entries they pair. -/
theorem d4_rank : dot_S8192x128_S128x128_S8192x128_1_0_0_1_n_n.contr.rank = 1 := rfl
theorem d4_size : dot_S8192x128_S128x128_S8192x128_1_0_0_1_n_n.contr.size ⟨0, by rw [d4_rank]; omega⟩ = 128 := rfl
theorem d4_l1 (y : S8192x128.Idx) (q : dot_S8192x128_S128x128_S8192x128_1_0_0_1_n_n.contr.Idx) :
    (dot_S8192x128_S128x128_S8192x128_1_0_0_1_n_n.lhsIdx y q 1).val = (q ⟨0, by rw [d4_rank]; omega⟩).val :=
  DotDims.lhsIdx_val_of_single _ rfl y q
theorem d4_l0 (y : S8192x128.Idx) (q : dot_S8192x128_S128x128_S8192x128_1_0_0_1_n_n.contr.Idx) :
    (dot_S8192x128_S128x128_S8192x128_1_0_0_1_n_n.lhsIdx y q 0).val = (y 0).val := by
  simp [DotDims.lhsIdx, dot_S8192x128_S128x128_S8192x128_1_0_0_1_n_n]; rfl
theorem d4_r0 (y : S8192x128.Idx) (q : dot_S8192x128_S128x128_S8192x128_1_0_0_1_n_n.contr.Idx) :
    (dot_S8192x128_S128x128_S8192x128_1_0_0_1_n_n.rhsIdx y q 0).val = (q ⟨0, by rw [d4_rank]; omega⟩).val :=
  DotDims.rhsIdx_val_of_single _ rfl y q
theorem d4_r1 (y : S8192x128.Idx) (q : dot_S8192x128_S128x128_S8192x128_1_0_0_1_n_n.contr.Idx) :
    (dot_S8192x128_S128x128_S8192x128_1_0_0_1_n_n.rhsIdx y q 1).val = (y 1).val := by
  simp [DotDims.rhsIdx, dot_S8192x128_S128x128_S8192x128_1_0_0_1_n_n]; rfl

/-! The dimension numbers `dot_S256x8192_S8192x128_S256x128_1_0_0_1_n_n`: one contracted axis of extent 8192; which operand entries they pair. -/
theorem d5_rank : dot_S256x8192_S8192x128_S256x128_1_0_0_1_n_n.contr.rank = 1 := rfl
theorem d5_size : dot_S256x8192_S8192x128_S256x128_1_0_0_1_n_n.contr.size ⟨0, by rw [d5_rank]; omega⟩ = 8192 := rfl
theorem d5_l1 (y : S256x128.Idx) (q : dot_S256x8192_S8192x128_S256x128_1_0_0_1_n_n.contr.Idx) :
    (dot_S256x8192_S8192x128_S256x128_1_0_0_1_n_n.lhsIdx y q 1).val = (q ⟨0, by rw [d5_rank]; omega⟩).val :=
  DotDims.lhsIdx_val_of_single _ rfl y q
theorem d5_l0 (y : S256x128.Idx) (q : dot_S256x8192_S8192x128_S256x128_1_0_0_1_n_n.contr.Idx) :
    (dot_S256x8192_S8192x128_S256x128_1_0_0_1_n_n.lhsIdx y q 0).val = (y 0).val := by
  simp [DotDims.lhsIdx, dot_S256x8192_S8192x128_S256x128_1_0_0_1_n_n]; rfl
theorem d5_r0 (y : S256x128.Idx) (q : dot_S256x8192_S8192x128_S256x128_1_0_0_1_n_n.contr.Idx) :
    (dot_S256x8192_S8192x128_S256x128_1_0_0_1_n_n.rhsIdx y q 0).val = (q ⟨0, by rw [d5_rank]; omega⟩).val :=
  DotDims.rhsIdx_val_of_single _ rfl y q
theorem d5_r1 (y : S256x128.Idx) (q : dot_S256x8192_S8192x128_S256x128_1_0_0_1_n_n.contr.Idx) :
    (dot_S256x8192_S8192x128_S256x128_1_0_0_1_n_n.rhsIdx y q 1).val = (y 1).val := by
  simp [DotDims.rhsIdx, dot_S256x8192_S8192x128_S256x128_1_0_0_1_n_n]; rfl

/-- The first layer's transformed features, transposed: entry (c, n) contracts the weight's row index with the
    feature index of node n. -/
theorem pay1_at (W : Vec Ideal S1x128x128 .f32) (x : Vec Ideal S4096x128 .f32) (c : Fin 128) (n : Fin 4096) :
    k0_pay1 W x (ix2 c n) = ∑ k : Fin 128, W (ix3 0 k c) * x (ix2 n k) := by
  unfold k0_pay1
  rw [shapeCast_self]
  refine (Cert.LibMatmulK.matmul_KA_BK_zero (φ₁ := .f32) (φ₂ := .f32) dot_S128x128_S4096x128_S128x4096_0_1_1_0_n_n none d1_rank d1_size
    d1_l0 d1_l1 d1_r0 d1_r1 _ _ c n).trans ?_
  refine Finset.sum_congr rfl fun k _ => ?_
  rw [shapeCast_1ab_ab_apply]

/-- A later layer's transformed features, transposed: entry (c, n) contracts the weight's row index with the
    channel index of the previous transposed state's column n. -/
theorem pay2_at (W : Vec Ideal S1x128x128 .f32) (s : Vec Ideal S128x4096 .f32) (c : Fin 128) (n : Fin 4096) :
    k0_pay2 W s (ix2 c n) = ∑ k : Fin 128, W (ix3 0 k c) * s (ix2 k n) := by
  unfold k0_pay2
  rw [shapeCast_self, shapeCast_self]
  refine (Cert.LibMatmulK.matmul_KA_KB_zero (φ₁ := .f32) (φ₂ := .f32) dot_S128x128_S128x4096_S128x4096_0_0_1_1_n_n none d2_rank d2_size
    d2_l0 d2_l1 d2_r0 d2_r1 _ _ c n).trans ?_
  refine Finset.sum_congr rfl fun k _ => ?_
  rw [shapeCast_1ab_ab_apply]

/-- A tile of adjacency rows, transposed: entry (n, q) is the tile's entry (q, n). -/
theorem pay3_at (a : Vec Ideal S256x4096 .f32) (n : Fin 4096) (q : Fin 256) :
    k0_pay3 a (ix2 n q) = a (ix2 q n) := by
  unfold k0_pay3
  rw [transpose_ix2_apply]
  rfl

/-- The same transposed tile as it is stored. -/
theorem pay4_at (a : Vec Ideal S256x4096 .f32) (n : Fin 4096) (q : Fin 256) :
    k0_pay4 a (ix2 n q) = a (ix2 q n) := by
  unfold k0_pay4
  rw [shapeCast_self]
  exact pay3_at a n q

/-- A tile of the first layer's transposed state: entry (c, q) is the rectified product of the transformed
    features' row c with the tile's adjacency row q. -/
theorem pay5_at (a : Vec Ideal S256x4096 .f32) (mT : Vec Ideal S128x4096 .bf16) (c : Fin 128) (q : Fin 256) :
    k0_pay5 a mT (ix2 c q) = max (∑ n : Fin 4096, mT (ix2 c n) * a (ix2 q n)) 0 := by
  unfold k0_pay5
  rw [maximumf_apply, broadcast_apply]
  refine congrArg₂ max ?_ Ideal.ofBits_zero_f32
  refine (Cert.LibMatmulK.matmul_AK_KB_zero dot_S128x4096_S4096x256_S128x256_1_0_0_1_n_n none d3_rank d3_size
    d3_l0 d3_l1 d3_r0 d3_r1 _ _ c q).trans ?_
  refine Finset.sum_congr rfl fun n _ => ?_
  rw [pay3_at]

/-- A tile of a later layer's transposed state: entry (c, q) is the rectified product of the transformed
    features' row c with column q of the kept transposed adjacency tile. -/
theorem pay6_at (mT : Vec Ideal S128x4096 .bf16) (aT : Vec Ideal S4096x256 .bf16) (c : Fin 128) (q : Fin 256) :
    k0_pay6 mT aT (ix2 c q) = max (∑ n : Fin 4096, mT (ix2 c n) * aT (ix2 n q)) 0 := by
  unfold k0_pay6
  rw [maximumf_apply, broadcast_apply]
  refine congrArg₂ max ?_ Ideal.ofBits_zero_f32
  exact Cert.LibMatmulK.matmul_AK_KB_zero dot_S128x4096_S4096x256_S128x256_1_0_0_1_n_n none d3_rank d3_size
    d3_l0 d3_l1 d3_r0 d3_r1 _ _ c q

/-- The transformed edge features: entry (e, c) contracts edge e's features with the weight's column c. -/
theorem face1_at (x : Vec Ideal S8192x128 .f32) (w : Vec Ideal S128x128 .f32) (e : Fin 8192) (c : Fin 128) :
    k1_pay1 x w (ix2 e c) = ∑ k : Fin 128, x (ix2 e k) * w (ix2 k c) := by
  unfold k1_pay1
  rw [shapeCast_self, shapeCast_self]
  exact Cert.LibMatmulK.matmul_AK_KB_zero dot_S8192x128_S128x128_S8192x128_1_0_0_1_n_n none d4_rank d4_size
    d4_l0 d4_l1 d4_r0 d4_r1 _ _ e c

/-- A tile of the face result: entry (f, c) is the rectified product of the tile's incidence row f with the
    transformed edge features' column c. -/
theorem face2_at (inc : Vec Ideal S256x8192 .f32) (m1 : Vec Ideal S8192x128 .bf16) (f : Fin 256) (c : Fin 128) :
    k1_pay2 inc m1 (ix2 f c) = max (∑ e : Fin 8192, inc (ix2 f e) * m1 (ix2 e c)) 0 := by
  unfold k1_pay2
  rw [maximumf_apply, broadcast_apply]
  refine congrArg₂ max ?_ Ideal.ofBits_zero_f32
  exact Cert.LibMatmulK.matmul_AK_KB_zero dot_S256x8192_S8192x128_S256x128_1_0_0_1_n_n none d5_rank d5_size
    d5_l0 d5_l1 d5_r0 d5_r1 _ _ f c

end Cert.KernelIdeal.PayAt

end
-- ==== Proof.RPayAt.lean ====
/-
  Every pure value the reference program's two bodies store, read at one index over the extended reals: each is a
  sum of products over the contracted coordinate, rectified where the body rectifies.
-/
import proofs.«179636_g2000605474969623_pallasbulk_585_7_alg».proof.Proof.Gen.ReferenceIdeal.Skeleton
import proofs.«179636_g2000605474969623_pallasbulk_585_7_alg».proof.Proof.LibMatmulK
import Idealize.ShloMosaic.Lib.ValueLayout

open scoped BigOperators

noncomputable section

namespace Cert.ReferenceIdeal.PayAt

open Idealize.ShloMosaic Idealize.ShloMosaic.ValueIdx Cert.ReferenceIdeal Cert.ReferenceIdeal.Gen

/-! The dimension numbers `dot_S4096x128_S128x128_S4096x128_1_0_0_1_n_n`: one contracted axis of extent 128; which operand entries they pair. -/
theorem e1_rank : dot_S4096x128_S128x128_S4096x128_1_0_0_1_n_n.contr.rank = 1 := rfl
theorem e1_size : dot_S4096x128_S128x128_S4096x128_1_0_0_1_n_n.contr.size ⟨0, by rw [e1_rank]; omega⟩ = 128 := rfl
theorem e1_l1 (y : S4096x128.Idx) (q : dot_S4096x128_S128x128_S4096x128_1_0_0_1_n_n.contr.Idx) :
    (dot_S4096x128_S128x128_S4096x128_1_0_0_1_n_n.lhsIdx y q 1).val = (q ⟨0, by rw [e1_rank]; omega⟩).val :=
  DotDims.lhsIdx_val_of_single _ rfl y q
theorem e1_l0 (y : S4096x128.Idx) (q : dot_S4096x128_S128x128_S4096x128_1_0_0_1_n_n.contr.Idx) :
    (dot_S4096x128_S128x128_S4096x128_1_0_0_1_n_n.lhsIdx y q 0).val = (y 0).val := by
  simp [DotDims.lhsIdx, dot_S4096x128_S128x128_S4096x128_1_0_0_1_n_n]; rfl
theorem e1_r0 (y : S4096x128.Idx) (q : dot_S4096x128_S128x128_S4096x128_1_0_0_1_n_n.contr.Idx) :
    (dot_S4096x128_S128x128_S4096x128_1_0_0_1_n_n.rhsIdx y q 0).val = (q ⟨0, by rw [e1_rank]; omega⟩).val :=
  DotDims.rhsIdx_val_of_single _ rfl y q
theorem e1_r1 (y : S4096x128.Idx) (q : dot_S4096x128_S128x128_S4096x128_1_0_0_1_n_n.contr.Idx) :
    (dot_S4096x128_S128x128_S4096x128_1_0_0_1_n_n.rhsIdx y q 1).val = (y 1).val := by
  simp [DotDims.rhsIdx, dot_S4096x128_S128x128_S4096x128_1_0_0_1_n_n]; rfl

/-! The dimension numbers `dot_S512x4096_S4096x128_S512x128_1_0_0_1_n_n`: one contracted axis of extent 4096; which operand entries they pair. -/
theorem e2_rank : dot_S512x4096_S4096x128_S512x128_1_0_0_1_n_n.contr.rank = 1 := rfl
theorem e2_size : dot_S512x4096_S4096x128_S512x128_1_0_0_1_n_n.contr.size ⟨0, by rw [e2_rank]; omega⟩ = 4096 := rfl
theorem e2_l1 (y : S512x128.Idx) (q : dot_S512x4096_S4096x128_S512x128_1_0_0_1_n_n.contr.Idx) :
    (dot_S512x4096_S4096x128_S512x128_1_0_0_1_n_n.lhsIdx y q 1).val = (q ⟨0, by rw [e2_rank]; omega⟩).val :=
  DotDims.lhsIdx_val_of_single _ rfl y q
theorem e2_l0 (y : S512x128.Idx) (q : dot_S512x4096_S4096x128_S512x128_1_0_0_1_n_n.contr.Idx) :
    (dot_S512x4096_S4096x128_S512x128_1_0_0_1_n_n.lhsIdx y q 0).val = (y 0).val := by
  simp [DotDims.lhsIdx, dot_S512x4096_S4096x128_S512x128_1_0_0_1_n_n]; rfl
theorem e2_r0 (y : S512x128.Idx) (q : dot_S512x4096_S4096x128_S512x128_1_0_0_1_n_n.contr.Idx) :
    (dot_S512x4096_S4096x128_S512x128_1_0_0_1_n_n.rhsIdx y q 0).val = (q ⟨0, by rw [e2_rank]; omega⟩).val :=
  DotDims.rhsIdx_val_of_single _ rfl y q
theorem e2_r1 (y : S512x128.Idx) (q : dot_S512x4096_S4096x128_S512x128_1_0_0_1_n_n.contr.Idx) :
    (dot_S512x4096_S4096x128_S512x128_1_0_0_1_n_n.rhsIdx y q 1).val = (y 1).val := by
  simp [DotDims.rhsIdx, dot_S512x4096_S4096x128_S512x128_1_0_0_1_n_n]; rfl

/-! The dimension numbers `dot_S8192x128_S128x128_S8192x128_1_0_0_1_n_n`: one contracted axis of extent 128; which operand entries they pair. -/
theorem e3_rank : dot_S8192x128_S128x128_S8192x128_1_0_0_1_n_n.contr.rank = 1 := rfl
theorem e3_size : dot_S8192x128_S128x128_S8192x128_1_0_0_1_n_n.contr.size ⟨0, by rw [e3_rank]; omega⟩ = 128 := rfl
theorem e3_l1 (y : S8192x128.Idx) (q : dot_S8192x128_S128x128_S8192x128_1_0_0_1_n_n.contr.Idx) :
    (dot_S8192x128_S128x128_S8192x128_1_0_0_1_n_n.lhsIdx y q 1).val = (q ⟨0, by rw [e3_rank]; omega⟩).val :=
  DotDims.lhsIdx_val_of_single _ rfl y q
theorem e3_l0 (y : S8192x128.Idx) (q : dot_S8192x128_S128x128_S8192x128_1_0_0_1_n_n.contr.Idx) :
    (dot_S8192x128_S128x128_S8192x128_1_0_0_1_n_n.lhsIdx y q 0).val = (y 0).val := by
  simp [DotDims.lhsIdx, dot_S8192x128_S128x128_S8192x128_1_0_0_1_n_n]; rfl
theorem e3_r0 (y : S8192x128.Idx) (q : dot_S8192x128_S128x128_S8192x128_1_0_0_1_n_n.contr.Idx) :
    (dot_S8192x128_S128x128_S8192x128_1_0_0_1_n_n.rhsIdx y q 0).val = (q ⟨0, by rw [e3_rank]; omega⟩).val :=
  DotDims.rhsIdx_val_of_single _ rfl y q
theorem e3_r1 (y : S8192x128.Idx) (q : dot_S8192x128_S128x128_S8192x128_1_0_0_1_n_n.contr.Idx) :
    (dot_S8192x128_S128x128_S8192x128_1_0_0_1_n_n.rhsIdx y q 1).val = (y 1).val := by
  simp [DotDims.rhsIdx, dot_S8192x128_S128x128_S8192x128_1_0_0_1_n_n]; rfl

/-! The dimension numbers `dot_S256x8192_S8192x128_S256x128_1_0_0_1_n_n`: one contracted axis of extent 8192; which operand entries they pair. -/
theorem e4_rank : dot_S256x8192_S8192x128_S256x128_1_0_0_1_n_n.contr.rank = 1 := rfl
theorem e4_size : dot_S256x8192_S8192x128_S256x128_1_0_0_1_n_n.contr.size ⟨0, by rw [e4_rank]; omega⟩ = 8192 := rfl
theorem e4_l1 (y : S256x128.Idx) (q : dot_S256x8192_S8192x128_S256x128_1_0_0_1_n_n.contr.Idx) :
    (dot_S256x8192_S8192x128_S256x128_1_0_0_1_n_n.lhsIdx y q 1).val = (q ⟨0, by rw [e4_rank]; omega⟩).val :=
  DotDims.lhsIdx_val_of_single _ rfl y q
theorem e4_l0 (y : S256x128.Idx) (q : dot_S256x8192_S8192x128_S256x128_1_0_0_1_n_n.contr.Idx) :
    (dot_S256x8192_S8192x128_S256x128_1_0_0_1_n_n.lhsIdx y q 0).val = (y 0).val := by
  simp [DotDims.lhsIdx, dot_S256x8192_S8192x128_S256x128_1_0_0_1_n_n]; rfl
theorem e4_r0 (y : S256x128.Idx) (q : dot_S256x8192_S8192x128_S256x128_1_0_0_1_n_n.contr.Idx) :
    (dot_S256x8192_S8192x128_S256x128_1_0_0_1_n_n.rhsIdx y q 0).val = (q ⟨0, by rw [e4_rank]; omega⟩).val :=
  DotDims.rhsIdx_val_of_single _ rfl y q
theorem e4_r1 (y : S256x128.Idx) (q : dot_S256x8192_S8192x128_S256x128_1_0_0_1_n_n.contr.Idx) :
    (dot_S256x8192_S8192x128_S256x128_1_0_0_1_n_n.rhsIdx y q 1).val = (y 1).val := by
  simp [DotDims.rhsIdx, dot_S256x8192_S8192x128_S256x128_1_0_0_1_n_n]; rfl

/-- The first layer's transformed features: entry (n, c) contracts node n's features with the weight's column c. -/
theorem pay1_at (x : Vec Ideal S4096x128 .f32) (W : Vec Ideal S1x128x128 .f32) (n : Fin 4096) (c : Fin 128) :
    k0_pay1 x W (ix2 n c) = ∑ k : Fin 128, x (ix2 n k) * W (ix3 0 k c) := by
  unfold k0_pay1
  rw [shapeCast_self, shapeCast_self]
  refine (Cert.LibMatmulK.matmul_AK_KB_zero (φ₁ := .f32) (φ₂ := .f32) dot_S4096x128_S128x128_S4096x128_1_0_0_1_n_n none
    e1_rank e1_size e1_l0 e1_l1 e1_r0 e1_r1 _ _ n c).trans ?_
  refine Finset.sum_congr rfl fun k _ => ?_
  rw [shapeCast_1ab_ab_apply]

/-- A later layer's transformed features: entry (n, c) contracts the previous state's row n with the weight's
    column c. -/
theorem pay2_at (s : Vec Ideal S4096x128 .f32) (W : Vec Ideal S1x128x128 .f32) (n : Fin 4096) (c : Fin 128) :
    k0_pay2 s W (ix2 n c) = ∑ k : Fin 128, s (ix2 n k) * W (ix3 0 k c) := by
  unfold k0_pay2
  rw [shapeCast_self, shapeCast_self]
  refine (Cert.LibMatmulK.matmul_AK_KB_zero (φ₁ := .f32) (φ₂ := .f32) dot_S4096x128_S128x128_S4096x128_1_0_0_1_n_n none
    e1_rank e1_size e1_l0 e1_l1 e1_r0 e1_r1 _ _ n c).trans ?_
  refine Finset.sum_congr rfl fun k _ => ?_
  rw [shapeCast_1ab_ab_apply]

/-- A tile of 512 rows of the new state: entry (r, c) is the rectified product of the tile's adjacency row r with
    the transformed features' column c. -/
theorem pay3_at (a : Vec Ideal S512x4096 .f32) (m : Vec Ideal S4096x128 .f32) (r : Fin 512) (c : Fin 128) :
    k0_pay3 a m (ix2 r c) = max (∑ n : Fin 4096, a (ix2 r n) * m (ix2 n c)) 0 := by
  unfold k0_pay3
  rw [maximumf_apply, broadcast_apply, shapeCast_self]
  refine congrArg₂ max ?_ Ideal.ofBits_zero_f32
  exact Cert.LibMatmulK.matmul_AK_KB_zero (φ₁ := .f32) (φ₂ := .f32) dot_S512x4096_S4096x128_S512x128_1_0_0_1_n_n none
    e2_rank e2_size e2_l0 e2_l1 e2_r0 e2_r1 _ _ r c

/-- The transformed edge features: entry (e, c) contracts edge e's features with the weight's column c. -/
theorem face1_at (x : Vec Ideal S8192x128 .f32) (w : Vec Ideal S128x128 .f32) (e : Fin 8192) (c : Fin 128) :
    k1_pay1 x w (ix2 e c) = ∑ k : Fin 128, x (ix2 e k) * w (ix2 k c) := by
  unfold k1_pay1
  rw [shapeCast_self, shapeCast_self, shapeCast_self]
  exact Cert.LibMatmulK.matmul_AK_KB_zero (φ₁ := .f32) (φ₂ := .f32) dot_S8192x128_S128x128_S8192x128_1_0_0_1_n_n none
    e3_rank e3_size e3_l0 e3_l1 e3_r0 e3_r1 _ _ e c

/-- A tile of 256 rows of the face result: entry (f, c) is the rectified product of the tile's incidence row f with
    the transformed edge features' column c. -/
theorem face2_at (inc : Vec Ideal S256x8192 .f32) (m1 : Vec Ideal S8192x128 .f32) (f : Fin 256) (c : Fin 128) :
    k1_pay2 inc m1 (ix2 f c) = max (∑ e : Fin 8192, inc (ix2 f e) * m1 (ix2 e c)) 0 := by
  unfold k1_pay2
  rw [maximumf_apply, broadcast_apply, shapeCast_self]
  refine congrArg₂ max ?_ Ideal.ofBits_zero_f32
  exact Cert.LibMatmulK.matmul_AK_KB_zero (φ₁ := .f32) (φ₂ := .f32) dot_S256x8192_S8192x128_S256x128_1_0_0_1_n_n none
    e4_rank e4_size e4_l0 e4_l1 e4_r0 e4_r1 _ _ f c

end Cert.ReferenceIdeal.PayAt

end
-- ==== Proof.Bridge.lean ====
/-
  The two programs compute the same arrays. The kernel keeps the node state transposed and multiplies in the other
  order; entry by entry the two are the same sums of the same products with the factors exchanged, so only the
  commutativity of the product on the extended reals (and a renaming of indices) is used, layer after layer.
-/
import proofs.«179636_g2000605474969623_pallasbulk_585_7_alg».proof.Proof.KPayAt
import proofs.«179636_g2000605474969623_pallasbulk_585_7_alg».proof.Proof.RPayAt
import proofs.«179636_g2000605474969623_pallasbulk_585_7_alg».proof.Proof.KSpec
import proofs.«179636_g2000605474969623_pallasbulk_585_7_alg».proof.Proof.RSpec

open scoped BigOperators

noncomputable section

namespace Cert.Bridge

open Idealize.ShloMosaic Idealize.ShloMosaic.ValueIdx
open Cert.KernelIdeal (S4096x128 S8192x128 S4096x4096 S2048x8192 S3x128x128 S128x4096 S1x128x128 S256x4096 S128x128
  S4096x256 S128x256 S2048x128 S256x8192 S256x128)

/-! ## Tiles read at an entry: row `j mod T` of tile `j / T` is row `j` of the array -/

theorem K_tileA_at (A : Vec Ideal S4096x4096 .f32) (j n : Fin 4096) (h : j.val % 256 < 256) :
    KernelIdeal.KSpec.tileA A (j.val / 256) (ix2 (⟨j.val % 256, h⟩ : Fin 256) n) = A (ix2 j n) := by
  unfold KernelIdeal.KSpec.tileA
  refine congrArg A (congrArg₂ ix2 (Fin.ext ?_) rfl)
  show (256 * (j.val / 256) + j.val % 256) % 4096 = j.val
  have := j.isLt
  omega

theorem R_tileA_at (A : Vec Ideal S4096x4096 .f32) (j n : Fin 4096) (h : j.val % 512 < 512) :
    ReferenceIdeal.RSpec.tileA A (j.val / 512) (ix2 (⟨j.val % 512, h⟩ : Fin 512) n) = A (ix2 j n) := by
  unfold ReferenceIdeal.RSpec.tileA
  refine congrArg A (congrArg₂ ix2 (Fin.ext ?_) rfl)
  show (512 * (j.val / 512) + j.val % 512) % 4096 = j.val
  have := j.isLt
  omega

theorem K_tileInc_at (B : Vec Ideal S2048x8192 .f32) (f : Fin 2048) (e : Fin 8192) (h : f.val % 256 < 256) :
    KernelIdeal.KSpec.tileInc B (f.val / 256) (ix2 (⟨f.val % 256, h⟩ : Fin 256) e) = B (ix2 f e) := by
  unfold KernelIdeal.KSpec.tileInc
  refine congrArg B (congrArg₂ ix2 (Fin.ext ?_) rfl)
  show (256 * (f.val / 256) + f.val % 256) % 2048 = f.val
  have := f.isLt
  omega

theorem R_tileInc_at (B : Vec Ideal S2048x8192 .f32) (f : Fin 2048) (e : Fin 8192) (h : f.val % 256 < 256) :
    ReferenceIdeal.RSpec.tileInc B (f.val / 256) (ix2 (⟨f.val % 256, h⟩ : Fin 256) e) = B (ix2 f e) := by
  unfold ReferenceIdeal.RSpec.tileInc
  refine congrArg B (congrArg₂ ix2 (Fin.ext ?_) rfl)
  show (256 * (f.val / 256) + f.val % 256) % 2048 = f.val
  have := f.isLt
  omega

/-! ## One aggregation step at an entry, on each side -/

/-- The kernel's first-layer step: entry (c, j) of the transposed state is the rectified product of the transposed
    features' row c with the adjacency's row j. -/
theorem K_stateT0_at (A : Vec Ideal S4096x4096 .f32) (mT : Vec Ideal S128x4096 .bf16) (c : Fin 128) (j : Fin 4096) :
    KernelIdeal.KSpec.stateT0 A mT (ix2 c j) = max (∑ n : Fin 4096, mT (ix2 c n) * A (ix2 j n)) 0 := by
  unfold KernelIdeal.KSpec.stateT0
  refine (KernelIdeal.PayAt.pay5_at _ mT c _).trans ?_
  refine congrArg (fun t => max t 0) (Finset.sum_congr rfl fun n _ => ?_)
  exact congrArg (fun t => mT (ix2 c n) * t) (K_tileA_at A j n _)

/-- The kept transposed adjacency: entry (n, j) is the adjacency's entry (j, n). -/
theorem K_aT_at (A : Vec Ideal S4096x4096 .f32) (n j : Fin 4096) :
    KernelIdeal.KSpec.aT A (ix2 n j) = A (ix2 j n) := by
  unfold KernelIdeal.KSpec.aT
  exact (KernelIdeal.PayAt.pay4_at _ n _).trans (K_tileA_at A j n _)

/-- A column tile of a square array: column `j mod 256` of tile `j / 256` is column `j`. -/
theorem K_colTile_at (X : Vec Ideal S4096x4096 .bf16) (n j : Fin 4096) (h : j.val % 256 < 256) :
    KernelIdeal.KSpec.colTile X (j.val / 256) (ix2 n (⟨j.val % 256, h⟩ : Fin 256)) = X (ix2 n j) := by
  unfold KernelIdeal.KSpec.colTile
  refine congrArg X (congrArg₂ ix2 rfl (Fin.ext ?_))
  show (256 * (j.val / 256) + j.val % 256) % 4096 = j.val
  have := j.isLt
  omega

/-- The kernel's later-layer step: the same entry, from the kept transposed adjacency. -/
theorem K_stateT1_at (A : Vec Ideal S4096x4096 .f32) (mT : Vec Ideal S128x4096 .bf16) (c : Fin 128) (j : Fin 4096) :
    KernelIdeal.KSpec.stateT1 A mT (ix2 c j) = max (∑ n : Fin 4096, mT (ix2 c n) * A (ix2 j n)) 0 := by
  unfold KernelIdeal.KSpec.stateT1
  refine (KernelIdeal.PayAt.pay6_at mT _ c _).trans ?_
  refine congrArg (fun t => max t 0) (Finset.sum_congr rfl fun n _ => ?_)
  exact congrArg (fun t => mT (ix2 c n) * t) ((K_colTile_at _ n j _).trans (K_aT_at A n j))

/-- The reference's step: entry (j, c) of the state is the rectified product of the adjacency's row j with the
    features' column c. -/
theorem R_stateOf_at (A : Vec Ideal S4096x4096 .f32) (m : Vec Ideal S4096x128 .f32) (j : Fin 4096) (c : Fin 128) :
    ReferenceIdeal.RSpec.stateOf A m (ix2 j c) = max (∑ n : Fin 4096, A (ix2 j n) * m (ix2 n c)) 0 := by
  unfold ReferenceIdeal.RSpec.stateOf
  refine (ReferenceIdeal.PayAt.pay3_at _ m _ c).trans ?_
  refine congrArg (fun t => max t 0) (Finset.sum_congr rfl fun n _ => ?_)
  exact congrArg (fun t => t * m (ix2 n c)) (R_tileA_at A j n _)

/-! ## The transformed features agree, the kernel's being the transpose of the reference's -/

theorem m_zero_at (x0 : Vec Ideal S4096x128 .f32) (W : Vec Ideal S3x128x128 .f32) (c : Fin 128) (n : Fin 4096) :
    KernelIdeal.Gen.k0_pay1 (KernelIdeal.KSpec.wBlk W 0) x0 (ix2 c n)
      = ReferenceIdeal.Gen.k0_pay1 x0 (ReferenceIdeal.RSpec.wBlk W 0) (ix2 n c) := by
  rw [KernelIdeal.PayAt.pay1_at, ReferenceIdeal.PayAt.pay1_at]
  exact Finset.sum_congr rfl fun k _ => mul_comm _ _

theorem m_succ_at (W : Vec Ideal S3x128x128 .f32) (l : Nat) (sT : Vec Ideal S128x4096 .f32) (s : Vec Ideal S4096x128 .f32)
    (h : ∀ (c : Fin 128) (n : Fin 4096), sT (ix2 c n) = s (ix2 n c)) (c : Fin 128) (n : Fin 4096) :
    KernelIdeal.Gen.k0_pay2 (KernelIdeal.KSpec.wBlk W l) sT (ix2 c n)
      = ReferenceIdeal.Gen.k0_pay2 s (ReferenceIdeal.RSpec.wBlk W l) (ix2 n c) := by
  rw [KernelIdeal.PayAt.pay2_at, ReferenceIdeal.PayAt.pay2_at]
  refine Finset.sum_congr rfl fun k _ => ?_
  rw [h k n]
  exact mul_comm _ _

/-- One aggregation step carries the agreement of the features to the agreement of the states. -/
theorem step_at (A : Vec Ideal S4096x4096 .f32) (mT : Vec Ideal S128x4096 .bf16) (m : Vec Ideal S4096x128 .f32)
    (h : ∀ (c : Fin 128) (n : Fin 4096), mT (ix2 c n) = m (ix2 n c)) (c : Fin 128) (j : Fin 4096) :
    max (∑ n : Fin 4096, mT (ix2 c n) * A (ix2 j n)) 0 = max (∑ n : Fin 4096, A (ix2 j n) * m (ix2 n c)) 0 := by
  refine congrArg (fun t => max t 0) (Finset.sum_congr rfl fun n _ => ?_)
  rw [h c n]
  exact mul_comm _ _

/-! ## The node path: after every layer the kernel's state is the reference's, transposed -/

theorem stateT_eq_state (x0 : Vec Ideal S4096x128 .f32) (W : Vec Ideal S3x128x128 .f32) (A : Vec Ideal S4096x4096 .f32)
    (l : Nat) : ∀ (n : Fin 4096) (c : Fin 128),
      KernelIdeal.KSpec.stateT x0 W A l (ix2 c n) = ReferenceIdeal.RSpec.state x0 W A l (ix2 n c) := by
  induction l with
  | zero =>
    intro n c
    show KernelIdeal.KSpec.stateT0 A (KernelIdeal.Gen.k0_pay1 (KernelIdeal.KSpec.wBlk W 0) x0) (ix2 c n)
      = ReferenceIdeal.RSpec.stateOf A (ReferenceIdeal.Gen.k0_pay1 x0 (ReferenceIdeal.RSpec.wBlk W 0)) (ix2 n c)
    rw [K_stateT0_at, R_stateOf_at]
    exact step_at A _ _ (m_zero_at x0 W) c n
  | succ l ih =>
    intro n c
    show KernelIdeal.KSpec.stateT1 A
        (KernelIdeal.Gen.k0_pay2 (KernelIdeal.KSpec.wBlk W (l + 1)) (KernelIdeal.KSpec.stateT x0 W A l)) (ix2 c n)
      = ReferenceIdeal.RSpec.stateOf A
        (ReferenceIdeal.Gen.k0_pay2 (ReferenceIdeal.RSpec.state x0 W A l) (ReferenceIdeal.RSpec.wBlk W (l + 1))) (ix2 n c)
    rw [K_stateT1_at, R_stateOf_at]
    exact step_at A _ _ (m_succ_at W (l + 1) _ _ (fun c n => ih n c)) c n

/-- The kernel's final state, transposed back on the host, is the reference's final state. -/
theorem transpose_stateT_eq_state (x0 : Vec Ideal S4096x128 .f32) (W : Vec Ideal S3x128x128 .f32)
    (A : Vec Ideal S4096x4096 .f32) (l : Nat) (h : S128x4096.Transposes [1, 0] S4096x128) :
    transpose S4096x128 [1, 0] (KernelIdeal.KSpec.stateT x0 W A l) h = ReferenceIdeal.RSpec.state x0 W A l := by
  funext j
  obtain ⟨n, c, rfl⟩ : ∃ (n : Fin 4096) (c : Fin 128), j = ix2 n c := ⟨j 0, j 1, eq_ix2 j⟩
  rw [transpose_ix2_apply]
  exact stateT_eq_state x0 W A l n c

/-! ## The face path -/

theorem m1_eq (x1 : Vec Ideal S8192x128 .f32) (W12 : Vec Ideal S3x128x128 .f32) (e : Fin 8192) (c : Fin 128) :
    KernelIdeal.KSpec.m1 x1 W12 (ix2 e c) = ReferenceIdeal.RSpec.m1 x1 W12 (ix2 e c) := by
  unfold KernelIdeal.KSpec.m1 ReferenceIdeal.RSpec.m1
  rw [KernelIdeal.PayAt.face1_at, ReferenceIdeal.PayAt.face1_at]
  rfl

theorem x2_eq (x1 : Vec Ideal S8192x128 .f32) (W12 : Vec Ideal S3x128x128 .f32) (B : Vec Ideal S2048x8192 .f32) :
    KernelIdeal.KSpec.x2 x1 W12 B = ReferenceIdeal.RSpec.x2 x1 W12 B := by
  funext j
  obtain ⟨f, c, rfl⟩ : ∃ (f : Fin 2048) (c : Fin 128), j = ix2 f c := ⟨j 0, j 1, eq_ix2 j⟩
  show KernelIdeal.Gen.k1_pay2 (KernelIdeal.KSpec.tileInc B (f.val / 256)) (KernelIdeal.KSpec.m1 x1 W12)
      (ix2 (⟨f.val % 256, _⟩ : Fin 256) c)
    = ReferenceIdeal.Gen.k1_pay2 (ReferenceIdeal.RSpec.tileInc B (f.val / 256)) (ReferenceIdeal.RSpec.m1 x1 W12)
      (ix2 (⟨f.val % 256, _⟩ : Fin 256) c)
  rw [KernelIdeal.PayAt.face2_at, ReferenceIdeal.PayAt.face2_at]
  refine congrArg (fun t => max t 0) (Finset.sum_congr rfl fun e _ => ?_)
  rw [K_tileInc_at, R_tileInc_at, m1_eq]

end Cert.Bridge

end
-- ==== Proof.lean ====
/- The proof of `Cert.Claim`. Both programs compute, on every core, three layers of x ↦ relu(A · (x · W_l)) on the node
   features and one relu(B · (x₁ · W′)) on the edge features. The kernel keeps the node state transposed, [128, 4096],
   recomputing it one tile of 256 columns per grid point from a transposed copy of the adjacency it stores during the
   first layer, and transposes it back on the host; the reference keeps it [4096, 128] and recomputes it one tile of
   512 rows per grid point. In both, the resident output block is filled tile by tile and read back whole at the first
   tile of the next layer, and the transformed features are kept in a scratch between grid points; so each region's run
   is stated over relational proof data (what a point leaves in the output's buffer satisfies the run's invariant) and
   each program's @main is run segment by segment: Proof/KRun.lean for the kernel (over Proof/KNodeDat.lean and
   Proof/KFaceDat.lean, the bodies in Proof/KNodeBody.lean and Proof/KFaceBody.lean), its word-level reading by the same
   text at the other namespace (Proof/BK*.lean), Proof/RRun.lean for the reference. At the exact instance every entry of
   either result is a maximum with zero of a sum of products of the same extended reals, the two sides differing only by
   the order of the factors and by the transposition (Proof/Bridge.lean, over the entry-by-entry readings of the bodies'
   arithmetic in Proof/KPayAt.lean and Proof/RPayAt.lean): commutativity of the product is the only law used, so the
   precondition is never opened. The idealization rewrote nothing, so `preserves` is trivial. -/
import proofs.«179636_g2000605474969623_pallasbulk_585_7_alg».proof.Defs
import proofs.«179636_g2000605474969623_pallasbulk_585_7_alg».proof.Proof.Gen.Kernel
import proofs.«179636_g2000605474969623_pallasbulk_585_7_alg».proof.Proof.Gen.Kernel.Skeleton
import proofs.«179636_g2000605474969623_pallasbulk_585_7_alg».proof.Proof.Gen.Kernel.Launch
import proofs.«179636_g2000605474969623_pallasbulk_585_7_alg».proof.Proof.Gen.Kernel.Regions
import proofs.«179636_g2000605474969623_pallasbulk_585_7_alg».proof.Proof.Gen.Kernel.Points
import proofs.«179636_g2000605474969623_pallasbulk_585_7_alg».proof.Proof.Gen.KernelIdeal
import proofs.«179636_g2000605474969623_pallasbulk_585_7_alg».proof.Proof.Gen.KernelIdeal.Skeleton
import proofs.«179636_g2000605474969623_pallasbulk_585_7_alg».proof.Proof.Gen.KernelIdeal.Launch
import proofs.«179636_g2000605474969623_pallasbulk_585_7_alg».proof.Proof.Gen.KernelIdeal.Regions
import proofs.«179636_g2000605474969623_pallasbulk_585_7_alg».proof.Proof.Gen.KernelIdeal.Points
import proofs.«179636_g2000605474969623_pallasbulk_585_7_alg».proof.Proof.Gen.ReferenceIdeal
import proofs.«179636_g2000605474969623_pallasbulk_585_7_alg».proof.Proof.Gen.ReferenceIdeal.Skeleton
import proofs.«179636_g2000605474969623_pallasbulk_585_7_alg».proof.Proof.Gen.ReferenceIdeal.Launch
import proofs.«179636_g2000605474969623_pallasbulk_585_7_alg».proof.Proof.Gen.ReferenceIdeal.Regions
import proofs.«179636_g2000605474969623_pallasbulk_585_7_alg».proof.Proof.Gen.ReferenceIdeal.Points
import proofs.«179636_g2000605474969623_pallasbulk_585_7_alg».proof.Proof.Gen.Pre_finite_inputs
import proofs.«179636_g2000605474969623_pallasbulk_585_7_alg».proof.Proof.KRun
import proofs.«179636_g2000605474969623_pallasbulk_585_7_alg».proof.Proof.BKRun
import proofs.«179636_g2000605474969623_pallasbulk_585_7_alg».proof.Proof.RRun
import proofs.«179636_g2000605474969623_pallasbulk_585_7_alg».proof.Proof.Bridge
import Idealize.ShloMosaic.Adequacy
import Idealize.ShloMosaic.Init

noncomputable section

namespace Cert.Proof

open Idealize.ShloMosaic Idealize.SL.Sem

/-- The word-level kernel runs and leaves its arguments unchanged: its run, read, with the results dropped. -/
theorem frame_k : Cert.frame_Kernel := fun m ρ _ =>
  (θ_run Cert.Kernel.defs _ _).mono (fun _ h c => (h c).2.2) (Cert.Kernel.Gen.kresult (F := Bits) m ρ)

/-- The same for the idealized kernel. -/
theorem frame_ki : Cert.frame_KernelIdeal := fun m ρ _ =>
  (θ_run Cert.KernelIdeal.defs _ _).mono (fun _ h c => (h c).2.2) (Cert.KernelIdeal.Gen.kresult (F := Ideal) m ρ)

/-- And for the idealized reference. -/
theorem frame_ri : Cert.frame_ReferenceIdeal := fun m ρ _ =>
  (θ_run Cert.ReferenceIdeal.defs _ _).mono (fun _ h c => (h c).2.2) (Cert.ReferenceIdeal.RRun.rresult (F := Ideal) m ρ)

/-- The ideal pass rewrote no operation. -/
theorem preserves : Cert.preserves_Kernel_KernelIdeal := trivial

/-- From memories agreeing on the arguments both idealized programs run, and end with the same three results: the
    transposed-back node state and the reference's node state agree entry by entry, the edge features pass through, and
    the two face results agree entry by entry. -/
theorem algebraic : Cert.algebraic_KernelIdeal_ReferenceIdeal := by
  intro m ρ m' ρ' _ hagree
  refine ⟨_, _, _, (θ_run Cert.KernelIdeal.defs _ _).mono
    (fun _ h c => ⟨(h c).1, (h c).2.2.2.1, (h c).2.1, (h c).2.2⟩) (Cert.KernelIdeal.Gen.kresult (F := Ideal) m ρ), ?_⟩
  refine (θ_run Cert.ReferenceIdeal.defs _ _).mono (fun _ h c => ⟨(h c).1.trans ?_, (h c).2.2.2.1.trans ?_, (h c).2.1.trans ?_, (h c).2.2⟩)
    (Cert.ReferenceIdeal.RRun.rresult (F := Ideal) m' ρ')
  · rw [(hagree c).1, (hagree c).2.2.1, (hagree c).2.2.2.2.1]
    exact (Cert.Bridge.transpose_stateT_eq_state _ _ _ 2 _).symm
  · exact (hagree c).2.1
  · rw [(hagree c).2.1, (hagree c).2.2.2.1, (hagree c).2.2.2.2.2]
    exact (Cert.Bridge.x2_eq _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
